-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S2048x200 : Shape := ⟨2, ![2048, 200]⟩
abbrev S64x128 : Shape := ⟨2, ![64, 128]⟩
abbrev S128 : Shape := ⟨1, ![128]⟩
abbrev S128x128 : Shape := ⟨2, ![128, 128]⟩
abbrev S200x128 : Shape := ⟨2, ![200, 128]⟩
abbrev S256x256 : Shape := ⟨2, ![256, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2048x200 : S_.BroadcastsInDim S2048x200 (![] : Fin 0 → Fin S2048x200.rank)
  reducesTo_S2048x200_S_d0_1 : S2048x200.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S200x128 : S_.BroadcastsInDim S200x128 (![] : Fin 0 → Fin S200x128.rank)
  reducesTo_S200x128_S_d0_1 : S200x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S1 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S1 .f32 := Host.absf main_arg23
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg20 : FVec F S256x128 .f32) (main_arg21 : FVec F S128 .f32) (main_arg22 : FVec F S128x1 .f32) (main_arg23 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x128 .f32 := Host.absf main_arg20
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x1 .f32 := Host.absf main_arg22
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S128 .f32) (main_arg17 : FVec F S128 .f32) (main_arg18 : FVec F S256x256 .f32) (main_arg19 : FVec F S256 .f32) (main_arg20 : FVec F S256x128 .f32) (main_arg21 : FVec F S128 .f32) (main_arg22 : FVec F S128x1 .f32) (main_arg23 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x256 .f32 := Host.absf main_arg18
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S128x128 .f32) (main_arg15 : FVec F S128 .f32) (main_arg16 : FVec F S128 .f32) (main_arg17 : FVec F S128 .f32) (main_arg18 : FVec F S256x256 .f32) (main_arg19 : FVec F S256 .f32) (main_arg20 : FVec F S256x128 .f32) (main_arg21 : FVec F S128 .f32) (main_arg22 : FVec F S128x1 .f32) (main_arg23 : FVec F S1 .f32) (main_v48 : IVec S_ 1) (main_v49 : FVec F S200x128 .f32) (main_v50 : FVec F S200x128 .f32) : IVec S_ 1 :=
  let main_v51 : IVec S200x128 1 := cmpf .olt main_v49 main_v50
  let main_c_19 : IVec S_ 1 := constantI S_ 1 1#1
  let main_v52 : IVec S_ 1 := (fun x v => Host.reduce IntOp.andi x v reducesTo_S200x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128 .f32) (main_arg11 : FVec F S128 .f32) (main_arg12 : FVec F S200x128 .f32) (main_arg13 : FVec F S128 .f32) (main_arg14 : FVec F S128x128 .f32) (main_arg15 : FVec F S128 .f32) (main_arg16 : FVec F S128 .f32) (main_arg17 : FVec F S128 .f32) (main_arg18 : FVec F S256x256 .f32) (main_arg19 : FVec F S256 .f32) (main_arg20 : FVec F S256x128 .f32) (main_arg21 : FVec F S128 .f32) (main_arg22 : FVec F S128x1 .f32) (main_arg23 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S200x128 .f32 := Host.absf main_arg12
  let main_cst_18 : FVec F S_ .f32 := constant S_ .f32 0x7F800000#32
  let main_v50 : FVec F S200x128 .f32 := broadcastInDim S200x128 ![] bcast_S_S200x128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S200x128 .f32) (main_arg13 : FVec F S128 .f32) (main_arg14 : FVec F S128x128 .f32) (main_arg15 : FVec F S128 .f32) (main_arg16 : FVec F S128 .f32) (main_arg17 : FVec F S128 .f32) (main_arg18 : FVec F S256x256 .f32) (main_arg19 : FVec F S256 .f32) (main_arg20 : FVec F S256x128 .f32) (main_arg21 : FVec F S128 .f32) (main_arg22 : FVec F S128x1 .f32) (main_arg23 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x64 .f32) (main_arg1 : IVec S2x800000 32) (main_arg2 : IVec S50000 32) (main_arg3 : FVec F S2048x200 .f32) (main_arg4 : FVec F S64x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S200x128 .f32) (main_arg13 : FVec F S128 .f32) (main_arg14 : FVec F S128x128 .f32) (main_arg15 : FVec F S128 .f32) (main_arg16 : FVec F S128 .f32) (main_arg17 : FVec F S128 .f32) (main_arg18 : FVec F S256x256 .f32) (main_arg19 : FVec F S256 .f32) (main_arg20 : FVec F S256x128 .f32) (main_arg21 : FVec F S128 .f32) (main_arg22 : FVec F S128x1 .f32) (main_arg23 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S2048x200 .f32 := Host.absf main_arg3
  let main_cst_0 : FVec F S_ .f32 := constant S_ .f32 0x7F800000#32
  let main_v5 : FVec F S2048x200 .f32 := broadcastInDim S2048x200 ![] bcast_S_S2048x200 main_cst_0
  let main_v6 : IVec S2048x200 1 := cmpf .olt main_v4 main_v5
  let main_c_1 : IVec S_ 1 := constantI S_ 1 1#1
  let main_v7 : IVec S_ 1 := (fun x v => Host.reduce IntOp.andi x v reducesTo_S2048x200_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S2048x200 : Shape := ⟨2, ![2048, 200]⟩
abbrev S64x128 : Shape := ⟨2, ![64, 128]⟩
abbrev S128 : Shape := ⟨1, ![128]⟩
abbrev S128x128 : Shape := ⟨2, ![128, 128]⟩
abbrev S200x128 : Shape := ⟨2, ![200, 128]⟩
abbrev S256x256 : Shape := ⟨2, ![256, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S5000x1 : Shape := ⟨2, ![5000, 1]⟩
abbrev S2048x128 : Shape := ⟨2, ![2048, 128]⟩
abbrev S2048x256 : Shape := ⟨2, ![2048, 256]⟩
abbrev S1x256 : Shape := ⟨2, ![1, 256]⟩
abbrev S1x1 : Shape := ⟨2, ![1, 1]⟩
abbrev S2048x1 : Shape := ⟨2, ![2048, 1]⟩

abbrev nBuf : Space → Nat
  | .hbm => 214
  | .vmem => 85
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S2048x200, .f32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S200x128, .f32⟩
  | 13 => ⟨S128, .f32⟩
  | 14 => ⟨S128x128, .f32⟩
  | 15 => ⟨S128, .f32⟩
  | 16 => ⟨S128, .f32⟩
  | 17 => ⟨S128, .f32⟩
  | 18 => ⟨S256x256, .f32⟩
  | 19 => ⟨S256, .f32⟩
  | 20 => ⟨S256x128, .f32⟩
  | 21 => ⟨S128, .f32⟩
  | 22 => ⟨S128x1, .f32⟩
  | 23 => ⟨S1, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000, .f32⟩
  | 38 => ⟨S50000x1, .f32⟩
  | 39 => ⟨S_, .f32⟩
  | 40 => ⟨S128, .f32⟩
  | 41 => ⟨S1x128, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S1x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S1x128, .f32⟩
  | 100 => ⟨S1x128, .f32⟩
  | 101 => ⟨S1x128, .f32⟩
  | 102 => ⟨S50000x128, .f32⟩
  | 103 => ⟨S_, .f32⟩
  | 104 => ⟨S128, .f32⟩
  | 105 => ⟨S1x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S800000x1, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x128, .f32⟩
  | 127 => ⟨S800000x128, .f32⟩
  | _ => ⟨S50000x64, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S128, .f32⟩
  | 9 => ⟨S1x128, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000, .f32⟩
  | 20 => ⟨S800000x1, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S800000x128, .f32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S2048x128, .f32⟩
  | 41 => ⟨S50000x1, .i32⟩
  | 42 => ⟨S2048x128, .f32⟩
  | 43 => ⟨S1x128, .f32⟩
  | 44 => ⟨S2048x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S2048x128, .f32⟩
  | 58 => ⟨S2048x128, .f32⟩
  | 59 => ⟨S2048x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S1x128, .f32⟩
  | 75 => ⟨S1x128, .f32⟩
  | 76 => ⟨S1x128, .f32⟩
  | 77 => ⟨S2048x128, .f32⟩
  | 78 => ⟨S1x128, .f32⟩
  | 79 => ⟨S2048x128, .f32⟩
  | 80 => ⟨S2048x128, .f32⟩
  | 81 => ⟨S2048x256, .f32⟩
  | 82 => ⟨S1x256, .f32⟩
  | 83 => ⟨S1x128, .f32⟩
  | 84 => ⟨S1x1, .f32⟩
  | 85 => ⟨S2048x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x1, .f32⟩
  | .local _ .vmem, ⟨53, _⟩ => ⟨S5000x1, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S2048x200, .f32⟩
  | .local _ .vmem, ⟨62, _⟩ => ⟨S200x128, .f32⟩
  | .local _ .vmem, ⟨63, _⟩ => ⟨S1x128, .f32⟩
  | .local _ .vmem, ⟨64, _⟩ => ⟨S2048x128, .f32⟩
  | .local _ .vmem, ⟨65, _⟩ => ⟨S2048x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S2048x128, .f32⟩
  | .local _ .vmem, ⟨71, _⟩ => ⟨S2048x128, .f32⟩
  | .local _ .vmem, ⟨72, _⟩ => ⟨S128x128, .f32⟩
  | .local _ .vmem, ⟨73, _⟩ => ⟨S1x128, .f32⟩
  | .local _ .vmem, ⟨74, _⟩ => ⟨S2048x128, .f32⟩
  | .local _ .vmem, ⟨75, _⟩ => ⟨S2048x128, .f32⟩
  | .local _ .vmem, ⟨76, _⟩ => ⟨S2048x128, .f32⟩
  | .local _ .vmem, ⟨77, _⟩ => ⟨S2048x256, .f32⟩
  | .local _ .vmem, ⟨78, _⟩ => ⟨S256x256, .f32⟩
  | .local _ .vmem, ⟨79, _⟩ => ⟨S1x256, .f32⟩
  | .local _ .vmem, ⟨80, _⟩ => ⟨S256x128, .f32⟩
  | .local _ .vmem, ⟨81, _⟩ => ⟨S1x128, .f32⟩
  | .local _ .vmem, ⟨82, _⟩ => ⟨S128x1, .f32⟩
  | .local _ .vmem, ⟨83, _⟩ => ⟨S1x1, .f32⟩
  | .local _ .vmem, ⟨84, _⟩ => ⟨S2048x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_c_9 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_10 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_c_11 : Ref sig .tc := ⟨.hbm, 107, rfl⟩
abbrev main_v49 : Ref sig .tc := ⟨.hbm, 108, rfl⟩
abbrev main_v50 : Ref sig .tc := ⟨.hbm, 109, rfl⟩
abbrev main_c_12 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_c_13 : Ref sig .tc := ⟨.hbm, 117, rfl⟩
abbrev main_v57 : Ref sig .tc := ⟨.hbm, 118, rfl⟩
abbrev main_v58 : Ref sig .tc := ⟨.hbm, 119, rfl⟩
abbrev main_c_14 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_cst_15 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_cst_16 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_c_17 : Ref sig .tc := ⟨.hbm, 139, rfl⟩
abbrev main_v75 : Ref sig .tc := ⟨.hbm, 140, rfl⟩
abbrev main_v76 : Ref sig .tc := ⟨.hbm, 141, rfl⟩
abbrev main_c_18 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_c_19 : Ref sig .tc := ⟨.hbm, 149, rfl⟩
abbrev main_v83 : Ref sig .tc := ⟨.hbm, 150, rfl⟩
abbrev main_v84 : Ref sig .tc := ⟨.hbm, 151, rfl⟩
abbrev main_c_20 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_cst_21 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_22 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_cst_23 : Ref sig .tc := ⟨.hbm, 173, rfl⟩
abbrev main_v103 : Ref sig .tc := ⟨.hbm, 174, rfl⟩
abbrev main_cst_24 : Ref sig .tc := ⟨.hbm, 175, rfl⟩
abbrev main_v104 : Ref sig .tc := ⟨.hbm, 176, rfl⟩
abbrev main_v105 : Ref sig .tc := ⟨.hbm, 177, rfl⟩
abbrev main_c_25 : Ref sig .tc := ⟨.hbm, 178, rfl⟩
abbrev main_call1_cst : Ref sig .tc := ⟨.hbm, 179, rfl⟩
abbrev main_call1_v0 : Ref sig .tc := ⟨.hbm, 180, rfl⟩
abbrev main_call1_v1 : Ref sig .tc := ⟨.hbm, 181, rfl⟩
abbrev main_call1_cst_0 : Ref sig .tc := ⟨.hbm, 182, rfl⟩
abbrev main_call1_v2 : Ref sig .tc := ⟨.hbm, 183, rfl⟩
abbrev main_call1_v3 : Ref sig .tc := ⟨.hbm, 184, rfl⟩
abbrev main_call1_v4 : Ref sig .tc := ⟨.hbm, 185, rfl⟩
abbrev main_call1_v5 : Ref sig .tc := ⟨.hbm, 186, rfl⟩
abbrev main_call1_v6 : Ref sig .tc := ⟨.hbm, 187, rfl⟩
abbrev main_call1_v7 : Ref sig .tc := ⟨.hbm, 188, rfl⟩
abbrev main_call1_cst_1 : Ref sig .tc := ⟨.hbm, 189, rfl⟩
abbrev main_call1_v8 : Ref sig .tc := ⟨.hbm, 190, rfl⟩
abbrev main_call1_cst_2 : Ref sig .tc := ⟨.hbm, 191, rfl⟩
abbrev main_call1_v9 : Ref sig .tc := ⟨.hbm, 192, rfl⟩
abbrev main_call1_v10 : Ref sig .tc := ⟨.hbm, 193, rfl⟩
abbrev main_call1_v11 : Ref sig .tc := ⟨.hbm, 194, rfl⟩
abbrev main_call1_cst_3 : Ref sig .tc := ⟨.hbm, 195, rfl⟩
abbrev main_call1_v12 : Ref sig .tc := ⟨.hbm, 196, rfl⟩
abbrev main_call1_cst_4 : Ref sig .tc := ⟨.hbm, 197, rfl⟩
abbrev main_call1_call0_v0 : Ref sig .tc := ⟨.hbm, 198, rfl⟩
abbrev main_call1_call0_v1 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg4_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc9_stg0_0 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc10_stg0_0 : Ref sig .tc := ⟨.vmem, 65, rfl⟩
abbrev cc10_stg1_0 : Ref sig .tc := ⟨.vmem, 66, rfl⟩
abbrev cc10_stg2_0 : Ref sig .tc := ⟨.vmem, 67, rfl⟩
abbrev cc10_stg3_0 : Ref sig .tc := ⟨.vmem, 68, rfl⟩
abbrev cc10_stg4_0 : Ref sig .tc := ⟨.vmem, 69, rfl⟩
abbrev cc10_stg5_0 : Ref sig .tc := ⟨.vmem, 70, rfl⟩
abbrev cc11_stg0_0 : Ref sig .tc := ⟨.vmem, 71, rfl⟩
abbrev cc11_stg1_0 : Ref sig .tc := ⟨.vmem, 72, rfl⟩
abbrev cc11_stg2_0 : Ref sig .tc := ⟨.vmem, 73, rfl⟩
abbrev cc11_stg3_0 : Ref sig .tc := ⟨.vmem, 74, rfl⟩
abbrev cc12_stg0_0 : Ref sig .tc := ⟨.vmem, 75, rfl⟩
abbrev cc12_stg1_0 : Ref sig .tc := ⟨.vmem, 76, rfl⟩
abbrev cc13_stg0_0 : Ref sig .tc := ⟨.vmem, 77, rfl⟩
abbrev cc13_stg1_0 : Ref sig .tc := ⟨.vmem, 78, rfl⟩
abbrev cc13_stg2_0 : Ref sig .tc := ⟨.vmem, 79, rfl⟩
abbrev cc13_stg3_0 : Ref sig .tc := ⟨.vmem, 80, rfl⟩
abbrev cc13_stg4_0 : Ref sig .tc := ⟨.vmem, 81, rfl⟩
abbrev cc13_stg5_0 : Ref sig .tc := ⟨.vmem, 82, rfl⟩
abbrev cc13_stg6_0 : Ref sig .tc := ⟨.vmem, 83, rfl⟩
abbrev cc13_stg7_0 : Ref sig .tc := ⟨.vmem, 84, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc7_sem3_0 : DmaSem sig := 54
abbrev cc7_sem4_0 : DmaSem sig := 55
abbrev cc7_sem4_1 : DmaSem sig := 56
abbrev cc8_sem0_0 : DmaSem sig := 57
abbrev cc8_sem0_1 : DmaSem sig := 58
abbrev cc8_sem1_0 : DmaSem sig := 59
abbrev cc8_sem1_1 : DmaSem sig := 60
abbrev cc9_sem0_0 : DmaSem sig := 61
abbrev cc9_sem1_0 : DmaSem sig := 62
abbrev cc9_sem2_0 : DmaSem sig := 63
abbrev cc9_sem3_0 : DmaSem sig := 64
abbrev cc10_sem0_0 : DmaSem sig := 65
abbrev cc10_sem1_0 : DmaSem sig := 66
abbrev cc10_sem2_0 : DmaSem sig := 67
abbrev cc10_sem3_0 : DmaSem sig := 68
abbrev cc10_sem4_0 : DmaSem sig := 69
abbrev cc10_sem5_0 : DmaSem sig := 70
abbrev cc11_sem0_0 : DmaSem sig := 71
abbrev cc11_sem1_0 : DmaSem sig := 72
abbrev cc11_sem2_0 : DmaSem sig := 73
abbrev cc11_sem3_0 : DmaSem sig := 74
abbrev cc12_sem0_0 : DmaSem sig := 75
abbrev cc12_sem1_0 : DmaSem sig := 76
abbrev cc13_sem0_0 : DmaSem sig := 77
abbrev cc13_sem1_0 : DmaSem sig := 78
abbrev cc13_sem2_0 : DmaSem sig := 79
abbrev cc13_sem3_0 : DmaSem sig := 80
abbrev cc13_sem4_0 : DmaSem sig := 81
abbrev cc13_sem5_0 : DmaSem sig := 82
abbrev cc13_sem6_0 : DmaSem sig := 83
abbrev cc13_sem7_0 : DmaSem sig := 84

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S2048x200 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S200x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S2048x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S2048x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S2048x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S2048x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S2048x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 1 → Memref sig .tc .vmem S2048x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S2048x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 1 → Memref sig .tc .vmem S2048x256 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 1 → Memref sig .tc .vmem S256x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S256x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S128x1 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x1 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S2048x1 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S128 : S_.BroadcastsInDim S128 (![] : Fin 0 → Fin S128.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  inb_S128x128_S128x128_0_0 : ∀ a, (![0, 0] : Fin 2 → Nat) a + S128x128.size a ≤ S128x128.size a
  h_S128x128 : 0 < S128x128.numel
  bcast_S_S2048x128 : S_.BroadcastsInDim S2048x128 (![] : Fin 0 → Fin S2048x128.rank)
  bcast_S50000_S50000x1_0 : S50000.BroadcastsInDim S50000x1 (![0] : Fin 1 → Fin S50000x1.rank)
  inb_S2048x200_S2048x200_0_0 : ∀ a, (![0, 0] : Fin 2 → Nat) a + S2048x200.size a ≤ S2048x200.size a
  h_S2048x200 : 0 < S2048x200.numel
  inb_S200x128_S200x128_0_0 : ∀ a, (![0, 0] : Fin 2 → Nat) a + S200x128.size a ≤ S200x128.size a
  h_S200x128 : 0 < S200x128.numel
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  reducesTo_S2048x128_S128_d0 : S2048x128.ReducesTo [0] S128
  bcast_S1x128_S2048x128_0_1 : S1x128.BroadcastsInDim S2048x128 (![0, 1] : Fin 2 → Fin S2048x128.rank)
  shapeCasts_S2048x128_S2048x128 : S2048x128.ShapeCasts S2048x128
  concatenates_S2048x128_S2048x128_S2048x256_d1 : Shape.Concatenates [S2048x128, S2048x128] S2048x256 1
  shapeCasts_S256_S1x256 : S256.ShapeCasts S1x256
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S2048x128_S50000x1_S50000x128_1_0_0_1_wf : ScatterDims.WF S2048x128 S50000x1 S50000x128 [1] [0] [0] 1
  dot_S2048x200_S200x128_S2048x128_1_0_0_1_n_n_wf : DotDims.WF S2048x200 S200x128 S2048x128 [1] [0] [0] [1] [] []
  dot_S2048x128_S128x128_S2048x128_1_0_0_1_n_n_wf : DotDims.WF S2048x128 S128x128 S2048x128 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S2048x200.size a ≤ S2048x200.size a
  hwx9_0 : ∀ i : grid9.Coords, EltTy.bits .f32 = 32 ∨ (Rect.block (s := S2048x200) S2048x200.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S200x128.size a ≤ S200x128.size a
  hwx9_1 : ∀ i : grid9.Coords, EltTy.bits .f32 = 32 ∨ (Rect.block (s := S200x128) S200x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S2048x128.size a ≤ S2048x128.size a
  hwx9_3 : ∀ i : grid9.Coords, EltTy.bits .f32 = 32 ∨ (Rect.block (s := S2048x128) S2048x128.size (cc9_transform_3 i) (hinb9_3 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S2048x128.size a ≤ S2048x128.size a
  hwx10_0 : ∀ i : grid10.Coords, EltTy.bits .f32 = 32 ∨ (Rect.block (s := S2048x128) S2048x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 1
  hreads10_5 : ∀ i i' : grid10.Coords, (∀ a, reads10_5 a = true → i a = i' a) → cc10_transform_5 i = cc10_transform_5 i'
  hinb10_5 : ∀ (i : grid10.Coords) a, (cc10_transform_5 i a + 1) * S2048x128.size a ≤ S2048x128.size a
  hwx10_5 : ∀ i : grid10.Coords, EltTy.bits .f32 = 32 ∨ (Rect.block (s := S2048x128) S2048x128.size (cc10_transform_5 i) (hinb10_5 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S2048x128.size a ≤ S2048x128.size a
  hwx11_0 : ∀ i : grid11.Coords, EltTy.bits .f32 = 32 ∨ (Rect.block (s := S2048x128) S2048x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S2048x128.size a ≤ S2048x128.size a
  hwx11_3 : ∀ i : grid11.Coords, EltTy.bits .f32 = 32 ∨ (Rect.block (s := S2048x128) S2048x128.size (cc11_transform_3 i) (hinb11_3 i)).WholeWords (EltTy.packing .f32)
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S2048x128.size a ≤ S2048x128.size a
  hwx12_0 : ∀ i : grid12.Coords, EltTy.bits .f32 = 32 ∨ (Rect.block (s := S2048x128) S2048x128.size (cc12_transform_0 i) (hinb12_0 i)).WholeWords (EltTy.packing .f32)
  hstage12_1 : ∀ j, (stage12_1 j).IsWhole
  nbuf12_1 : grid12.bufCount reads12_1 false = 1
  hreads12_1 : ∀ i i' : grid12.Coords, (∀ a, reads12_1 a = true → i a = i' a) → cc12_transform_1 i = cc12_transform_1 i'
  hinb12_1 : ∀ (i : grid12.Coords) a, (cc12_transform_1 i a + 1) * S2048x128.size a ≤ S2048x128.size a
  hwx12_1 : ∀ i : grid12.Coords, EltTy.bits .f32 = 32 ∨ (Rect.block (s := S2048x128) S2048x128.size (cc12_transform_1 i) (hinb12_1 i)).WholeWords (EltTy.packing .f32)
  hrank13 : 0 < grid13.rank
  hstage13_0 : ∀ j, (stage13_0 j).IsWhole
  nbuf13_0 : grid13.bufCount reads13_0 true = 1
  hreads13_0 : ∀ i i' : grid13.Coords, (∀ a, reads13_0 a = true → i a = i' a) → cc13_transform_0 i = cc13_transform_0 i'
  hinb13_0 : ∀ (i : grid13.Coords) a, (cc13_transform_0 i a + 1) * S2048x256.size a ≤ S2048x256.size a
  hwx13_0 : ∀ i : grid13.Coords, EltTy.bits .f32 = 32 ∨ (Rect.block (s := S2048x256) S2048x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S256x256.size a ≤ S256x256.size a
  hwx13_1 : ∀ i : grid13.Coords, EltTy.bits .f32 = 32 ∨ (Rect.block (s := S256x256) S256x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S256x128.size a ≤ S256x128.size a
  hwx13_3 : ∀ i : grid13.Coords, EltTy.bits .f32 = 32 ∨ (Rect.block (s := S256x128) S256x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S128x1.size a ≤ S128x1.size a
  hwx13_5 : ∀ i : grid13.Coords, EltTy.bits .f32 = 32 ∨ (Rect.block (s := S128x1) S128x1.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x1.size a ≤ S1x1.size a
  hwx13_6 : ∀ i : grid13.Coords, EltTy.bits .f32 = 32 ∨ (Rect.block (s := S1x1) S1x1.size (cc13_transform_6 i) (hinb13_6 i)).WholeWords (EltTy.packing .f32)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S2048x1.size a ≤ S2048x1.size a
  hwx13_7 : ∀ i : grid13.Coords, EltTy.bits .f32 = 32 ∨ (Rect.block (s := S2048x1) S2048x1.size (cc13_transform_7 i) (hinb13_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2048x128_S50000x1_S50000x128_1_0_0_1 : ScatterDims S2048x128 S50000x1 S50000x128 where
  updateWindowDims := [1]
  insertedWindowDims := [0]
  scatterDimsToOperandDims := [0]
  indexVectorDim := 1
  wf := scatter_S2048x128_S50000x1_S50000x128_1_0_0_1_wf
def dot_S2048x200_S200x128_S2048x128_1_0_0_1_n_n : DotDims S2048x200 S200x128 S2048x128 where
  lhsContracting := [1]
  rhsContracting := [0]
  lhsNonContracting := [0]
  rhsNonContracting := [1]
  lhsBatch := []
  rhsBatch := []
  wf := dot_S2048x200_S200x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v70) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S5000x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v71) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v73) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v74) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v94) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v11) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v95) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v96) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v96) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v97) S5000x128.size cc8_transform_1 reads8_1 true false 2 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_arg3) S2048x200.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg12) S200x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v101) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v102) S2048x128.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v102) S2048x128.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v107) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v108) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v109) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v110) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v111) S2048x128.size cc10_transform_5 reads10_5 true false 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v111) S2048x128.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_arg14) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v112) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v113) S2048x128.size cc11_transform_3 reads11_3 true false 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v113) S2048x128.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_v114) S2048x128.size cc12_transform_1 reads12_1 true false 1 stage12_1 sem12_1
    hrank12 hreads12_1 hinb12_1 nbuf12_1 (Memref.isWhole_whole _) hwx12_1 hstage12_1

abbrev win12 : Fin 2 → Pipeline.Window sig grid12 := fun | 0 => win12_0 | 1 => win12_1 | ⟨_ + 2, h⟩ => absurd h (Nat.not_lt.2 (Nat.le_add_left _ _))
abbrev spec12 : Fin 2 → Pipeline.WinSpec sig grid12.rank := fun w => (win12 w).toWinSpec

abbrev win13_0 : Pipeline.Window sig grid13 :=
  Pipeline.Window.ofSpec (Memref.whole main_v115) S2048x256.size cc13_transform_0 reads13_0 false true 1 stage13_0 sem13_0
    hrank13 hreads13_0 hinb13_0 nbuf13_0 (Memref.isWhole_whole _) hwx13_0 hstage13_0

abbrev win13_1 : Pipeline.Window sig grid13 :=
  Pipeline.Window.ofSpec (Memref.whole main_arg18) S256x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v116) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg20) S256x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v117) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_arg22) S128x1.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v118) S1x1.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v119) S2048x1.size cc13_transform_7 reads13_7 true true 1 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S2048x200 : Shape := ⟨2, ![2048, 200]⟩
abbrev S64x128 : Shape := ⟨2, ![64, 128]⟩
abbrev S128 : Shape := ⟨1, ![128]⟩
abbrev S128x128 : Shape := ⟨2, ![128, 128]⟩
abbrev S200x128 : Shape := ⟨2, ![200, 128]⟩
abbrev S256x256 : Shape := ⟨2, ![256, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x128 : Shape := ⟨2, ![50000, 128]⟩
abbrev S800000x128 : Shape := ⟨2, ![800000, 128]⟩
abbrev S50000x1 : Shape := ⟨2, ![50000, 1]⟩
abbrev S1x128 : Shape := ⟨2, ![1, 128]⟩
abbrev S2048x128 : Shape := ⟨2, ![2048, 128]⟩
abbrev S2048x256 : Shape := ⟨2, ![2048, 256]⟩
abbrev S1x256 : Shape := ⟨2, ![1, 256]⟩
abbrev S2048x1 : Shape := ⟨2, ![2048, 1]⟩
abbrev S1x1 : Shape := ⟨2, ![1, 1]⟩

abbrev nBuf : Space → Nat
  | .hbm => 325
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S2048x200, .f32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S200x128, .f32⟩
  | 13 => ⟨S128, .f32⟩
  | 14 => ⟨S128x128, .f32⟩
  | 15 => ⟨S128, .f32⟩
  | 16 => ⟨S128, .f32⟩
  | 17 => ⟨S128, .f32⟩
  | 18 => ⟨S256x256, .f32⟩
  | 19 => ⟨S256, .f32⟩
  | 20 => ⟨S256x128, .f32⟩
  | 21 => ⟨S128, .f32⟩
  | 22 => ⟨S128x1, .f32⟩
  | 23 => ⟨S1, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000, .f32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x1, .f32⟩
  | 65 => ⟨S50000x128, .f32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x64, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .f32⟩
  | 10 => ⟨S800000x1, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x128, .f32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x1, .f32⟩
  | 27 => ⟨S50000x128, .f32⟩
  | 28 => ⟨S50000x128, .f32⟩
  | 29 => ⟨S50000, .f32⟩
  | 30 => ⟨S50000x1, .f32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000x1, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x128, .f32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S50000x1, .f32⟩
  | 73 => ⟨S50000x128, .f32⟩
  | 74 => ⟨S50000x128, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S_, .f32⟩
  | 93 => ⟨S2048x128, .f32⟩
  | 94 => ⟨S50000x1, .i32⟩
  | 95 => ⟨S2048x128, .f32⟩
  | 96 => ⟨S2048x128, .f32⟩
  | 97 => ⟨S1x128, .f32⟩
  | 98 => ⟨S2048x128, .f32⟩
  | 99 => ⟨S2048x128, .f32⟩
  | 100 => ⟨S_, .f32⟩
  | 101 => ⟨S128, .f32⟩
  | 102 => ⟨S_, .f32⟩
  | 103 => ⟨S128, .f32⟩
  | 104 => ⟨S128, .f32⟩
  | 105 => ⟨S_, .i32⟩
  | 106 => ⟨S_, .f32⟩
  | 107 => ⟨S128, .f32⟩
  | 108 => ⟨S1x128, .f32⟩
  | 109 => ⟨S_, .f32⟩
  | 110 => ⟨S1x128, .f32⟩
  | 111 => ⟨S1x128, .f32⟩
  | 112 => ⟨S2048x128, .f32⟩
  | 113 => ⟨S2048x128, .f32⟩
  | 114 => ⟨S2048x128, .f32⟩
  | 115 => ⟨S_, .f32⟩
  | 116 => ⟨S_, .f32⟩
  | 117 => ⟨S_, .f32⟩
  | 118 => ⟨S_, .f32⟩
  | 119 => ⟨S128, .f32⟩
  | 120 => ⟨S128, .f32⟩
  | 121 => ⟨S128, .f32⟩
  | 122 => ⟨S_, .f32⟩
  | 123 => ⟨S_, .i1⟩
  | 124 => ⟨S_, .f32⟩
  | 125 => ⟨S_, .f32⟩
  | 126 => ⟨S128, .f32⟩
  | 127 => ⟨S128, .f32⟩
  | _ => ⟨S50000x64, .f32⟩

abbrev hbmTy0_2 (i : Nat) : BufTy := match i % 128 with
  | 0 => ⟨S1x128, .f32⟩
  | 1 => ⟨S2048x128, .f32⟩
  | 2 => ⟨S2048x128, .f32⟩
  | 3 => ⟨S_, .f32⟩
  | 4 => ⟨S128, .f32⟩
  | 5 => ⟨S128, .f32⟩
  | 6 => ⟨S128, .f32⟩
  | 7 => ⟨S1x128, .f32⟩
  | 8 => ⟨S2048x128, .f32⟩
  | 9 => ⟨S2048x128, .f32⟩
  | 10 => ⟨S1x128, .f32⟩
  | 11 => ⟨S2048x128, .f32⟩
  | 12 => ⟨S2048x128, .f32⟩
  | 13 => ⟨S1x128, .f32⟩
  | 14 => ⟨S2048x128, .f32⟩
  | 15 => ⟨S2048x128, .f32⟩
  | 16 => ⟨S2048x128, .f32⟩
  | 17 => ⟨S2048x128, .f32⟩
  | 18 => ⟨S_, .f32⟩
  | 19 => ⟨S2048x128, .f32⟩
  | 20 => ⟨S2048x128, .f32⟩
  | 21 => ⟨S_, .f32⟩
  | 22 => ⟨S2048x128, .f32⟩
  | 23 => ⟨S2048x128, .f32⟩
  | 24 => ⟨S2048x128, .f32⟩
  | 25 => ⟨S2048x128, .f32⟩
  | 26 => ⟨S1x128, .f32⟩
  | 27 => ⟨S2048x128, .f32⟩
  | 28 => ⟨S2048x128, .f32⟩
  | 29 => ⟨S2048x128, .f32⟩
  | 30 => ⟨S2048x128, .f32⟩
  | 31 => ⟨S_, .f32⟩
  | 32 => ⟨S2048x128, .f32⟩
  | 33 => ⟨S2048x128, .f32⟩
  | 34 => ⟨S_, .f32⟩
  | 35 => ⟨S2048x128, .f32⟩
  | 36 => ⟨S2048x128, .f32⟩
  | 37 => ⟨S2048x128, .f32⟩
  | 38 => ⟨S2048x256, .f32⟩
  | 39 => ⟨S2048x256, .f32⟩
  | 40 => ⟨S1x256, .f32⟩
  | 41 => ⟨S2048x256, .f32⟩
  | 42 => ⟨S2048x256, .f32⟩
  | 43 => ⟨S2048x256, .f32⟩
  | 44 => ⟨S2048x256, .f32⟩
  | 45 => ⟨S_, .f32⟩
  | 46 => ⟨S2048x256, .f32⟩
  | 47 => ⟨S2048x256, .f32⟩
  | 48 => ⟨S_, .f32⟩
  | 49 => ⟨S2048x256, .f32⟩
  | 50 => ⟨S2048x256, .f32⟩
  | 51 => ⟨S2048x256, .f32⟩
  | 52 => ⟨S2048x128, .f32⟩
  | 53 => ⟨S1x128, .f32⟩
  | 54 => ⟨S2048x128, .f32⟩
  | 55 => ⟨S2048x128, .f32⟩
  | 56 => ⟨S2048x128, .f32⟩
  | 57 => ⟨S2048x128, .f32⟩
  | 58 => ⟨S_, .f32⟩
  | 59 => ⟨S2048x128, .f32⟩
  | 60 => ⟨S2048x128, .f32⟩
  | 61 => ⟨S_, .f32⟩
  | 62 => ⟨S2048x128, .f32⟩
  | 63 => ⟨S2048x128, .f32⟩
  | 64 => ⟨S2048x128, .f32⟩
  | 65 => ⟨S2048x1, .f32⟩
  | 66 => ⟨S1x1, .f32⟩
  | 67 => ⟨S2048x1, .f32⟩
  | 68 => ⟨S2048x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c : Ref sig .tc := ⟨.hbm, 39, rfl⟩
abbrev main_v12 : Ref sig .tc := ⟨.hbm, 40, rfl⟩
abbrev main_v13 : Ref sig .tc := ⟨.hbm, 41, rfl⟩
abbrev main_c_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_v45 : Ref sig .tc := ⟨.hbm, 79, rfl⟩
abbrev main_c_8 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_cst_2 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_cst_3 : Ref sig .tc := ⟨.hbm, 97, rfl⟩
abbrev main_call0_v12 : Ref sig .tc := ⟨.hbm, 98, rfl⟩
abbrev main_call0_cst_4 : Ref sig .tc := ⟨.hbm, 99, rfl⟩
abbrev main_call0_call0_v0 : Ref sig .tc := ⟨.hbm, 100, rfl⟩
abbrev main_call0_call0_v1 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_cst_9 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_call1_v0 : Ref sig .tc := ⟨.hbm, 119, rfl⟩
abbrev main_call1_v1 : Ref sig .tc := ⟨.hbm, 120, rfl⟩
abbrev main_call1_cst : Ref sig .tc := ⟨.hbm, 121, rfl⟩
abbrev main_call1_v2 : Ref sig .tc := ⟨.hbm, 122, rfl⟩
abbrev main_call1_v3 : Ref sig .tc := ⟨.hbm, 123, rfl⟩
abbrev main_call1_cst_0 : Ref sig .tc := ⟨.hbm, 124, rfl⟩
abbrev main_call1_v4 : Ref sig .tc := ⟨.hbm, 125, rfl⟩
abbrev main_call1_v5 : Ref sig .tc := ⟨.hbm, 126, rfl⟩
abbrev main_v62 : Ref sig .tc := ⟨.hbm, 127, rfl⟩
abbrev main_v63 : Ref sig .tc := ⟨.hbm, 128, rfl⟩
abbrev main_c_10 : Ref sig .tc := ⟨.hbm, 129, rfl⟩
abbrev main_v64 : Ref sig .tc := ⟨.hbm, 130, rfl⟩
abbrev main_v65 : Ref sig .tc := ⟨.hbm, 131, rfl⟩
abbrev main_c_11 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_c_12 : Ref sig .tc := ⟨.hbm, 139, rfl⟩
abbrev main_v72 : Ref sig .tc := ⟨.hbm, 140, rfl⟩
abbrev main_v73 : Ref sig .tc := ⟨.hbm, 141, rfl⟩
abbrev main_c_13 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_14 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_call2_v0 : Ref sig .tc := ⟨.hbm, 165, rfl⟩
abbrev main_call2_v1 : Ref sig .tc := ⟨.hbm, 166, rfl⟩
abbrev main_call2_cst : Ref sig .tc := ⟨.hbm, 167, rfl⟩
abbrev main_call2_v2 : Ref sig .tc := ⟨.hbm, 168, rfl⟩
abbrev main_call2_v3 : Ref sig .tc := ⟨.hbm, 169, rfl⟩
abbrev main_call2_cst_0 : Ref sig .tc := ⟨.hbm, 170, rfl⟩
abbrev main_call2_v4 : Ref sig .tc := ⟨.hbm, 171, rfl⟩
abbrev main_call2_v5 : Ref sig .tc := ⟨.hbm, 172, rfl⟩
abbrev main_v95 : Ref sig .tc := ⟨.hbm, 173, rfl⟩
abbrev main_v96 : Ref sig .tc := ⟨.hbm, 174, rfl⟩
abbrev main_c_15 : Ref sig .tc := ⟨.hbm, 175, rfl⟩
abbrev main_v97 : Ref sig .tc := ⟨.hbm, 176, rfl⟩
abbrev main_v98 : Ref sig .tc := ⟨.hbm, 177, rfl⟩
abbrev main_c_16 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_c_17 : Ref sig .tc := ⟨.hbm, 185, rfl⟩
abbrev main_v105 : Ref sig .tc := ⟨.hbm, 186, rfl⟩
abbrev main_v106 : Ref sig .tc := ⟨.hbm, 187, rfl⟩
abbrev main_c_18 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_cst_19 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_call3_v0 : Ref sig .tc := ⟨.hbm, 211, rfl⟩
abbrev main_call3_v1 : Ref sig .tc := ⟨.hbm, 212, rfl⟩
abbrev main_call3_cst : Ref sig .tc := ⟨.hbm, 213, rfl⟩
abbrev main_call3_v2 : Ref sig .tc := ⟨.hbm, 214, rfl⟩
abbrev main_call3_v3 : Ref sig .tc := ⟨.hbm, 215, rfl⟩
abbrev main_call3_cst_0 : Ref sig .tc := ⟨.hbm, 216, rfl⟩
abbrev main_call3_v4 : Ref sig .tc := ⟨.hbm, 217, rfl⟩
abbrev main_call3_v5 : Ref sig .tc := ⟨.hbm, 218, rfl⟩
abbrev main_v128 : Ref sig .tc := ⟨.hbm, 219, rfl⟩
abbrev main_cst_20 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_cst_21 : Ref sig .tc := ⟨.hbm, 228, rfl⟩
abbrev main_v136 : Ref sig .tc := ⟨.hbm, 229, rfl⟩
abbrev main_cst_22 : Ref sig .tc := ⟨.hbm, 230, rfl⟩
abbrev main_v137 : Ref sig .tc := ⟨.hbm, 231, rfl⟩
abbrev main_v138 : Ref sig .tc := ⟨.hbm, 232, rfl⟩
abbrev main_c_23 : Ref sig .tc := ⟨.hbm, 233, rfl⟩
abbrev main_call4_cst : Ref sig .tc := ⟨.hbm, 234, rfl⟩
abbrev main_call4_v0 : Ref sig .tc := ⟨.hbm, 235, rfl⟩
abbrev main_call4_v1 : Ref sig .tc := ⟨.hbm, 236, rfl⟩
abbrev main_call4_cst_0 : Ref sig .tc := ⟨.hbm, 237, rfl⟩
abbrev main_call4_v2 : Ref sig .tc := ⟨.hbm, 238, rfl⟩
abbrev main_call4_v3 : Ref sig .tc := ⟨.hbm, 239, rfl⟩
abbrev main_call4_v4 : Ref sig .tc := ⟨.hbm, 240, rfl⟩
abbrev main_call4_v5 : Ref sig .tc := ⟨.hbm, 241, rfl⟩
abbrev main_call4_v6 : Ref sig .tc := ⟨.hbm, 242, rfl⟩
abbrev main_call4_v7 : Ref sig .tc := ⟨.hbm, 243, rfl⟩
abbrev main_call4_cst_1 : Ref sig .tc := ⟨.hbm, 244, rfl⟩
abbrev main_call4_v8 : Ref sig .tc := ⟨.hbm, 245, rfl⟩
abbrev main_call4_cst_2 : Ref sig .tc := ⟨.hbm, 246, rfl⟩
abbrev main_call4_v9 : Ref sig .tc := ⟨.hbm, 247, rfl⟩
abbrev main_call4_v10 : Ref sig .tc := ⟨.hbm, 248, rfl⟩
abbrev main_call4_v11 : Ref sig .tc := ⟨.hbm, 249, rfl⟩
abbrev main_call4_cst_3 : Ref sig .tc := ⟨.hbm, 250, rfl⟩
abbrev main_call4_v12 : Ref sig .tc := ⟨.hbm, 251, rfl⟩
abbrev main_call4_cst_4 : Ref sig .tc := ⟨.hbm, 252, rfl⟩
abbrev main_call4_call0_v0 : Ref sig .tc := ⟨.hbm, 253, rfl⟩
abbrev main_call4_call0_v1 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_cst_24 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_call5_v0 : Ref sig .tc := ⟨.hbm, 272, rfl⟩
abbrev main_call5_v1 : Ref sig .tc := ⟨.hbm, 273, rfl⟩
abbrev main_call5_cst : Ref sig .tc := ⟨.hbm, 274, rfl⟩
abbrev main_call5_v2 : Ref sig .tc := ⟨.hbm, 275, rfl⟩
abbrev main_call5_v3 : Ref sig .tc := ⟨.hbm, 276, rfl⟩
abbrev main_call5_cst_0 : Ref sig .tc := ⟨.hbm, 277, rfl⟩
abbrev main_call5_v4 : Ref sig .tc := ⟨.hbm, 278, rfl⟩
abbrev main_call5_v5 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_call6_v0 : Ref sig .tc := ⟨.hbm, 285, rfl⟩
abbrev main_call6_v1 : Ref sig .tc := ⟨.hbm, 286, rfl⟩
abbrev main_call6_cst : Ref sig .tc := ⟨.hbm, 287, rfl⟩
abbrev main_call6_v2 : Ref sig .tc := ⟨.hbm, 288, rfl⟩
abbrev main_call6_v3 : Ref sig .tc := ⟨.hbm, 289, rfl⟩
abbrev main_call6_cst_0 : Ref sig .tc := ⟨.hbm, 290, rfl⟩
abbrev main_call6_v4 : Ref sig .tc := ⟨.hbm, 291, rfl⟩
abbrev main_call6_v5 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_v163 : Ref sig .tc := ⟨.hbm, 296, rfl⟩
abbrev main_v164 : Ref sig .tc := ⟨.hbm, 297, rfl⟩
abbrev main_v165 : Ref sig .tc := ⟨.hbm, 298, rfl⟩
abbrev main_call7_v0 : Ref sig .tc := ⟨.hbm, 299, rfl⟩
abbrev main_call7_v1 : Ref sig .tc := ⟨.hbm, 300, rfl⟩
abbrev main_call7_cst : Ref sig .tc := ⟨.hbm, 301, rfl⟩
abbrev main_call7_v2 : Ref sig .tc := ⟨.hbm, 302, rfl⟩
abbrev main_call7_v3 : Ref sig .tc := ⟨.hbm, 303, rfl⟩
abbrev main_call7_cst_0 : Ref sig .tc := ⟨.hbm, 304, rfl⟩
abbrev main_call7_v4 : Ref sig .tc := ⟨.hbm, 305, rfl⟩
abbrev main_call7_v5 : Ref sig .tc := ⟨.hbm, 306, rfl⟩
abbrev main_v166 : Ref sig .tc := ⟨.hbm, 307, rfl⟩
abbrev main_v167 : Ref sig .tc := ⟨.hbm, 308, rfl⟩
abbrev main_v168 : Ref sig .tc := ⟨.hbm, 309, rfl⟩
abbrev main_v169 : Ref sig .tc := ⟨.hbm, 310, rfl⟩
abbrev main_v170 : Ref sig .tc := ⟨.hbm, 311, rfl⟩
abbrev main_call8_v0 : Ref sig .tc := ⟨.hbm, 312, rfl⟩
abbrev main_call8_v1 : Ref sig .tc := ⟨.hbm, 313, rfl⟩
abbrev main_call8_cst : Ref sig .tc := ⟨.hbm, 314, rfl⟩
abbrev main_call8_v2 : Ref sig .tc := ⟨.hbm, 315, rfl⟩
abbrev main_call8_v3 : Ref sig .tc := ⟨.hbm, 316, rfl⟩
abbrev main_call8_cst_0 : Ref sig .tc := ⟨.hbm, 317, rfl⟩
abbrev main_call8_v4 : Ref sig .tc := ⟨.hbm, 318, rfl⟩
abbrev main_call8_v5 : Ref sig .tc := ⟨.hbm, 319, rfl⟩
abbrev main_v171 : Ref sig .tc := ⟨.hbm, 320, rfl⟩
abbrev main_v172 : Ref sig .tc := ⟨.hbm, 321, rfl⟩
abbrev main_v173 : Ref sig .tc := ⟨.hbm, 322, rfl⟩
abbrev main_v174 : Ref sig .tc := ⟨.hbm, 323, rfl⟩
abbrev main_v175 : Ref sig .tc := ⟨.hbm, 324, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S2048x128 : S_.BroadcastsInDim S2048x128 (![] : Fin 0 → Fin S2048x128.rank)
  bcast_S1x128_S2048x128_0_1 : S1x128.BroadcastsInDim S2048x128 (![0, 1] : Fin 2 → Fin S2048x128.rank)
  reducesTo_S2048x128_S128_d0 : S2048x128.ReducesTo [0] S128
  concatenates_S2048x128_S2048x128_S2048x256_d1 : Shape.Concatenates [S2048x128, S2048x128] S2048x256 1
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S2048x128_S50000x1_S50000x128_1_0_0_1_wf : ScatterDims.WF S2048x128 S50000x1 S50000x128 [1] [0] [0] 1
  dot_S2048x200_S200x128_S2048x128_1_0_0_1_n_n_wf : DotDims.WF S2048x200 S200x128 S2048x128 [1] [0] [0] [1] [] []
  dot_S2048x128_S128x128_S2048x128_1_0_0_1_n_n_wf : DotDims.WF S2048x128 S128x128 S2048x128 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S2048x128_S50000x1_S50000x128_1_0_0_1 : ScatterDims S2048x128 S50000x1 S50000x128 where
  updateWindowDims := [1]
  insertedWindowDims := [0]
  scatterDimsToOperandDims := [0]
  indexVectorDim := 1
  wf := scatter_S2048x128_S50000x1_S50000x128_1_0_0_1_wf
def dot_S2048x200_S200x128_S2048x128_1_0_0_1_n_n : DotDims S2048x200 S200x128 S2048x128 where
  lhsContracting := [1]
  rhsContracting := [0]
  lhsNonContracting := [0]
  rhsNonContracting := [1]
  lhsBatch := []
  rhsBatch := []
  wf := dot_S2048x200_S200x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.KRun.lean ====
/-
  The idealized kernel's program, run from any memory: it terminates without a fault, its arguments end as they were
  launched, and its result array ends holding what the last of its fourteen kernel regions wrote back — the contents
  of the result buffer at the last segment boundary, a fold of the host stretches and the regions' write-backs over
  the launch memory. This is the same statement as the frame with one more conjunct: the result buffer is one of the
  buffers the last thread state holds, so it is read off the final state exactly as each argument is.
-/
import proofs.«169641_j32169305047251_1_alg».proof.Proof.Gen.KernelIdeal.Frame

set_option maxRecDepth 16384

noncomputable section

namespace Cert.KernelIdeal.ValRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates; the result array ends at the last boundary's contents of
    its buffer, and every argument array ends unchanged. -/
theorem run_result : θ_run defs (onTc (τ := τ) (main (F := F))) ⟨m, fun _ => 0, ρ⟩ (fun r => ∀ c : Dev nD,
      r.2.mem ((c.tc : Thread nD τ).loc main_v119) = W29 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h c =>
      ⟨h c _ (mem_uc main_v119 (by decide)),
       (h c _ (mem_uc main_arg0 (by decide))).trans (W29_main_arg0 m ρ c),
       (h c _ (mem_uc main_arg1 (by decide))).trans (W29_main_arg1 m ρ c),
       (h c _ (mem_uc main_arg2 (by decide))).trans (W29_main_arg2 m ρ c),
       (h c _ (mem_uc main_arg3 (by decide))).trans (W29_main_arg3 m ρ c),
       (h c _ (mem_uc main_arg4 (by decide))).trans (W29_main_arg4 m ρ c),
       (h c _ (mem_uc main_arg5 (by decide))).trans (W29_main_arg5 m ρ c),
       (h c _ (mem_uc main_arg6 (by decide))).trans (W29_main_arg6 m ρ c),
       (h c _ (mem_uc main_arg7 (by decide))).trans (W29_main_arg7 m ρ c),
       (h c _ (mem_uc main_arg8 (by decide))).trans (W29_main_arg8 m ρ c),
       (h c _ (mem_uc main_arg9 (by decide))).trans (W29_main_arg9 m ρ c),
       (h c _ (mem_uc main_arg10 (by decide))).trans (W29_main_arg10 m ρ c),
       (h c _ (mem_uc main_arg11 (by decide))).trans (W29_main_arg11 m ρ c),
       (h c _ (mem_uc main_arg12 (by decide))).trans (W29_main_arg12 m ρ c),
       (h c _ (mem_uc main_arg13 (by decide))).trans (W29_main_arg13 m ρ c),
       (h c _ (mem_uc main_arg14 (by decide))).trans (W29_main_arg14 m ρ c),
       (h c _ (mem_uc main_arg15 (by decide))).trans (W29_main_arg15 m ρ c),
       (h c _ (mem_uc main_arg16 (by decide))).trans (W29_main_arg16 m ρ c),
       (h c _ (mem_uc main_arg17 (by decide))).trans (W29_main_arg17 m ρ c),
       (h c _ (mem_uc main_arg18 (by decide))).trans (W29_main_arg18 m ρ c),
       (h c _ (mem_uc main_arg19 (by decide))).trans (W29_main_arg19 m ρ c),
       (h c _ (mem_uc main_arg20 (by decide))).trans (W29_main_arg20 m ρ c),
       (h c _ (mem_uc main_arg21 (by decide))).trans (W29_main_arg21 m ρ c),
       (h c _ (mem_uc main_arg22 (by decide))).trans (W29_main_arg22 m ρ c),
       (h c _ (mem_uc main_arg23 (by decide))).trans (W29_main_arg23 m ρ c)⟩)

end Cert.KernelIdeal.ValRun

end
-- ==== Proof.RefOps.lean ====
/-
  The reference program's operations, in order. Its @main is a straight line of tensor operations with nine
  calls of small functions (two variances, each through a select; seven activations x · 1/(1 + exp(−x))); a call
  stands for the callee's operations on the call's own buffers, so the whole program is one list of 301
  operations. The list is cut right after each array that the comparison with the kernel reads: the degree column,
  each layer's product, aggregate, combination and activation, the column variances, the pooled rows, the side
  branch's arrays, the two placed side by side, and the head's result.
-/
import proofs.«169641_j32169305047251_1_alg».proof.Proof.Gen.ReferenceIdeal

noncomputable section

namespace Cert.ReferenceIdeal.HandRun

open Cert.ReferenceIdeal Cert.ReferenceIdeal.Facts₀ Idealize.ShloMosaic Idealize.SL.Sem

variable {F : FTy → Type} [FloatOps F]

/-- The in-degree count (a one scattered onto each edge's target row, over zeros), plus one, and its inverse square root: the degree column. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.unary main_v9 main_v10 (Host.rsqrt : (⟨S50000, .f32⟩ : BufTy).Contents (Elt F) → (⟨S50000, .f32⟩ : BufTy).Contents (Elt F)) ]

/-- The first layer's product of the node features with its weight matrix. -/
abbrev ops1 : List (HloOp τ sig (Elt F)) :=
  [ StableHlo.binary main_arg0 main_arg4 main_v11 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)) ]

/-- The first aggregation: the edge sources with negative entries wrapped, the degree entry and the product's row gathered at each source, multiplied, and summed onto the edge's target row. -/
abbrev ops2 : List (HloOp τ sig (Elt F)) :=
  [ StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v1 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v14 (broadcastInDim S800000 ![] bcast_S_S800000 : (⟨S_, .i32⟩ : BufTy).Contents (Elt F) → (⟨S800000, .i32⟩ : BufTy).Contents (Elt F)),
    StableHlo.binary main_v1 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_v10 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v18 main_v19 (broadcastInDim S800000x1 ![0] bcast_S800000_S800000x1_0 : (⟨S800000, .f32⟩ : BufTy).Contents (Elt F) → (⟨S800000x1, .f32⟩ : BufTy).Contents (Elt F)),
    StableHlo.nullary main_c_3 (constantI S_ 32 0#32),
    StableHlo.unary main_c_3 main_v20 (broadcastInDim S800000 ![] bcast_S_S800000 : (⟨S_, .i32⟩ : BufTy).Contents (Elt F) → (⟨S800000, .i32⟩ : BufTy).Contents (Elt F)),
    StableHlo.binary main_v1 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v22 (broadcastInDim S800000 ![] bcast_S_S800000 : (⟨S_, .i32⟩ : BufTy).Contents (Elt F) → (⟨S800000, .i32⟩ : BufTy).Contents (Elt F)),
    StableHlo.binary main_v1 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_v1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v24 main_v25 (broadcastInDim S800000x1 ![0] bcast_S800000_S800000x1_0 : (⟨S800000, .i32⟩ : BufTy).Contents (Elt F) → (⟨S800000x1, .i32⟩ : BufTy).Contents (Elt F)),
    StableHlo.binary main_v11 main_v25 main_v26 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v19 main_v27 (broadcastInDim S800000x128 ![0, 1] bcast_S800000x1_S800000x128_0_1 : (⟨S800000x1, .f32⟩ : BufTy).Contents (Elt F) → (⟨S800000x128, .f32⟩ : BufTy).Contents (Elt F)),
    StableHlo.binary main_v27 main_v26 main_v28 (mulf : (⟨S800000x128, .f32⟩ : BufTy).Contents (Elt F) → (⟨S800000x128, .f32⟩ : BufTy).Contents (Elt F) → (⟨S800000x128, .f32⟩ : BufTy).Contents (Elt F)),
    StableHlo.nullary main_cst_5 (constant S_ .f32 0x00000000#32),
    StableHlo.unary main_cst_5 main_v29 (broadcastInDim S50000x128 ![] bcast_S_S50000x128 : (⟨S_, .f32⟩ : BufTy).Contents (Elt F) → (⟨S50000x128, .f32⟩ : BufTy).Contents (Elt F)),
    StableHlo.unary main_v3 main_v30 (broadcastInDim S800000x1 ![0] bcast_S800000_S800000x1_0 : (⟨S800000, .i32⟩ : BufTy).Contents (Elt F) → (⟨S800000x1, .i32⟩ : BufTy).Contents (Elt F)),
    StableHlo.ternary main_v29 main_v30 main_v28 main_v31 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The first layer's combination: degree times the aggregate, plus degree squared times the product, plus the bias row. -/
abbrev ops3 : List (HloOp τ sig (Elt F)) :=
  [ StableHlo.unary main_v10 main_v32 (broadcastInDim S50000x1 ![0] bcast_S50000_S50000x1_0 : (⟨S50000, .f32⟩ : BufTy).Contents (Elt F) → (⟨S50000x1, .f32⟩ : BufTy).Contents (Elt F)),
    StableHlo.unary main_v32 main_v33 (broadcastInDim S50000x128 ![0, 1] bcast_S50000x1_S50000x128_0_1 : (⟨S50000x1, .f32⟩ : BufTy).Contents (Elt F) → (⟨S50000x128, .f32⟩ : BufTy).Contents (Elt F)),
    StableHlo.binary main_v33 main_v31 main_v34 (mulf : (⟨S50000x128, .f32⟩ : BufTy).Contents (Elt F) → (⟨S50000x128, .f32⟩ : BufTy).Contents (Elt F) → (⟨S50000x128, .f32⟩ : BufTy).Contents (Elt F)),
    StableHlo.binary main_v10 main_v10 main_v35 (mulf : (⟨S50000, .f32⟩ : BufTy).Contents (Elt F) → (⟨S50000, .f32⟩ : BufTy).Contents (Elt F) → (⟨S50000, .f32⟩ : BufTy).Contents (Elt F)),
    StableHlo.unary main_v35 main_v36 (broadcastInDim S50000x1 ![0] bcast_S50000_S50000x1_0 : (⟨S50000, .f32⟩ : BufTy).Contents (Elt F) → (⟨S50000x1, .f32⟩ : BufTy).Contents (Elt F)),
    StableHlo.unary main_v36 main_v37 (broadcastInDim S50000x128 ![0, 1] bcast_S50000x1_S50000x128_0_1 : (⟨S50000x1, .f32⟩ : BufTy).Contents (Elt F) → (⟨S50000x128, .f32⟩ : BufTy).Contents (Elt F)),
    StableHlo.binary main_v37 main_v11 main_v38 (mulf : (⟨S50000x128, .f32⟩ : BufTy).Contents (Elt F) → (⟨S50000x128, .f32⟩ : BufTy).Contents (Elt F) → (⟨S50000x128, .f32⟩ : BufTy).Contents (Elt F)),
    StableHlo.binary main_v34 main_v38 main_v39 (addf : (⟨S50000x128, .f32⟩ : BufTy).Contents (Elt F) → (⟨S50000x128, .f32⟩ : BufTy).Contents (Elt F) → (⟨S50000x128, .f32⟩ : BufTy).Contents (Elt F)),
    StableHlo.unary main_arg5 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (addf : (⟨S50000x128, .f32⟩ : BufTy).Contents (Elt F) → (⟨S50000x128, .f32⟩ : BufTy).Contents (Elt F) → (⟨S50000x128, .f32⟩ : BufTy).Contents (Elt F)) ]

/-- The column means of that array and, through the variance function, its column variances (squared deviations from the mean summed and divided by the row count, kept where that count is positive). -/
abbrev ops4 : List (HloOp τ sig (Elt F)) :=
  [ StableHlo.nullary main_cst_6 (constant S_ .f32 0x00000000#32),
    StableHlo.binary main_v42 main_cst_6 main_v43 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v44 (broadcastInDim S128 ![] bcast_S_S128 : (⟨S_, .f32⟩ : BufTy).Contents (Elt F) → (⟨S128, .f32⟩ : BufTy).Contents (Elt F)),
    StableHlo.binary main_v43 main_v44 main_v45 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call0.cst (constant S_ .f32 0x00000000#32),
    StableHlo.TRef.binary (StableHlo.TRef.of main_v42 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (StableHlo.TRef.of main_v42 : StableHlo.TRef sig ⟨S50000x128, .f32⟩) main_call0.v4 main_call0.v5 subf,
    StableHlo.TRef.binary main_call0.v5 main_call0.v5 main_call0.v6 mulf,
    StableHlo.TRef.unary (StableHlo.TRef.of main_c_8 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- The first normalisation (subtract the mean, scale by the inverse square root of variance plus epsilon, then the affine map) and the activation x · 1/(1 + exp(−x)). -/
abbrev ops5 : List (HloOp τ sig (Elt F)) :=
  [ StableHlo.unary main_v45 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v48 main_v49 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v50 (broadcastInDim S128 ![] bcast_S_S128 : (⟨S_, .f32⟩ : BufTy).Contents (Elt F) → (⟨S128, .f32⟩ : BufTy).Contents (Elt F)),
    StableHlo.binary main_v46 main_v50 main_v51 (addf : (⟨S128, .f32⟩ : BufTy).Contents (Elt F) → (⟨S128, .f32⟩ : BufTy).Contents (Elt F) → (⟨S128, .f32⟩ : BufTy).Contents (Elt F)),
    StableHlo.unary main_v51 main_v52 (Host.rsqrt : (⟨S128, .f32⟩ : BufTy).Contents (Elt F) → (⟨S128, .f32⟩ : BufTy).Contents (Elt F)),
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v54 main_v55 (mulf : (⟨S50000x128, .f32⟩ : BufTy).Contents (Elt F) → (⟨S50000x128, .f32⟩ : BufTy).Contents (Elt F) → (⟨S50000x128, .f32⟩ : BufTy).Contents (Elt F)),
    StableHlo.unary main_arg10 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v57 main_v58 (mulf : (⟨S50000x128, .f32⟩ : BufTy).Contents (Elt F) → (⟨S50000x128, .f32⟩ : BufTy).Contents (Elt F) → (⟨S50000x128, .f32⟩ : BufTy).Contents (Elt F)),
    StableHlo.unary main_arg11 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v60 main_v61 (addf : (⟨S50000x128, .f32⟩ : BufTy).Contents (Elt F) → (⟨S50000x128, .f32⟩ : BufTy).Contents (Elt F) → (⟨S50000x128, .f32⟩ : BufTy).Contents (Elt F)),
    StableHlo.TRef.unary (StableHlo.TRef.of main_v61 : StableHlo.TRef sig ⟨S50000x128, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S50000x128 ![] bcast_S_S50000x128),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S50000x128 ![] bcast_S_S50000x128),
    StableHlo.TRef.binary main_call1.v4 main_call1.v3 main_call1.v5 Host.divf,
    StableHlo.TRef.binary (StableHlo.TRef.of main_v61 : StableHlo.TRef sig ⟨S50000x128, .f32⟩) main_call1.v5 main_call1.v6 mulf ]

/-- The second layer's product with its weight matrix. -/
abbrev ops6 : List (HloOp τ sig (Elt F)) :=
  [ StableHlo.binary main_v62 main_arg6 main_v63 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The second aggregation over the edges, as the first. -/
abbrev ops7 : List (HloOp τ sig (Elt F)) :=
  [ StableHlo.nullary main_c_10 (constantI S_ 32 0#32),
    StableHlo.unary main_c_10 main_v64 (broadcastInDim S800000 ![] bcast_S_S800000 : (⟨S_, .i32⟩ : BufTy).Contents (Elt F) → (⟨S800000, .i32⟩ : BufTy).Contents (Elt F)),
    StableHlo.binary main_v1 main_v64 main_v65 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v66 (broadcastInDim S800000 ![] bcast_S_S800000 : (⟨S_, .i32⟩ : BufTy).Contents (Elt F) → (⟨S800000, .i32⟩ : BufTy).Contents (Elt F)),
    StableHlo.binary main_v1 main_v66 main_v67 (addi : (⟨S800000, .i32⟩ : BufTy).Contents (Elt F) → (⟨S800000, .i32⟩ : BufTy).Contents (Elt F) → (⟨S800000, .i32⟩ : BufTy).Contents (Elt F)),
    StableHlo.ternary main_v65 main_v67 main_v1 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v68 main_v69 (broadcastInDim S800000x1 ![0] bcast_S800000_S800000x1_0 : (⟨S800000, .i32⟩ : BufTy).Contents (Elt F) → (⟨S800000x1, .i32⟩ : BufTy).Contents (Elt F)),
    StableHlo.binary main_v10 main_v69 main_v70 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v70 main_v71 (broadcastInDim S800000x1 ![0] bcast_S800000_S800000x1_0 : (⟨S800000, .f32⟩ : BufTy).Contents (Elt F) → (⟨S800000x1, .f32⟩ : BufTy).Contents (Elt F)),
    StableHlo.nullary main_c_12 (constantI S_ 32 0#32),
    StableHlo.unary main_c_12 main_v72 (broadcastInDim S800000 ![] bcast_S_S800000 : (⟨S_, .i32⟩ : BufTy).Contents (Elt F) → (⟨S800000, .i32⟩ : BufTy).Contents (Elt F)),
    StableHlo.binary main_v1 main_v72 main_v73 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v74 (broadcastInDim S800000 ![] bcast_S_S800000 : (⟨S_, .i32⟩ : BufTy).Contents (Elt F) → (⟨S800000, .i32⟩ : BufTy).Contents (Elt F)),
    StableHlo.binary main_v1 main_v74 main_v75 (addi : (⟨S800000, .i32⟩ : BufTy).Contents (Elt F) → (⟨S800000, .i32⟩ : BufTy).Contents (Elt F) → (⟨S800000, .i32⟩ : BufTy).Contents (Elt F)),
    StableHlo.ternary main_v73 main_v75 main_v1 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v76 main_v77 (broadcastInDim S800000x1 ![0] bcast_S800000_S800000x1_0 : (⟨S800000, .i32⟩ : BufTy).Contents (Elt F) → (⟨S800000x1, .i32⟩ : BufTy).Contents (Elt F)),
    StableHlo.binary main_v63 main_v77 main_v78 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v71 main_v79 (broadcastInDim S800000x128 ![0, 1] bcast_S800000x1_S800000x128_0_1 : (⟨S800000x1, .f32⟩ : BufTy).Contents (Elt F) → (⟨S800000x128, .f32⟩ : BufTy).Contents (Elt F)),
    StableHlo.binary main_v79 main_v78 main_v80 (mulf : (⟨S800000x128, .f32⟩ : BufTy).Contents (Elt F) → (⟨S800000x128, .f32⟩ : BufTy).Contents (Elt F) → (⟨S800000x128, .f32⟩ : BufTy).Contents (Elt F)),
    StableHlo.nullary main_cst_14 (constant S_ .f32 0x00000000#32),
    StableHlo.unary main_cst_14 main_v81 (broadcastInDim S50000x128 ![] bcast_S_S50000x128 : (⟨S_, .f32⟩ : BufTy).Contents (Elt F) → (⟨S50000x128, .f32⟩ : BufTy).Contents (Elt F)),
    StableHlo.unary main_v3 main_v82 (broadcastInDim S800000x1 ![0] bcast_S800000_S800000x1_0 : (⟨S800000, .i32⟩ : BufTy).Contents (Elt F) → (⟨S800000x1, .i32⟩ : BufTy).Contents (Elt F)),
    StableHlo.ternary main_v81 main_v82 main_v80 main_v83 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The second layer's combination with its bias row. -/
abbrev ops8 : List (HloOp τ sig (Elt F)) :=
  [ StableHlo.unary main_v10 main_v84 (broadcastInDim S50000x1 ![0] bcast_S50000_S50000x1_0 : (⟨S50000, .f32⟩ : BufTy).Contents (Elt F) → (⟨S50000x1, .f32⟩ : BufTy).Contents (Elt F)),
    StableHlo.unary main_v84 main_v85 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v83 main_v86 (mulf : (⟨S50000x128, .f32⟩ : BufTy).Contents (Elt F) → (⟨S50000x128, .f32⟩ : BufTy).Contents (Elt F) → (⟨S50000x128, .f32⟩ : BufTy).Contents (Elt F)),
    StableHlo.binary main_v10 main_v10 main_v87 (mulf : (⟨S50000, .f32⟩ : BufTy).Contents (Elt F) → (⟨S50000, .f32⟩ : BufTy).Contents (Elt F) → (⟨S50000, .f32⟩ : BufTy).Contents (Elt F)),
    StableHlo.unary main_v87 main_v88 (broadcastInDim S50000x1 ![0] bcast_S50000_S50000x1_0 : (⟨S50000, .f32⟩ : BufTy).Contents (Elt F) → (⟨S50000x1, .f32⟩ : BufTy).Contents (Elt F)),
    StableHlo.unary main_v88 main_v89 (broadcastInDim S50000x128 ![0, 1] bcast_S50000x1_S50000x128_0_1 : (⟨S50000x1, .f32⟩ : BufTy).Contents (Elt F) → (⟨S50000x128, .f32⟩ : BufTy).Contents (Elt F)),
    StableHlo.binary main_v89 main_v63 main_v90 (mulf : (⟨S50000x128, .f32⟩ : BufTy).Contents (Elt F) → (⟨S50000x128, .f32⟩ : BufTy).Contents (Elt F) → (⟨S50000x128, .f32⟩ : BufTy).Contents (Elt F)),
    StableHlo.binary main_v86 main_v90 main_v91 (addf : (⟨S50000x128, .f32⟩ : BufTy).Contents (Elt F) → (⟨S50000x128, .f32⟩ : BufTy).Contents (Elt F) → (⟨S50000x128, .f32⟩ : BufTy).Contents (Elt F)),
    StableHlo.unary main_arg7 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v93 main_v94 (addf : (⟨S50000x128, .f32⟩ : BufTy).Contents (Elt F) → (⟨S50000x128, .f32⟩ : BufTy).Contents (Elt F) → (⟨S50000x128, .f32⟩ : BufTy).Contents (Elt F)) ]

/-- The activation of the second layer. -/
abbrev ops9 : List (HloOp τ sig (Elt F)) :=
  [ StableHlo.TRef.unary (StableHlo.TRef.of main_v94 : StableHlo.TRef sig ⟨S50000x128, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S50000x128 ![] bcast_S_S50000x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S50000x128 ![] bcast_S_S50000x128),
    StableHlo.TRef.binary main_call2.v4 main_call2.v3 main_call2.v5 Host.divf,
    StableHlo.TRef.binary (StableHlo.TRef.of main_v94 : StableHlo.TRef sig ⟨S50000x128, .f32⟩) main_call2.v5 main_call2.v6 mulf ]

/-- The third layer's product with its weight matrix. -/
abbrev ops10 : List (HloOp τ sig (Elt F)) :=
  [ StableHlo.binary main_v95 main_arg8 main_v96 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The third aggregation over the edges, as the first. -/
abbrev ops11 : List (HloOp τ sig (Elt F)) :=
  [ StableHlo.nullary main_c_15 (constantI S_ 32 0#32),
    StableHlo.unary main_c_15 main_v97 (broadcastInDim S800000 ![] bcast_S_S800000 : (⟨S_, .i32⟩ : BufTy).Contents (Elt F) → (⟨S800000, .i32⟩ : BufTy).Contents (Elt F)),
    StableHlo.binary main_v1 main_v97 main_v98 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v99 (broadcastInDim S800000 ![] bcast_S_S800000 : (⟨S_, .i32⟩ : BufTy).Contents (Elt F) → (⟨S800000, .i32⟩ : BufTy).Contents (Elt F)),
    StableHlo.binary main_v1 main_v99 main_v100 (addi : (⟨S800000, .i32⟩ : BufTy).Contents (Elt F) → (⟨S800000, .i32⟩ : BufTy).Contents (Elt F) → (⟨S800000, .i32⟩ : BufTy).Contents (Elt F)),
    StableHlo.ternary main_v98 main_v100 main_v1 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v101 main_v102 (broadcastInDim S800000x1 ![0] bcast_S800000_S800000x1_0 : (⟨S800000, .i32⟩ : BufTy).Contents (Elt F) → (⟨S800000x1, .i32⟩ : BufTy).Contents (Elt F)),
    StableHlo.binary main_v10 main_v102 main_v103 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.unary main_v103 main_v104 (broadcastInDim S800000x1 ![0] bcast_S800000_S800000x1_0 : (⟨S800000, .f32⟩ : BufTy).Contents (Elt F) → (⟨S800000x1, .f32⟩ : BufTy).Contents (Elt F)),
    StableHlo.nullary main_c_17 (constantI S_ 32 0#32),
    StableHlo.unary main_c_17 main_v105 (broadcastInDim S800000 ![] bcast_S_S800000 : (⟨S_, .i32⟩ : BufTy).Contents (Elt F) → (⟨S800000, .i32⟩ : BufTy).Contents (Elt F)),
    StableHlo.binary main_v1 main_v105 main_v106 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 50000#32),
    StableHlo.unary main_c_18 main_v107 (broadcastInDim S800000 ![] bcast_S_S800000 : (⟨S_, .i32⟩ : BufTy).Contents (Elt F) → (⟨S800000, .i32⟩ : BufTy).Contents (Elt F)),
    StableHlo.binary main_v1 main_v107 main_v108 (addi : (⟨S800000, .i32⟩ : BufTy).Contents (Elt F) → (⟨S800000, .i32⟩ : BufTy).Contents (Elt F) → (⟨S800000, .i32⟩ : BufTy).Contents (Elt F)),
    StableHlo.ternary main_v106 main_v108 main_v1 main_v109 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v109 main_v110 (broadcastInDim S800000x1 ![0] bcast_S800000_S800000x1_0 : (⟨S800000, .i32⟩ : BufTy).Contents (Elt F) → (⟨S800000x1, .i32⟩ : BufTy).Contents (Elt F)),
    StableHlo.binary main_v96 main_v110 main_v111 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v104 main_v112 (broadcastInDim S800000x128 ![0, 1] bcast_S800000x1_S800000x128_0_1 : (⟨S800000x1, .f32⟩ : BufTy).Contents (Elt F) → (⟨S800000x128, .f32⟩ : BufTy).Contents (Elt F)),
    StableHlo.binary main_v112 main_v111 main_v113 (mulf : (⟨S800000x128, .f32⟩ : BufTy).Contents (Elt F) → (⟨S800000x128, .f32⟩ : BufTy).Contents (Elt F) → (⟨S800000x128, .f32⟩ : BufTy).Contents (Elt F)),
    StableHlo.nullary main_cst_19 (constant S_ .f32 0x00000000#32),
    StableHlo.unary main_cst_19 main_v114 (broadcastInDim S50000x128 ![] bcast_S_S50000x128 : (⟨S_, .f32⟩ : BufTy).Contents (Elt F) → (⟨S50000x128, .f32⟩ : BufTy).Contents (Elt F)),
    StableHlo.unary main_v3 main_v115 (broadcastInDim S800000x1 ![0] bcast_S800000_S800000x1_0 : (⟨S800000, .i32⟩ : BufTy).Contents (Elt F) → (⟨S800000x1, .i32⟩ : BufTy).Contents (Elt F)),
    StableHlo.ternary main_v114 main_v115 main_v113 main_v116 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The third layer's combination with its bias row. -/
abbrev ops12 : List (HloOp τ sig (Elt F)) :=
  [ StableHlo.unary main_v10 main_v117 (broadcastInDim S50000x1 ![0] bcast_S50000_S50000x1_0 : (⟨S50000, .f32⟩ : BufTy).Contents (Elt F) → (⟨S50000x1, .f32⟩ : BufTy).Contents (Elt F)),
    StableHlo.unary main_v117 main_v118 (broadcastInDim S50000x128 ![0, 1] bcast_S50000x1_S50000x128_0_1 : (⟨S50000x1, .f32⟩ : BufTy).Contents (Elt F) → (⟨S50000x128, .f32⟩ : BufTy).Contents (Elt F)),
    StableHlo.binary main_v118 main_v116 main_v119 (mulf : (⟨S50000x128, .f32⟩ : BufTy).Contents (Elt F) → (⟨S50000x128, .f32⟩ : BufTy).Contents (Elt F) → (⟨S50000x128, .f32⟩ : BufTy).Contents (Elt F)),
    StableHlo.binary main_v10 main_v10 main_v120 (mulf : (⟨S50000, .f32⟩ : BufTy).Contents (Elt F) → (⟨S50000, .f32⟩ : BufTy).Contents (Elt F) → (⟨S50000, .f32⟩ : BufTy).Contents (Elt F)),
    StableHlo.unary main_v120 main_v121 (broadcastInDim S50000x1 ![0] bcast_S50000_S50000x1_0 : (⟨S50000, .f32⟩ : BufTy).Contents (Elt F) → (⟨S50000x1, .f32⟩ : BufTy).Contents (Elt F)),
    StableHlo.unary main_v121 main_v122 (broadcastInDim S50000x128 ![0, 1] bcast_S50000x1_S50000x128_0_1 : (⟨S50000x1, .f32⟩ : BufTy).Contents (Elt F) → (⟨S50000x128, .f32⟩ : BufTy).Contents (Elt F)),
    StableHlo.binary main_v122 main_v96 main_v123 (mulf : (⟨S50000x128, .f32⟩ : BufTy).Contents (Elt F) → (⟨S50000x128, .f32⟩ : BufTy).Contents (Elt F) → (⟨S50000x128, .f32⟩ : BufTy).Contents (Elt F)),
    StableHlo.binary main_v119 main_v123 main_v124 (addf : (⟨S50000x128, .f32⟩ : BufTy).Contents (Elt F) → (⟨S50000x128, .f32⟩ : BufTy).Contents (Elt F) → (⟨S50000x128, .f32⟩ : BufTy).Contents (Elt F)),
    StableHlo.unary main_arg9 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v126 main_v127 (addf : (⟨S50000x128, .f32⟩ : BufTy).Contents (Elt F) → (⟨S50000x128, .f32⟩ : BufTy).Contents (Elt F) → (⟨S50000x128, .f32⟩ : BufTy).Contents (Elt F)) ]

/-- The activation of the third layer. -/
abbrev ops13 : List (HloOp τ sig (Elt F)) :=
  [ StableHlo.TRef.unary (StableHlo.TRef.of main_v127 : StableHlo.TRef sig ⟨S50000x128, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S50000x128 ![] bcast_S_S50000x128),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S50000x128 ![] bcast_S_S50000x128),
    StableHlo.TRef.binary main_call3.v4 main_call3.v3 main_call3.v5 Host.divf,
    StableHlo.TRef.binary (StableHlo.TRef.of main_v127 : StableHlo.TRef sig ⟨S50000x128, .f32⟩) main_call3.v5 main_call3.v6 mulf ]

/-- The pooling: each node row summed onto the row its group index names, over zeros. -/
abbrev ops14 : List (HloOp τ sig (Elt F)) :=
  [ StableHlo.nullary main_cst_20 (constant S_ .f32 0x00000000#32),
    StableHlo.unary main_cst_20 main_v129 (broadcastInDim S2048x128 ![] bcast_S_S2048x128 : (⟨S_, .f32⟩ : BufTy).Contents (Elt F) → (⟨S2048x128, .f32⟩ : BufTy).Contents (Elt F)),
    StableHlo.unary main_arg2 main_v130 (broadcastInDim S50000x1 ![0] bcast_S50000_S50000x1_0 : (⟨S50000, .i32⟩ : BufTy).Contents (Elt F) → (⟨S50000x1, .i32⟩ : BufTy).Contents (Elt F)),
    StableHlo.ternary main_v129 main_v130 main_v128 main_v131 ((fun x i u => Host.scatterAdd scatter_S2048x128_S50000x1_S50000x128_1_0_0_1 x i u) : (⟨S2048x128, .f32⟩ : BufTy).Contents (Elt F) → (⟨S50000x1, .i32⟩ : BufTy).Contents (Elt F) → (⟨S50000x128, .f32⟩ : BufTy).Contents (Elt F) → (⟨S2048x128, .f32⟩ : BufTy).Contents (Elt F)) ]

/-- The side input's product with its weight matrix, plus its bias row. -/
abbrev ops15 : List (HloOp τ sig (Elt F)) :=
  [ StableHlo.binary main_arg3 main_arg12 main_v132 ((fun l r => Host.dotGeneral dot_S2048x200_S200x128_S2048x128_1_0_0_1_n_n none l r) : (⟨S2048x200, .f32⟩ : BufTy).Contents (Elt F) → (⟨S200x128, .f32⟩ : BufTy).Contents (Elt F) → (⟨S2048x128, .f32⟩ : BufTy).Contents (Elt F)),
    StableHlo.unary main_arg13 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S2048x128 ![0, 1] bcast_S1x128_S2048x128_0_1 : (⟨S1x128, .f32⟩ : BufTy).Contents (Elt F) → (⟨S2048x128, .f32⟩ : BufTy).Contents (Elt F)),
    StableHlo.binary main_v132 main_v134 main_v135 (addf : (⟨S2048x128, .f32⟩ : BufTy).Contents (Elt F) → (⟨S2048x128, .f32⟩ : BufTy).Contents (Elt F) → (⟨S2048x128, .f32⟩ : BufTy).Contents (Elt F)) ]

/-- The column means of the side array and, through the variance function, its column variances. -/
abbrev ops16 : List (HloOp τ sig (Elt F)) :=
  [ StableHlo.nullary main_cst_21 (constant S_ .f32 0x00000000#32),
    StableHlo.binary main_v135 main_cst_21 main_v136 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    StableHlo.nullary main_cst_22 (constant S_ .f32 0x45000000#32),
    StableHlo.unary main_cst_22 main_v137 (broadcastInDim S128 ![] bcast_S_S128 : (⟨S_, .f32⟩ : BufTy).Contents (Elt F) → (⟨S128, .f32⟩ : BufTy).Contents (Elt F)),
    StableHlo.binary main_v136 main_v137 main_v138 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32),
    StableHlo.TRef.nullary main_call4.cst (constant S_ .f32 0x00000000#32),
    StableHlo.TRef.binary (StableHlo.TRef.of main_v135 : StableHlo.TRef sig ⟨S2048x128, .f32⟩) main_call4.cst main_call4.v0 (fun x v => Host.reduceAdd x v reducesTo_S2048x128_S128_d0 h_S_),
    StableHlo.TRef.unary main_call4.v0 main_call4.v1 (broadcastInDim S1x128 ![1] bcast_S128_S1x128_1),
    StableHlo.TRef.nullary main_call4.cst_0 (constant S_ .f32 0x45000000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S2048x128 ![0, 1] bcast_S1x128_S2048x128_0_1),
    StableHlo.TRef.binary (StableHlo.TRef.of main_v135 : StableHlo.TRef sig ⟨S2048x128, .f32⟩) main_call4.v4 main_call4.v5 subf,
    StableHlo.TRef.binary main_call4.v5 main_call4.v5 main_call4.v6 mulf,
    StableHlo.TRef.unary (StableHlo.TRef.of main_c_23 : StableHlo.TRef sig ⟨S_, .i32⟩) main_call4.v7 (sitofp .f32),
    StableHlo.TRef.nullary main_call4.cst_1 (constant S_ .f32 0x45000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S2048x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- The side array's normalisation, affine map and activation. -/
abbrev ops17 : List (HloOp τ sig (Elt F)) :=
  [ StableHlo.unary main_v138 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S2048x128 ![0, 1] bcast_S1x128_S2048x128_0_1 : (⟨S1x128, .f32⟩ : BufTy).Contents (Elt F) → (⟨S2048x128, .f32⟩ : BufTy).Contents (Elt F)),
    StableHlo.binary main_v135 main_v141 main_v142 (subf : (⟨S2048x128, .f32⟩ : BufTy).Contents (Elt F) → (⟨S2048x128, .f32⟩ : BufTy).Contents (Elt F) → (⟨S2048x128, .f32⟩ : BufTy).Contents (Elt F)),
    StableHlo.nullary main_cst_24 (constant S_ .f32 0x3727C5AC#32),
    StableHlo.unary main_cst_24 main_v143 (broadcastInDim S128 ![] bcast_S_S128 : (⟨S_, .f32⟩ : BufTy).Contents (Elt F) → (⟨S128, .f32⟩ : BufTy).Contents (Elt F)),
    StableHlo.binary main_v139 main_v143 main_v144 (addf : (⟨S128, .f32⟩ : BufTy).Contents (Elt F) → (⟨S128, .f32⟩ : BufTy).Contents (Elt F) → (⟨S128, .f32⟩ : BufTy).Contents (Elt F)),
    StableHlo.unary main_v144 main_v145 (Host.rsqrt : (⟨S128, .f32⟩ : BufTy).Contents (Elt F) → (⟨S128, .f32⟩ : BufTy).Contents (Elt F)),
    StableHlo.unary main_v145 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S2048x128 ![0, 1] bcast_S1x128_S2048x128_0_1 : (⟨S1x128, .f32⟩ : BufTy).Contents (Elt F) → (⟨S2048x128, .f32⟩ : BufTy).Contents (Elt F)),
    StableHlo.binary main_v142 main_v147 main_v148 (mulf : (⟨S2048x128, .f32⟩ : BufTy).Contents (Elt F) → (⟨S2048x128, .f32⟩ : BufTy).Contents (Elt F) → (⟨S2048x128, .f32⟩ : BufTy).Contents (Elt F)),
    StableHlo.unary main_arg16 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S2048x128 ![0, 1] bcast_S1x128_S2048x128_0_1 : (⟨S1x128, .f32⟩ : BufTy).Contents (Elt F) → (⟨S2048x128, .f32⟩ : BufTy).Contents (Elt F)),
    StableHlo.binary main_v148 main_v150 main_v151 (mulf : (⟨S2048x128, .f32⟩ : BufTy).Contents (Elt F) → (⟨S2048x128, .f32⟩ : BufTy).Contents (Elt F) → (⟨S2048x128, .f32⟩ : BufTy).Contents (Elt F)),
    StableHlo.unary main_arg17 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S2048x128 ![0, 1] bcast_S1x128_S2048x128_0_1 : (⟨S1x128, .f32⟩ : BufTy).Contents (Elt F) → (⟨S2048x128, .f32⟩ : BufTy).Contents (Elt F)),
    StableHlo.binary main_v151 main_v153 main_v154 (addf : (⟨S2048x128, .f32⟩ : BufTy).Contents (Elt F) → (⟨S2048x128, .f32⟩ : BufTy).Contents (Elt F) → (⟨S2048x128, .f32⟩ : BufTy).Contents (Elt F)),
    StableHlo.TRef.unary (StableHlo.TRef.of main_v154 : StableHlo.TRef sig ⟨S2048x128, .f32⟩) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S2048x128 ![] bcast_S_S2048x128),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S2048x128 ![] bcast_S_S2048x128),
    StableHlo.TRef.binary main_call5.v4 main_call5.v3 main_call5.v5 Host.divf,
    StableHlo.TRef.binary (StableHlo.TRef.of main_v154 : StableHlo.TRef sig ⟨S2048x128, .f32⟩) main_call5.v5 main_call5.v6 mulf ]

/-- The side branch's second product with its weight matrix, plus its bias row. -/
abbrev ops18 : List (HloOp τ sig (Elt F)) :=
  [ StableHlo.binary main_v155 main_arg14 main_v156 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg15 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S2048x128 ![0, 1] bcast_S1x128_S2048x128_0_1 : (⟨S1x128, .f32⟩ : BufTy).Contents (Elt F) → (⟨S2048x128, .f32⟩ : BufTy).Contents (Elt F)),
    StableHlo.binary main_v156 main_v158 main_v159 (addf : (⟨S2048x128, .f32⟩ : BufTy).Contents (Elt F) → (⟨S2048x128, .f32⟩ : BufTy).Contents (Elt F) → (⟨S2048x128, .f32⟩ : BufTy).Contents (Elt F)) ]

/-- The activation of the side branch. -/
abbrev ops19 : List (HloOp τ sig (Elt F)) :=
  [ StableHlo.TRef.unary (StableHlo.TRef.of main_v159 : StableHlo.TRef sig ⟨S2048x128, .f32⟩) main_call6.v0 Host.negf,
    StableHlo.TRef.unary main_call6.v0 main_call6.v1 Host.exp,
    StableHlo.TRef.nullary main_call6.cst (constant S_ .f32 0x3F800000#32),
    StableHlo.TRef.unary main_call6.cst main_call6.v2 (broadcastInDim S2048x128 ![] bcast_S_S2048x128),
    StableHlo.TRef.binary main_call6.v2 main_call6.v1 main_call6.v3 addf,
    StableHlo.TRef.nullary main_call6.cst_0 (constant S_ .f32 0x3F800000#32),
    StableHlo.TRef.unary main_call6.cst_0 main_call6.v4 (broadcastInDim S2048x128 ![] bcast_S_S2048x128),
    StableHlo.TRef.binary main_call6.v4 main_call6.v3 main_call6.v5 Host.divf,
    StableHlo.TRef.binary (StableHlo.TRef.of main_v159 : StableHlo.TRef sig ⟨S2048x128, .f32⟩) main_call6.v5 main_call6.v6 mulf ]

/-- The pooled rows and the side branch placed side by side along the columns. -/
abbrev ops20 : List (HloOp τ sig (Elt F)) :=
  [ StableHlo.binary main_v131 main_v160 main_v161 ((fun a b => concatenate S2048x256 1 [⟨S2048x128, a⟩, ⟨S2048x128, b⟩] concatenates_S2048x128_S2048x128_S2048x256_d1) : (⟨S2048x128, .f32⟩ : BufTy).Contents (Elt F) → (⟨S2048x128, .f32⟩ : BufTy).Contents (Elt F) → (⟨S2048x256, .f32⟩ : BufTy).Contents (Elt F)) ]

/-- The head: three products with bias rows, an activation after each of the first two. -/
abbrev ops21 : List (HloOp τ sig (Elt F)) :=
  [ StableHlo.binary main_v161 main_arg18 main_v162 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    StableHlo.unary main_arg19 main_v163 (broadcastInDim S1x256 ![1] bcast_S256_S1x256_1 : (⟨S256, .f32⟩ : BufTy).Contents (Elt F) → (⟨S1x256, .f32⟩ : BufTy).Contents (Elt F)),
    StableHlo.unary main_v163 main_v164 (broadcastInDim S2048x256 ![0, 1] bcast_S1x256_S2048x256_0_1 : (⟨S1x256, .f32⟩ : BufTy).Contents (Elt F) → (⟨S2048x256, .f32⟩ : BufTy).Contents (Elt F)),
    StableHlo.binary main_v162 main_v164 main_v165 (addf : (⟨S2048x256, .f32⟩ : BufTy).Contents (Elt F) → (⟨S2048x256, .f32⟩ : BufTy).Contents (Elt F) → (⟨S2048x256, .f32⟩ : BufTy).Contents (Elt F)),
    StableHlo.TRef.unary (StableHlo.TRef.of main_v165 : StableHlo.TRef sig ⟨S2048x256, .f32⟩) main_call7.v0 Host.negf,
    StableHlo.TRef.unary main_call7.v0 main_call7.v1 Host.exp,
    StableHlo.TRef.nullary main_call7.cst (constant S_ .f32 0x3F800000#32),
    StableHlo.TRef.unary main_call7.cst main_call7.v2 (broadcastInDim S2048x256 ![] bcast_S_S2048x256),
    StableHlo.TRef.binary main_call7.v2 main_call7.v1 main_call7.v3 addf,
    StableHlo.TRef.nullary main_call7.cst_0 (constant S_ .f32 0x3F800000#32),
    StableHlo.TRef.unary main_call7.cst_0 main_call7.v4 (broadcastInDim S2048x256 ![] bcast_S_S2048x256),
    StableHlo.TRef.binary main_call7.v4 main_call7.v3 main_call7.v5 Host.divf,
    StableHlo.TRef.binary (StableHlo.TRef.of main_v165 : StableHlo.TRef sig ⟨S2048x256, .f32⟩) main_call7.v5 main_call7.v6 mulf,
    StableHlo.binary main_v166 main_arg20 main_v167 ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)),
    StableHlo.unary main_arg21 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S2048x128 ![0, 1] bcast_S1x128_S2048x128_0_1 : (⟨S1x128, .f32⟩ : BufTy).Contents (Elt F) → (⟨S2048x128, .f32⟩ : BufTy).Contents (Elt F)),
    StableHlo.binary main_v167 main_v169 main_v170 (addf : (⟨S2048x128, .f32⟩ : BufTy).Contents (Elt F) → (⟨S2048x128, .f32⟩ : BufTy).Contents (Elt F) → (⟨S2048x128, .f32⟩ : BufTy).Contents (Elt F)),
    StableHlo.TRef.unary (StableHlo.TRef.of main_v170 : StableHlo.TRef sig ⟨S2048x128, .f32⟩) main_call8.v0 Host.negf,
    StableHlo.TRef.unary main_call8.v0 main_call8.v1 Host.exp,
    StableHlo.TRef.nullary main_call8.cst (constant S_ .f32 0x3F800000#32),
    StableHlo.TRef.unary main_call8.cst main_call8.v2 (broadcastInDim S2048x128 ![] bcast_S_S2048x128),
    StableHlo.TRef.binary main_call8.v2 main_call8.v1 main_call8.v3 addf,
    StableHlo.TRef.nullary main_call8.cst_0 (constant S_ .f32 0x3F800000#32),
    StableHlo.TRef.unary main_call8.cst_0 main_call8.v4 (broadcastInDim S2048x128 ![] bcast_S_S2048x128),
    StableHlo.TRef.binary main_call8.v4 main_call8.v3 main_call8.v5 Host.divf,
    StableHlo.TRef.binary (StableHlo.TRef.of main_v170 : StableHlo.TRef sig ⟨S2048x128, .f32⟩) main_call8.v5 main_call8.v6 mulf,
    StableHlo.binary main_v171 main_arg22 main_v172 ((fun l r => Host.dotGeneral dot_S2048x128_S128x1_S2048x1_1_0_0_1_n_n none l r) : (⟨S2048x128, .f32⟩ : BufTy).Contents (Elt F) → (⟨S128x1, .f32⟩ : BufTy).Contents (Elt F) → (⟨S2048x1, .f32⟩ : BufTy).Contents (Elt F)),
    StableHlo.unary main_arg23 main_v173 (broadcastInDim S1x1 ![1] bcast_S1_S1x1_1 : (⟨S1, .f32⟩ : BufTy).Contents (Elt F) → (⟨S1x1, .f32⟩ : BufTy).Contents (Elt F)),
    StableHlo.unary main_v173 main_v174 (broadcastInDim S2048x1 ![0, 1] bcast_S1x1_S2048x1_0_1 : (⟨S1x1, .f32⟩ : BufTy).Contents (Elt F) → (⟨S2048x1, .f32⟩ : BufTy).Contents (Elt F)),
    StableHlo.binary main_v172 main_v174 main_v175 (addf : (⟨S2048x1, .f32⟩ : BufTy).Contents (Elt F) → (⟨S2048x1, .f32⟩ : BufTy).Contents (Elt F) → (⟨S2048x1, .f32⟩ : BufTy).Contents (Elt F)) ]

/-- The whole program: the pieces one after the other. -/
abbrev ops : List (HloOp τ sig (Elt F)) :=
  ops0 ++ ops1 ++ ops2 ++ ops3 ++ ops4 ++ ops5 ++ ops6 ++ ops7 ++ ops8 ++ ops9 ++ ops10 ++ ops11 ++ ops12 ++ ops13 ++ ops14 ++ ops15 ++ ops16 ++ ops17 ++ ops18 ++ ops19 ++ ops20 ++ ops21

end Cert.ReferenceIdeal.HandRun

end
-- ==== Proof.RefRun.lean ====
/-
  The reference program's run. The program's 301 operations (its nine calls standing for their callees' operations
  on the calls' own buffers) are the list `ops`, cut into 22 pieces. Here: @main is that list run in order; from any
  launch memory every fair execution terminates with each buffer at the fold of the operations over the launch
  contents; and no operation writes an argument, so every argument's buffer ends as launched.

  The list of pieces is a concatenation nested to the left; the same pieces nested to the right, `opsR`, is the
  equal list on which a recursion along the list meets one piece at a time. Every fact is proved for `opsR` and
  carried over along `ops = opsR`, which is associativity of concatenation.
-/
import proofs.«169641_j32169305047251_1_alg».proof.Proof.RefOps
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The pieces in order, the concatenation nested to the right. -/
abbrev opsR : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21)))))))))))))))))))))

/-- The two nestings are the same list: concatenation is associative. -/
theorem ops_eq : (ops : List (HloOp τ sig (Elt F))) = opsR := by
  simp only [ops, opsR, List.append_assoc]

/-! ## Every operation touches TensorCore buffers only, and determines what it writes -/

theorem ops0_sub : (ops0 : List (HloOp τ sig (Elt F))).Forall fun op => op.bufs ⊆ tcRefs τ sig :=
  ⟨unary_bufs_sub .., reshape_bufs_sub .., unary_bufs_sub .., reshape_bufs_sub .., nullary_bufs_sub ..,
   unary_bufs_sub .., nullary_bufs_sub .., unary_bufs_sub .., unary_bufs_sub .., ternary_bufs_sub ..,
   nullary_bufs_sub .., unary_bufs_sub .., binary_bufs_sub .., unary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl⟩

theorem ops1_sub : (ops1 : List (HloOp τ sig (Elt F))).Forall fun op => op.bufs ⊆ tcRefs τ sig :=
  binary_bufs_sub ..
theorem ops1_fresh : (ops1 : List (HloOp τ sig (Elt F))).Forall fun op => op.fresh = ∅ :=
  rfl

theorem ops2_sub : (ops2 : List (HloOp τ sig (Elt F))).Forall fun op => op.bufs ⊆ tcRefs τ sig :=
  ⟨nullary_bufs_sub .., unary_bufs_sub .., binary_bufs_sub .., nullary_bufs_sub .., unary_bufs_sub ..,
   binary_bufs_sub .., ternary_bufs_sub .., unary_bufs_sub .., binary_bufs_sub .., unary_bufs_sub ..,
   nullary_bufs_sub .., unary_bufs_sub .., binary_bufs_sub .., nullary_bufs_sub .., unary_bufs_sub ..,
   binary_bufs_sub .., ternary_bufs_sub .., unary_bufs_sub .., binary_bufs_sub .., unary_bufs_sub ..,
   binary_bufs_sub .., nullary_bufs_sub .., unary_bufs_sub .., unary_bufs_sub .., ternary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl⟩

theorem ops3_sub : (ops3 : List (HloOp τ sig (Elt F))).Forall fun op => op.bufs ⊆ tcRefs τ sig :=
  ⟨unary_bufs_sub .., unary_bufs_sub .., binary_bufs_sub .., binary_bufs_sub .., unary_bufs_sub ..,
   unary_bufs_sub .., binary_bufs_sub .., binary_bufs_sub .., unary_bufs_sub .., unary_bufs_sub ..,
   binary_bufs_sub ..⟩
theorem ops3_fresh : (ops3 : List (HloOp τ sig (Elt F))).Forall fun op => op.fresh = ∅ :=
  ⟨rfl, rfl, rfl, rfl, rfl, rfl, rfl, rfl, rfl, rfl, rfl⟩

theorem ops4_sub : (ops4 : List (HloOp τ sig (Elt F))).Forall fun op => op.bufs ⊆ tcRefs τ sig :=
  ⟨nullary_bufs_sub .., binary_bufs_sub .., nullary_bufs_sub .., unary_bufs_sub .., binary_bufs_sub ..,
   nullary_bufs_sub .., nullary_bufs_sub .., binary_bufs_sub .., unary_bufs_sub .., nullary_bufs_sub ..,
   unary_bufs_sub .., binary_bufs_sub .., unary_bufs_sub .., binary_bufs_sub .., binary_bufs_sub ..,
   unary_bufs_sub .., nullary_bufs_sub .., binary_bufs_sub .., nullary_bufs_sub .., binary_bufs_sub ..,
   unary_bufs_sub .., binary_bufs_sub .., nullary_bufs_sub .., binary_bufs_sub .., nullary_bufs_sub ..,
   unary_bufs_sub .., unary_bufs_sub .., ternary_bufs_sub ..⟩
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl⟩

theorem ops5_sub : (ops5 : List (HloOp τ sig (Elt F))).Forall fun op => op.bufs ⊆ tcRefs τ sig :=
  ⟨unary_bufs_sub .., unary_bufs_sub .., binary_bufs_sub .., nullary_bufs_sub .., unary_bufs_sub ..,
   binary_bufs_sub .., unary_bufs_sub .., unary_bufs_sub .., unary_bufs_sub .., binary_bufs_sub ..,
   unary_bufs_sub .., unary_bufs_sub .., binary_bufs_sub .., unary_bufs_sub .., unary_bufs_sub ..,
   binary_bufs_sub .., unary_bufs_sub .., unary_bufs_sub .., nullary_bufs_sub .., unary_bufs_sub ..,
   binary_bufs_sub .., nullary_bufs_sub .., unary_bufs_sub .., binary_bufs_sub .., binary_bufs_sub ..⟩
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl⟩

theorem ops6_sub : (ops6 : List (HloOp τ sig (Elt F))).Forall fun op => op.bufs ⊆ tcRefs τ sig :=
  binary_bufs_sub ..
theorem ops6_fresh : (ops6 : List (HloOp τ sig (Elt F))).Forall fun op => op.fresh = ∅ :=
  rfl

theorem ops7_sub : (ops7 : List (HloOp τ sig (Elt F))).Forall fun op => op.bufs ⊆ tcRefs τ sig :=
  ⟨nullary_bufs_sub .., unary_bufs_sub .., binary_bufs_sub .., nullary_bufs_sub .., unary_bufs_sub ..,
   binary_bufs_sub .., ternary_bufs_sub .., unary_bufs_sub .., binary_bufs_sub .., unary_bufs_sub ..,
   nullary_bufs_sub .., unary_bufs_sub .., binary_bufs_sub .., nullary_bufs_sub .., unary_bufs_sub ..,
   binary_bufs_sub .., ternary_bufs_sub .., unary_bufs_sub .., binary_bufs_sub .., unary_bufs_sub ..,
   binary_bufs_sub .., nullary_bufs_sub .., unary_bufs_sub .., unary_bufs_sub .., ternary_bufs_sub ..⟩
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl⟩

theorem ops8_sub : (ops8 : List (HloOp τ sig (Elt F))).Forall fun op => op.bufs ⊆ tcRefs τ sig :=
  ⟨unary_bufs_sub .., unary_bufs_sub .., binary_bufs_sub .., binary_bufs_sub .., unary_bufs_sub ..,
   unary_bufs_sub .., binary_bufs_sub .., binary_bufs_sub .., unary_bufs_sub .., unary_bufs_sub ..,
   binary_bufs_sub ..⟩
theorem ops8_fresh : (ops8 : List (HloOp τ sig (Elt F))).Forall fun op => op.fresh = ∅ :=
  ⟨rfl, rfl, rfl, rfl, rfl, rfl, rfl, rfl, rfl, rfl, rfl⟩

theorem ops9_sub : (ops9 : List (HloOp τ sig (Elt F))).Forall fun op => op.bufs ⊆ tcRefs τ sig :=
  ⟨unary_bufs_sub .., unary_bufs_sub .., nullary_bufs_sub .., unary_bufs_sub .., binary_bufs_sub ..,
   nullary_bufs_sub .., unary_bufs_sub .., binary_bufs_sub .., binary_bufs_sub ..⟩
theorem ops9_fresh : (ops9 : List (HloOp τ sig (Elt F))).Forall fun op => op.fresh = ∅ :=
  ⟨rfl, rfl, rfl, rfl, rfl, rfl, rfl, rfl, rfl⟩

theorem ops10_sub : (ops10 : List (HloOp τ sig (Elt F))).Forall fun op => op.bufs ⊆ tcRefs τ sig :=
  binary_bufs_sub ..
theorem ops10_fresh : (ops10 : List (HloOp τ sig (Elt F))).Forall fun op => op.fresh = ∅ :=
  rfl

theorem ops11_sub : (ops11 : List (HloOp τ sig (Elt F))).Forall fun op => op.bufs ⊆ tcRefs τ sig :=
  ⟨nullary_bufs_sub .., unary_bufs_sub .., binary_bufs_sub .., nullary_bufs_sub .., unary_bufs_sub ..,
   binary_bufs_sub .., ternary_bufs_sub .., unary_bufs_sub .., binary_bufs_sub .., unary_bufs_sub ..,
   nullary_bufs_sub .., unary_bufs_sub .., binary_bufs_sub .., nullary_bufs_sub .., unary_bufs_sub ..,
   binary_bufs_sub .., ternary_bufs_sub .., unary_bufs_sub .., binary_bufs_sub .., unary_bufs_sub ..,
   binary_bufs_sub .., nullary_bufs_sub .., unary_bufs_sub .., unary_bufs_sub .., ternary_bufs_sub ..⟩
theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl⟩

theorem ops12_sub : (ops12 : List (HloOp τ sig (Elt F))).Forall fun op => op.bufs ⊆ tcRefs τ sig :=
  ⟨unary_bufs_sub .., unary_bufs_sub .., binary_bufs_sub .., binary_bufs_sub .., unary_bufs_sub ..,
   unary_bufs_sub .., binary_bufs_sub .., binary_bufs_sub .., unary_bufs_sub .., unary_bufs_sub ..,
   binary_bufs_sub ..⟩
theorem ops12_fresh : (ops12 : List (HloOp τ sig (Elt F))).Forall fun op => op.fresh = ∅ :=
  ⟨rfl, rfl, rfl, rfl, rfl, rfl, rfl, rfl, rfl, rfl, rfl⟩

theorem ops13_sub : (ops13 : List (HloOp τ sig (Elt F))).Forall fun op => op.bufs ⊆ tcRefs τ sig :=
  ⟨unary_bufs_sub .., unary_bufs_sub .., nullary_bufs_sub .., unary_bufs_sub .., binary_bufs_sub ..,
   nullary_bufs_sub .., unary_bufs_sub .., binary_bufs_sub .., binary_bufs_sub ..⟩
theorem ops13_fresh : (ops13 : List (HloOp τ sig (Elt F))).Forall fun op => op.fresh = ∅ :=
  ⟨rfl, rfl, rfl, rfl, rfl, rfl, rfl, rfl, rfl⟩

theorem ops14_sub : (ops14 : List (HloOp τ sig (Elt F))).Forall fun op => op.bufs ⊆ tcRefs τ sig :=
  ⟨nullary_bufs_sub .., unary_bufs_sub .., unary_bufs_sub .., ternary_bufs_sub ..⟩
theorem ops14_fresh : (ops14 : List (HloOp τ sig (Elt F))).Forall fun op => op.fresh = ∅ :=
  ⟨rfl, rfl, rfl, rfl⟩

theorem ops15_sub : (ops15 : List (HloOp τ sig (Elt F))).Forall fun op => op.bufs ⊆ tcRefs τ sig :=
  ⟨binary_bufs_sub .., unary_bufs_sub .., unary_bufs_sub .., binary_bufs_sub ..⟩
theorem ops15_fresh : (ops15 : List (HloOp τ sig (Elt F))).Forall fun op => op.fresh = ∅ :=
  ⟨rfl, rfl, rfl, rfl⟩

theorem ops16_sub : (ops16 : List (HloOp τ sig (Elt F))).Forall fun op => op.bufs ⊆ tcRefs τ sig :=
  ⟨nullary_bufs_sub .., binary_bufs_sub .., nullary_bufs_sub .., unary_bufs_sub .., binary_bufs_sub ..,
   nullary_bufs_sub .., nullary_bufs_sub .., binary_bufs_sub .., unary_bufs_sub .., nullary_bufs_sub ..,
   unary_bufs_sub .., binary_bufs_sub .., unary_bufs_sub .., binary_bufs_sub .., binary_bufs_sub ..,
   unary_bufs_sub .., nullary_bufs_sub .., binary_bufs_sub .., nullary_bufs_sub .., binary_bufs_sub ..,
   unary_bufs_sub .., binary_bufs_sub .., nullary_bufs_sub .., binary_bufs_sub .., nullary_bufs_sub ..,
   unary_bufs_sub .., unary_bufs_sub .., ternary_bufs_sub ..⟩
theorem ops16_fresh : (ops16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl⟩

theorem ops17_sub : (ops17 : List (HloOp τ sig (Elt F))).Forall fun op => op.bufs ⊆ tcRefs τ sig :=
  ⟨unary_bufs_sub .., unary_bufs_sub .., binary_bufs_sub .., nullary_bufs_sub .., unary_bufs_sub ..,
   binary_bufs_sub .., unary_bufs_sub .., unary_bufs_sub .., unary_bufs_sub .., binary_bufs_sub ..,
   unary_bufs_sub .., unary_bufs_sub .., binary_bufs_sub .., unary_bufs_sub .., unary_bufs_sub ..,
   binary_bufs_sub .., unary_bufs_sub .., unary_bufs_sub .., nullary_bufs_sub .., unary_bufs_sub ..,
   binary_bufs_sub .., nullary_bufs_sub .., unary_bufs_sub .., binary_bufs_sub .., binary_bufs_sub ..⟩
theorem ops17_fresh : (ops17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl⟩

theorem ops18_sub : (ops18 : List (HloOp τ sig (Elt F))).Forall fun op => op.bufs ⊆ tcRefs τ sig :=
  ⟨binary_bufs_sub .., unary_bufs_sub .., unary_bufs_sub .., binary_bufs_sub ..⟩
theorem ops18_fresh : (ops18 : List (HloOp τ sig (Elt F))).Forall fun op => op.fresh = ∅ :=
  ⟨rfl, rfl, rfl, rfl⟩

theorem ops19_sub : (ops19 : List (HloOp τ sig (Elt F))).Forall fun op => op.bufs ⊆ tcRefs τ sig :=
  ⟨unary_bufs_sub .., unary_bufs_sub .., nullary_bufs_sub .., unary_bufs_sub .., binary_bufs_sub ..,
   nullary_bufs_sub .., unary_bufs_sub .., binary_bufs_sub .., binary_bufs_sub ..⟩
theorem ops19_fresh : (ops19 : List (HloOp τ sig (Elt F))).Forall fun op => op.fresh = ∅ :=
  ⟨rfl, rfl, rfl, rfl, rfl, rfl, rfl, rfl, rfl⟩

theorem ops20_sub : (ops20 : List (HloOp τ sig (Elt F))).Forall fun op => op.bufs ⊆ tcRefs τ sig :=
  binary_bufs_sub ..
theorem ops20_fresh : (ops20 : List (HloOp τ sig (Elt F))).Forall fun op => op.fresh = ∅ :=
  rfl

theorem ops21_sub : (ops21 : List (HloOp τ sig (Elt F))).Forall fun op => op.bufs ⊆ tcRefs τ sig :=
  ⟨binary_bufs_sub .., unary_bufs_sub .., unary_bufs_sub .., binary_bufs_sub .., unary_bufs_sub ..,
   unary_bufs_sub .., nullary_bufs_sub .., unary_bufs_sub .., binary_bufs_sub .., nullary_bufs_sub ..,
   unary_bufs_sub .., binary_bufs_sub .., binary_bufs_sub .., binary_bufs_sub .., unary_bufs_sub ..,
   unary_bufs_sub .., binary_bufs_sub .., unary_bufs_sub .., unary_bufs_sub .., nullary_bufs_sub ..,
   unary_bufs_sub .., binary_bufs_sub .., nullary_bufs_sub .., unary_bufs_sub .., binary_bufs_sub ..,
   binary_bufs_sub .., binary_bufs_sub .., unary_bufs_sub .., unary_bufs_sub .., binary_bufs_sub ..⟩
theorem ops21_fresh : (ops21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl⟩

/-- A property of every entry of two lists holds of every entry of the one followed by the other. -/
private theorem forall_app {α : Type} {p : α → Prop} {xs ys : List α} (hx : xs.Forall p) (hy : ys.Forall p) :
    (xs ++ ys).Forall p := List.forall_append.mpr ⟨hx, hy⟩

theorem opsR_sub : (opsR : List (HloOp τ sig (Elt F))).Forall fun op => op.bufs ⊆ tcRefs τ sig := by
  show List.Forall _ (ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21))))))))))))))))))))) : List (HloOp τ sig (Elt F)))
  refine forall_app ops0_sub ?_
  refine forall_app ops1_sub ?_
  refine forall_app ops2_sub ?_
  refine forall_app ops3_sub ?_
  refine forall_app ops4_sub ?_
  refine forall_app ops5_sub ?_
  refine forall_app ops6_sub ?_
  refine forall_app ops7_sub ?_
  refine forall_app ops8_sub ?_
  refine forall_app ops9_sub ?_
  refine forall_app ops10_sub ?_
  refine forall_app ops11_sub ?_
  refine forall_app ops12_sub ?_
  refine forall_app ops13_sub ?_
  refine forall_app ops14_sub ?_
  refine forall_app ops15_sub ?_
  refine forall_app ops16_sub ?_
  refine forall_app ops17_sub ?_
  refine forall_app ops18_sub ?_
  refine forall_app ops19_sub ?_
  refine forall_app ops20_sub ?_
  exact ops21_sub

theorem opsR_fresh_all : (opsR : List (HloOp τ sig (Elt F))).Forall fun op => op.fresh = ∅ := by
  show List.Forall _ (ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21))))))))))))))))))))) : List (HloOp τ sig (Elt F)))
  refine forall_app ops0_fresh ?_
  refine forall_app ops1_fresh ?_
  refine forall_app ops2_fresh ?_
  refine forall_app ops3_fresh ?_
  refine forall_app ops4_fresh ?_
  refine forall_app ops5_fresh ?_
  refine forall_app ops6_fresh ?_
  refine forall_app ops7_fresh ?_
  refine forall_app ops8_fresh ?_
  refine forall_app ops9_fresh ?_
  refine forall_app ops10_fresh ?_
  refine forall_app ops11_fresh ?_
  refine forall_app ops12_fresh ?_
  refine forall_app ops13_fresh ?_
  refine forall_app ops14_fresh ?_
  refine forall_app ops15_fresh ?_
  refine forall_app ops16_fresh ?_
  refine forall_app ops17_fresh ?_
  refine forall_app ops18_fresh ?_
  refine forall_app ops19_fresh ?_
  refine forall_app ops20_fresh ?_
  exact ops21_fresh

theorem opsR_fresh : ∀ op ∈ (opsR : List (HloOp τ sig (Elt F))), op.fresh = ∅ :=
  List.forall_iff_forall_mem.mp opsR_fresh_all

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-! ## @main is that list run in order

The program text comes in four consecutive windows; each window is the run of its own share of the list (a call
unfolds to its callee's operations over the call's buffers, and sequencing is reassociated), and the four
shares in order are the whole list. -/

/-- The operations of window 0. -/
abbrev part0Ops : List (HloOp τ sig (Elt F)) :=
  ops0 ++ (ops1 ++ (ops2 ++ (ops3 ++ (ops4 ++ (List.take 2 ops5)))))

/-- The operations of window 1. -/
abbrev part1Ops : List (HloOp τ sig (Elt F)) :=
  List.drop 2 ops5 ++ (ops6 ++ (ops7 ++ (ops8 ++ (ops9 ++ (ops10 ++ (List.take 6 ops11))))))

/-- The operations of window 2. -/
abbrev part2Ops : List (HloOp τ sig (Elt F)) :=
  List.drop 6 ops11 ++ (ops12 ++ (ops13 ++ (ops14 ++ (ops15 ++ (ops16 ++ (List.take 14 ops17))))))

/-- The operations of window 3. -/
abbrev part3Ops : List (HloOp τ sig (Elt F)) :=
  List.drop 14 ops17 ++ (ops18 ++ (ops19 ++ (ops20 ++ (ops21))))

set_option maxRecDepth 16384 in
set_option maxHeartbeats 4000000 in
theorem part0_eq (c : Dev nD) : main_part0 (F := F) c = seq part0Ops := by
  simp only [main_part0, fn_var.body, fn_where.body, List.cons_append, List.nil_append, List.take_succ_cons, List.take_zero,
    List.drop_succ_cons, List.drop_zero, seq, bind_assoc, pure_bind]
  rfl

set_option maxRecDepth 16384 in
set_option maxHeartbeats 4000000 in
theorem part1_eq (c : Dev nD) : main_part1 (F := F) c = seq part1Ops := by
  simp only [main_part1, fn_silu.body, List.cons_append, List.nil_append, List.take_succ_cons, List.take_zero,
    List.drop_succ_cons, List.drop_zero, seq, bind_assoc, pure_bind]
  rfl

set_option maxRecDepth 16384 in
set_option maxHeartbeats 4000000 in
theorem part2_eq (c : Dev nD) : main_part2 (F := F) c = seq part2Ops := by
  simp only [main_part2, fn_silu.body, fn_var_0.body, fn_where.body, List.cons_append, List.nil_append, List.take_succ_cons, List.take_zero,
    List.drop_succ_cons, List.drop_zero, seq, bind_assoc, pure_bind]
  rfl

set_option maxRecDepth 16384 in
set_option maxHeartbeats 4000000 in
theorem part3_eq (c : Dev nD) : main_part3 (F := F) c = seq part3Ops := by
  simp only [main_part3, fn_silu_1.body, fn_silu_2.body, List.cons_append, List.nil_append, List.take_succ_cons, List.take_zero,
    List.drop_succ_cons, List.drop_zero, seq, bind_assoc, pure_bind]
  rfl

/-- A list's first entries, then the rest of it, then more, is the list and then more. -/
private theorem take_drop_app {α : Type} (n : Nat) (l r : List α) : l.take n ++ (l.drop n ++ r) = l ++ r := by
  rw [← List.append_assoc, List.take_append_drop]

/-- The four shares in order are the whole list. -/
theorem opsR_split : (opsR : List (HloOp τ sig (Elt F))) = part0Ops ++ (part1Ops ++ (part2Ops ++ part3Ops)) := by
  simp only [opsR, part0Ops, part1Ops, part2Ops, part3Ops, List.append_assoc, take_drop_app]

theorem main_eqR (c : Dev nD) : main (F := F) c = seq opsR := by
  rw [opsR_split, seq_append part0Ops, seq_append part1Ops, seq_append part2Ops part3Ops,
    ← part0_eq c, ← part1_eq c, ← part2_eq c, ← part3_eq c]
  rfl

/-! ## The contents after the whole list, piece by piece -/

/-- The contents after one list followed by another are the contents after the second, starting from those after the first. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_opsR (V : Valuation τ sig (Elt F)) :
    after opsR V = after ops21 (after ops20 (after ops19 (after ops18 (after ops17 (after ops16 (after ops15 (after ops14 (after ops13 (after ops12 (after ops11 (after ops10 (after ops9 (after ops8 (after ops7 (after ops6 (after ops5 (after ops4 (after ops3 (after ops2 (after ops1 (after ops0 V))))))))))))))))))))) := by
  show after (ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21)))))))))))))))))))))) V = _
  rw [after_app ops0, after_app ops1, after_app ops2, after_app ops3, after_app ops4, after_app ops5, after_app ops6, after_app ops7, after_app ops8, after_app ops9, after_app ops10, after_app ops11, after_app ops12, after_app ops13, after_app ops14, after_app ops15, after_app ops16, after_app ops17, after_app ops18, after_app ops19, after_app ops20]

/-! ## No operation writes an argument

Each piece writes exactly the buffers listed beside it, one per operation; a buffer in none of the lists holds after
the whole program what it held before. -/

/-- An operation whose only written buffer is among a list's writes inside that list's buffers. -/
private theorem writes_sub_of_mem {op : HloOp τ sig (Elt F)} (y : Ref sig .tc) {W : List (Ref sig .tc)}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- The buffers piece 0 writes. -/
abbrev written0 : List (Ref sig .tc) :=
  [main_v0, main_v1, main_v2, main_v3, main_cst, main_v4, main_cst_0, main_v5, main_v6, main_v7, main_cst_1, main_v8,
   main_v9, main_v10]
theorem ops0_writes : (ops0 : List (HloOp τ sig (Elt F))).Forall fun op =>
    op.writes ⊆ (written0.map (Proc.devRef (τ := τ) .tc)).toFinset :=
  ⟨writes_sub_of_mem main_v0 rfl (by decide), writes_sub_of_mem main_v1 rfl (by decide),
   writes_sub_of_mem main_v2 rfl (by decide), writes_sub_of_mem main_v3 rfl (by decide),
   writes_sub_of_mem main_cst rfl (by decide), writes_sub_of_mem main_v4 rfl (by decide),
   writes_sub_of_mem main_cst_0 rfl (by decide), writes_sub_of_mem main_v5 rfl (by decide),
   writes_sub_of_mem main_v6 rfl (by decide), writes_sub_of_mem main_v7 rfl (by decide),
   writes_sub_of_mem main_cst_1 rfl (by decide), writes_sub_of_mem main_v8 rfl (by decide),
   writes_sub_of_mem main_v9 rfl (by decide), writes_sub_of_mem main_v10 rfl (by decide)⟩

/-- The buffers piece 1 writes. -/
abbrev written1 : List (Ref sig .tc) :=
  [main_v11]
theorem ops1_writes : (ops1 : List (HloOp τ sig (Elt F))).Forall fun op =>
    op.writes ⊆ (written1.map (Proc.devRef (τ := τ) .tc)).toFinset :=
  writes_sub_of_mem main_v11 rfl (by decide)

/-- The buffers piece 2 writes. -/
abbrev written2 : List (Ref sig .tc) :=
  [main_c, main_v12, main_v13, main_c_2, main_v14, main_v15, main_v16, main_v17, main_v18, main_v19, main_c_3,
   main_v20, main_v21, main_c_4, main_v22, main_v23, main_v24, main_v25, main_v26, main_v27, main_v28, main_cst_5,
   main_v29, main_v30, main_v31]
theorem ops2_writes : (ops2 : List (HloOp τ sig (Elt F))).Forall fun op =>
    op.writes ⊆ (written2.map (Proc.devRef (τ := τ) .tc)).toFinset :=
  ⟨writes_sub_of_mem main_c rfl (by decide), writes_sub_of_mem main_v12 rfl (by decide),
   writes_sub_of_mem main_v13 rfl (by decide), writes_sub_of_mem main_c_2 rfl (by decide),
   writes_sub_of_mem main_v14 rfl (by decide), writes_sub_of_mem main_v15 rfl (by decide),
   writes_sub_of_mem main_v16 rfl (by decide), writes_sub_of_mem main_v17 rfl (by decide),
   writes_sub_of_mem main_v18 rfl (by decide), writes_sub_of_mem main_v19 rfl (by decide),
   writes_sub_of_mem main_c_3 rfl (by decide), writes_sub_of_mem main_v20 rfl (by decide),
   writes_sub_of_mem main_v21 rfl (by decide), writes_sub_of_mem main_c_4 rfl (by decide),
   writes_sub_of_mem main_v22 rfl (by decide), writes_sub_of_mem main_v23 rfl (by decide),
   writes_sub_of_mem main_v24 rfl (by decide), writes_sub_of_mem main_v25 rfl (by decide),
   writes_sub_of_mem main_v26 rfl (by decide), writes_sub_of_mem main_v27 rfl (by decide),
   writes_sub_of_mem main_v28 rfl (by decide), writes_sub_of_mem main_cst_5 rfl (by decide),
   writes_sub_of_mem main_v29 rfl (by decide), writes_sub_of_mem main_v30 rfl (by decide),
   writes_sub_of_mem main_v31 rfl (by decide)⟩

/-- The buffers piece 3 writes. -/
abbrev written3 : List (Ref sig .tc) :=
  [main_v32, main_v33, main_v34, main_v35, main_v36, main_v37, main_v38, main_v39, main_v40, main_v41, main_v42]
theorem ops3_writes : (ops3 : List (HloOp τ sig (Elt F))).Forall fun op =>
    op.writes ⊆ (written3.map (Proc.devRef (τ := τ) .tc)).toFinset :=
  ⟨writes_sub_of_mem main_v32 rfl (by decide), writes_sub_of_mem main_v33 rfl (by decide),
   writes_sub_of_mem main_v34 rfl (by decide), writes_sub_of_mem main_v35 rfl (by decide),
   writes_sub_of_mem main_v36 rfl (by decide), writes_sub_of_mem main_v37 rfl (by decide),
   writes_sub_of_mem main_v38 rfl (by decide), writes_sub_of_mem main_v39 rfl (by decide),
   writes_sub_of_mem main_v40 rfl (by decide), writes_sub_of_mem main_v41 rfl (by decide),
   writes_sub_of_mem main_v42 rfl (by decide)⟩

/-- The buffers piece 4 writes. -/
abbrev written4 : List (Ref sig .tc) :=
  [main_cst_6, main_v43, main_cst_7, main_v44, main_v45, main_c_8, main_call0_cst, main_call0_v0, main_call0_v1,
   main_call0_cst_0, main_call0_v2, main_call0_v3, main_call0_v4, main_call0_v5, main_call0_v6, main_call0_v7,
   main_call0_cst_1, main_call0_v8, main_call0_cst_2, main_call0_v9, main_call0_v10, main_call0_v11,
   main_call0_cst_3, main_call0_v12, main_call0_cst_4, main_call0_call0_v0, main_call0_call0_v1, main_v46]
theorem ops4_writes : (ops4 : List (HloOp τ sig (Elt F))).Forall fun op =>
    op.writes ⊆ (written4.map (Proc.devRef (τ := τ) .tc)).toFinset :=
  ⟨writes_sub_of_mem main_cst_6 rfl (by decide), writes_sub_of_mem main_v43 rfl (by decide),
   writes_sub_of_mem main_cst_7 rfl (by decide), writes_sub_of_mem main_v44 rfl (by decide),
   writes_sub_of_mem main_v45 rfl (by decide), writes_sub_of_mem main_c_8 rfl (by decide),
   writes_sub_of_mem main_call0_cst rfl (by decide), writes_sub_of_mem main_call0_v0 rfl (by decide),
   writes_sub_of_mem main_call0_v1 rfl (by decide), writes_sub_of_mem main_call0_cst_0 rfl (by decide),
   writes_sub_of_mem main_call0_v2 rfl (by decide), writes_sub_of_mem main_call0_v3 rfl (by decide),
   writes_sub_of_mem main_call0_v4 rfl (by decide), writes_sub_of_mem main_call0_v5 rfl (by decide),
   writes_sub_of_mem main_call0_v6 rfl (by decide), writes_sub_of_mem main_call0_v7 rfl (by decide),
   writes_sub_of_mem main_call0_cst_1 rfl (by decide), writes_sub_of_mem main_call0_v8 rfl (by decide),
   writes_sub_of_mem main_call0_cst_2 rfl (by decide), writes_sub_of_mem main_call0_v9 rfl (by decide),
   writes_sub_of_mem main_call0_v10 rfl (by decide), writes_sub_of_mem main_call0_v11 rfl (by decide),
   writes_sub_of_mem main_call0_cst_3 rfl (by decide), writes_sub_of_mem main_call0_v12 rfl (by decide),
   writes_sub_of_mem main_call0_cst_4 rfl (by decide), writes_sub_of_mem main_call0_call0_v0 rfl (by decide),
   writes_sub_of_mem main_call0_call0_v1 rfl (by decide), writes_sub_of_mem main_v46 rfl (by decide)⟩

/-- The buffers piece 5 writes. -/
abbrev written5 : List (Ref sig .tc) :=
  [main_v47, main_v48, main_v49, main_cst_9, main_v50, main_v51, main_v52, main_v53, main_v54, main_v55, main_v56,
   main_v57, main_v58, main_v59, main_v60, main_v61, main_call1_v0, main_call1_v1, main_call1_cst, main_call1_v2,
   main_call1_v3, main_call1_cst_0, main_call1_v4, main_call1_v5, main_v62]
theorem ops5_writes : (ops5 : List (HloOp τ sig (Elt F))).Forall fun op =>
    op.writes ⊆ (written5.map (Proc.devRef (τ := τ) .tc)).toFinset :=
  ⟨writes_sub_of_mem main_v47 rfl (by decide), writes_sub_of_mem main_v48 rfl (by decide),
   writes_sub_of_mem main_v49 rfl (by decide), writes_sub_of_mem main_cst_9 rfl (by decide),
   writes_sub_of_mem main_v50 rfl (by decide), writes_sub_of_mem main_v51 rfl (by decide),
   writes_sub_of_mem main_v52 rfl (by decide), writes_sub_of_mem main_v53 rfl (by decide),
   writes_sub_of_mem main_v54 rfl (by decide), writes_sub_of_mem main_v55 rfl (by decide),
   writes_sub_of_mem main_v56 rfl (by decide), writes_sub_of_mem main_v57 rfl (by decide),
   writes_sub_of_mem main_v58 rfl (by decide), writes_sub_of_mem main_v59 rfl (by decide),
   writes_sub_of_mem main_v60 rfl (by decide), writes_sub_of_mem main_v61 rfl (by decide),
   writes_sub_of_mem main_call1_v0 rfl (by decide), writes_sub_of_mem main_call1_v1 rfl (by decide),
   writes_sub_of_mem main_call1_cst rfl (by decide), writes_sub_of_mem main_call1_v2 rfl (by decide),
   writes_sub_of_mem main_call1_v3 rfl (by decide), writes_sub_of_mem main_call1_cst_0 rfl (by decide),
   writes_sub_of_mem main_call1_v4 rfl (by decide), writes_sub_of_mem main_call1_v5 rfl (by decide),
   writes_sub_of_mem main_v62 rfl (by decide)⟩

/-- The buffers piece 6 writes. -/
abbrev written6 : List (Ref sig .tc) :=
  [main_v63]
theorem ops6_writes : (ops6 : List (HloOp τ sig (Elt F))).Forall fun op =>
    op.writes ⊆ (written6.map (Proc.devRef (τ := τ) .tc)).toFinset :=
  writes_sub_of_mem main_v63 rfl (by decide)

/-- The buffers piece 7 writes. -/
abbrev written7 : List (Ref sig .tc) :=
  [main_c_10, main_v64, main_v65, main_c_11, main_v66, main_v67, main_v68, main_v69, main_v70, main_v71, main_c_12,
   main_v72, main_v73, main_c_13, main_v74, main_v75, main_v76, main_v77, main_v78, main_v79, main_v80, main_cst_14,
   main_v81, main_v82, main_v83]
theorem ops7_writes : (ops7 : List (HloOp τ sig (Elt F))).Forall fun op =>
    op.writes ⊆ (written7.map (Proc.devRef (τ := τ) .tc)).toFinset :=
  ⟨writes_sub_of_mem main_c_10 rfl (by decide), writes_sub_of_mem main_v64 rfl (by decide),
   writes_sub_of_mem main_v65 rfl (by decide), writes_sub_of_mem main_c_11 rfl (by decide),
   writes_sub_of_mem main_v66 rfl (by decide), writes_sub_of_mem main_v67 rfl (by decide),
   writes_sub_of_mem main_v68 rfl (by decide), writes_sub_of_mem main_v69 rfl (by decide),
   writes_sub_of_mem main_v70 rfl (by decide), writes_sub_of_mem main_v71 rfl (by decide),
   writes_sub_of_mem main_c_12 rfl (by decide), writes_sub_of_mem main_v72 rfl (by decide),
   writes_sub_of_mem main_v73 rfl (by decide), writes_sub_of_mem main_c_13 rfl (by decide),
   writes_sub_of_mem main_v74 rfl (by decide), writes_sub_of_mem main_v75 rfl (by decide),
   writes_sub_of_mem main_v76 rfl (by decide), writes_sub_of_mem main_v77 rfl (by decide),
   writes_sub_of_mem main_v78 rfl (by decide), writes_sub_of_mem main_v79 rfl (by decide),
   writes_sub_of_mem main_v80 rfl (by decide), writes_sub_of_mem main_cst_14 rfl (by decide),
   writes_sub_of_mem main_v81 rfl (by decide), writes_sub_of_mem main_v82 rfl (by decide),
   writes_sub_of_mem main_v83 rfl (by decide)⟩

/-- The buffers piece 8 writes. -/
abbrev written8 : List (Ref sig .tc) :=
  [main_v84, main_v85, main_v86, main_v87, main_v88, main_v89, main_v90, main_v91, main_v92, main_v93, main_v94]
theorem ops8_writes : (ops8 : List (HloOp τ sig (Elt F))).Forall fun op =>
    op.writes ⊆ (written8.map (Proc.devRef (τ := τ) .tc)).toFinset :=
  ⟨writes_sub_of_mem main_v84 rfl (by decide), writes_sub_of_mem main_v85 rfl (by decide),
   writes_sub_of_mem main_v86 rfl (by decide), writes_sub_of_mem main_v87 rfl (by decide),
   writes_sub_of_mem main_v88 rfl (by decide), writes_sub_of_mem main_v89 rfl (by decide),
   writes_sub_of_mem main_v90 rfl (by decide), writes_sub_of_mem main_v91 rfl (by decide),
   writes_sub_of_mem main_v92 rfl (by decide), writes_sub_of_mem main_v93 rfl (by decide),
   writes_sub_of_mem main_v94 rfl (by decide)⟩

/-- The buffers piece 9 writes. -/
abbrev written9 : List (Ref sig .tc) :=
  [main_call2_v0, main_call2_v1, main_call2_cst, main_call2_v2, main_call2_v3, main_call2_cst_0, main_call2_v4,
   main_call2_v5, main_v95]
theorem ops9_writes : (ops9 : List (HloOp τ sig (Elt F))).Forall fun op =>
    op.writes ⊆ (written9.map (Proc.devRef (τ := τ) .tc)).toFinset :=
  ⟨writes_sub_of_mem main_call2_v0 rfl (by decide), writes_sub_of_mem main_call2_v1 rfl (by decide),
   writes_sub_of_mem main_call2_cst rfl (by decide), writes_sub_of_mem main_call2_v2 rfl (by decide),
   writes_sub_of_mem main_call2_v3 rfl (by decide), writes_sub_of_mem main_call2_cst_0 rfl (by decide),
   writes_sub_of_mem main_call2_v4 rfl (by decide), writes_sub_of_mem main_call2_v5 rfl (by decide),
   writes_sub_of_mem main_v95 rfl (by decide)⟩

/-- The buffers piece 10 writes. -/
abbrev written10 : List (Ref sig .tc) :=
  [main_v96]
theorem ops10_writes : (ops10 : List (HloOp τ sig (Elt F))).Forall fun op =>
    op.writes ⊆ (written10.map (Proc.devRef (τ := τ) .tc)).toFinset :=
  writes_sub_of_mem main_v96 rfl (by decide)

/-- The buffers piece 11 writes. -/
abbrev written11 : List (Ref sig .tc) :=
  [main_c_15, main_v97, main_v98, main_c_16, main_v99, main_v100, main_v101, main_v102, main_v103, main_v104,
   main_c_17, main_v105, main_v106, main_c_18, main_v107, main_v108, main_v109, main_v110, main_v111, main_v112,
   main_v113, main_cst_19, main_v114, main_v115, main_v116]
theorem ops11_writes : (ops11 : List (HloOp τ sig (Elt F))).Forall fun op =>
    op.writes ⊆ (written11.map (Proc.devRef (τ := τ) .tc)).toFinset :=
  ⟨writes_sub_of_mem main_c_15 rfl (by decide), writes_sub_of_mem main_v97 rfl (by decide),
   writes_sub_of_mem main_v98 rfl (by decide), writes_sub_of_mem main_c_16 rfl (by decide),
   writes_sub_of_mem main_v99 rfl (by decide), writes_sub_of_mem main_v100 rfl (by decide),
   writes_sub_of_mem main_v101 rfl (by decide), writes_sub_of_mem main_v102 rfl (by decide),
   writes_sub_of_mem main_v103 rfl (by decide), writes_sub_of_mem main_v104 rfl (by decide),
   writes_sub_of_mem main_c_17 rfl (by decide), writes_sub_of_mem main_v105 rfl (by decide),
   writes_sub_of_mem main_v106 rfl (by decide), writes_sub_of_mem main_c_18 rfl (by decide),
   writes_sub_of_mem main_v107 rfl (by decide), writes_sub_of_mem main_v108 rfl (by decide),
   writes_sub_of_mem main_v109 rfl (by decide), writes_sub_of_mem main_v110 rfl (by decide),
   writes_sub_of_mem main_v111 rfl (by decide), writes_sub_of_mem main_v112 rfl (by decide),
   writes_sub_of_mem main_v113 rfl (by decide), writes_sub_of_mem main_cst_19 rfl (by decide),
   writes_sub_of_mem main_v114 rfl (by decide), writes_sub_of_mem main_v115 rfl (by decide),
   writes_sub_of_mem main_v116 rfl (by decide)⟩

/-- The buffers piece 12 writes. -/
abbrev written12 : List (Ref sig .tc) :=
  [main_v117, main_v118, main_v119, main_v120, main_v121, main_v122, main_v123, main_v124, main_v125, main_v126,
   main_v127]
theorem ops12_writes : (ops12 : List (HloOp τ sig (Elt F))).Forall fun op =>
    op.writes ⊆ (written12.map (Proc.devRef (τ := τ) .tc)).toFinset :=
  ⟨writes_sub_of_mem main_v117 rfl (by decide), writes_sub_of_mem main_v118 rfl (by decide),
   writes_sub_of_mem main_v119 rfl (by decide), writes_sub_of_mem main_v120 rfl (by decide),
   writes_sub_of_mem main_v121 rfl (by decide), writes_sub_of_mem main_v122 rfl (by decide),
   writes_sub_of_mem main_v123 rfl (by decide), writes_sub_of_mem main_v124 rfl (by decide),
   writes_sub_of_mem main_v125 rfl (by decide), writes_sub_of_mem main_v126 rfl (by decide),
   writes_sub_of_mem main_v127 rfl (by decide)⟩

/-- The buffers piece 13 writes. -/
abbrev written13 : List (Ref sig .tc) :=
  [main_call3_v0, main_call3_v1, main_call3_cst, main_call3_v2, main_call3_v3, main_call3_cst_0, main_call3_v4,
   main_call3_v5, main_v128]
theorem ops13_writes : (ops13 : List (HloOp τ sig (Elt F))).Forall fun op =>
    op.writes ⊆ (written13.map (Proc.devRef (τ := τ) .tc)).toFinset :=
  ⟨writes_sub_of_mem main_call3_v0 rfl (by decide), writes_sub_of_mem main_call3_v1 rfl (by decide),
   writes_sub_of_mem main_call3_cst rfl (by decide), writes_sub_of_mem main_call3_v2 rfl (by decide),
   writes_sub_of_mem main_call3_v3 rfl (by decide), writes_sub_of_mem main_call3_cst_0 rfl (by decide),
   writes_sub_of_mem main_call3_v4 rfl (by decide), writes_sub_of_mem main_call3_v5 rfl (by decide),
   writes_sub_of_mem main_v128 rfl (by decide)⟩

/-- The buffers piece 14 writes. -/
abbrev written14 : List (Ref sig .tc) :=
  [main_cst_20, main_v129, main_v130, main_v131]
theorem ops14_writes : (ops14 : List (HloOp τ sig (Elt F))).Forall fun op =>
    op.writes ⊆ (written14.map (Proc.devRef (τ := τ) .tc)).toFinset :=
  ⟨writes_sub_of_mem main_cst_20 rfl (by decide), writes_sub_of_mem main_v129 rfl (by decide),
   writes_sub_of_mem main_v130 rfl (by decide), writes_sub_of_mem main_v131 rfl (by decide)⟩

/-- The buffers piece 15 writes. -/
abbrev written15 : List (Ref sig .tc) :=
  [main_v132, main_v133, main_v134, main_v135]
theorem ops15_writes : (ops15 : List (HloOp τ sig (Elt F))).Forall fun op =>
    op.writes ⊆ (written15.map (Proc.devRef (τ := τ) .tc)).toFinset :=
  ⟨writes_sub_of_mem main_v132 rfl (by decide), writes_sub_of_mem main_v133 rfl (by decide),
   writes_sub_of_mem main_v134 rfl (by decide), writes_sub_of_mem main_v135 rfl (by decide)⟩

/-- The buffers piece 16 writes. -/
abbrev written16 : List (Ref sig .tc) :=
  [main_cst_21, main_v136, main_cst_22, main_v137, main_v138, main_c_23, main_call4_cst, main_call4_v0,
   main_call4_v1, main_call4_cst_0, main_call4_v2, main_call4_v3, main_call4_v4, main_call4_v5, main_call4_v6,
   main_call4_v7, main_call4_cst_1, main_call4_v8, main_call4_cst_2, main_call4_v9, main_call4_v10, main_call4_v11,
   main_call4_cst_3, main_call4_v12, main_call4_cst_4, main_call4_call0_v0, main_call4_call0_v1, main_v139]
theorem ops16_writes : (ops16 : List (HloOp τ sig (Elt F))).Forall fun op =>
    op.writes ⊆ (written16.map (Proc.devRef (τ := τ) .tc)).toFinset :=
  ⟨writes_sub_of_mem main_cst_21 rfl (by decide), writes_sub_of_mem main_v136 rfl (by decide),
   writes_sub_of_mem main_cst_22 rfl (by decide), writes_sub_of_mem main_v137 rfl (by decide),
   writes_sub_of_mem main_v138 rfl (by decide), writes_sub_of_mem main_c_23 rfl (by decide),
   writes_sub_of_mem main_call4_cst rfl (by decide), writes_sub_of_mem main_call4_v0 rfl (by decide),
   writes_sub_of_mem main_call4_v1 rfl (by decide), writes_sub_of_mem main_call4_cst_0 rfl (by decide),
   writes_sub_of_mem main_call4_v2 rfl (by decide), writes_sub_of_mem main_call4_v3 rfl (by decide),
   writes_sub_of_mem main_call4_v4 rfl (by decide), writes_sub_of_mem main_call4_v5 rfl (by decide),
   writes_sub_of_mem main_call4_v6 rfl (by decide), writes_sub_of_mem main_call4_v7 rfl (by decide),
   writes_sub_of_mem main_call4_cst_1 rfl (by decide), writes_sub_of_mem main_call4_v8 rfl (by decide),
   writes_sub_of_mem main_call4_cst_2 rfl (by decide), writes_sub_of_mem main_call4_v9 rfl (by decide),
   writes_sub_of_mem main_call4_v10 rfl (by decide), writes_sub_of_mem main_call4_v11 rfl (by decide),
   writes_sub_of_mem main_call4_cst_3 rfl (by decide), writes_sub_of_mem main_call4_v12 rfl (by decide),
   writes_sub_of_mem main_call4_cst_4 rfl (by decide), writes_sub_of_mem main_call4_call0_v0 rfl (by decide),
   writes_sub_of_mem main_call4_call0_v1 rfl (by decide), writes_sub_of_mem main_v139 rfl (by decide)⟩

/-- The buffers piece 17 writes. -/
abbrev written17 : List (Ref sig .tc) :=
  [main_v140, main_v141, main_v142, main_cst_24, main_v143, main_v144, main_v145, main_v146, main_v147, main_v148,
   main_v149, main_v150, main_v151, main_v152, main_v153, main_v154, main_call5_v0, main_call5_v1, main_call5_cst,
   main_call5_v2, main_call5_v3, main_call5_cst_0, main_call5_v4, main_call5_v5, main_v155]
theorem ops17_writes : (ops17 : List (HloOp τ sig (Elt F))).Forall fun op =>
    op.writes ⊆ (written17.map (Proc.devRef (τ := τ) .tc)).toFinset :=
  ⟨writes_sub_of_mem main_v140 rfl (by decide), writes_sub_of_mem main_v141 rfl (by decide),
   writes_sub_of_mem main_v142 rfl (by decide), writes_sub_of_mem main_cst_24 rfl (by decide),
   writes_sub_of_mem main_v143 rfl (by decide), writes_sub_of_mem main_v144 rfl (by decide),
   writes_sub_of_mem main_v145 rfl (by decide), writes_sub_of_mem main_v146 rfl (by decide),
   writes_sub_of_mem main_v147 rfl (by decide), writes_sub_of_mem main_v148 rfl (by decide),
   writes_sub_of_mem main_v149 rfl (by decide), writes_sub_of_mem main_v150 rfl (by decide),
   writes_sub_of_mem main_v151 rfl (by decide), writes_sub_of_mem main_v152 rfl (by decide),
   writes_sub_of_mem main_v153 rfl (by decide), writes_sub_of_mem main_v154 rfl (by decide),
   writes_sub_of_mem main_call5_v0 rfl (by decide), writes_sub_of_mem main_call5_v1 rfl (by decide),
   writes_sub_of_mem main_call5_cst rfl (by decide), writes_sub_of_mem main_call5_v2 rfl (by decide),
   writes_sub_of_mem main_call5_v3 rfl (by decide), writes_sub_of_mem main_call5_cst_0 rfl (by decide),
   writes_sub_of_mem main_call5_v4 rfl (by decide), writes_sub_of_mem main_call5_v5 rfl (by decide),
   writes_sub_of_mem main_v155 rfl (by decide)⟩

/-- The buffers piece 18 writes. -/
abbrev written18 : List (Ref sig .tc) :=
  [main_v156, main_v157, main_v158, main_v159]
theorem ops18_writes : (ops18 : List (HloOp τ sig (Elt F))).Forall fun op =>
    op.writes ⊆ (written18.map (Proc.devRef (τ := τ) .tc)).toFinset :=
  ⟨writes_sub_of_mem main_v156 rfl (by decide), writes_sub_of_mem main_v157 rfl (by decide),
   writes_sub_of_mem main_v158 rfl (by decide), writes_sub_of_mem main_v159 rfl (by decide)⟩

/-- The buffers piece 19 writes. -/
abbrev written19 : List (Ref sig .tc) :=
  [main_call6_v0, main_call6_v1, main_call6_cst, main_call6_v2, main_call6_v3, main_call6_cst_0, main_call6_v4,
   main_call6_v5, main_v160]
theorem ops19_writes : (ops19 : List (HloOp τ sig (Elt F))).Forall fun op =>
    op.writes ⊆ (written19.map (Proc.devRef (τ := τ) .tc)).toFinset :=
  ⟨writes_sub_of_mem main_call6_v0 rfl (by decide), writes_sub_of_mem main_call6_v1 rfl (by decide),
   writes_sub_of_mem main_call6_cst rfl (by decide), writes_sub_of_mem main_call6_v2 rfl (by decide),
   writes_sub_of_mem main_call6_v3 rfl (by decide), writes_sub_of_mem main_call6_cst_0 rfl (by decide),
   writes_sub_of_mem main_call6_v4 rfl (by decide), writes_sub_of_mem main_call6_v5 rfl (by decide),
   writes_sub_of_mem main_v160 rfl (by decide)⟩

/-- The buffers piece 20 writes. -/
abbrev written20 : List (Ref sig .tc) :=
  [main_v161]
theorem ops20_writes : (ops20 : List (HloOp τ sig (Elt F))).Forall fun op =>
    op.writes ⊆ (written20.map (Proc.devRef (τ := τ) .tc)).toFinset :=
  writes_sub_of_mem main_v161 rfl (by decide)

/-- The buffers piece 21 writes. -/
abbrev written21 : List (Ref sig .tc) :=
  [main_v162, main_v163, main_v164, main_v165, main_call7_v0, main_call7_v1, main_call7_cst, main_call7_v2,
   main_call7_v3, main_call7_cst_0, main_call7_v4, main_call7_v5, main_v166, main_v167, main_v168, main_v169,
   main_v170, main_call8_v0, main_call8_v1, main_call8_cst, main_call8_v2, main_call8_v3, main_call8_cst_0,
   main_call8_v4, main_call8_v5, main_v171, main_v172, main_v173, main_v174, main_v175]
theorem ops21_writes : (ops21 : List (HloOp τ sig (Elt F))).Forall fun op =>
    op.writes ⊆ (written21.map (Proc.devRef (τ := τ) .tc)).toFinset :=
  ⟨writes_sub_of_mem main_v162 rfl (by decide), writes_sub_of_mem main_v163 rfl (by decide),
   writes_sub_of_mem main_v164 rfl (by decide), writes_sub_of_mem main_v165 rfl (by decide),
   writes_sub_of_mem main_call7_v0 rfl (by decide), writes_sub_of_mem main_call7_v1 rfl (by decide),
   writes_sub_of_mem main_call7_cst rfl (by decide), writes_sub_of_mem main_call7_v2 rfl (by decide),
   writes_sub_of_mem main_call7_v3 rfl (by decide), writes_sub_of_mem main_call7_cst_0 rfl (by decide),
   writes_sub_of_mem main_call7_v4 rfl (by decide), writes_sub_of_mem main_call7_v5 rfl (by decide),
   writes_sub_of_mem main_v166 rfl (by decide), writes_sub_of_mem main_v167 rfl (by decide),
   writes_sub_of_mem main_v168 rfl (by decide), writes_sub_of_mem main_v169 rfl (by decide),
   writes_sub_of_mem main_v170 rfl (by decide), writes_sub_of_mem main_call8_v0 rfl (by decide),
   writes_sub_of_mem main_call8_v1 rfl (by decide), writes_sub_of_mem main_call8_cst rfl (by decide),
   writes_sub_of_mem main_call8_v2 rfl (by decide), writes_sub_of_mem main_call8_v3 rfl (by decide),
   writes_sub_of_mem main_call8_cst_0 rfl (by decide), writes_sub_of_mem main_call8_v4 rfl (by decide),
   writes_sub_of_mem main_call8_v5 rfl (by decide), writes_sub_of_mem main_v171 rfl (by decide),
   writes_sub_of_mem main_v172 rfl (by decide), writes_sub_of_mem main_v173 rfl (by decide),
   writes_sub_of_mem main_v174 rfl (by decide), writes_sub_of_mem main_v175 rfl (by decide)⟩

/-- A buffer that no piece writes ends as it began. -/
theorem keptR {r : Ref sig .tc}
    (h0 : r ∉ written0) (h1 : r ∉ written1) (h2 : r ∉ written2) (h3 : r ∉ written3) (h4 : r ∉ written4)
    (h5 : r ∉ written5) (h6 : r ∉ written6) (h7 : r ∉ written7) (h8 : r ∉ written8) (h9 : r ∉ written9)
    (h10 : r ∉ written10) (h11 : r ∉ written11) (h12 : r ∉ written12) (h13 : r ∉ written13) (h14 : r ∉ written14)
    (h15 : r ∉ written15) (h16 : r ∉ written16) (h17 : r ∉ written17) (h18 : r ∉ written18) (h19 : r ∉ written19)
    (h20 : r ∉ written20) (h21 : r ∉ written21)
    (V : Valuation τ sig (Elt F)) : after opsR V (Proc.devRef .tc r) = V (Proc.devRef .tc r) := by
  rw [after_opsR,
    after_of_writes_sub ops21 _ ops21_writes h21,
    after_of_writes_sub ops20 _ ops20_writes h20,
    after_of_writes_sub ops19 _ ops19_writes h19,
    after_of_writes_sub ops18 _ ops18_writes h18,
    after_of_writes_sub ops17 _ ops17_writes h17,
    after_of_writes_sub ops16 _ ops16_writes h16,
    after_of_writes_sub ops15 _ ops15_writes h15,
    after_of_writes_sub ops14 _ ops14_writes h14,
    after_of_writes_sub ops13 _ ops13_writes h13,
    after_of_writes_sub ops12 _ ops12_writes h12,
    after_of_writes_sub ops11 _ ops11_writes h11,
    after_of_writes_sub ops10 _ ops10_writes h10,
    after_of_writes_sub ops9 _ ops9_writes h9,
    after_of_writes_sub ops8 _ ops8_writes h8,
    after_of_writes_sub ops7 _ ops7_writes h7,
    after_of_writes_sub ops6 _ ops6_writes h6,
    after_of_writes_sub ops5 _ ops5_writes h5,
    after_of_writes_sub ops4 _ ops4_writes h4,
    after_of_writes_sub ops3 _ ops3_writes h3,
    after_of_writes_sub ops2 _ ops2_writes h2,
    after_of_writes_sub ops1 _ ops1_writes h1,
    after_of_writes_sub ops0 _ ops0_writes h0]

theorem kept_main_arg0 (V : Valuation τ sig (Elt F)) :
    StableHlo.after ops V (Proc.devRef .tc main_arg0) = V (Proc.devRef .tc main_arg0) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg1 (V : Valuation τ sig (Elt F)) :
    StableHlo.after ops V (Proc.devRef .tc main_arg1) = V (Proc.devRef .tc main_arg1) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg2 (V : Valuation τ sig (Elt F)) :
    StableHlo.after ops V (Proc.devRef .tc main_arg2) = V (Proc.devRef .tc main_arg2) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg3 (V : Valuation τ sig (Elt F)) :
    StableHlo.after ops V (Proc.devRef .tc main_arg3) = V (Proc.devRef .tc main_arg3) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg4 (V : Valuation τ sig (Elt F)) :
    StableHlo.after ops V (Proc.devRef .tc main_arg4) = V (Proc.devRef .tc main_arg4) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg5 (V : Valuation τ sig (Elt F)) :
    StableHlo.after ops V (Proc.devRef .tc main_arg5) = V (Proc.devRef .tc main_arg5) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg6 (V : Valuation τ sig (Elt F)) :
    StableHlo.after ops V (Proc.devRef .tc main_arg6) = V (Proc.devRef .tc main_arg6) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg7 (V : Valuation τ sig (Elt F)) :
    StableHlo.after ops V (Proc.devRef .tc main_arg7) = V (Proc.devRef .tc main_arg7) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg8 (V : Valuation τ sig (Elt F)) :
    StableHlo.after ops V (Proc.devRef .tc main_arg8) = V (Proc.devRef .tc main_arg8) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg9 (V : Valuation τ sig (Elt F)) :
    StableHlo.after ops V (Proc.devRef .tc main_arg9) = V (Proc.devRef .tc main_arg9) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg10 (V : Valuation τ sig (Elt F)) :
    StableHlo.after ops V (Proc.devRef .tc main_arg10) = V (Proc.devRef .tc main_arg10) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg11 (V : Valuation τ sig (Elt F)) :
    StableHlo.after ops V (Proc.devRef .tc main_arg11) = V (Proc.devRef .tc main_arg11) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg12 (V : Valuation τ sig (Elt F)) :
    StableHlo.after ops V (Proc.devRef .tc main_arg12) = V (Proc.devRef .tc main_arg12) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg13 (V : Valuation τ sig (Elt F)) :
    StableHlo.after ops V (Proc.devRef .tc main_arg13) = V (Proc.devRef .tc main_arg13) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg14 (V : Valuation τ sig (Elt F)) :
    StableHlo.after ops V (Proc.devRef .tc main_arg14) = V (Proc.devRef .tc main_arg14) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg15 (V : Valuation τ sig (Elt F)) :
    StableHlo.after ops V (Proc.devRef .tc main_arg15) = V (Proc.devRef .tc main_arg15) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg16 (V : Valuation τ sig (Elt F)) :
    StableHlo.after ops V (Proc.devRef .tc main_arg16) = V (Proc.devRef .tc main_arg16) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg17 (V : Valuation τ sig (Elt F)) :
    StableHlo.after ops V (Proc.devRef .tc main_arg17) = V (Proc.devRef .tc main_arg17) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg18 (V : Valuation τ sig (Elt F)) :
    StableHlo.after ops V (Proc.devRef .tc main_arg18) = V (Proc.devRef .tc main_arg18) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg19 (V : Valuation τ sig (Elt F)) :
    StableHlo.after ops V (Proc.devRef .tc main_arg19) = V (Proc.devRef .tc main_arg19) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg20 (V : Valuation τ sig (Elt F)) :
    StableHlo.after ops V (Proc.devRef .tc main_arg20) = V (Proc.devRef .tc main_arg20) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg21 (V : Valuation τ sig (Elt F)) :
    StableHlo.after ops V (Proc.devRef .tc main_arg21) = V (Proc.devRef .tc main_arg21) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg22 (V : Valuation τ sig (Elt F)) :
    StableHlo.after ops V (Proc.devRef .tc main_arg22) = V (Proc.devRef .tc main_arg22) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

theorem kept_main_arg23 (V : Valuation τ sig (Elt F)) :
    StableHlo.after ops V (Proc.devRef .tc main_arg23) = V (Proc.devRef .tc main_arg23) := by
  rw [ops_eq]
  exact keptR (by decide) (by decide) (by decide) (by decide) (by decide) (by decide) (by decide) (by decide) (by decide) (by decide) (by decide) (by decide) (by decide) (by decide) (by decide) (by decide) (by decide) (by decide) (by decide) (by decide) (by decide) (by decide) V

/-! ## The run -/

theorem run_rawR (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after opsR (StableHlo.launchContents m c) (Proc.devRef .tc b) :=
  run_seq scopedRefs_eq scopedSems_eq defs main (fun _ => opsR) main_eqR (fun _ => opsR_sub) m ρ (fun _ => opsR_fresh)

/-! ## The same facts over `ops` -/

/-- @main is the list of operations run in order. -/
theorem main_eq (c : Dev nD) : main (F := F) c = seq ops := by
  rw [ops_eq]
  exact main_eqR c

/-- Every operation touches TensorCore buffers only. -/
theorem ops_sub : ∀ op ∈ (ops : List (HloOp τ sig (Elt F))), op.bufs ⊆ tcRefs τ sig := by
  rw [ops_eq]
  exact List.forall_iff_forall_mem.mp opsR_sub

/-- On every device, for any float values, from any memory with zero counters: every weakly fair execution of @main
    terminates, and each TensorCore buffer then holds what the operations, folded in order over the launch contents,
    leave in it. -/
theorem run_raw (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) := by
  rw [ops_eq]
  exact run_rawR m ρ

end Cert.ReferenceIdeal.HandRun

end
-- ==== Proof.Spec.lean ====
/-
  What each kind of kernel in this network computes, as ONE function of whole arrays, index by index, on the
  extended reals. A dense layer is a row of the input against a column of the weights, summed over the shared
  axis, plus the bias of that column. The graph-convolution combine scales the aggregated messages of a node by
  the node's inverse square-root degree, the node's own transformed features by the square of it, and adds the
  bias. The activation is x times the logistic of x. Batch normalisation subtracts the column mean, scales by
  the inverse square root of the column variance plus epsilon, applies the affine pair, then the activation.
  The head is three dense layers with the activation after the first two.
-/
import Idealize.ShloMosaic.PureOps.Ideal
import Idealize.ShloMosaic.Lib.ValueIdx

noncomputable section

namespace Cert.Spec

open Idealize.ShloMosaic Idealize.ShloMosaic.ValueIdx

/-- An r-by-c array of extended reals. -/
abbrev Mat (r c : Nat) := FVec Ideal (⟨2, ![r, c]⟩ : Shape) .f32

/-- Entry (p, q) of x·w + b: the sum over k of x[p,k]·w[k,q], plus b[0,q]. -/
def lin {M K D : Nat} (x : Mat M K) (w : Mat K D) (b : Mat 1 D) : Mat M D :=
  fun i => (∑ k : Fin K, x (ix2 (i 0) k) * w (ix2 k (i 1))) + b (ix2 0 (i 1))

/-- Entry (p, q) of d·agg + d²·xw + b, with d the p-th entry of the degree column. -/
def comb {M D : Nat} (agg xw : Mat M D) (dcol : Mat M 1) (b : Mat 1 D) : Mat M D :=
  fun i => dcol (ix2 (i 0) 0) * agg i + (dcol (ix2 (i 0) 0) * dcol (ix2 (i 0) 0)) * xw i + b (ix2 0 (i 1))

/-- x · logistic x, entry by entry. -/
def silu {M D : Nat} (x : Mat M D) : Mat M D := fun i => x i * Ideal.logistic (x i)

/-- The normalised, affinely mapped entry before the activation. -/
def bn {M D : Nat} (x : Mat M D) (mean var g β : Mat 1 D) : Mat M D :=
  fun i => (x i - mean (ix2 0 (i 1))) * Ideal.rsqrt (var (ix2 0 (i 1)) + Ideal.ofBits .f32 0x3727C5AC#32)
    * g (ix2 0 (i 1)) + β (ix2 0 (i 1))

/-- Batch normalisation followed by the activation. -/
def bnsilu {M D : Nat} (x : Mat M D) (mean var g β : Mat 1 D) : Mat M D := silu (bn x mean var g β)

/-- The three-layer head. -/
def head (h : Mat 2048 256) (w0 : Mat 256 256) (b0 : Mat 1 256) (w1 : Mat 256 128) (b1 : Mat 1 128)
    (w2 : Mat 128 1) (b2 : Mat 1 1) : Mat 2048 1 :=
  lin (silu (lin (silu (lin h w0 b0)) w1 b1)) w2 b2

end Cert.Spec

end
-- ==== Proof.Chain0.lean ====
/-
  The comparison of the two idealized programs goes by checkpoints. The kernel's program is cut at the exit of each of
  its fourteen kernel regions; the reference's list of host operations is cut at the operation that produces the same
  intermediate array. At a checkpoint the invariant says: every argument buffer still holds its launch contents on both
  sides; while graph convolutions are still to come, the edge sources, the edge targets and the inverse square-root
  degrees are the same arrays on both sides, and the kernel side's degree column [N,1] holds the reference's degree
  vector [N] entry by entry; and the current activation array of the kernel's program equals the reference's.
-/
import proofs.«169641_j32169305047251_1_alg».proof.Proof.Gen.KernelIdeal.Frame
import proofs.«169641_j32169305047251_1_alg».proof.Proof.RefOps
import proofs.«169641_j32169305047251_1_alg».proof.Proof.Spec
import Idealize.ShloMosaic.Lib.StableHlo.Run
import Idealize.ShloMosaic.Lib.ValueIdx
import Idealize.ShloMosaic.PureOps.Ideal

noncomputable section

namespace Cert.Chain

open Idealize.ShloMosaic Idealize.ShloMosaic.TcCoe Idealize.SL.Sem Idealize.ShloMosaic.StableHlo Idealize.ShloMosaic.ValueIdx
open Cert.ReferenceIdeal.HandRun

/-- Buffer contents of the kernel's program, and of the reference, on one device, at the extended reals. -/
abbrev KV := Valuation Cert.KernelIdeal.τ Cert.KernelIdeal.sig (Elt Ideal)
abbrev RV := Valuation Cert.ReferenceIdeal.τ Cert.ReferenceIdeal.sig (Elt Ideal)

/-- The argument buffers of the two programs, in order. -/
def kArgs : List (Ref Cert.KernelIdeal.sig .tc) := [Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6, Cert.KernelIdeal.main_arg7, Cert.KernelIdeal.main_arg8, Cert.KernelIdeal.main_arg9, Cert.KernelIdeal.main_arg10, Cert.KernelIdeal.main_arg11, Cert.KernelIdeal.main_arg12, Cert.KernelIdeal.main_arg13, Cert.KernelIdeal.main_arg14, Cert.KernelIdeal.main_arg15, Cert.KernelIdeal.main_arg16, Cert.KernelIdeal.main_arg17, Cert.KernelIdeal.main_arg18, Cert.KernelIdeal.main_arg19, Cert.KernelIdeal.main_arg20, Cert.KernelIdeal.main_arg21, Cert.KernelIdeal.main_arg22, Cert.KernelIdeal.main_arg23]
def rArgs : List (Ref Cert.ReferenceIdeal.sig .tc) := [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_arg13, Cert.ReferenceIdeal.main_arg14, Cert.ReferenceIdeal.main_arg15, Cert.ReferenceIdeal.main_arg16, Cert.ReferenceIdeal.main_arg17, Cert.ReferenceIdeal.main_arg18, Cert.ReferenceIdeal.main_arg19, Cert.ReferenceIdeal.main_arg20, Cert.ReferenceIdeal.main_arg21, Cert.ReferenceIdeal.main_arg22, Cert.ReferenceIdeal.main_arg23]

/-! ## The reference's contents at the checkpoints -/

/-- The reference's contents at checkpoint 1. -/
def Rc1 (R0 : RV) : RV := StableHlo.after (ops0 (F := Ideal) ++ ops1 (F := Ideal)) (R0)
/-- The reference's contents at checkpoint 2. -/
def Rc2 (R0 : RV) : RV := StableHlo.after (ops2 (F := Ideal) ++ ops3 (F := Ideal)) (Rc1 R0)
/-- The reference's contents at checkpoint 3. -/
def Rc3 (R0 : RV) : RV := StableHlo.after (ops4 (F := Ideal) ++ ops5 (F := Ideal)) (Rc2 R0)
/-- The reference's contents at checkpoint 4. -/
def Rc4 (R0 : RV) : RV := StableHlo.after (ops6 (F := Ideal)) (Rc3 R0)
/-- The reference's contents at checkpoint 5. -/
def Rc5 (R0 : RV) : RV := StableHlo.after (ops7 (F := Ideal) ++ ops8 (F := Ideal)) (Rc4 R0)
/-- The reference's contents at checkpoint 6. -/
def Rc6 (R0 : RV) : RV := StableHlo.after (ops9 (F := Ideal)) (Rc5 R0)
/-- The reference's contents at checkpoint 7. -/
def Rc7 (R0 : RV) : RV := StableHlo.after (ops10 (F := Ideal)) (Rc6 R0)
/-- The reference's contents at checkpoint 8. -/
def Rc8 (R0 : RV) : RV := StableHlo.after (ops11 (F := Ideal) ++ ops12 (F := Ideal)) (Rc7 R0)
/-- The reference's contents at checkpoint 9. -/
def Rc9 (R0 : RV) : RV := StableHlo.after (ops13 (F := Ideal)) (Rc8 R0)
/-- The reference's contents at checkpoint 10. -/
def Rc10 (R0 : RV) : RV := StableHlo.after (ops14 (F := Ideal) ++ ops15 (F := Ideal)) (Rc9 R0)
/-- The reference's contents at checkpoint 11. -/
def Rc11 (R0 : RV) : RV := StableHlo.after (ops16 (F := Ideal) ++ ops17 (F := Ideal)) (Rc10 R0)
/-- The reference's contents at checkpoint 12. -/
def Rc12 (R0 : RV) : RV := StableHlo.after (ops18 (F := Ideal)) (Rc11 R0)
/-- The reference's contents at checkpoint 13. -/
def Rc13 (R0 : RV) : RV := StableHlo.after (ops19 (F := Ideal)) (Rc12 R0)
/-- The reference's contents at checkpoint 14. -/
def Rc14 (R0 : RV) : RV := StableHlo.after (ops20 (F := Ideal) ++ ops21 (F := Ideal)) (Rc13 R0)

/-! ## The invariant's parts -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two launch memories agree on every argument. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)

/-- Every argument buffer holds its launch contents, on both sides. -/
structure Base (W : KV) (R : RV) : Prop where
  ka : ∀ a ∈ kArgs, W (Proc.devRef .tc a) = m ((c.tc : Thread Cert.KernelIdeal.nD Cert.KernelIdeal.τ).loc a)
  ra : ∀ a ∈ rArgs, R (Proc.devRef .tc a) = m' ((c.tc : Thread Cert.ReferenceIdeal.nD Cert.ReferenceIdeal.τ).loc a)

/-- The graph data: edge sources, edge targets, inverse square-root degrees, and the degree column. -/
structure Graph (W : KV) (R : RV) : Prop where
  row : (W (Proc.devRef .tc Cert.KernelIdeal.main_v1) : Cert.KernelIdeal.S800000.Idx → BitVec 32) = R (Proc.devRef .tc Cert.ReferenceIdeal.main_v1)
  col : (W (Proc.devRef .tc Cert.KernelIdeal.main_v3) : Cert.KernelIdeal.S800000.Idx → BitVec 32) = R (Proc.devRef .tc Cert.ReferenceIdeal.main_v3)
  dinv : (W (Proc.devRef .tc Cert.KernelIdeal.main_v10) : Cert.KernelIdeal.S50000.Idx → EReal) = R (Proc.devRef .tc Cert.ReferenceIdeal.main_v10)
  dcol : ∀ p : Fin 50000, (W (Proc.devRef .tc Cert.KernelIdeal.main_v11) : Cert.KernelIdeal.S50000x1.Idx → EReal) (ix2 p 0) = (R (Proc.devRef .tc Cert.ReferenceIdeal.main_v10) : Cert.ReferenceIdeal.S50000.Idx → EReal) (ix1 p)

/-! ## The invariant at each checkpoint -/

variable (ρ : Dev Cert.KernelIdeal.nD → PrngReg)

/-- The reference's launch contents on the device. -/
abbrev R0 : RV := StableHlo.launchContents m' c

open Cert.KernelIdeal.Gen in
structure Inv1 : Prop where
  base : Base m m' c (W2 m ρ c) (Rc1 (R0 m' c))
  graph : Graph (W2 m ρ c) (Rc1 (R0 m' c))
  main : (W2 m ρ c (Proc.devRef .tc Cert.KernelIdeal.main_v14) : Cert.KernelIdeal.S50000x128.Idx → EReal) = Rc1 (R0 m' c) (Proc.devRef .tc Cert.ReferenceIdeal.main_v11)
open Cert.KernelIdeal.Gen in
structure Inv2 : Prop where
  base : Base m m' c (W4 m ρ c) (Rc2 (R0 m' c))
  graph : Graph (W4 m ρ c) (Rc2 (R0 m' c))
  main : (W4 m ρ c (Proc.devRef .tc Cert.KernelIdeal.main_v36) : Cert.KernelIdeal.S50000x128.Idx → EReal) = Rc2 (R0 m' c) (Proc.devRef .tc Cert.ReferenceIdeal.main_v42)
open Cert.KernelIdeal.Gen in
structure Inv3 : Prop where
  base : Base m m' c (W8 m ρ c) (Rc3 (R0 m' c))
  graph : Graph (W8 m ρ c) (Rc3 (R0 m' c))
  main : (W8 m ρ c (Proc.devRef .tc Cert.KernelIdeal.main_v45) : Cert.KernelIdeal.S50000x128.Idx → EReal) = Rc3 (R0 m' c) (Proc.devRef .tc Cert.ReferenceIdeal.main_v62)
open Cert.KernelIdeal.Gen in
structure Inv4 : Prop where
  base : Base m m' c (W10 m ρ c) (Rc4 (R0 m' c))
  graph : Graph (W10 m ρ c) (Rc4 (R0 m' c))
  main : (W10 m ρ c (Proc.devRef .tc Cert.KernelIdeal.main_v48) : Cert.KernelIdeal.S50000x128.Idx → EReal) = Rc4 (R0 m' c) (Proc.devRef .tc Cert.ReferenceIdeal.main_v63)
open Cert.KernelIdeal.Gen in
structure Inv5 : Prop where
  base : Base m m' c (W12 m ρ c) (Rc5 (R0 m' c))
  graph : Graph (W12 m ρ c) (Rc5 (R0 m' c))
  main : (W12 m ρ c (Proc.devRef .tc Cert.KernelIdeal.main_v70) : Cert.KernelIdeal.S50000x128.Idx → EReal) = Rc5 (R0 m' c) (Proc.devRef .tc Cert.ReferenceIdeal.main_v94)
open Cert.KernelIdeal.Gen in
structure Inv6 : Prop where
  base : Base m m' c (W13 m ρ c) (Rc6 (R0 m' c))
  graph : Graph (W13 m ρ c) (Rc6 (R0 m' c))
  main : (W13 m ρ c (Proc.devRef .tc Cert.KernelIdeal.main_v71) : Cert.KernelIdeal.S50000x128.Idx → EReal) = Rc6 (R0 m' c) (Proc.devRef .tc Cert.ReferenceIdeal.main_v95)
open Cert.KernelIdeal.Gen in
structure Inv7 : Prop where
  base : Base m m' c (W15 m ρ c) (Rc7 (R0 m' c))
  graph : Graph (W15 m ρ c) (Rc7 (R0 m' c))
  main : (W15 m ρ c (Proc.devRef .tc Cert.KernelIdeal.main_v74) : Cert.KernelIdeal.S50000x128.Idx → EReal) = Rc7 (R0 m' c) (Proc.devRef .tc Cert.ReferenceIdeal.main_v96)
open Cert.KernelIdeal.Gen in
structure Inv8 : Prop where
  base : Base m m' c (W17 m ρ c) (Rc8 (R0 m' c))
  main : (W17 m ρ c (Proc.devRef .tc Cert.KernelIdeal.main_v96) : Cert.KernelIdeal.S50000x128.Idx → EReal) = Rc8 (R0 m' c) (Proc.devRef .tc Cert.ReferenceIdeal.main_v127)
open Cert.KernelIdeal.Gen in
structure Inv9 : Prop where
  base : Base m m' c (W18 m ρ c) (Rc9 (R0 m' c))
  main : (W18 m ρ c (Proc.devRef .tc Cert.KernelIdeal.main_v97) : Cert.KernelIdeal.S50000x128.Idx → EReal) = Rc9 (R0 m' c) (Proc.devRef .tc Cert.ReferenceIdeal.main_v128)
open Cert.KernelIdeal.Gen in
structure Inv10 : Prop where
  base : Base m m' c (W20 m ρ c) (Rc10 (R0 m' c))
  pool : (W20 m ρ c (Proc.devRef .tc Cert.KernelIdeal.main_v100) : Cert.KernelIdeal.S2048x128.Idx → EReal) = Rc10 (R0 m' c) (Proc.devRef .tc Cert.ReferenceIdeal.main_v131)
  main : (W20 m ρ c (Proc.devRef .tc Cert.KernelIdeal.main_v102) : Cert.KernelIdeal.S2048x128.Idx → EReal) = Rc10 (R0 m' c) (Proc.devRef .tc Cert.ReferenceIdeal.main_v135)
open Cert.KernelIdeal.Gen in
structure Inv11 : Prop where
  base : Base m m' c (W24 m ρ c) (Rc11 (R0 m' c))
  pool : (W24 m ρ c (Proc.devRef .tc Cert.KernelIdeal.main_v100) : Cert.KernelIdeal.S2048x128.Idx → EReal) = Rc11 (R0 m' c) (Proc.devRef .tc Cert.ReferenceIdeal.main_v131)
  main : (W24 m ρ c (Proc.devRef .tc Cert.KernelIdeal.main_v111) : Cert.KernelIdeal.S2048x128.Idx → EReal) = Rc11 (R0 m' c) (Proc.devRef .tc Cert.ReferenceIdeal.main_v155)
open Cert.KernelIdeal.Gen in
structure Inv12 : Prop where
  base : Base m m' c (W26 m ρ c) (Rc12 (R0 m' c))
  pool : (W26 m ρ c (Proc.devRef .tc Cert.KernelIdeal.main_v100) : Cert.KernelIdeal.S2048x128.Idx → EReal) = Rc12 (R0 m' c) (Proc.devRef .tc Cert.ReferenceIdeal.main_v131)
  main : (W26 m ρ c (Proc.devRef .tc Cert.KernelIdeal.main_v113) : Cert.KernelIdeal.S2048x128.Idx → EReal) = Rc12 (R0 m' c) (Proc.devRef .tc Cert.ReferenceIdeal.main_v159)
open Cert.KernelIdeal.Gen in
structure Inv13 : Prop where
  base : Base m m' c (W27 m ρ c) (Rc13 (R0 m' c))
  pool : (W27 m ρ c (Proc.devRef .tc Cert.KernelIdeal.main_v100) : Cert.KernelIdeal.S2048x128.Idx → EReal) = Rc13 (R0 m' c) (Proc.devRef .tc Cert.ReferenceIdeal.main_v131)
  main : (W27 m ρ c (Proc.devRef .tc Cert.KernelIdeal.main_v114) : Cert.KernelIdeal.S2048x128.Idx → EReal) = Rc13 (R0 m' c) (Proc.devRef .tc Cert.ReferenceIdeal.main_v160)
open Cert.KernelIdeal.Gen in
/-- At the last checkpoint: the two result arrays are equal. -/
structure Inv14 : Prop where
  main : (W29 m ρ c (Proc.devRef .tc Cert.KernelIdeal.main_v119) : Cert.KernelIdeal.S2048x1.Idx → EReal) = Rc14 (R0 m' c) (Proc.devRef .tc Cert.ReferenceIdeal.main_v175)

/-- The reference's whole list of operations ends at the last checkpoint's contents. -/
theorem after_ops_eq (V : RV) : StableHlo.after (ops (F := Ideal)) V = Rc14 V := by
  unfold Rc14 Rc13 Rc12 Rc11 Rc10 Rc9 Rc8 Rc7 Rc6 Rc5 Rc4 Rc3 Rc2 Rc1
  simp only [ops, StableHlo.after_append]

end Cert.Chain

end
-- ==== Proof.RegLinear.lean ====
/-
  The five dense layers of the network, kernel side. Each region multiplies a block of rows by the whole weight
  matrix on the matrix unit, into a zero accumulator, and adds the bias row to every row of the product. Read entry
  by entry on the extended reals, what a grid point writes back is its block of rows of X·W + B, where X, W and B are
  the whole arrays as the region finds them; the blocks tile the result array, so the array ends holding X·W + B.
-/
import proofs.«169641_j32169305047251_1_alg».proof.Proof.Gen.KernelIdeal.Frame
import proofs.«169641_j32169305047251_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.ValueIdx Idealize.ShloMosaic.TcCoe Idealize.SL.Sem
open Idealize.ShloMosaic.Pipeline (Dat)

/-! ## A matrix product and a bias row, entry by entry -/

/-- Entry (p, q) of the product of an M-by-K and a K-by-D matrix accumulated into zeros: the sum over the shared
    axis of the products of row p of the left factor with column q of the right one. -/
theorem matmul_zero_at {M K D : Nat}
    (w : DotDims.WF (⟨2, ![M, K]⟩ : Shape) ⟨2, ![K, D]⟩ ⟨2, ![M, D]⟩ [1] [0] [0] [1] [] [])
    (prec : Option ContractPrecision) (A : FVec Ideal ⟨2, ![M, K]⟩ .f32) (B : FVec Ideal ⟨2, ![K, D]⟩ .f32)
    (p : Fin M) (q : Fin D) :
    matmul (⟨[1], [0], [0], [1], [], [], w⟩ : DotDims _ _ _) prec A B (constant (F := Ideal) ⟨2, ![M, D]⟩ .f32 0x00000000#32) (ix2 p q)
      = ∑ k : Fin K, A (ix2 p k) * B (ix2 k q) := by
  show FloatOps.matmul _ prec A B _ (ix2 p q) = _
  rw [Ideal.matmul_constant_zero_apply,
    ← Equiv.sum_comp (contrEquiv1 (⟨[1], [0], [0], [1], [], [], w⟩ : DotDims _ _ _) K rfl rfl).symm]
  refine Finset.sum_congr rfl fun c _ => ?_
  have hc := contrEquiv1_symm_val
    (⟨[1], [0], [0], [1], [], [], w⟩ : DotDims ⟨2, ![M, K]⟩ ⟨2, ![K, D]⟩ ⟨2, ![M, D]⟩) K rfl rfl c
  have el : (⟨[1], [0], [0], [1], [], [], w⟩ : DotDims ⟨2, ![M, K]⟩ ⟨2, ![K, D]⟩ ⟨2, ![M, D]⟩).lhsIdx (ix2 p q)
      ((contrEquiv1 _ K rfl rfl).symm c) = ix2 p c := by
    funext ax; apply Fin.ext
    match ax with
    | ⟨0, _⟩ => simp [DotDims.lhsIdx]; rfl
    | ⟨1, _⟩ => simp [DotDims.lhsIdx]; exact hc
  have er : (⟨[1], [0], [0], [1], [], [], w⟩ : DotDims ⟨2, ![M, K]⟩ ⟨2, ![K, D]⟩ ⟨2, ![M, D]⟩).rhsIdx (ix2 p q)
      ((contrEquiv1 _ K rfl rfl).symm c) = ix2 c q := by
    funext ax; apply Fin.ext
    match ax with
    | ⟨0, _⟩ => simp [DotDims.rhsIdx]; exact hc
    | ⟨1, _⟩ => simp [DotDims.rhsIdx]; rfl
  rw [el, er]

/-- Entry (p, q) of a one-row array of 128 columns repeated down M rows is its entry (0, q). -/
theorem bias_row_at {M : Nat} (hs : S1x128.ShapeCasts S1x128) (hb : S1x128.Broadcasts (⟨2, ![M, 128]⟩ : Shape))
    (b : FVec Ideal S1x128 .f32) (p : Fin M) (q : Fin 128) :
    broadcastTo (⟨2, ![M, 128]⟩ : Shape) (shapeCast S1x128 b hs) hb (ix2 p q) = b (ix2 0 q) := by
  rw [shapeCast_self]
  refine broadcastTo_apply b hb (ix2 p q) (ix2 0 q) fun a => ?_
  match a with
  | ⟨0, _⟩ => rfl
  | ⟨1, _⟩ => rfl

variable (V : (c : Dev nD) → (b : Ref sig .tc) → Buf (Elt Ideal) ((c : Thread nD τ).loc b))

/-- Every block the bodies load or store starts at offset (0, 0) of its staging buffer. -/
theorem lin_hz : (![0, 0] : Fin 2 → Nat) = fun _ => 0 := funext fun a => by fin_cases a <;> rfl

/-! ## 2048 rows of 200 features against a 200-by-128 weight matrix: one block holds every row -/

/-- The block the body stores, entry (p, q): row p of the loaded rows against column q of the weights, plus the bias
    of column q. -/
theorem pay9_at (x0 : Vec Ideal S2048x200 .f32) (x1 : Vec Ideal S200x128 .f32) (x2 : Vec Ideal S1x128 .f32)
    (p : Fin 2048) (q : Fin 128) :
    k9_pay1 (F := Ideal) x0 x1 x2 (ix2 p q) = (∑ k : Fin 200, x0 (ix2 p k) * x1 (ix2 k q)) + x2 (ix2 0 q) := by
  unfold k9_pay1
  show addf _ _ (ix2 p q) = _
  rw [addf_apply]
  exact congrArg₂ (· + ·) (matmul_zero_at dot_S2048x200_S200x128_S2048x128_1_0_0_1_n_n_wf none x0 x1 p q)
    (bias_row_at shapeCasts_S1x128_S1x128 broadcasts_S1x128_S2048x128 x2 p q)

/-- The same entry when the three loaded blocks are read off whole arrays X, W, B: entry j of the stored block is
    entry i of X·W + B as soon as row (j 0) of the rows block is row (i 0) of X, column (j 1) of the weights block
    is column (i 1) of W, and likewise for the bias. -/
theorem lin9_at (x0 : Vec Ideal S2048x200 .f32) (x1 : Vec Ideal S200x128 .f32) (x2 : Vec Ideal S1x128 .f32)
    (X : Cert.Spec.Mat 2048 200) (W : Cert.Spec.Mat 200 128) (B : Cert.Spec.Mat 1 128) (j : S2048x128.Idx) (i : S2048x128.Idx)
    (h0 : ∀ k : Fin 200, x0 (ix2 (j 0) k) = X (ix2 (i 0) k))
    (h1 : ∀ k : Fin 200, x1 (ix2 k (j 1)) = W (ix2 k (i 1)))
    (h2 : x2 (ix2 0 (j 1)) = B (ix2 0 (i 1))) :
    k9_pay1 (F := Ideal) x0 x1 x2 j = Cert.Spec.lin X W B i := by
  refine (congrArg (k9_pay1 (F := Ideal) x0 x1 x2) (eq_ix2 j)).trans ((pay9_at x0 x1 x2 (j 0) (j 1)).trans ?_)
  show _ = (∑ k : Fin 200, X (ix2 (i 0) k) * W (ix2 k (i 1))) + B (ix2 0 (i 1))
  exact congrArg₂ (· + ·) (Finset.sum_congr rfl fun k _ => congrArg₂ (· * ·) (h0 k) (h1 k)) h2

/-- Every window of this region sits at block (0, 0) at its one grid point. -/
theorem idx_facts9 : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

/-- What a grid point writes back is its block of X·W + B, with X, W, B the arrays the region finds. -/
theorem flushed9_eq (c : Dev nD) (t : Fin cfg9.N) :
    (dat9 (F := Ideal) V c).flushed 3 t
      = ((cfg9.win 3).blk t).view.read (Elt Ideal)
          (Cert.Spec.lin (M := 2048) (K := 200) (D := 128) (V c main_arg3) (V c main_arg12) (V c main_v101)) := by
  show (cfg9.win 3).cut (grid9.coords t) ((dat9 V c).after 3 t) = _
  rw [after9_3]
  unfold out9_3
  rw [View.canon_unit_zero lin_hz]
  simp only [View.ld_unit_zero (S := S2048x200) lin_hz, View.ld_unit_zero (S := S200x128) lin_hz, View.ld_unit_zero (S := S1x128) lin_hz]
  obtain ⟨e00, e01, e10, e11, e20, e21, e30, e31⟩ := idx_facts9 t
  funext j
  show k9_pay1 (F := Ideal) (iblk9 V c 0 t) (iblk9 V c 1 t) (iblk9 V c 2 t) j
    = Cert.Spec.lin (M := 2048) (K := 200) (D := 128) (V c main_arg3) (V c main_arg12) (V c main_v101) (((cfg9.win 3).blk t).view.emb j)
  have hj0 : (j 0).val < 2048 := (j 0).isLt
  have hj1 : (j 1).val < 128 := (j 1).isLt
  refine lin9_at (iblk9 V c 0 t) (iblk9 V c 1 t) (iblk9 V c 2 t) (V c main_arg3) (V c main_arg12) (V c main_v101) j
    (((cfg9.win 3).blk t).view.emb j) (fun k => ?_) (fun k => ?_) ?_
  · show V c main_arg3 (((cfg9.win 0).blk t).view.emb (ix2 (j 0) k)) = V c main_arg3 (ix2 ((((cfg9.win 3).blk t).view.emb j) 0) k)
    refine congrArg (V c main_arg3) (funext fun a => Fin.ext ?_)
    match a with
    | ⟨0, _⟩ => show win9_0.index t (0 : Fin 2) * 2048 + 1 * (j 0).val = win9_3.index t (0 : Fin 2) * 2048 + 1 * (j 0).val; omega
    | ⟨1, _⟩ => show win9_0.index t (1 : Fin 2) * 200 + 1 * k.val = k.val; omega
  · show V c main_arg12 (((cfg9.win 1).blk t).view.emb (ix2 k (j 1))) = V c main_arg12 (ix2 k ((((cfg9.win 3).blk t).view.emb j) 1))
    refine congrArg (V c main_arg12) (funext fun a => Fin.ext ?_)
    match a with
    | ⟨0, _⟩ => show win9_1.index t (0 : Fin 2) * 200 + 1 * k.val = k.val; omega
    | ⟨1, _⟩ => show win9_1.index t (1 : Fin 2) * 128 + 1 * (j 1).val = win9_3.index t (1 : Fin 2) * 128 + 1 * (j 1).val; omega
  · show V c main_v101 (((cfg9.win 2).blk t).view.emb (ix2 0 (j 1))) = V c main_v101 (ix2 0 ((((cfg9.win 3).blk t).view.emb j) 1))
    refine congrArg (V c main_v101) (funext fun a => Fin.ext ?_)
    match a with
    | ⟨0, _⟩ => show win9_2.index t (0 : Fin 2) * 1 + 1 * 0 = 0; omega
    | ⟨1, _⟩ => show win9_2.index t (1 : Fin 2) * 128 + 1 * (j 1).val = win9_3.index t (1 : Fin 2) * 128 + 1 * (j 1).val; omega

/-- An index of the result array lies in a grid point's block exactly when each coordinate is in the block's range. -/
theorem mem_blk9 (t : Fin cfg9.N) (i : S2048x128.Idx) :
    i ∈ ((cfg9.win 3).blk t).view.set ↔ ∀ a : Fin 2, win9_3.index t a * S2048x128.size a ≤ (i a).val
      ∧ (i a).val < win9_3.index t a * S2048x128.size a + S2048x128.size a := by
  show i ∈ ((View.whole main_v102).slice (win9_3.rect t)).set ↔ _
  rw [View.set_slice_whole, Rect.mem_set_unit]
  exact Iff.rfl

/-- The one block is the whole result array. -/
theorem cover9 (i : S2048x128.Idx) :
    ∃ t : Fin cfg9.N, (cfg9.win 3).flush t = true ∧ i ∈ ((cfg9.win 3).blk t).view.set := by
  refine ⟨t9_0, flush9_3 t9_0, ?_⟩
  rw [mem_blk9]
  obtain ⟨-, -, -, -, -, -, e30, e31⟩ := idx_facts9 t9_0
  have h0 : (i 0).val < 2048 := (i 0).isLt
  have h1 : (i 1).val < 128 := (i 1).isLt
  intro a
  match a with
  | ⟨0, _⟩ => show win9_3.index t9_0 (0 : Fin 2) * 2048 ≤ (i 0).val ∧ (i 0).val < win9_3.index t9_0 (0 : Fin 2) * 2048 + 2048; omega
  | ⟨1, _⟩ => show win9_3.index t9_0 (1 : Fin 2) * 128 ≤ (i 1).val ∧ (i 1).val < win9_3.index t9_0 (1 : Fin 2) * 128 + 128; omega

/-- After the region the result array holds X·W + B. -/
theorem final9 (c : Dev nD) :
    (dat9 (F := Ideal) V c).arrAt 3 cfg9.N
      = Cert.Spec.lin (M := 2048) (K := 200) (D := 128) (V c main_arg3) (V c main_arg12) (V c main_v101) :=
  (dat9 V c).arrAt_eq_of_cover 3 _ (fun t _ => flushed9_eq V c t) cover9

/-! ## 50000 rows of 64 features against a 64-by-128 weight matrix: ten blocks of 5000 rows -/

/-- The block the body stores, entry (p, q): row p of the loaded rows against column q of the weights, plus the bias
    of column q. -/
theorem pay0_at (x0 : Vec Ideal S5000x64 .f32) (x1 : Vec Ideal S64x128 .f32) (x2 : Vec Ideal S1x128 .f32)
    (p : Fin 5000) (q : Fin 128) :
    k0_pay1 (F := Ideal) x0 x1 x2 (ix2 p q) = (∑ k : Fin 64, x0 (ix2 p k) * x1 (ix2 k q)) + x2 (ix2 0 q) := by
  unfold k0_pay1
  show addf _ _ (ix2 p q) = _
  rw [addf_apply]
  exact congrArg₂ (· + ·) (matmul_zero_at dot_S5000x64_S64x128_S5000x128_1_0_0_1_n_n_wf none x0 x1 p q)
    (bias_row_at shapeCasts_S1x128_S1x128 broadcasts_S1x128_S5000x128 x2 p q)

/-- The same entry when the three loaded blocks are read off whole arrays X, W, B: entry j of the stored block is
    entry i of X·W + B as soon as row (j 0) of the rows block is row (i 0) of X, column (j 1) of the weights block
    is column (i 1) of W, and likewise for the bias. -/
theorem lin0_at (x0 : Vec Ideal S5000x64 .f32) (x1 : Vec Ideal S64x128 .f32) (x2 : Vec Ideal S1x128 .f32)
    (X : Cert.Spec.Mat 50000 64) (W : Cert.Spec.Mat 64 128) (B : Cert.Spec.Mat 1 128) (j : S5000x128.Idx) (i : S50000x128.Idx)
    (h0 : ∀ k : Fin 64, x0 (ix2 (j 0) k) = X (ix2 (i 0) k))
    (h1 : ∀ k : Fin 64, x1 (ix2 k (j 1)) = W (ix2 k (i 1)))
    (h2 : x2 (ix2 0 (j 1)) = B (ix2 0 (i 1))) :
    k0_pay1 (F := Ideal) x0 x1 x2 j = Cert.Spec.lin X W B i := by
  refine (congrArg (k0_pay1 (F := Ideal) x0 x1 x2) (eq_ix2 j)).trans ((pay0_at x0 x1 x2 (j 0) (j 1)).trans ?_)
  show _ = (∑ k : Fin 64, X (ix2 (i 0) k) * W (ix2 k (i 1))) + B (ix2 0 (i 1))
  exact congrArg₂ (· + ·) (Finset.sum_congr rfl fun k _ => congrArg₂ (· * ·) (h0 k) (h1 k)) h2

/-- At grid point t the rows window and the result window sit at row block t; the weights and the bias windows stay
    at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What a grid point writes back is its block of X·W + B, with X, W, B the arrays the region finds. -/
theorem flushed0_eq (c : Dev nD) (t : Fin cfg0.N) :
    (dat0 (F := Ideal) V c).flushed 3 t
      = ((cfg0.win 3).blk t).view.read (Elt Ideal)
          (Cert.Spec.lin (M := 50000) (K := 64) (D := 128) (V c main_arg0) (V c main_arg4) (V c main_v13)) := by
  show (cfg0.win 3).cut (grid0.coords t) ((dat0 V c).after 3 t) = _
  rw [after0_3]
  unfold out0_3
  rw [View.canon_unit_zero lin_hz]
  simp only [View.ld_unit_zero (S := S5000x64) lin_hz, View.ld_unit_zero (S := S64x128) lin_hz, View.ld_unit_zero (S := S1x128) lin_hz]
  obtain ⟨e00, e01, e10, e11, e20, e21, e30, e31⟩ := idx_facts0 t
  funext j
  show k0_pay1 (F := Ideal) (iblk0 V c 0 t) (iblk0 V c 1 t) (iblk0 V c 2 t) j
    = Cert.Spec.lin (M := 50000) (K := 64) (D := 128) (V c main_arg0) (V c main_arg4) (V c main_v13) (((cfg0.win 3).blk t).view.emb j)
  have hj0 : (j 0).val < 5000 := (j 0).isLt
  have hj1 : (j 1).val < 128 := (j 1).isLt
  refine lin0_at (iblk0 V c 0 t) (iblk0 V c 1 t) (iblk0 V c 2 t) (V c main_arg0) (V c main_arg4) (V c main_v13) j
    (((cfg0.win 3).blk t).view.emb j) (fun k => ?_) (fun k => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · show V c main_arg4 (((cfg0.win 1).blk t).view.emb (ix2 k (j 1))) = V c main_arg4 (ix2 k ((((cfg0.win 3).blk t).view.emb j) 1))
    refine congrArg (V c main_arg4) (funext fun a => Fin.ext ?_)
    match a with
    | ⟨0, _⟩ => show win0_1.index t (0 : Fin 2) * 64 + 1 * k.val = k.val; omega
    | ⟨1, _⟩ => show win0_1.index t (1 : Fin 2) * 128 + 1 * (j 1).val = win0_3.index t (1 : Fin 2) * 128 + 1 * (j 1).val; omega
  · show V c main_v13 (((cfg0.win 2).blk t).view.emb (ix2 0 (j 1))) = V c main_v13 (ix2 0 ((((cfg0.win 3).blk t).view.emb j) 1))
    refine congrArg (V c main_v13) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the result array lies in a grid point's block exactly when each coordinate is in the block's range. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- Row r of the result array lies in the block of grid point r / 5000. -/
theorem cover0 (i : S50000x128.Idx) :
    ∃ t : Fin cfg0.N, (cfg0.win 3).flush t = true ∧ i ∈ ((cfg0.win 3).blk t).view.set := by
  have h0 : (i 0).val < 50000 := (i 0).isLt
  have h1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  refine ⟨t, flush0_3 t, ?_⟩
  rw [mem_blk0]
  obtain ⟨-, -, -, -, -, -, e30, e31⟩ := idx_facts0 t
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region the result array holds X·W + B. -/
theorem final0 (c : Dev nD) :
    (dat0 (F := Ideal) V c).arrAt 3 cfg0.N
      = Cert.Spec.lin (M := 50000) (K := 64) (D := 128) (V c main_arg0) (V c main_arg4) (V c main_v13) :=
  (dat0 V c).arrAt_eq_of_cover 3 _ (fun t _ => flushed0_eq V c t) cover0

/-! ## 50000 rows of 128 features against the second layer's 128-by-128 weight matrix: ten blocks of 5000 rows -/

/-- The block the body stores, entry (p, q): row p of the loaded rows against column q of the weights, plus the bias
    of column q. -/
theorem pay3_at (x0 : Vec Ideal S5000x128 .f32) (x1 : Vec Ideal S128x128 .f32) (x2 : Vec Ideal S1x128 .f32)
    (p : Fin 5000) (q : Fin 128) :
    k3_pay1 (F := Ideal) x0 x1 x2 (ix2 p q) = (∑ k : Fin 128, x0 (ix2 p k) * x1 (ix2 k q)) + x2 (ix2 0 q) := by
  unfold k3_pay1
  show addf _ _ (ix2 p q) = _
  rw [addf_apply, shapeCast_self x0]
  exact congrArg₂ (· + ·) (matmul_zero_at dot_S5000x128_S128x128_S5000x128_1_0_0_1_n_n_wf none x0 x1 p q)
    (bias_row_at shapeCasts_S1x128_S1x128 broadcasts_S1x128_S5000x128 x2 p q)

/-- The same entry when the three loaded blocks are read off whole arrays X, W, B: entry j of the stored block is
    entry i of X·W + B as soon as row (j 0) of the rows block is row (i 0) of X, column (j 1) of the weights block
    is column (i 1) of W, and likewise for the bias. -/
theorem lin3_at (x0 : Vec Ideal S5000x128 .f32) (x1 : Vec Ideal S128x128 .f32) (x2 : Vec Ideal S1x128 .f32)
    (X : Cert.Spec.Mat 50000 128) (W : Cert.Spec.Mat 128 128) (B : Cert.Spec.Mat 1 128) (j : S5000x128.Idx) (i : S50000x128.Idx)
    (h0 : ∀ k : Fin 128, x0 (ix2 (j 0) k) = X (ix2 (i 0) k))
    (h1 : ∀ k : Fin 128, x1 (ix2 k (j 1)) = W (ix2 k (i 1)))
    (h2 : x2 (ix2 0 (j 1)) = B (ix2 0 (i 1))) :
    k3_pay1 (F := Ideal) x0 x1 x2 j = Cert.Spec.lin X W B i := by
  refine (congrArg (k3_pay1 (F := Ideal) x0 x1 x2) (eq_ix2 j)).trans ((pay3_at x0 x1 x2 (j 0) (j 1)).trans ?_)
  show _ = (∑ k : Fin 128, X (ix2 (i 0) k) * W (ix2 k (i 1))) + B (ix2 0 (i 1))
  exact congrArg₂ (· + ·) (Finset.sum_congr rfl fun k _ => congrArg₂ (· * ·) (h0 k) (h1 k)) h2

/-- At grid point t the rows window and the result window sit at row block t; the weights and the bias windows stay
    at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What a grid point writes back is its block of X·W + B, with X, W, B the arrays the region finds. -/
theorem flushed3_eq (c : Dev nD) (t : Fin cfg3.N) :
    (dat3 (F := Ideal) V c).flushed 3 t
      = ((cfg3.win 3).blk t).view.read (Elt Ideal)
          (Cert.Spec.lin (M := 50000) (K := 128) (D := 128) (V c main_v45) (V c main_arg6) (V c main_v47)) := by
  show (cfg3.win 3).cut (grid3.coords t) ((dat3 V c).after 3 t) = _
  rw [after3_3]
  unfold out3_3
  rw [View.canon_unit_zero lin_hz]
  simp only [View.ld_unit_zero (S := S5000x128) lin_hz, View.ld_unit_zero (S := S128x128) lin_hz, View.ld_unit_zero (S := S1x128) lin_hz]
  obtain ⟨e00, e01, e10, e11, e20, e21, e30, e31⟩ := idx_facts3 t
  funext j
  show k3_pay1 (F := Ideal) (iblk3 V c 0 t) (iblk3 V c 1 t) (iblk3 V c 2 t) j
    = Cert.Spec.lin (M := 50000) (K := 128) (D := 128) (V c main_v45) (V c main_arg6) (V c main_v47) (((cfg3.win 3).blk t).view.emb j)
  have hj0 : (j 0).val < 5000 := (j 0).isLt
  have hj1 : (j 1).val < 128 := (j 1).isLt
  refine lin3_at (iblk3 V c 0 t) (iblk3 V c 1 t) (iblk3 V c 2 t) (V c main_v45) (V c main_arg6) (V c main_v47) j
    (((cfg3.win 3).blk t).view.emb j) (fun k => ?_) (fun k => ?_) ?_
  · show V c main_v45 (((cfg3.win 0).blk t).view.emb (ix2 (j 0) k)) = V c main_v45 (ix2 ((((cfg3.win 3).blk t).view.emb j) 0) k)
    refine congrArg (V c main_v45) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  · show V c main_arg6 (((cfg3.win 1).blk t).view.emb (ix2 k (j 1))) = V c main_arg6 (ix2 k ((((cfg3.win 3).blk t).view.emb j) 1))
    refine congrArg (V c main_arg6) (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_3.index t (1 : Fin 2) * 128 + 1 * (j 1).val; omega
  · show V c main_v47 (((cfg3.win 2).blk t).view.emb (ix2 0 (j 1))) = V c main_v47 (ix2 0 ((((cfg3.win 3).blk t).view.emb j) 1))
    refine congrArg (V c main_v47) (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega

/-- An index of the result array lies in a grid point's block exactly when each coordinate is in the block's range. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v48).slice (win3_3.rect t)).set ↔ _
  rw [View.set_slice_whole, Rect.mem_set_unit]
  exact Iff.rfl

/-- Row r of the result array lies in the block of grid point r / 5000. -/
theorem cover3 (i : S50000x128.Idx) :
    ∃ t : Fin cfg3.N, (cfg3.win 3).flush t = true ∧ i ∈ ((cfg3.win 3).blk t).view.set := by
  have h0 : (i 0).val < 50000 := (i 0).isLt
  have h1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  refine ⟨t, flush3_3 t, ?_⟩
  rw [mem_blk3]
  obtain ⟨-, -, -, -, -, -, e30, e31⟩ := idx_facts3 t
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After the region the result array holds X·W + B. -/
theorem final3 (c : Dev nD) :
    (dat3 (F := Ideal) V c).arrAt 3 cfg3.N
      = Cert.Spec.lin (M := 50000) (K := 128) (D := 128) (V c main_v45) (V c main_arg6) (V c main_v47) :=
  (dat3 V c).arrAt_eq_of_cover 3 _ (fun t _ => flushed3_eq V c t) cover3

/-! ## 50000 rows of 128 features against the third layer's 128-by-128 weight matrix: ten blocks of 5000 rows -/

/-- The block the body stores, entry (p, q): row p of the loaded rows against column q of the weights, plus the bias
    of column q. -/
theorem pay6_at (x0 : Vec Ideal S5000x128 .f32) (x1 : Vec Ideal S128x128 .f32) (x2 : Vec Ideal S1x128 .f32)
    (p : Fin 5000) (q : Fin 128) :
    k6_pay1 (F := Ideal) x0 x1 x2 (ix2 p q) = (∑ k : Fin 128, x0 (ix2 p k) * x1 (ix2 k q)) + x2 (ix2 0 q) := by
  unfold k6_pay1
  show addf _ _ (ix2 p q) = _
  rw [addf_apply, shapeCast_self x0]
  exact congrArg₂ (· + ·) (matmul_zero_at dot_S5000x128_S128x128_S5000x128_1_0_0_1_n_n_wf none x0 x1 p q)
    (bias_row_at shapeCasts_S1x128_S1x128 broadcasts_S1x128_S5000x128 x2 p q)

/-- The same entry when the three loaded blocks are read off whole arrays X, W, B: entry j of the stored block is
    entry i of X·W + B as soon as row (j 0) of the rows block is row (i 0) of X, column (j 1) of the weights block
    is column (i 1) of W, and likewise for the bias. -/
theorem lin6_at (x0 : Vec Ideal S5000x128 .f32) (x1 : Vec Ideal S128x128 .f32) (x2 : Vec Ideal S1x128 .f32)
    (X : Cert.Spec.Mat 50000 128) (W : Cert.Spec.Mat 128 128) (B : Cert.Spec.Mat 1 128) (j : S5000x128.Idx) (i : S50000x128.Idx)
    (h0 : ∀ k : Fin 128, x0 (ix2 (j 0) k) = X (ix2 (i 0) k))
    (h1 : ∀ k : Fin 128, x1 (ix2 k (j 1)) = W (ix2 k (i 1)))
    (h2 : x2 (ix2 0 (j 1)) = B (ix2 0 (i 1))) :
    k6_pay1 (F := Ideal) x0 x1 x2 j = Cert.Spec.lin X W B i := by
  refine (congrArg (k6_pay1 (F := Ideal) x0 x1 x2) (eq_ix2 j)).trans ((pay6_at x0 x1 x2 (j 0) (j 1)).trans ?_)
  show _ = (∑ k : Fin 128, X (ix2 (i 0) k) * W (ix2 k (i 1))) + B (ix2 0 (i 1))
  exact congrArg₂ (· + ·) (Finset.sum_congr rfl fun k _ => congrArg₂ (· * ·) (h0 k) (h1 k)) h2

/-- At grid point t the rows window and the result window sit at row block t; the weights and the bias windows stay
    at block (0, 0). -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What a grid point writes back is its block of X·W + B, with X, W, B the arrays the region finds. -/
theorem flushed6_eq (c : Dev nD) (t : Fin cfg6.N) :
    (dat6 (F := Ideal) V c).flushed 3 t
      = ((cfg6.win 3).blk t).view.read (Elt Ideal)
          (Cert.Spec.lin (M := 50000) (K := 128) (D := 128) (V c main_v71) (V c main_arg8) (V c main_v73)) := by
  show (cfg6.win 3).cut (grid6.coords t) ((dat6 V c).after 3 t) = _
  rw [after6_3]
  unfold out6_3
  rw [View.canon_unit_zero lin_hz]
  simp only [View.ld_unit_zero (S := S5000x128) lin_hz, View.ld_unit_zero (S := S128x128) lin_hz, View.ld_unit_zero (S := S1x128) lin_hz]
  obtain ⟨e00, e01, e10, e11, e20, e21, e30, e31⟩ := idx_facts6 t
  funext j
  show k6_pay1 (F := Ideal) (iblk6 V c 0 t) (iblk6 V c 1 t) (iblk6 V c 2 t) j
    = Cert.Spec.lin (M := 50000) (K := 128) (D := 128) (V c main_v71) (V c main_arg8) (V c main_v73) (((cfg6.win 3).blk t).view.emb j)
  have hj0 : (j 0).val < 5000 := (j 0).isLt
  have hj1 : (j 1).val < 128 := (j 1).isLt
  refine lin6_at (iblk6 V c 0 t) (iblk6 V c 1 t) (iblk6 V c 2 t) (V c main_v71) (V c main_arg8) (V c main_v73) j
    (((cfg6.win 3).blk t).view.emb j) (fun k => ?_) (fun k => ?_) ?_
  · show V c main_v71 (((cfg6.win 0).blk t).view.emb (ix2 (j 0) k)) = V c main_v71 (ix2 ((((cfg6.win 3).blk t).view.emb j) 0) k)
    refine congrArg (V c main_v71) (funext fun a => Fin.ext ?_)
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 128 + 1 * k.val = k.val; omega
  · show V c main_arg8 (((cfg6.win 1).blk t).view.emb (ix2 k (j 1))) = V c main_arg8 (ix2 k ((((cfg6.win 3).blk t).view.emb j) 1))
    refine congrArg (V c main_arg8) (funext fun a => Fin.ext ?_)
    match a with
    | ⟨0, _⟩ => show win6_1.index t (0 : Fin 2) * 128 + 1 * k.val = k.val; omega
    | ⟨1, _⟩ => show win6_1.index t (1 : Fin 2) * 128 + 1 * (j 1).val = win6_3.index t (1 : Fin 2) * 128 + 1 * (j 1).val; omega
  · show V c main_v73 (((cfg6.win 2).blk t).view.emb (ix2 0 (j 1))) = V c main_v73 (ix2 0 ((((cfg6.win 3).blk t).view.emb j) 1))
    refine congrArg (V c main_v73) (funext fun a => Fin.ext ?_)
    match a with
    | ⟨0, _⟩ => show win6_2.index t (0 : Fin 2) * 1 + 1 * 0 = 0; omega
    | ⟨1, _⟩ => show win6_2.index t (1 : Fin 2) * 128 + 1 * (j 1).val = win6_3.index t (1 : Fin 2) * 128 + 1 * (j 1).val; omega

/-- An index of the result array lies in a grid point's block exactly when each coordinate is in the block's range. -/
theorem mem_blk6 (t : Fin cfg6.N) (i : S50000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole main_v74).slice (win6_3.rect t)).set ↔ _
  rw [View.set_slice_whole, Rect.mem_set_unit]
  exact Iff.rfl

/-- Row r of the result array lies in the block of grid point r / 5000. -/
theorem cover6 (i : S50000x128.Idx) :
    ∃ t : Fin cfg6.N, (cfg6.win 3).flush t = true ∧ i ∈ ((cfg6.win 3).blk t).view.set := by
  have h0 : (i 0).val < 50000 := (i 0).isLt
  have h1 : (i 1).val < 128 := (i 1).isLt
  have hN : cfg6.N = 10 := N_6
  obtain ⟨t, ht⟩ : ∃ t : Fin cfg6.N, t.val = (i 0).val / 5000 := ⟨⟨(i 0).val / 5000, by rw [hN]; omega⟩, rfl⟩
  refine ⟨t, flush6_3 t, ?_⟩
  rw [mem_blk6]
  obtain ⟨-, -, -, -, -, -, e30, e31⟩ := idx_facts6 t
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

/-- After the region the result array holds X·W + B. -/
theorem final6 (c : Dev nD) :
    (dat6 (F := Ideal) V c).arrAt 3 cfg6.N
      = Cert.Spec.lin (M := 50000) (K := 128) (D := 128) (V c main_v71) (V c main_arg8) (V c main_v73) :=
  (dat6 V c).arrAt_eq_of_cover 3 _ (fun t _ => flushed6_eq V c t) cover6

/-! ## 2048 rows of 128 features against a 128-by-128 weight matrix: one block holds every row -/

/-- The block the body stores, entry (p, q): row p of the loaded rows against column q of the weights, plus the bias
    of column q. -/
theorem pay11_at (x0 : Vec Ideal S2048x128 .f32) (x1 : Vec Ideal S128x128 .f32) (x2 : Vec Ideal S1x128 .f32)
    (p : Fin 2048) (q : Fin 128) :
    k11_pay1 (F := Ideal) x0 x1 x2 (ix2 p q) = (∑ k : Fin 128, x0 (ix2 p k) * x1 (ix2 k q)) + x2 (ix2 0 q) := by
  unfold k11_pay1
  show addf _ _ (ix2 p q) = _
  rw [addf_apply, shapeCast_self x0]
  exact congrArg₂ (· + ·) (matmul_zero_at dot_S2048x128_S128x128_S2048x128_1_0_0_1_n_n_wf none x0 x1 p q)
    (bias_row_at shapeCasts_S1x128_S1x128 broadcasts_S1x128_S2048x128 x2 p q)

/-- The same entry when the three loaded blocks are read off whole arrays X, W, B: entry j of the stored block is
    entry i of X·W + B as soon as row (j 0) of the rows block is row (i 0) of X, column (j 1) of the weights block
    is column (i 1) of W, and likewise for the bias. -/
theorem lin11_at (x0 : Vec Ideal S2048x128 .f32) (x1 : Vec Ideal S128x128 .f32) (x2 : Vec Ideal S1x128 .f32)
    (X : Cert.Spec.Mat 2048 128) (W : Cert.Spec.Mat 128 128) (B : Cert.Spec.Mat 1 128) (j : S2048x128.Idx) (i : S2048x128.Idx)
    (h0 : ∀ k : Fin 128, x0 (ix2 (j 0) k) = X (ix2 (i 0) k))
    (h1 : ∀ k : Fin 128, x1 (ix2 k (j 1)) = W (ix2 k (i 1)))
    (h2 : x2 (ix2 0 (j 1)) = B (ix2 0 (i 1))) :
    k11_pay1 (F := Ideal) x0 x1 x2 j = Cert.Spec.lin X W B i := by
  refine (congrArg (k11_pay1 (F := Ideal) x0 x1 x2) (eq_ix2 j)).trans ((pay11_at x0 x1 x2 (j 0) (j 1)).trans ?_)
  show _ = (∑ k : Fin 128, X (ix2 (i 0) k) * W (ix2 k (i 1))) + B (ix2 0 (i 1))
  exact congrArg₂ (· + ·) (Finset.sum_congr rfl fun k _ => congrArg₂ (· * ·) (h0 k) (h1 k)) h2

/-- Every window of this region sits at block (0, 0) at its one grid point. -/
theorem idx_facts11 : ∀ t : Fin cfg11.N,
    win11_0.index t (0 : Fin 2) = 0 ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0 :=
  (by decide +kernel : ∀ t : Fin grid11.N, _)

/-- What a grid point writes back is its block of X·W + B, with X, W, B the arrays the region finds. -/
theorem flushed11_eq (c : Dev nD) (t : Fin cfg11.N) :
    (dat11 (F := Ideal) V c).flushed 3 t
      = ((cfg11.win 3).blk t).view.read (Elt Ideal)
          (Cert.Spec.lin (M := 2048) (K := 128) (D := 128) (V c main_v111) (V c main_arg14) (V c main_v112)) := by
  show (cfg11.win 3).cut (grid11.coords t) ((dat11 V c).after 3 t) = _
  rw [after11_3]
  unfold out11_3
  rw [View.canon_unit_zero lin_hz]
  simp only [View.ld_unit_zero (S := S2048x128) lin_hz, View.ld_unit_zero (S := S128x128) lin_hz, View.ld_unit_zero (S := S1x128) lin_hz]
  obtain ⟨e00, e01, e10, e11, e20, e21, e30, e31⟩ := idx_facts11 t
  funext j
  show k11_pay1 (F := Ideal) (iblk11 V c 0 t) (iblk11 V c 1 t) (iblk11 V c 2 t) j
    = Cert.Spec.lin (M := 2048) (K := 128) (D := 128) (V c main_v111) (V c main_arg14) (V c main_v112) (((cfg11.win 3).blk t).view.emb j)
  have hj0 : (j 0).val < 2048 := (j 0).isLt
  have hj1 : (j 1).val < 128 := (j 1).isLt
  refine lin11_at (iblk11 V c 0 t) (iblk11 V c 1 t) (iblk11 V c 2 t) (V c main_v111) (V c main_arg14) (V c main_v112) j
    (((cfg11.win 3).blk t).view.emb j) (fun k => ?_) (fun k => ?_) ?_
  · show V c main_v111 (((cfg11.win 0).blk t).view.emb (ix2 (j 0) k)) = V c main_v111 (ix2 ((((cfg11.win 3).blk t).view.emb j) 0) k)
    refine congrArg (V c main_v111) (funext fun a => Fin.ext ?_)
    match a with
    | ⟨0, _⟩ => show win11_0.index t (0 : Fin 2) * 2048 + 1 * (j 0).val = win11_3.index t (0 : Fin 2) * 2048 + 1 * (j 0).val; omega
    | ⟨1, _⟩ => show win11_0.index t (1 : Fin 2) * 128 + 1 * k.val = k.val; omega
  · show V c main_arg14 (((cfg11.win 1).blk t).view.emb (ix2 k (j 1))) = V c main_arg14 (ix2 k ((((cfg11.win 3).blk t).view.emb j) 1))
    refine congrArg (V c main_arg14) (funext fun a => Fin.ext ?_)
    match a with
    | ⟨0, _⟩ => show win11_1.index t (0 : Fin 2) * 128 + 1 * k.val = k.val; omega
    | ⟨1, _⟩ => show win11_1.index t (1 : Fin 2) * 128 + 1 * (j 1).val = win11_3.index t (1 : Fin 2) * 128 + 1 * (j 1).val; omega
  · show V c main_v112 (((cfg11.win 2).blk t).view.emb (ix2 0 (j 1))) = V c main_v112 (ix2 0 ((((cfg11.win 3).blk t).view.emb j) 1))
    refine congrArg (V c main_v112) (funext fun a => Fin.ext ?_)
    match a with
    | ⟨0, _⟩ => show win11_2.index t (0 : Fin 2) * 1 + 1 * 0 = 0; omega
    | ⟨1, _⟩ => show win11_2.index t (1 : Fin 2) * 128 + 1 * (j 1).val = win11_3.index t (1 : Fin 2) * 128 + 1 * (j 1).val; omega

/-- An index of the result array lies in a grid point's block exactly when each coordinate is in the block's range. -/
theorem mem_blk11 (t : Fin cfg11.N) (i : S2048x128.Idx) :
    i ∈ ((cfg11.win 3).blk t).view.set ↔ ∀ a : Fin 2, win11_3.index t a * S2048x128.size a ≤ (i a).val
      ∧ (i a).val < win11_3.index t a * S2048x128.size a + S2048x128.size a := by
  show i ∈ ((View.whole main_v113).slice (win11_3.rect t)).set ↔ _
  rw [View.set_slice_whole, Rect.mem_set_unit]
  exact Iff.rfl

/-- The one block is the whole result array. -/
theorem cover11 (i : S2048x128.Idx) :
    ∃ t : Fin cfg11.N, (cfg11.win 3).flush t = true ∧ i ∈ ((cfg11.win 3).blk t).view.set := by
  refine ⟨t11_0, flush11_3 t11_0, ?_⟩
  rw [mem_blk11]
  obtain ⟨-, -, -, -, -, -, e30, e31⟩ := idx_facts11 t11_0
  have h0 : (i 0).val < 2048 := (i 0).isLt
  have h1 : (i 1).val < 128 := (i 1).isLt
  intro a
  match a with
  | ⟨0, _⟩ => show win11_3.index t11_0 (0 : Fin 2) * 2048 ≤ (i 0).val ∧ (i 0).val < win11_3.index t11_0 (0 : Fin 2) * 2048 + 2048; omega
  | ⟨1, _⟩ => show win11_3.index t11_0 (1 : Fin 2) * 128 ≤ (i 1).val ∧ (i 1).val < win11_3.index t11_0 (1 : Fin 2) * 128 + 128; omega

/-- After the region the result array holds X·W + B. -/
theorem final11 (c : Dev nD) :
    (dat11 (F := Ideal) V c).arrAt 3 cfg11.N
      = Cert.Spec.lin (M := 2048) (K := 128) (D := 128) (V c main_v111) (V c main_arg14) (V c main_v112) :=
  (dat11 V c).arrAt_eq_of_cover 3 _ (fun t _ => flushed11_eq V c t) cover11

end Cert.KernelIdeal.RegVal

end
-- ==== Proof.RefStages.lean ====
import proofs.«169641_j32169305047251_1_alg».proof.ReferenceIdeal
import proofs.«169641_j32169305047251_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

/-!
# The reference's operation chains as functions of their input arrays

Each theorem takes one chain of host operations of the reference program, applied to arbitrary
input arrays, and reads it entry by entry: the result is the corresponding function of
`Cert.Spec`. Where the reference broadcasts a vector of length D along the rows (or a vector of
length N along the columns), the `Cert.Spec` function takes a one-row (one-column) matrix; the
theorems hold for any such matrix whose entries are the vector's.
-/

noncomputable section

open scoped BigOperators

namespace Cert.ReferenceIdeal.Stages

open Idealize.ShloMosaic Idealize.ShloMosaic.ValueIdx Cert.ReferenceIdeal Cert.ReferenceIdeal.Facts₀

variable [Facts₀]

/-! ## Broadcasts read at an entry -/

section Broadcasts
variable {α : Type}

/-- A vector of length n as the one row of a 1-by-n matrix: entry (0, q) is the vector's entry q. -/
theorem vec_row_apply {n : Nat} (h : (⟨1, ![n]⟩ : Shape).BroadcastsInDim ⟨2, ![1, n]⟩ ![1])
    (v : (⟨1, ![n]⟩ : Shape).Idx → α) (r : Fin 1) (q : Fin n) :
    broadcastInDim ⟨2, ![1, n]⟩ ![1] h v (ix2 r q) = v (ix1 q) := by
  refine broadcastInDim_apply ![1] h v (ix2 r q) (ix1 q) ?_
  intro a
  match a with
  | ⟨0, _⟩ =>
    show q.val = if n = 1 then 0 else q.val
    split
    · have := q.isLt; omega
    · rfl

/-- A vector of length n laid along each of m rows (first as a one-row matrix, then repeated down
    the rows): entry (p, q) is the vector's entry q. -/
theorem row_bcast_apply {m n : Nat} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (p : Fin m) (q : Fin n) :
    broadcastInDim ⟨2, ![m, n]⟩ ![0, 1] h2 (broadcastInDim ⟨2, ![1, n]⟩ ![1] h1 v) (ix2 p q) = v (ix1 q) :=
  (broadcastInDim_oneRow_apply h2 _ p q).trans (vec_row_apply h1 v 0 q)

/-- A vector of length m as the one column of an m-by-1 matrix: entry (p, 0) is the vector's entry p. -/
theorem vec_col_apply {m : Nat} (h : (⟨1, ![m]⟩ : Shape).BroadcastsInDim ⟨2, ![m, 1]⟩ ![0])
    (v : (⟨1, ![m]⟩ : Shape).Idx → α) (p : Fin m) (c : Fin 1) :
    broadcastInDim ⟨2, ![m, 1]⟩ ![0] h v (ix2 p c) = v (ix1 p) := by
  refine broadcastInDim_apply ![0] h v (ix2 p c) (ix1 p) ?_
  intro a
  match a with
  | ⟨0, _⟩ =>
    show p.val = if m = 1 then 0 else p.val
    split
    · have := p.isLt; omega
    · rfl

/-- A one-column matrix repeated along n columns: entry (p, q) is the column's entry (p, 0). -/
theorem oneCol_apply {m n : Nat} (h : (⟨2, ![m, 1]⟩ : Shape).BroadcastsInDim ⟨2, ![m, n]⟩ ![0, 1])
    (y : (⟨2, ![m, 1]⟩ : Shape).Idx → α) (p : Fin m) (q : Fin n) :
    broadcastInDim ⟨2, ![m, n]⟩ ![0, 1] h y (ix2 p q) = y (ix2 p (0 : Fin 1)) := by
  refine broadcastInDim_apply ![0, 1] h y (ix2 p q) (ix2 p (0 : Fin 1)) ?_
  intro a
  match a with
  | ⟨0, _⟩ =>
    show p.val = if m = 1 then 0 else p.val
    split
    · have := p.isLt; omega
    · rfl
  | ⟨1, _⟩ =>
    show (0 : ℕ) = if (1 : ℕ) = 1 then 0 else q.val
    rw [if_pos rfl]

/-- A vector of length m laid along each of n columns (first as a one-column matrix, then repeated
    along the columns): entry (p, q) is the vector's entry p. -/
theorem col_bcast_apply {m n : Nat} (h1 : (⟨1, ![m]⟩ : Shape).BroadcastsInDim ⟨2, ![m, 1]⟩ ![0])
    (h2 : (⟨2, ![m, 1]⟩ : Shape).BroadcastsInDim ⟨2, ![m, n]⟩ ![0, 1])
    (v : (⟨1, ![m]⟩ : Shape).Idx → α) (p : Fin m) (q : Fin n) :
    broadcastInDim ⟨2, ![m, n]⟩ ![0, 1] h2 (broadcastInDim ⟨2, ![m, 1]⟩ ![0] h1 v) (ix2 p q) = v (ix1 p) :=
  (oneCol_apply h2 _ p q).trans (vec_col_apply h1 v p 0)

end Broadcasts

/-! ## The host's matrix product read at an entry -/

/-- The product of an m-by-k and a k-by-n matrix, contracting the left operand's axis 1 with the
    right operand's axis 0, read at (a, b): the sum over the contracted coordinate c of
    A[a, c] · B[c, b]. The contraction index set has one axis of extent k; the sum is re-indexed
    through its one coordinate. -/
theorem dot_apply {m k n : Nat} {φ₁ φ₂ : FTy}
    (wf : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], wf⟩ : DotDims ⟨2, ![m, k]⟩ ⟨2, ![k, n]⟩ ⟨2, ![m, n]⟩)
        prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], wf⟩ :
        DotDims ⟨2, ![m, k]⟩ ⟨2, ![k, n]⟩ ⟨2, ![m, n]⟩) k rfl rfl).symm]
  refine Finset.sum_congr rfl fun c _ => ?_
  have hc := contrEquiv1_symm_val (⟨[1], [0], [0], [1], [], [], wf⟩ :
      DotDims ⟨2, ![m, k]⟩ ⟨2, ![k, n]⟩ ⟨2, ![m, n]⟩) k rfl rfl c
  have hl : (⟨[1], [0], [0], [1], [], [], wf⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => rfl
    | ⟨1, _⟩ => exact (DotDims.lhsIdx_val_of_single _ (cl := (1 : Fin 2)) rfl _ _).trans hc
  have hr : (⟨[1], [0], [0], [1], [], [], wf⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => exact (DotDims.rhsIdx_val_of_single _ (cr := (0 : Fin 2)) rfl _ _).trans hc
    | ⟨1, _⟩ => rfl
  rw [hl, hr]

/-! ## A matrix product plus a bias row -/

/-- Entry (p, q) of x·w plus the bias vector laid along the rows: the sum over k of x[p,k]·w[k,q], plus
    the bias entry q (x is 2048 by 200, w is 200 by 128); the row of the specification carries the
    bias entries by hypothesis. -/
theorem dot_bias_2048x200 (x : FVec Ideal S2048x200 .f32) (w : FVec Ideal S200x128 .f32) (b : FVec Ideal S128 .f32)
    (brow : Cert.Spec.Mat 1 128) (hb : ∀ q, brow (ix2 0 q) = b (ix1 q)) :
    addf (Host.dotGeneral (F := Ideal) dot_S2048x200_S200x128_S2048x128_1_0_0_1_n_n none x w)
        (broadcastInDim S2048x128 ![0, 1] bcast_S1x128_S2048x128_0_1
          (broadcastInDim S1x128 ![1] bcast_S128_S1x128_1 b))
      = Cert.Spec.lin x w brow := by
  funext i
  obtain ⟨p, q, rfl⟩ : ∃ (p : Fin 2048) (q : Fin 128), i = ix2 p q := ⟨i 0, i 1, eq_ix2 i⟩
  rw [addf_apply, row_bcast_apply bcast_S128_S1x128_1 bcast_S1x128_S2048x128_0_1 b p q]
  show _ = (∑ k : Fin 200, x (ix2 p k) * w (ix2 k q)) + brow (ix2 0 q)
  rw [hb]
  exact congrArg (· + b (ix1 q)) (dot_apply dot_S2048x200_S200x128_S2048x128_1_0_0_1_n_n_wf none x w p q)

/-- Entry (p, q) of x·w plus the bias vector laid along the rows: the sum over k of x[p,k]·w[k,q], plus
    the bias entry q (x is 2048 by 128, w is 128 by 128); the row of the specification carries the
    bias entries by hypothesis. -/
theorem dot_bias_2048x128 (x : FVec Ideal S2048x128 .f32) (w : FVec Ideal S128x128 .f32) (b : FVec Ideal S128 .f32)
    (brow : Cert.Spec.Mat 1 128) (hb : ∀ q, brow (ix2 0 q) = b (ix1 q)) :
    addf (Host.dotGeneral (F := Ideal) dot_S2048x128_S128x128_S2048x128_1_0_0_1_n_n none x w)
        (broadcastInDim S2048x128 ![0, 1] bcast_S1x128_S2048x128_0_1
          (broadcastInDim S1x128 ![1] bcast_S128_S1x128_1 b))
      = Cert.Spec.lin x w brow := by
  funext i
  obtain ⟨p, q, rfl⟩ : ∃ (p : Fin 2048) (q : Fin 128), i = ix2 p q := ⟨i 0, i 1, eq_ix2 i⟩
  rw [addf_apply, row_bcast_apply bcast_S128_S1x128_1 bcast_S1x128_S2048x128_0_1 b p q]
  show _ = (∑ k : Fin 128, x (ix2 p k) * w (ix2 k q)) + brow (ix2 0 q)
  rw [hb]
  exact congrArg (· + b (ix1 q)) (dot_apply dot_S2048x128_S128x128_S2048x128_1_0_0_1_n_n_wf none x w p q)

/-- Entry (p, q) of x·w plus the bias vector laid along the rows: the sum over k of x[p,k]·w[k,q], plus
    the bias entry q (x is 2048 by 256, w is 256 by 256); the row of the specification carries the
    bias entries by hypothesis. -/
theorem dot_bias_2048x256_256 (x : FVec Ideal S2048x256 .f32) (w : FVec Ideal S256x256 .f32) (b : FVec Ideal S256 .f32)
    (brow : Cert.Spec.Mat 1 256) (hb : ∀ q, brow (ix2 0 q) = b (ix1 q)) :
    addf (Host.dotGeneral (F := Ideal) dot_S2048x256_S256x256_S2048x256_1_0_0_1_n_n none x w)
        (broadcastInDim S2048x256 ![0, 1] bcast_S1x256_S2048x256_0_1
          (broadcastInDim S1x256 ![1] bcast_S256_S1x256_1 b))
      = Cert.Spec.lin x w brow := by
  funext i
  obtain ⟨p, q, rfl⟩ : ∃ (p : Fin 2048) (q : Fin 256), i = ix2 p q := ⟨i 0, i 1, eq_ix2 i⟩
  rw [addf_apply, row_bcast_apply bcast_S256_S1x256_1 bcast_S1x256_S2048x256_0_1 b p q]
  show _ = (∑ k : Fin 256, x (ix2 p k) * w (ix2 k q)) + brow (ix2 0 q)
  rw [hb]
  exact congrArg (· + b (ix1 q)) (dot_apply dot_S2048x256_S256x256_S2048x256_1_0_0_1_n_n_wf none x w p q)

/-- Entry (p, q) of x·w plus the bias vector laid along the rows: the sum over k of x[p,k]·w[k,q], plus
    the bias entry q (x is 2048 by 256, w is 256 by 128); the row of the specification carries the
    bias entries by hypothesis. -/
theorem dot_bias_2048x256_128 (x : FVec Ideal S2048x256 .f32) (w : FVec Ideal S256x128 .f32) (b : FVec Ideal S128 .f32)
    (brow : Cert.Spec.Mat 1 128) (hb : ∀ q, brow (ix2 0 q) = b (ix1 q)) :
    addf (Host.dotGeneral (F := Ideal) dot_S2048x256_S256x128_S2048x128_1_0_0_1_n_n none x w)
        (broadcastInDim S2048x128 ![0, 1] bcast_S1x128_S2048x128_0_1
          (broadcastInDim S1x128 ![1] bcast_S128_S1x128_1 b))
      = Cert.Spec.lin x w brow := by
  funext i
  obtain ⟨p, q, rfl⟩ : ∃ (p : Fin 2048) (q : Fin 128), i = ix2 p q := ⟨i 0, i 1, eq_ix2 i⟩
  rw [addf_apply, row_bcast_apply bcast_S128_S1x128_1 bcast_S1x128_S2048x128_0_1 b p q]
  show _ = (∑ k : Fin 256, x (ix2 p k) * w (ix2 k q)) + brow (ix2 0 q)
  rw [hb]
  exact congrArg (· + b (ix1 q)) (dot_apply dot_S2048x256_S256x128_S2048x128_1_0_0_1_n_n_wf none x w p q)

/-- Entry (p, q) of x·w plus the bias vector laid along the rows: the sum over k of x[p,k]·w[k,q], plus
    the bias entry q (x is 2048 by 128, w is 128 by 1); the row of the specification carries the
    bias entries by hypothesis. -/
theorem dot_bias_2048x1 (x : FVec Ideal S2048x128 .f32) (w : FVec Ideal S128x1 .f32) (b : FVec Ideal S1 .f32)
    (brow : Cert.Spec.Mat 1 1) (hb : ∀ q, brow (ix2 0 q) = b (ix1 q)) :
    addf (Host.dotGeneral (F := Ideal) dot_S2048x128_S128x1_S2048x1_1_0_0_1_n_n none x w)
        (broadcastInDim S2048x1 ![0, 1] bcast_S1x1_S2048x1_0_1
          (broadcastInDim S1x1 ![1] bcast_S1_S1x1_1 b))
      = Cert.Spec.lin x w brow := by
  funext i
  obtain ⟨p, q, rfl⟩ : ∃ (p : Fin 2048) (q : Fin 1), i = ix2 p q := ⟨i 0, i 1, eq_ix2 i⟩
  rw [addf_apply, row_bcast_apply bcast_S1_S1x1_1 bcast_S1x1_S2048x1_0_1 b p q]
  show _ = (∑ k : Fin 128, x (ix2 p k) * w (ix2 k q)) + brow (ix2 0 q)
  rw [hb]
  exact congrArg (· + b (ix1 q)) (dot_apply dot_S2048x128_S128x1_S2048x1_1_0_0_1_n_n_wf none x w p q)

/-! ## A matrix product with no bias -/

/-- Entry (p, q) of x·w alone (x is 50000 by 64, w is 64 by 128) is the specification's entry with a row
    of zeros for the bias: adding the extended real 0 changes nothing. -/
theorem dot_zero_50000x64 (x : FVec Ideal S50000x64 .f32) (w : FVec Ideal S64x128 .f32)
    (zrow : Cert.Spec.Mat 1 128) (hz : ∀ q, zrow (ix2 0 q) = Ideal.ofBits .f32 0x00000000#32) :
    Host.dotGeneral (F := Ideal) dot_S50000x64_S64x128_S50000x128_1_0_0_1_n_n none x w = Cert.Spec.lin x w zrow := by
  funext i
  obtain ⟨p, q, rfl⟩ : ∃ (p : Fin 50000) (q : Fin 128), i = ix2 p q := ⟨i 0, i 1, eq_ix2 i⟩
  show _ = (∑ k : Fin 64, x (ix2 p k) * w (ix2 k q)) + zrow (ix2 0 q)
  rw [hz, Ideal.ofBits_zero_f32, add_zero]
  exact dot_apply dot_S50000x64_S64x128_S50000x128_1_0_0_1_n_n_wf none x w p q

/-- Entry (p, q) of x·w alone (x is 50000 by 128, w is 128 by 128) is the specification's entry with a row
    of zeros for the bias: adding the extended real 0 changes nothing. -/
theorem dot_zero_50000x128 (x : FVec Ideal S50000x128 .f32) (w : FVec Ideal S128x128 .f32)
    (zrow : Cert.Spec.Mat 1 128) (hz : ∀ q, zrow (ix2 0 q) = Ideal.ofBits .f32 0x00000000#32) :
    Host.dotGeneral (F := Ideal) dot_S50000x128_S128x128_S50000x128_1_0_0_1_n_n none x w = Cert.Spec.lin x w zrow := by
  funext i
  obtain ⟨p, q, rfl⟩ : ∃ (p : Fin 50000) (q : Fin 128), i = ix2 p q := ⟨i 0, i 1, eq_ix2 i⟩
  show _ = (∑ k : Fin 128, x (ix2 p k) * w (ix2 k q)) + zrow (ix2 0 q)
  rw [hz, Ideal.ofBits_zero_f32, add_zero]
  exact dot_apply dot_S50000x128_S128x128_S50000x128_1_0_0_1_n_n_wf none x w p q

/-! ## The combination d · agg + d² · xw + b -/

/-- Entry (p, q) of the chain: the degree vector's entry p times agg, plus its square times xw,
    plus the bias vector's entry q; the column and the row of the specification carry those
    entries by hypothesis. -/
theorem comb_eq (agg xw : FVec Ideal S50000x128 .f32) (dinv : FVec Ideal S50000 .f32) (b : FVec Ideal S128 .f32)
    (dcol : Cert.Spec.Mat 50000 1) (brow : Cert.Spec.Mat 1 128)
    (hd : ∀ p, dcol (ix2 p 0) = dinv (ix1 p)) (hb : ∀ q, brow (ix2 0 q) = b (ix1 q)) :
    addf
        (addf
          (mulf (broadcastInDim S50000x128 ![0, 1] bcast_S50000x1_S50000x128_0_1
            (broadcastInDim S50000x1 ![0] bcast_S50000_S50000x1_0 dinv)) agg)
          (mulf (broadcastInDim S50000x128 ![0, 1] bcast_S50000x1_S50000x128_0_1
            (broadcastInDim S50000x1 ![0] bcast_S50000_S50000x1_0 (mulf dinv dinv))) xw))
        (broadcastInDim S50000x128 ![0, 1] bcast_S1x128_S50000x128_0_1
          (broadcastInDim S1x128 ![1] bcast_S128_S1x128_1 b))
      = Cert.Spec.comb agg xw dcol brow := by
  funext i
  obtain ⟨p, q, rfl⟩ : ∃ (p : Fin 50000) (q : Fin 128), i = ix2 p q := ⟨i 0, i 1, eq_ix2 i⟩
  rw [addf_apply, addf_apply, mulf_apply, mulf_apply,
    col_bcast_apply bcast_S50000_S50000x1_0 bcast_S50000x1_S50000x128_0_1 dinv p q,
    col_bcast_apply bcast_S50000_S50000x1_0 bcast_S50000x1_S50000x128_0_1 (mulf dinv dinv) p q,
    row_bcast_apply bcast_S128_S1x128_1 bcast_S1x128_S50000x128_0_1 b p q, mulf_apply]
  show _ = dcol (ix2 p 0) * agg (ix2 p q) + dcol (ix2 p 0) * dcol (ix2 p 0) * xw (ix2 p q) + brow (ix2 0 q)
  rw [hd, hb]

/-! ## The activation x · logistic x -/

/-- x · (1 / (1 + e^(-x))) entry by entry: the constant 1 broadcast to every entry, and the quotient
    1 / (1 + e^(-x)) is the logistic function by definition. -/
theorem silu_50000x128 (x : FVec Ideal S50000x128 .f32) :
    mulf x (Host.divf (F := Ideal)
        (broadcastInDim S50000x128 ![] bcast_S_S50000x128 (constant (F := Ideal) S_ .f32 0x3F800000#32))
        (addf (broadcastInDim S50000x128 ![] bcast_S_S50000x128 (constant (F := Ideal) S_ .f32 0x3F800000#32))
          (Host.exp (F := Ideal) (Host.negf (F := Ideal) x))))
      = Cert.Spec.silu x := by
  funext i
  show x i * Ideal.div (Ideal.ofBits .f32 0x3F800000#32)
      (Ideal.ofBits .f32 0x3F800000#32 + Ideal.exp (-(x i))) = x i * Ideal.logistic (x i)
  rw [Ideal.ofBits_one_f32]
  rfl

/-- x · (1 / (1 + e^(-x))) entry by entry: the constant 1 broadcast to every entry, and the quotient
    1 / (1 + e^(-x)) is the logistic function by definition. -/
theorem silu_2048x128 (x : FVec Ideal S2048x128 .f32) :
    mulf x (Host.divf (F := Ideal)
        (broadcastInDim S2048x128 ![] bcast_S_S2048x128 (constant (F := Ideal) S_ .f32 0x3F800000#32))
        (addf (broadcastInDim S2048x128 ![] bcast_S_S2048x128 (constant (F := Ideal) S_ .f32 0x3F800000#32))
          (Host.exp (F := Ideal) (Host.negf (F := Ideal) x))))
      = Cert.Spec.silu x := by
  funext i
  show x i * Ideal.div (Ideal.ofBits .f32 0x3F800000#32)
      (Ideal.ofBits .f32 0x3F800000#32 + Ideal.exp (-(x i))) = x i * Ideal.logistic (x i)
  rw [Ideal.ofBits_one_f32]
  rfl

/-- x · (1 / (1 + e^(-x))) entry by entry: the constant 1 broadcast to every entry, and the quotient
    1 / (1 + e^(-x)) is the logistic function by definition. -/
theorem silu_2048x256 (x : FVec Ideal S2048x256 .f32) :
    mulf x (Host.divf (F := Ideal)
        (broadcastInDim S2048x256 ![] bcast_S_S2048x256 (constant (F := Ideal) S_ .f32 0x3F800000#32))
        (addf (broadcastInDim S2048x256 ![] bcast_S_S2048x256 (constant (F := Ideal) S_ .f32 0x3F800000#32))
          (Host.exp (F := Ideal) (Host.negf (F := Ideal) x))))
      = Cert.Spec.silu x := by
  funext i
  show x i * Ideal.div (Ideal.ofBits .f32 0x3F800000#32)
      (Ideal.ofBits .f32 0x3F800000#32 + Ideal.exp (-(x i))) = x i * Ideal.logistic (x i)
  rw [Ideal.ofBits_one_f32]
  rfl

/-! ## The normalisation (x − mean) · rsqrt (var + ε) · g + β -/

/-- Entry (p, q) of the chain: (x − mean_q) · rsqrt (var_q + ε) · g_q + β_q, the four vectors read
    at the column q; the rows of the specification carry those entries by hypothesis. -/
theorem bn_50000x128 (x : FVec Ideal S50000x128 .f32) (mean var g β : FVec Ideal S128 .f32)
    (meanr varr gr βr : Cert.Spec.Mat 1 128)
    (hm : ∀ q, meanr (ix2 0 q) = mean (ix1 q)) (hv : ∀ q, varr (ix2 0 q) = var (ix1 q))
    (hg : ∀ q, gr (ix2 0 q) = g (ix1 q)) (hβ : ∀ q, βr (ix2 0 q) = β (ix1 q)) :
    addf
        (mulf
          (mulf
            (subf x
              (broadcastInDim S50000x128 ![0, 1] bcast_S1x128_S50000x128_0_1
          (broadcastInDim S1x128 ![1] bcast_S128_S1x128_1 mean)))
            (broadcastInDim S50000x128 ![0, 1] bcast_S1x128_S50000x128_0_1
          (broadcastInDim S1x128 ![1] bcast_S128_S1x128_1 (Host.rsqrt (F := Ideal)
              (addf var (broadcastInDim S128 ![] bcast_S_S128 (constant (F := Ideal) S_ .f32 0x3727C5AC#32)))))))
          (broadcastInDim S50000x128 ![0, 1] bcast_S1x128_S50000x128_0_1
          (broadcastInDim S1x128 ![1] bcast_S128_S1x128_1 g)))
        (broadcastInDim S50000x128 ![0, 1] bcast_S1x128_S50000x128_0_1
          (broadcastInDim S1x128 ![1] bcast_S128_S1x128_1 β))
      = Cert.Spec.bn x meanr varr gr βr := by
  funext i
  obtain ⟨p, q, rfl⟩ : ∃ (p : Fin 50000) (q : Fin 128), i = ix2 p q := ⟨i 0, i 1, eq_ix2 i⟩
  rw [addf_apply, mulf_apply, mulf_apply, subf_apply,
    row_bcast_apply bcast_S128_S1x128_1 bcast_S1x128_S50000x128_0_1 mean p q,
    row_bcast_apply bcast_S128_S1x128_1 bcast_S1x128_S50000x128_0_1 g p q,
    row_bcast_apply bcast_S128_S1x128_1 bcast_S1x128_S50000x128_0_1 β p q,
    row_bcast_apply bcast_S128_S1x128_1 bcast_S1x128_S50000x128_0_1 _ p q]
  show (x (ix2 p q) - mean (ix1 q)) * Ideal.rsqrt (var (ix1 q) + Ideal.ofBits .f32 0x3727C5AC#32) * g (ix1 q)
      + β (ix1 q)
    = (x (ix2 p q) - meanr (ix2 0 q)) * Ideal.rsqrt (varr (ix2 0 q) + Ideal.ofBits .f32 0x3727C5AC#32)
      * gr (ix2 0 q) + βr (ix2 0 q)
  rw [hm, hv, hg, hβ]

/-- Entry (p, q) of the chain: (x − mean_q) · rsqrt (var_q + ε) · g_q + β_q, the four vectors read
    at the column q; the rows of the specification carry those entries by hypothesis. -/
theorem bn_2048x128 (x : FVec Ideal S2048x128 .f32) (mean var g β : FVec Ideal S128 .f32)
    (meanr varr gr βr : Cert.Spec.Mat 1 128)
    (hm : ∀ q, meanr (ix2 0 q) = mean (ix1 q)) (hv : ∀ q, varr (ix2 0 q) = var (ix1 q))
    (hg : ∀ q, gr (ix2 0 q) = g (ix1 q)) (hβ : ∀ q, βr (ix2 0 q) = β (ix1 q)) :
    addf
        (mulf
          (mulf
            (subf x
              (broadcastInDim S2048x128 ![0, 1] bcast_S1x128_S2048x128_0_1
          (broadcastInDim S1x128 ![1] bcast_S128_S1x128_1 mean)))
            (broadcastInDim S2048x128 ![0, 1] bcast_S1x128_S2048x128_0_1
          (broadcastInDim S1x128 ![1] bcast_S128_S1x128_1 (Host.rsqrt (F := Ideal)
              (addf var (broadcastInDim S128 ![] bcast_S_S128 (constant (F := Ideal) S_ .f32 0x3727C5AC#32)))))))
          (broadcastInDim S2048x128 ![0, 1] bcast_S1x128_S2048x128_0_1
          (broadcastInDim S1x128 ![1] bcast_S128_S1x128_1 g)))
        (broadcastInDim S2048x128 ![0, 1] bcast_S1x128_S2048x128_0_1
          (broadcastInDim S1x128 ![1] bcast_S128_S1x128_1 β))
      = Cert.Spec.bn x meanr varr gr βr := by
  funext i
  obtain ⟨p, q, rfl⟩ : ∃ (p : Fin 2048) (q : Fin 128), i = ix2 p q := ⟨i 0, i 1, eq_ix2 i⟩
  rw [addf_apply, mulf_apply, mulf_apply, subf_apply,
    row_bcast_apply bcast_S128_S1x128_1 bcast_S1x128_S2048x128_0_1 mean p q,
    row_bcast_apply bcast_S128_S1x128_1 bcast_S1x128_S2048x128_0_1 g p q,
    row_bcast_apply bcast_S128_S1x128_1 bcast_S1x128_S2048x128_0_1 β p q,
    row_bcast_apply bcast_S128_S1x128_1 bcast_S1x128_S2048x128_0_1 _ p q]
  show (x (ix2 p q) - mean (ix1 q)) * Ideal.rsqrt (var (ix1 q) + Ideal.ofBits .f32 0x3727C5AC#32) * g (ix1 q)
      + β (ix1 q)
    = (x (ix2 p q) - meanr (ix2 0 q)) * Ideal.rsqrt (varr (ix2 0 q) + Ideal.ofBits .f32 0x3727C5AC#32)
      * gr (ix2 0 q) + βr (ix2 0 q)
  rw [hm, hv, hg, hβ]

end Cert.ReferenceIdeal.Stages

end
-- ==== Proof.Step1.lean ====
/-
  The first checkpoint. Before the first kernel region the host computes, from the edge list, the edge sources and
  targets, the node degrees by a scatter-add of ones plus the self loop, and their inverse square roots; both programs
  spell this with the same operations. The kernel's program also lays the inverse-root degrees out as a column and
  prepares a row of zeros as the first dense layer's bias. The first region is the dense layer on the node features:
  a row of x against a column of the weights, summed over the 64 shared entries, plus zero, which is the
  reference's dot product.
-/
import proofs.«169641_j32169305047251_1_alg».proof.Proof.Chain0
import proofs.«169641_j32169305047251_1_alg».proof.Proof.RegLinear
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen
open Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

/-- A vector of length a laid out as an a-by-1 column: entry (i, u) is the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

set_option maxHeartbeats 8000000 in
theorem s1_ka : ∀ a ∈ kArgs, W2 m ρ c (Proc.devRef .tc a) = m ((c.tc : Thread Cert.KernelIdeal.nD Cert.KernelIdeal.τ).loc a) := by
  intro a ha
  simp only [kArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    first
      | refine (W2_of_ne m ρ c _ (by decide)).trans ?_
      | refine ((W2_arr m ρ c 0).trans (((dat0 (V1 m ρ) c).arrAt_in 0 rfl _).trans (A_eq0 (V1 m ρ) c 0))).trans ?_
      | refine ((W2_arr m ρ c 1).trans (((dat0 (V1 m ρ) c).arrAt_in 1 rfl _).trans (A_eq0 (V1 m ρ) c 1))).trans ?_
      | refine ((W2_arr m ρ c 2).trans (((dat0 (V1 m ρ) c).arrAt_in 2 rfl _).trans (A_eq0 (V1 m ρ) c 2))).trans ?_
  all_goals
    dsimp only [V1, W1, hostOps0]
    after_results
    try rfl

set_option maxHeartbeats 8000000 in
theorem s1_ra : ∀ a ∈ rArgs, Rc1 (R0 m' c) (Proc.devRef .tc a) = m' ((c.tc : Thread Cert.ReferenceIdeal.nD Cert.ReferenceIdeal.τ).loc a) := by
  intro a ha
  simp only [rArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    unfold Rc1
    rw [StableHlo.after_append]
    dsimp only [ops0, ops1]
    after_results
    try rfl

/-- The edge list argument, the same array on both sides. -/
theorem s1_e1 (hag : Agree m m' c) :
    (W0 m ρ c (Proc.devRef .tc Cert.KernelIdeal.main_arg1) : Cert.KernelIdeal.S2x800000.Idx → BitVec 32) = R0 m' c (Proc.devRef .tc Cert.ReferenceIdeal.main_arg1) := by
  unfold Agree at hag
  obtain ⟨a0, a1, a2, a3, a4, a5, a6, a7, a8, a9, a10, a11, a12, a13, a14, a15, a16, a17, a18, a19, a20, a21, a22, a23⟩ := hag
  exact a1.symm

set_option maxHeartbeats 4000000 in
theorem s1_row (hag : Agree m m' c) :
    (W2 m ρ c (Proc.devRef .tc Cert.KernelIdeal.main_v1) : Cert.KernelIdeal.S800000.Idx → BitVec 32) = Rc1 (R0 m' c) (Proc.devRef .tc Cert.ReferenceIdeal.main_v1) := by
  have e1 := s1_e1 m m' c ρ hag
  rw [W2_of_ne m ρ c _ (by decide)]
  unfold Rc1
  rw [StableHlo.after_append]
  dsimp only [W1, hostOps0, ops0, ops1]
  after_results
  rw [e1]
  rfl

set_option maxHeartbeats 4000000 in
theorem s1_col (hag : Agree m m' c) :
    (W2 m ρ c (Proc.devRef .tc Cert.KernelIdeal.main_v3) : Cert.KernelIdeal.S800000.Idx → BitVec 32) = Rc1 (R0 m' c) (Proc.devRef .tc Cert.ReferenceIdeal.main_v3) := by
  have e1 := s1_e1 m m' c ρ hag
  rw [W2_of_ne m ρ c _ (by decide)]
  unfold Rc1
  rw [StableHlo.after_append]
  dsimp only [W1, hostOps0, ops0, ops1]
  after_results
  rw [e1]
  rfl

set_option maxHeartbeats 4000000 in
theorem s1_dinv (hag : Agree m m' c) :
    (W2 m ρ c (Proc.devRef .tc Cert.KernelIdeal.main_v10) : Cert.KernelIdeal.S50000.Idx → EReal) = Rc1 (R0 m' c) (Proc.devRef .tc Cert.ReferenceIdeal.main_v10) := by
  have e1 := s1_e1 m m' c ρ hag
  rw [W2_of_ne m ρ c _ (by decide)]
  unfold Rc1
  rw [StableHlo.after_append]
  dsimp only [W1, hostOps0, ops0, ops1]
  after_results
  rw [e1]
  rfl

set_option maxHeartbeats 4000000 in
theorem s1_dcol (hag : Agree m m' c) (p : Fin 50000) :
    (W2 m ρ c (Proc.devRef .tc Cert.KernelIdeal.main_v11) : Cert.KernelIdeal.S50000x1.Idx → EReal) (ix2 p 0)
      = (Rc1 (R0 m' c) (Proc.devRef .tc Cert.ReferenceIdeal.main_v10) : Cert.ReferenceIdeal.S50000.Idx → EReal) (ix1 p) := by
  have e1 := s1_e1 m m' c ρ hag
  rw [W2_of_ne m ρ c _ (by decide)]
  unfold Rc1
  rw [StableHlo.after_append]
  dsimp only [W1, hostOps0, ops0, ops1]
  after_results
  refine (shapeCast_a_a1_apply _ _ p 0).trans ?_
  rw [e1]
  rfl

set_option maxHeartbeats 4000000 in
theorem s1_main (hag : Agree m m' c) :
    (W2 m ρ c (Proc.devRef .tc Cert.KernelIdeal.main_v14) : Cert.KernelIdeal.S50000x128.Idx → EReal) = Rc1 (R0 m' c) (Proc.devRef .tc Cert.ReferenceIdeal.main_v11) := by
  have hag' := hag
  unfold Agree at hag'
  obtain ⟨a0, a1, a2, a3, a4, a5, a6, a7, a8, a9, a10, a11, a12, a13, a14, a15, a16, a17, a18, a19, a20, a21, a22, a23⟩ := hag'
  refine ((W2_arr m ρ c 3).trans (Cert.KernelIdeal.RegVal.final0 (V1 m ρ) c)).trans ?_
  have hx : (V1 m ρ c Cert.KernelIdeal.main_arg0 : Cert.KernelIdeal.S50000x64.Idx → EReal) = R0 m' c (Proc.devRef .tc Cert.ReferenceIdeal.main_arg0) := by
    dsimp only [V1, W1, hostOps0]
    after_results
    exact a0.symm
  have hw : (V1 m ρ c Cert.KernelIdeal.main_arg4 : Cert.KernelIdeal.S64x128.Idx → EReal) = R0 m' c (Proc.devRef .tc Cert.ReferenceIdeal.main_arg4) := by
    dsimp only [V1, W1, hostOps0]
    after_results
    exact a4.symm
  have hz : ∀ q : Fin 128, (V1 m ρ c Cert.KernelIdeal.main_v13 : Cert.KernelIdeal.S1x128.Idx → EReal) (ix2 0 q) = Ideal.ofBits .f32 0x00000000#32 := by
    intro q
    dsimp only [V1, W1, hostOps0]
    after_results
    refine (shapeCast_a_1a_apply _ _ 0 q).trans ?_
    rfl
  have hR : (Rc1 (R0 m' c) (Proc.devRef .tc Cert.ReferenceIdeal.main_v11) : Cert.ReferenceIdeal.S50000x128.Idx → EReal)
      = Host.dotGeneral (F := Ideal) (φ₁ := .f32) (φ₂ := .f32) Cert.ReferenceIdeal.dot_S50000x64_S64x128_S50000x128_1_0_0_1_n_n none (R0 m' c (Proc.devRef .tc Cert.ReferenceIdeal.main_arg0)) (R0 m' c (Proc.devRef .tc Cert.ReferenceIdeal.main_arg4)) := by
    unfold Rc1
    rw [StableHlo.after_append]
    dsimp only [ops0, ops1]
    after_results
    try rfl
  rw [hR, hx, hw]
  exact (Cert.ReferenceIdeal.Stages.dot_zero_50000x64 _ _ _ hz).symm

/-- The first checkpoint's invariant, from launch memories that agree on the arguments. -/
theorem step1 (hag : Agree m m' c) : Inv1 m m' c ρ :=
  ⟨⟨s1_ka m c ρ, s1_ra m' c⟩,
   ⟨s1_row m m' c ρ hag, s1_col m m' c ρ hag, s1_dinv m m' c ρ hag, s1_dcol m m' c ρ hag⟩,
   s1_main m m' c ρ hag⟩

end Cert.Chain

end
-- ==== Proof.RegCombSilu.lean ====
import proofs.«169641_j32169305047251_1_alg».proof.Proof.Gen.KernelIdeal.Frame
import proofs.«169641_j32169305047251_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! Six regions of the kernel-side program read as whole-array functions of the arrays each region finds.

  Three regions apply the activation x ↦ x · logistic x entry by entry; three combine the aggregated messages, the
  transformed features, the degree column and the bias row into d·agg + d²·xw + b. Each region walks a one-axis grid
  whose point `t` handles the block of rows `t·R … t·R + R − 1` (all 128 columns) of every row-blocked array. For each
  region: the body's result on a block, entry by entry; what a point writes back is that block of the whole-array
  function; every array index lies in the block of point `row / R`; hence the output array after the last point is the
  whole-array function. -/

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! # The steps, region by region -/

namespace CombSilu

variable (V : (c : Dev nD) → (b : Ref sig .tc) → Buf (Elt Ideal) ((c : Thread nD τ).loc b))

/-- The zero offsets of a two-axis block, as a constant function. -/
theorem zero_offsets : (![0, 0] : Fin 2 → Nat) = fun _ => 0 := funext fun a => by fin_cases a <;> rfl

/-! ## A column broadcast along the rows' entries -/

/-- An `[a, 1]` column broadcast to `[a, b]` reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## Region 5: the activation on 10 blocks of 5000 rows -/

/-- The activation body on a block: every entry times its logistic. -/
theorem silu_block5 (x : Vec Ideal S5000x128 .f32) :
    k5_pay1 (F := Ideal) x = fun j => x j * Ideal.logistic (x j) := by
  unfold k5_pay1
  rw [shapeCast_self]
  rfl

/-- At grid point `t` both windows sit at block row `t`, block column 0. -/
theorem blocks5 : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- What point `t` writes back is block `t` of the activation of the whole input array: the input block and the
    output block cover the same rows (row = block row × 5000 + row inside the block) and all 128 columns. -/
theorem flushed5_eq (c : Dev nD) (t : Fin cfg5.N) :
    (dat5 (F := Ideal) V c).flushed 1 t
      = ((cfg5.win 1).blk t).view.read (Elt Ideal) (Cert.Spec.silu (V c main_v70)) := by
  show (cfg5.win 1).cut (grid5.coords t) ((dat5 V c).after 1 t) = _
  rw [after5_1]
  unfold out5_1
  rw [View.canon_unit_zero zero_offsets]
  simp only [View.ld_unit_zero (S := S5000x128) zero_offsets]
  rw [silu_block5]
  obtain ⟨e0, e1, e2, e3⟩ := blocks5 t
  funext j
  have h0 : ((cfg5.win 0).blk t).view.emb j = ((cfg5.win 1).blk t).view.emb j := by
    funext a; apply Fin.ext
    match a with
    | ⟨0, _⟩ => show win5_0.index t (0 : Fin 2) * 5000 + 1 * (j 0).val = win5_1.index t (0 : Fin 2) * 5000 + 1 * (j 0).val; omega
    | ⟨1, _⟩ => show win5_0.index t (1 : Fin 2) * 128 + 1 * (j 1).val = win5_1.index t (1 : Fin 2) * 128 + 1 * (j 1).val; omega
  show (fun x : EReal => x * Ideal.logistic x) ((V c main_v70 : S50000x128.Idx → EReal) (((cfg5.win 0).blk t).view.emb j))
    = (fun x : EReal => x * Ideal.logistic x) ((V c main_v70 : S50000x128.Idx → EReal) (((cfg5.win 1).blk t).view.emb j))
  rw [h0]

/-- An index of the output array lies in point `t`'s block iff each coordinate lies in the block's range on its axis. -/
theorem mem_blk5 (t : Fin cfg5.N) (i : S50000x128.Idx) :
    i ∈ ((cfg5.win 1).blk t).view.set ↔ ∀ a : Fin 2, win5_1.index t a * S5000x128.size a ≤ (i a).val
      ∧ (i a).val < win5_1.index t a * S5000x128.size a + S5000x128.size a := by
  show i ∈ ((View.whole main_v71).slice (win5_1.rect t)).set ↔ _
  rw [View.set_slice_whole, Rect.mem_set_unit]
  exact Iff.rfl

/-- Row `r` of the output array lies in the block of point `r / 5000`, which writes back. -/
theorem cover5 (i : S50000x128.Idx) :
    ∃ t : Fin cfg5.N, (cfg5.win 1).flush t = true ∧ i ∈ ((cfg5.win 1).blk t).view.set := by
  have hi0 : (i 0).val < 50000 := (i 0).isLt
  have hi1 : (i 1).val < 128 := (i 1).isLt
  have hN : grid5.N = 10 := N_5
  obtain ⟨t, ht⟩ : ∃ t : Fin cfg5.N, t.val = (i 0).val / 5000 :=
    ⟨⟨(i 0).val / 5000, by show _ < grid5.N; omega⟩, rfl⟩
  obtain ⟨-, -, e2, e3⟩ := blocks5 t
  refine ⟨t, flush5_1 t, ?_⟩
  rw [mem_blk5]
  intro a
  match a with
  | ⟨0, _⟩ => show win5_1.index t (0 : Fin 2) * 5000 ≤ (i 0).val ∧ (i 0).val < win5_1.index t (0 : Fin 2) * 5000 + 5000; omega
  | ⟨1, _⟩ => show win5_1.index t (1 : Fin 2) * 128 ≤ (i 1).val ∧ (i 1).val < win5_1.index t (1 : Fin 2) * 128 + 128; omega

/-! ## Region 8: the activation on 10 blocks of 5000 rows -/

/-- The activation body on a block: every entry times its logistic. -/
theorem silu_block8 (x : Vec Ideal S5000x128 .f32) :
    k8_pay1 (F := Ideal) x = fun j => x j * Ideal.logistic (x j) := by
  unfold k8_pay1
  rw [shapeCast_self]
  rfl

/-- At grid point `t` both windows sit at block row `t`, block column 0. -/
theorem blocks8 : ∀ t : Fin cfg8.N, win8_0.index t (0 : Fin 2) = t.val ∧ win8_0.index t (1 : Fin 2) = 0
    ∧ win8_1.index t (0 : Fin 2) = t.val ∧ win8_1.index t (1 : Fin 2) = 0 :=
  (by decide +kernel : ∀ t : Fin grid8.N, _)

/-- What point `t` writes back is block `t` of the activation of the whole input array: the input block and the
    output block cover the same rows (row = block row × 5000 + row inside the block) and all 128 columns. -/
theorem flushed8_eq (c : Dev nD) (t : Fin cfg8.N) :
    (dat8 (F := Ideal) V c).flushed 1 t
      = ((cfg8.win 1).blk t).view.read (Elt Ideal) (Cert.Spec.silu (V c main_v96)) := by
  show (cfg8.win 1).cut (grid8.coords t) ((dat8 V c).after 1 t) = _
  rw [after8_1]
  unfold out8_1
  rw [View.canon_unit_zero zero_offsets]
  simp only [View.ld_unit_zero (S := S5000x128) zero_offsets]
  rw [silu_block8]
  obtain ⟨e0, e1, e2, e3⟩ := blocks8 t
  funext j
  have h0 : ((cfg8.win 0).blk t).view.emb j = ((cfg8.win 1).blk t).view.emb j := by
    funext a; apply Fin.ext
    match a with
    | ⟨0, _⟩ => show win8_0.index t (0 : Fin 2) * 5000 + 1 * (j 0).val = win8_1.index t (0 : Fin 2) * 5000 + 1 * (j 0).val; omega
    | ⟨1, _⟩ => show win8_0.index t (1 : Fin 2) * 128 + 1 * (j 1).val = win8_1.index t (1 : Fin 2) * 128 + 1 * (j 1).val; omega
  show (fun x : EReal => x * Ideal.logistic x) ((V c main_v96 : S50000x128.Idx → EReal) (((cfg8.win 0).blk t).view.emb j))
    = (fun x : EReal => x * Ideal.logistic x) ((V c main_v96 : S50000x128.Idx → EReal) (((cfg8.win 1).blk t).view.emb j))
  rw [h0]

/-- An index of the output array lies in point `t`'s block iff each coordinate lies in the block's range on its axis. -/
theorem mem_blk8 (t : Fin cfg8.N) (i : S50000x128.Idx) :
    i ∈ ((cfg8.win 1).blk t).view.set ↔ ∀ a : Fin 2, win8_1.index t a * S5000x128.size a ≤ (i a).val
      ∧ (i a).val < win8_1.index t a * S5000x128.size a + S5000x128.size a := by
  show i ∈ ((View.whole main_v97).slice (win8_1.rect t)).set ↔ _
  rw [View.set_slice_whole, Rect.mem_set_unit]
  exact Iff.rfl

/-- Row `r` of the output array lies in the block of point `r / 5000`, which writes back. -/
theorem cover8 (i : S50000x128.Idx) :
    ∃ t : Fin cfg8.N, (cfg8.win 1).flush t = true ∧ i ∈ ((cfg8.win 1).blk t).view.set := by
  have hi0 : (i 0).val < 50000 := (i 0).isLt
  have hi1 : (i 1).val < 128 := (i 1).isLt
  have hN : grid8.N = 10 := N_8
  obtain ⟨t, ht⟩ : ∃ t : Fin cfg8.N, t.val = (i 0).val / 5000 :=
    ⟨⟨(i 0).val / 5000, by show _ < grid8.N; omega⟩, rfl⟩
  obtain ⟨-, -, e2, e3⟩ := blocks8 t
  refine ⟨t, flush8_1 t, ?_⟩
  rw [mem_blk8]
  intro a
  match a with
  | ⟨0, _⟩ => show win8_1.index t (0 : Fin 2) * 5000 ≤ (i 0).val ∧ (i 0).val < win8_1.index t (0 : Fin 2) * 5000 + 5000; omega
  | ⟨1, _⟩ => show win8_1.index t (1 : Fin 2) * 128 ≤ (i 1).val ∧ (i 1).val < win8_1.index t (1 : Fin 2) * 128 + 128; omega

/-! ## Region 12: the activation on 1 block of 2048 rows -/

/-- The activation body on a block: every entry times its logistic. -/
theorem silu_block12 (x : Vec Ideal S2048x128 .f32) :
    k12_pay1 (F := Ideal) x = fun j => x j * Ideal.logistic (x j) := by
  unfold k12_pay1
  rw [shapeCast_self]
  rfl

/-- At grid point `t` both windows sit at block row `t`, block column 0. -/
theorem blocks12 : ∀ t : Fin cfg12.N, win12_0.index t (0 : Fin 2) = t.val ∧ win12_0.index t (1 : Fin 2) = 0
    ∧ win12_1.index t (0 : Fin 2) = t.val ∧ win12_1.index t (1 : Fin 2) = 0 :=
  (by decide +kernel : ∀ t : Fin grid12.N, _)

/-- What point `t` writes back is block `t` of the activation of the whole input array: the input block and the
    output block cover the same rows (row = block row × 2048 + row inside the block) and all 128 columns. -/
theorem flushed12_eq (c : Dev nD) (t : Fin cfg12.N) :
    (dat12 (F := Ideal) V c).flushed 1 t
      = ((cfg12.win 1).blk t).view.read (Elt Ideal) (Cert.Spec.silu (V c main_v113)) := by
  show (cfg12.win 1).cut (grid12.coords t) ((dat12 V c).after 1 t) = _
  rw [after12_1]
  unfold out12_1
  rw [View.canon_unit_zero zero_offsets]
  simp only [View.ld_unit_zero (S := S2048x128) zero_offsets]
  rw [silu_block12]
  obtain ⟨e0, e1, e2, e3⟩ := blocks12 t
  funext j
  have h0 : ((cfg12.win 0).blk t).view.emb j = ((cfg12.win 1).blk t).view.emb j := by
    funext a; apply Fin.ext
    match a with
    | ⟨0, _⟩ => show win12_0.index t (0 : Fin 2) * 2048 + 1 * (j 0).val = win12_1.index t (0 : Fin 2) * 2048 + 1 * (j 0).val; omega
    | ⟨1, _⟩ => show win12_0.index t (1 : Fin 2) * 128 + 1 * (j 1).val = win12_1.index t (1 : Fin 2) * 128 + 1 * (j 1).val; omega
  show (fun x : EReal => x * Ideal.logistic x) ((V c main_v113 : S2048x128.Idx → EReal) (((cfg12.win 0).blk t).view.emb j))
    = (fun x : EReal => x * Ideal.logistic x) ((V c main_v113 : S2048x128.Idx → EReal) (((cfg12.win 1).blk t).view.emb j))
  rw [h0]

/-- An index of the output array lies in point `t`'s block iff each coordinate lies in the block's range on its axis. -/
theorem mem_blk12 (t : Fin cfg12.N) (i : S2048x128.Idx) :
    i ∈ ((cfg12.win 1).blk t).view.set ↔ ∀ a : Fin 2, win12_1.index t a * S2048x128.size a ≤ (i a).val
      ∧ (i a).val < win12_1.index t a * S2048x128.size a + S2048x128.size a := by
  show i ∈ ((View.whole main_v114).slice (win12_1.rect t)).set ↔ _
  rw [View.set_slice_whole, Rect.mem_set_unit]
  exact Iff.rfl

/-- Row `r` of the output array lies in the block of point `r / 2048`, which writes back. -/
theorem cover12 (i : S2048x128.Idx) :
    ∃ t : Fin cfg12.N, (cfg12.win 1).flush t = true ∧ i ∈ ((cfg12.win 1).blk t).view.set := by
  have hi0 : (i 0).val < 2048 := (i 0).isLt
  have hi1 : (i 1).val < 128 := (i 1).isLt
  have hN : grid12.N = 1 := N_12
  obtain ⟨t, ht⟩ : ∃ t : Fin cfg12.N, t.val = (i 0).val / 2048 :=
    ⟨⟨(i 0).val / 2048, by show _ < grid12.N; omega⟩, rfl⟩
  obtain ⟨-, -, e2, e3⟩ := blocks12 t
  refine ⟨t, flush12_1 t, ?_⟩
  rw [mem_blk12]
  intro a
  match a with
  | ⟨0, _⟩ => show win12_1.index t (0 : Fin 2) * 2048 ≤ (i 0).val ∧ (i 0).val < win12_1.index t (0 : Fin 2) * 2048 + 2048; omega
  | ⟨1, _⟩ => show win12_1.index t (1 : Fin 2) * 128 ≤ (i 1).val ∧ (i 1).val < win12_1.index t (1 : Fin 2) * 128 + 128; omega

/-! ## Region 1: the combine on 10 blocks of 5000 rows -/

/-- The combine body on a block, at row `p` and column `q`: with `d` the degree column's entry `p`,
    `d · agg[p,q] + (d · d) · xw[p,q] + b[0,q]`. -/
theorem comb_block1 (dcol : Vec Ideal S5000x1 .f32) (agg xw : Vec Ideal S5000x128 .f32) (b : Vec Ideal S1x128 .f32)
    (p : Fin 5000) (q : Fin 128) :
    k1_pay1 (F := Ideal) dcol agg xw b (ix2 p q)
      = dcol (ix2 p (0 : Fin 1)) * agg (ix2 p q) + (dcol (ix2 p (0 : Fin 1)) * dcol (ix2 p (0 : Fin 1))) * xw (ix2 p q)
        + b (ix2 (0 : Fin 1) q) := by
  unfold k1_pay1
  simp only [shapeCast_self]
  rw [addf_apply, addf_apply, mulf_apply, mulf_apply, broadcastTo_a1_ab_apply, broadcastTo_a1_ab_apply,
    broadcastTo_1b_ab_apply, mulf_apply]

/-- At grid point `t` the three row-blocked inputs and the output sit at block row `t`, block column 0; the bias row's
    one block stays at (0, 0). -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the combine of the whole input arrays: entry (p, q) of the block is
    array row `t · 5000 + p`, column `q`, in the aggregated messages, the transformed features and the output alike;
    the degree entry is the column's row `t · 5000 + p`; the bias entry is the row's column `q`. -/
theorem flushed1_eq (c : Dev nD) (t : Fin cfg1.N) :
    (dat1 (F := Ideal) V c).flushed 4 t
      = ((cfg1.win 4).blk t).view.read (Elt Ideal)
          (Cert.Spec.comb (V c main_v34) (V c main_v14) (V c main_v11) (V c main_v35)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31, e40, e41⟩ := blocks1 t
  funext j
  obtain ⟨p, q, rfl⟩ : ∃ (p : Fin 5000) (q : Fin 128), j = ix2 p q := ⟨j 0, j 1, eq_ix2 j⟩
  refine (comb_block1 (iblk1 V c 2 t) (iblk1 V c 0 t) (iblk1 V c 1 t) (iblk1 V c 3 t) p q).trans ?_
  have h0 : (((cfg1.win 0).blk t).view.emb (ix2 p q)) = (((cfg1.win 4).blk t).view.emb (ix2 p q)) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : (((cfg1.win 1).blk t).view.emb (ix2 p q)) = (((cfg1.win 4).blk t).view.emb (ix2 p q)) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : (((cfg1.win 2).blk t).view.emb (ix2 p (0 : Fin 1))) = (ix2 ((((cfg1.win 4).blk t).view.emb (ix2 p q)) 0) (0 : Fin 1) : S50000x1.Idx) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : (((cfg1.win 3).blk t).view.emb (ix2 (0 : Fin 1) q)) = (ix2 (0 : Fin 1) ((((cfg1.win 4).blk t).view.emb (ix2 p q)) 1) : S1x128.Idx) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  show (fun d a x b : EReal => d * a + (d * d) * x + b)
      ((V c main_v11 : S50000x1.Idx → EReal) (((cfg1.win 2).blk t).view.emb (ix2 p (0 : Fin 1)))) ((V c main_v34 : S50000x128.Idx → EReal) (((cfg1.win 0).blk t).view.emb (ix2 p q)))
      ((V c main_v14 : S50000x128.Idx → EReal) (((cfg1.win 1).blk t).view.emb (ix2 p q))) ((V c main_v35 : S1x128.Idx → EReal) (((cfg1.win 3).blk t).view.emb (ix2 (0 : Fin 1) q)))
    = (fun d a x b : EReal => d * a + (d * d) * x + b)
      ((V c main_v11 : S50000x1.Idx → EReal) (ix2 ((((cfg1.win 4).blk t).view.emb (ix2 p q)) 0) (0 : Fin 1))) ((V c main_v34 : S50000x128.Idx → EReal) (((cfg1.win 4).blk t).view.emb (ix2 p q)))
      ((V c main_v14 : S50000x128.Idx → EReal) (((cfg1.win 4).blk t).view.emb (ix2 p q))) ((V c main_v35 : S1x128.Idx → EReal) (ix2 (0 : Fin 1) ((((cfg1.win 4).blk t).view.emb (ix2 p q)) 1)))
  rw [h0, h1, h2, h3]

/-- An index of the output array lies in point `t`'s block iff each coordinate lies in the block's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v36).slice (win1_4.rect t)).set ↔ _
  rw [View.set_slice_whole, Rect.mem_set_unit]
  exact Iff.rfl

/-- Row `r` of the output array lies in the block of point `r / 5000`, which writes back. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show _ < grid1.N; omega⟩, rfl⟩
  obtain ⟨-, -, -, -, -, -, -, -, e40, e41⟩ := blocks1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-! ## Region 4: the combine on 10 blocks of 5000 rows -/

/-- The combine body on a block, at row `p` and column `q`: with `d` the degree column's entry `p`,
    `d · agg[p,q] + (d · d) · xw[p,q] + b[0,q]`. -/
theorem comb_block4 (dcol : Vec Ideal S5000x1 .f32) (agg xw : Vec Ideal S5000x128 .f32) (b : Vec Ideal S1x128 .f32)
    (p : Fin 5000) (q : Fin 128) :
    k4_pay1 (F := Ideal) dcol agg xw b (ix2 p q)
      = dcol (ix2 p (0 : Fin 1)) * agg (ix2 p q) + (dcol (ix2 p (0 : Fin 1)) * dcol (ix2 p (0 : Fin 1))) * xw (ix2 p q)
        + b (ix2 (0 : Fin 1) q) := by
  unfold k4_pay1
  simp only [shapeCast_self]
  rw [addf_apply, addf_apply, mulf_apply, mulf_apply, broadcastTo_a1_ab_apply, broadcastTo_a1_ab_apply,
    broadcastTo_1b_ab_apply, mulf_apply]

/-- At grid point `t` the three row-blocked inputs and the output sit at block row `t`, block column 0; the bias row's
    one block stays at (0, 0). -/
theorem blocks4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point `t` writes back is block `t` of the combine of the whole input arrays: entry (p, q) of the block is
    array row `t · 5000 + p`, column `q`, in the aggregated messages, the transformed features and the output alike;
    the degree entry is the column's row `t · 5000 + p`; the bias entry is the row's column `q`. -/
theorem flushed4_eq (c : Dev nD) (t : Fin cfg4.N) :
    (dat4 (F := Ideal) V c).flushed 4 t
      = ((cfg4.win 4).blk t).view.read (Elt Ideal)
          (Cert.Spec.comb (V c main_v68) (V c main_v48) (V c main_v11) (V c main_v69)) := by
  show (cfg4.win 4).cut (grid4.coords t) ((dat4 V c).after 4 t) = _
  rw [after4_4]
  unfold out4_4
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31, e40, e41⟩ := blocks4 t
  funext j
  obtain ⟨p, q, rfl⟩ : ∃ (p : Fin 5000) (q : Fin 128), j = ix2 p q := ⟨j 0, j 1, eq_ix2 j⟩
  refine (comb_block4 (iblk4 V c 2 t) (iblk4 V c 0 t) (iblk4 V c 1 t) (iblk4 V c 3 t) p q).trans ?_
  have h0 : (((cfg4.win 0).blk t).view.emb (ix2 p q)) = (((cfg4.win 4).blk t).view.emb (ix2 p q)) := by
    funext a; apply Fin.ext
    match a with
    | ⟨0, _⟩ => show win4_0.index t (0 : Fin 2) * 5000 + 1 * p.val = win4_4.index t (0 : Fin 2) * 5000 + 1 * p.val; omega
    | ⟨1, _⟩ => show win4_0.index t (1 : Fin 2) * 128 + 1 * q.val = win4_4.index t (1 : Fin 2) * 128 + 1 * q.val; omega
  have h1 : (((cfg4.win 1).blk t).view.emb (ix2 p q)) = (((cfg4.win 4).blk t).view.emb (ix2 p q)) := by
    funext a; apply Fin.ext
    match a with
    | ⟨0, _⟩ => show win4_1.index t (0 : Fin 2) * 5000 + 1 * p.val = win4_4.index t (0 : Fin 2) * 5000 + 1 * p.val; omega
    | ⟨1, _⟩ => show win4_1.index t (1 : Fin 2) * 128 + 1 * q.val = win4_4.index t (1 : Fin 2) * 128 + 1 * q.val; omega
  have h2 : (((cfg4.win 2).blk t).view.emb (ix2 p (0 : Fin 1))) = (ix2 ((((cfg4.win 4).blk t).view.emb (ix2 p q)) 0) (0 : Fin 1) : S50000x1.Idx) := by
    funext a; apply Fin.ext
    match a with
    | ⟨0, _⟩ => show win4_2.index t (0 : Fin 2) * 5000 + 1 * p.val = win4_4.index t (0 : Fin 2) * 5000 + 1 * p.val; omega
    | ⟨1, _⟩ => show win4_2.index t (1 : Fin 2) * 1 + 1 * 0 = 0; omega
  have h3 : (((cfg4.win 3).blk t).view.emb (ix2 (0 : Fin 1) q)) = (ix2 (0 : Fin 1) ((((cfg4.win 4).blk t).view.emb (ix2 p q)) 1) : S1x128.Idx) := by
    funext a; apply Fin.ext
    match a with
    | ⟨0, _⟩ => show win4_3.index t (0 : Fin 2) * 1 + 1 * 0 = 0; omega
    | ⟨1, _⟩ => show win4_3.index t (1 : Fin 2) * 128 + 1 * q.val = win4_4.index t (1 : Fin 2) * 128 + 1 * q.val; omega
  show (fun d a x b : EReal => d * a + (d * d) * x + b)
      ((V c main_v11 : S50000x1.Idx → EReal) (((cfg4.win 2).blk t).view.emb (ix2 p (0 : Fin 1)))) ((V c main_v68 : S50000x128.Idx → EReal) (((cfg4.win 0).blk t).view.emb (ix2 p q)))
      ((V c main_v48 : S50000x128.Idx → EReal) (((cfg4.win 1).blk t).view.emb (ix2 p q))) ((V c main_v69 : S1x128.Idx → EReal) (((cfg4.win 3).blk t).view.emb (ix2 (0 : Fin 1) q)))
    = (fun d a x b : EReal => d * a + (d * d) * x + b)
      ((V c main_v11 : S50000x1.Idx → EReal) (ix2 ((((cfg4.win 4).blk t).view.emb (ix2 p q)) 0) (0 : Fin 1))) ((V c main_v68 : S50000x128.Idx → EReal) (((cfg4.win 4).blk t).view.emb (ix2 p q)))
      ((V c main_v48 : S50000x128.Idx → EReal) (((cfg4.win 4).blk t).view.emb (ix2 p q))) ((V c main_v69 : S1x128.Idx → EReal) (ix2 (0 : Fin 1) ((((cfg4.win 4).blk t).view.emb (ix2 p q)) 1)))
  rw [h0, h1, h2, h3]

/-- An index of the output array lies in point `t`'s block iff each coordinate lies in the block's range on its axis. -/
theorem mem_blk4 (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v70).slice (win4_4.rect t)).set ↔ _
  rw [View.set_slice_whole, Rect.mem_set_unit]
  exact Iff.rfl

/-- Row `r` of the output array lies in the block of point `r / 5000`, which writes back. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : grid4.N = 10 := N_4
  obtain ⟨t, ht⟩ : ∃ t : Fin cfg4.N, t.val = (i 0).val / 5000 :=
    ⟨⟨(i 0).val / 5000, by show _ < grid4.N; omega⟩, rfl⟩
  obtain ⟨-, -, -, -, -, -, -, -, e40, e41⟩ := blocks4 t
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-! ## Region 7: the combine on 10 blocks of 5000 rows -/

/-- The combine body on a block, at row `p` and column `q`: with `d` the degree column's entry `p`,
    `d · agg[p,q] + (d · d) · xw[p,q] + b[0,q]`. -/
theorem comb_block7 (dcol : Vec Ideal S5000x1 .f32) (agg xw : Vec Ideal S5000x128 .f32) (b : Vec Ideal S1x128 .f32)
    (p : Fin 5000) (q : Fin 128) :
    k7_pay1 (F := Ideal) dcol agg xw b (ix2 p q)
      = dcol (ix2 p (0 : Fin 1)) * agg (ix2 p q) + (dcol (ix2 p (0 : Fin 1)) * dcol (ix2 p (0 : Fin 1))) * xw (ix2 p q)
        + b (ix2 (0 : Fin 1) q) := by
  unfold k7_pay1
  simp only [shapeCast_self]
  rw [addf_apply, addf_apply, mulf_apply, mulf_apply, broadcastTo_a1_ab_apply, broadcastTo_a1_ab_apply,
    broadcastTo_1b_ab_apply, mulf_apply]

/-- At grid point `t` the three row-blocked inputs and the output sit at block row `t`, block column 0; the bias row's
    one block stays at (0, 0). -/
theorem blocks7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- What point `t` writes back is block `t` of the combine of the whole input arrays: entry (p, q) of the block is
    array row `t · 5000 + p`, column `q`, in the aggregated messages, the transformed features and the output alike;
    the degree entry is the column's row `t · 5000 + p`; the bias entry is the row's column `q`. -/
theorem flushed7_eq (c : Dev nD) (t : Fin cfg7.N) :
    (dat7 (F := Ideal) V c).flushed 4 t
      = ((cfg7.win 4).blk t).view.read (Elt Ideal)
          (Cert.Spec.comb (V c main_v94) (V c main_v74) (V c main_v11) (V c main_v95)) := by
  show (cfg7.win 4).cut (grid7.coords t) ((dat7 V c).after 4 t) = _
  rw [after7_4]
  unfold out7_4
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31, e40, e41⟩ := blocks7 t
  funext j
  obtain ⟨p, q, rfl⟩ : ∃ (p : Fin 5000) (q : Fin 128), j = ix2 p q := ⟨j 0, j 1, eq_ix2 j⟩
  refine (comb_block7 (iblk7 V c 2 t) (iblk7 V c 0 t) (iblk7 V c 1 t) (iblk7 V c 3 t) p q).trans ?_
  have h0 : (((cfg7.win 0).blk t).view.emb (ix2 p q)) = (((cfg7.win 4).blk t).view.emb (ix2 p q)) := by
    funext a; apply Fin.ext
    match a with
    | ⟨0, _⟩ => show win7_0.index t (0 : Fin 2) * 5000 + 1 * p.val = win7_4.index t (0 : Fin 2) * 5000 + 1 * p.val; omega
    | ⟨1, _⟩ => show win7_0.index t (1 : Fin 2) * 128 + 1 * q.val = win7_4.index t (1 : Fin 2) * 128 + 1 * q.val; omega
  have h1 : (((cfg7.win 1).blk t).view.emb (ix2 p q)) = (((cfg7.win 4).blk t).view.emb (ix2 p q)) := by
    funext a; apply Fin.ext
    match a with
    | ⟨0, _⟩ => show win7_1.index t (0 : Fin 2) * 5000 + 1 * p.val = win7_4.index t (0 : Fin 2) * 5000 + 1 * p.val; omega
    | ⟨1, _⟩ => show win7_1.index t (1 : Fin 2) * 128 + 1 * q.val = win7_4.index t (1 : Fin 2) * 128 + 1 * q.val; omega
  have h2 : (((cfg7.win 2).blk t).view.emb (ix2 p (0 : Fin 1))) = (ix2 ((((cfg7.win 4).blk t).view.emb (ix2 p q)) 0) (0 : Fin 1) : S50000x1.Idx) := by
    funext a; apply Fin.ext
    match a with
    | ⟨0, _⟩ => show win7_2.index t (0 : Fin 2) * 5000 + 1 * p.val = win7_4.index t (0 : Fin 2) * 5000 + 1 * p.val; omega
    | ⟨1, _⟩ => show win7_2.index t (1 : Fin 2) * 1 + 1 * 0 = 0; omega
  have h3 : (((cfg7.win 3).blk t).view.emb (ix2 (0 : Fin 1) q)) = (ix2 (0 : Fin 1) ((((cfg7.win 4).blk t).view.emb (ix2 p q)) 1) : S1x128.Idx) := by
    funext a; apply Fin.ext
    match a with
    | ⟨0, _⟩ => show win7_3.index t (0 : Fin 2) * 1 + 1 * 0 = 0; omega
    | ⟨1, _⟩ => show win7_3.index t (1 : Fin 2) * 128 + 1 * q.val = win7_4.index t (1 : Fin 2) * 128 + 1 * q.val; omega
  show (fun d a x b : EReal => d * a + (d * d) * x + b)
      ((V c main_v11 : S50000x1.Idx → EReal) (((cfg7.win 2).blk t).view.emb (ix2 p (0 : Fin 1)))) ((V c main_v94 : S50000x128.Idx → EReal) (((cfg7.win 0).blk t).view.emb (ix2 p q)))
      ((V c main_v74 : S50000x128.Idx → EReal) (((cfg7.win 1).blk t).view.emb (ix2 p q))) ((V c main_v95 : S1x128.Idx → EReal) (((cfg7.win 3).blk t).view.emb (ix2 (0 : Fin 1) q)))
    = (fun d a x b : EReal => d * a + (d * d) * x + b)
      ((V c main_v11 : S50000x1.Idx → EReal) (ix2 ((((cfg7.win 4).blk t).view.emb (ix2 p q)) 0) (0 : Fin 1))) ((V c main_v94 : S50000x128.Idx → EReal) (((cfg7.win 4).blk t).view.emb (ix2 p q)))
      ((V c main_v74 : S50000x128.Idx → EReal) (((cfg7.win 4).blk t).view.emb (ix2 p q))) ((V c main_v95 : S1x128.Idx → EReal) (ix2 (0 : Fin 1) ((((cfg7.win 4).blk t).view.emb (ix2 p q)) 1)))
  rw [h0, h1, h2, h3]

/-- An index of the output array lies in point `t`'s block iff each coordinate lies in the block's range on its axis. -/
theorem mem_blk7 (t : Fin cfg7.N) (i : S50000x128.Idx) :
    i ∈ ((cfg7.win 4).blk t).view.set ↔ ∀ a : Fin 2, win7_4.index t a * S5000x128.size a ≤ (i a).val
      ∧ (i a).val < win7_4.index t a * S5000x128.size a + S5000x128.size a := by
  show i ∈ ((View.whole main_v96).slice (win7_4.rect t)).set ↔ _
  rw [View.set_slice_whole, Rect.mem_set_unit]
  exact Iff.rfl

/-- Row `r` of the output array lies in the block of point `r / 5000`, which writes back. -/
theorem cover7 (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  have hN : grid7.N = 10 := N_7
  obtain ⟨t, ht⟩ : ∃ t : Fin cfg7.N, t.val = (i 0).val / 5000 :=
    ⟨⟨(i 0).val / 5000, by show _ < grid7.N; omega⟩, rfl⟩
  obtain ⟨-, -, -, -, -, -, -, -, e40, e41⟩ := blocks7 t
  refine ⟨t, flush7_4 t, ?_⟩
  rw [mem_blk7]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 128 ≤ (i 1).val ∧ (i 1).val < win7_4.index t (1 : Fin 2) * 128 + 128; omega

end CombSilu

open CombSilu

/-! # The six regions' output arrays -/

variable (V : (c : Dev nD) → (b : Ref sig .tc) → Buf (Elt Ideal) ((c : Thread nD τ).loc b))

/-- After the region's 10 points the output array is the activation of the input array, entry by entry. -/
theorem final5 (c : Dev nD) :
    (dat5 (F := Ideal) V c).arrAt 1 cfg5.N = Cert.Spec.silu (V c main_v70) :=
  (dat5 V c).arrAt_eq_of_cover 1 (Cert.Spec.silu (V c main_v70)) (fun t _ => flushed5_eq V c t) cover5

/-- After the region's 10 points the output array is the activation of the input array, entry by entry. -/
theorem final8 (c : Dev nD) :
    (dat8 (F := Ideal) V c).arrAt 1 cfg8.N = Cert.Spec.silu (V c main_v96) :=
  (dat8 V c).arrAt_eq_of_cover 1 (Cert.Spec.silu (V c main_v96)) (fun t _ => flushed8_eq V c t) cover8

/-- After the region's 1 point the output array is the activation of the input array, entry by entry. -/
theorem final12 (c : Dev nD) :
    (dat12 (F := Ideal) V c).arrAt 1 cfg12.N = Cert.Spec.silu (V c main_v113) :=
  (dat12 V c).arrAt_eq_of_cover 1 (Cert.Spec.silu (V c main_v113)) (fun t _ => flushed12_eq V c t) cover12

/-- After the region's 10 points the output array is the combine of the input arrays, entry by entry. -/
theorem final1 (c : Dev nD) :
    (dat1 (F := Ideal) V c).arrAt 4 cfg1.N
      = Cert.Spec.comb (V c main_v34) (V c main_v14) (V c main_v11) (V c main_v35) :=
  (dat1 V c).arrAt_eq_of_cover 4 (Cert.Spec.comb (V c main_v34) (V c main_v14) (V c main_v11) (V c main_v35))
    (fun t _ => flushed1_eq V c t) cover1

/-- After the region's 10 points the output array is the combine of the input arrays, entry by entry. -/
theorem final4 (c : Dev nD) :
    (dat4 (F := Ideal) V c).arrAt 4 cfg4.N
      = Cert.Spec.comb (V c main_v68) (V c main_v48) (V c main_v11) (V c main_v69) :=
  (dat4 V c).arrAt_eq_of_cover 4 (Cert.Spec.comb (V c main_v68) (V c main_v48) (V c main_v11) (V c main_v69))
    (fun t _ => flushed4_eq V c t) cover4

/-- After the region's 10 points the output array is the combine of the input arrays, entry by entry. -/
theorem final7 (c : Dev nD) :
    (dat7 (F := Ideal) V c).arrAt 4 cfg7.N
      = Cert.Spec.comb (V c main_v94) (V c main_v74) (V c main_v11) (V c main_v95) :=
  (dat7 V c).arrAt_eq_of_cover 4 (Cert.Spec.comb (V c main_v94) (V c main_v74) (V c main_v11) (V c main_v95))
    (fun t _ => flushed7_eq V c t) cover7

end Cert.KernelIdeal.RegVal

end
-- ==== Proof.Step2.lean ====
/-
  Checkpoint 1 to checkpoint 2: the first graph convolution's aggregation and combination. Both programs
  aggregate on the host with the same operations: the edge sources with negative entries wrapped, the degree entry
  and the product's row gathered at each source, multiplied, and summed onto the edge's target row. The inputs of
  that chain (edge sources, edge targets, degrees, the first product) are equal by the previous checkpoint, so the
  aggregates are equal. The kernel's program then reshapes the bias vector to a row and runs the combine region,
  whose output is d·agg + d²·xw + b entry by entry, with d read from the degree column; the reference computes the
  same combination with broadcasts of the degree vector and of the bias vector. The degree column carries the degree
  vector by the previous checkpoint, and the bias row carries the bias argument, which is the same on both sides.
  Neither side writes an argument, an edge array or a degree array on the way.
-/
import proofs.«169641_j32169305047251_1_alg».proof.Proof.Chain0
import proofs.«169641_j32169305047251_1_alg».proof.Proof.RegCombSilu
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen
open Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

/-! ## The arguments and the graph arrays are carried over -/

set_option maxHeartbeats 8000000 in
/-- The host operations before the region write only their own result arrays, and the region's five
    arrays are the aggregate, the product, the degree column, the bias row and its output: no argument
    buffer is among them, so each still holds its launch contents. -/
theorem step2_ka (h : Inv1 m m' c ρ) :
    ∀ a ∈ kArgs, W4 m ρ c (Proc.devRef .tc a) = m ((c.tc : Thread Cert.KernelIdeal.nD Cert.KernelIdeal.τ).loc a) := by
  intro a ha
  simp only [kArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    refine (W4_of_ne m ρ c _ (by decide)).trans ?_
    dsimp only [W3, hostOps1]
    after_results_simp
    exact h.base.ka _ (by decide)

set_option maxHeartbeats 8000000 in
/-- The reference's aggregation and combination write only their own result arrays: every argument
    buffer still holds its launch contents. -/
theorem step2_ra (h : Inv1 m m' c ρ) :
    ∀ a ∈ rArgs, Rc2 (R0 m' c) (Proc.devRef .tc a) = m' ((c.tc : Thread Cert.ReferenceIdeal.nD Cert.ReferenceIdeal.τ).loc a) := by
  intro a ha
  simp only [rArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    unfold Rc2
    rw [StableHlo.after_append]
    dsimp only [ops2, ops3]
    after_results_simp
    exact h.base.ra _ (by decide)

set_option maxHeartbeats 4000000 in
/-- The edge sources are read, never written, on both sides. -/
theorem step2_row (h : Inv1 m m' c ρ) :
    (W4 m ρ c (Proc.devRef .tc Cert.KernelIdeal.main_v1) : Cert.KernelIdeal.S800000.Idx → BitVec 32) = Rc2 (R0 m' c) (Proc.devRef .tc Cert.ReferenceIdeal.main_v1) := by
  refine (W4_of_ne m ρ c _ (by decide)).trans ?_
  unfold Rc2
  rw [StableHlo.after_append]
  dsimp only [W3, hostOps1, ops2, ops3]
  after_results_simp
  exact h.graph.row

set_option maxHeartbeats 4000000 in
/-- The edge targets are read, never written, on both sides. -/
theorem step2_col (h : Inv1 m m' c ρ) :
    (W4 m ρ c (Proc.devRef .tc Cert.KernelIdeal.main_v3) : Cert.KernelIdeal.S800000.Idx → BitVec 32) = Rc2 (R0 m' c) (Proc.devRef .tc Cert.ReferenceIdeal.main_v3) := by
  refine (W4_of_ne m ρ c _ (by decide)).trans ?_
  unfold Rc2
  rw [StableHlo.after_append]
  dsimp only [W3, hostOps1, ops2, ops3]
  after_results_simp
  exact h.graph.col

set_option maxHeartbeats 4000000 in
/-- The inverse square-root degrees are read, never written, on both sides. -/
theorem step2_dinv (h : Inv1 m m' c ρ) :
    (W4 m ρ c (Proc.devRef .tc Cert.KernelIdeal.main_v10) : Cert.KernelIdeal.S50000.Idx → EReal) = Rc2 (R0 m' c) (Proc.devRef .tc Cert.ReferenceIdeal.main_v10) := by
  refine (W4_of_ne m ρ c _ (by decide)).trans ?_
  unfold Rc2
  rw [StableHlo.after_append]
  dsimp only [W3, hostOps1, ops2, ops3]
  after_results_simp
  exact h.graph.dinv

set_option maxHeartbeats 4000000 in
/-- The degree column is one of the region's input arrays: the region leaves it as it found it, and
    the host operations before the region do not write it; the reference's degree vector is untouched. -/
theorem step2_dcol (h : Inv1 m m' c ρ) (p : Fin 50000) :
    (W4 m ρ c (Proc.devRef .tc Cert.KernelIdeal.main_v11) : Cert.KernelIdeal.S50000x1.Idx → EReal) (ix2 p 0)
      = (Rc2 (R0 m' c) (Proc.devRef .tc Cert.ReferenceIdeal.main_v10) : Cert.ReferenceIdeal.S50000.Idx → EReal) (ix1 p) := by
  have e : W4 m ρ c (Proc.devRef .tc Cert.KernelIdeal.main_v11) = V3 m ρ c Cert.KernelIdeal.main_v11 :=
    (W4_arr m ρ c 2).trans (((dat1 (V3 m ρ) c).arrAt_in 2 rfl _).trans (A_eq1 (V3 m ρ) c 2))
  rw [e]
  unfold Rc2
  rw [StableHlo.after_append]
  dsimp only [V3, W3, hostOps1, ops2, ops3]
  after_results_simp
  exact h.graph.dcol p

/-! ## The reference's stretch, cut after the aggregation -/

/-- The reference's contents after the aggregation of this layer, before its combination. -/
def Rmid2 (R0 : RV) : RV := StableHlo.after (ops2 (F := Ideal)) (Rc1 R0)

/-- The checkpoint's contents are the combination's operations applied to those. -/
theorem step2_Rc_eq (R0 : RV) : Rc2 R0 = StableHlo.after (ops3 (F := Ideal)) (Rmid2 R0) := by
  unfold Rc2 Rmid2
  exact StableHlo.after_append _ _ _

/-- The reference's combination chain is the specification's combination of the aggregate, the
    product, and any column and row that carry the degree vector's and the bias vector's entries. -/
theorem step2_ref_main (R0 : RV) (dcol : Cert.Spec.Mat 50000 1) (brow : Cert.Spec.Mat 1 128)
    (hd : ∀ p, dcol (ix2 p 0) = (Rmid2 R0 (Proc.devRef .tc Cert.ReferenceIdeal.main_v10) : Cert.ReferenceIdeal.S50000.Idx → EReal) (ix1 p))
    (hb : ∀ q, brow (ix2 0 q) = (Rmid2 R0 (Proc.devRef .tc Cert.ReferenceIdeal.main_arg5) : Cert.ReferenceIdeal.S128.Idx → EReal) (ix1 q)) :
    (Rc2 R0 (Proc.devRef .tc Cert.ReferenceIdeal.main_v42) : Cert.ReferenceIdeal.S50000x128.Idx → EReal)
      = Cert.Spec.comb (Rmid2 R0 (Proc.devRef .tc Cert.ReferenceIdeal.main_v31)) (Rmid2 R0 (Proc.devRef .tc Cert.ReferenceIdeal.main_v11)) dcol brow := by
  rw [step2_Rc_eq]
  dsimp only [ops3]
  after_results_simp
  exact Cert.ReferenceIdeal.Stages.comb_eq _ _ _ _ dcol brow hd hb

/-! ## What the combine region finds on entry -/

set_option maxHeartbeats 8000000 in
/-- The aggregate that the kernel's program computes on the host before the region is the reference's
    aggregate: the same gather, product and scatter-add, applied to arrays the invariant identifies. -/
theorem step2_agg (h : Inv1 m m' c ρ) :
    (V3 (F := Ideal) m ρ c Cert.KernelIdeal.main_v34 : Cert.KernelIdeal.S50000x128.Idx → EReal)
      = Rmid2 (R0 m' c) (Proc.devRef .tc Cert.ReferenceIdeal.main_v31) := by
  dsimp only [V3, W3, hostOps1]
  unfold Rmid2
  dsimp only [ops2]
  after_results_simp
  rw [h.graph.row, h.graph.col, h.graph.dinv, h.main]
  rfl

set_option maxHeartbeats 8000000 in
/-- The product array is untouched by the host operations in between, on both sides. -/
theorem step2_xw (h : Inv1 m m' c ρ) :
    (V3 (F := Ideal) m ρ c Cert.KernelIdeal.main_v14 : Cert.KernelIdeal.S50000x128.Idx → EReal)
      = Rmid2 (R0 m' c) (Proc.devRef .tc Cert.ReferenceIdeal.main_v11) := by
  dsimp only [V3, W3, hostOps1]
  unfold Rmid2
  dsimp only [ops2]
  after_results_simp
  exact h.main

set_option maxHeartbeats 8000000 in
/-- The degree column the region reads carries the reference's degree vector, entry by entry. -/
theorem step2_hd (h : Inv1 m m' c ρ) (p : Fin 50000) :
    (V3 (F := Ideal) m ρ c Cert.KernelIdeal.main_v11 : Cert.KernelIdeal.S50000x1.Idx → EReal) (ix2 p 0)
      = (Rmid2 (R0 m' c) (Proc.devRef .tc Cert.ReferenceIdeal.main_v10) : Cert.ReferenceIdeal.S50000.Idx → EReal) (ix1 p) := by
  dsimp only [V3, W3, hostOps1]
  unfold Rmid2
  dsimp only [ops2]
  after_results_simp
  exact h.graph.dcol p

set_option maxHeartbeats 8000000 in
/-- The bias row the region reads is the bias argument cast from [128] to [1,128]; its entry (0, q) is
    the argument's entry q, and the two programs were launched with the same argument. -/
theorem step2_hb (hag : Agree m m' c) (h : Inv1 m m' c ρ) (q : Fin 128) :
    (V3 (F := Ideal) m ρ c Cert.KernelIdeal.main_v35 : Cert.KernelIdeal.S1x128.Idx → EReal) (ix2 0 q)
      = (Rmid2 (R0 m' c) (Proc.devRef .tc Cert.ReferenceIdeal.main_arg5) : Cert.ReferenceIdeal.S128.Idx → EReal) (ix1 q) := by
  dsimp only [V3, W3, hostOps1]
  unfold Rmid2
  dsimp only [ops2]
  after_results_simp
  rw [h.base.ka Cert.KernelIdeal.main_arg5 (by decide), h.base.ra Cert.ReferenceIdeal.main_arg5 (by decide)]
  unfold Agree at hag
  rw [hag.2.2.2.2.2.1]
  exact shapeCast_a_1a_apply _ _ 0 q

/-- The activation array at the region's exit equals the reference's combination. -/
theorem step2_main (hag : Agree m m' c) (h : Inv1 m m' c ρ) :
    (W4 (F := Ideal) m ρ c (Proc.devRef .tc Cert.KernelIdeal.main_v36) : Cert.KernelIdeal.S50000x128.Idx → EReal)
      = Rc2 (R0 m' c) (Proc.devRef .tc Cert.ReferenceIdeal.main_v42) := by
  refine ((W4_arr m ρ c 4).trans (Cert.KernelIdeal.RegVal.final1 (V3 m ρ) c)).trans ?_
  refine Eq.trans ?_ (step2_ref_main (R0 m' c) (V3 m ρ c Cert.KernelIdeal.main_v11) (V3 m ρ c Cert.KernelIdeal.main_v35)
    (step2_hd m m' c ρ h) (step2_hb m m' c ρ hag h)).symm
  rw [step2_agg m m' c ρ h, step2_xw m m' c ρ h]

/-- From the checkpoint after the first product to the checkpoint after the first graph convolution's combination. -/
theorem step2 (hag : Agree m m' c) (h : Inv1 m m' c ρ) : Inv2 m m' c ρ :=
  ⟨⟨step2_ka m m' c ρ h, step2_ra m m' c ρ h⟩,
   ⟨step2_row m m' c ρ h, step2_col m m' c ρ h, step2_dinv m m' c ρ h, step2_dcol m m' c ρ h⟩,
   step2_main m m' c ρ hag h⟩

end Cert.Chain

end
-- ==== Proof.RegBnHead.lean ====
/-
  Three regions of the network read as whole-array functions. Batch normalisation with the activation is
  pointwise in the data and reads, per column, one entry of each of four rows (mean, variance, scale, shift):
  entry (p, q) of the result depends on entry (p, q) of the data and on entries (0, q) of the rows. A block of
  rows of the result is therefore the same function of the matching block of rows of the data and of the whole
  rows; the blocks tile the array, so the array the region leaves is the function of the arrays it found. The
  head is three dense layers on one block: each entry of a layer is a row of its input against a column of the
  weights, summed over the shared axis, plus the bias of that column, and the activation follows the first two.
-/
import proofs.«169641_j32169305047251_1_alg».proof.Proof.Gen.KernelIdeal.Frame
import proofs.«169641_j32169305047251_1_alg».proof.Proof.Spec
import proofs.«169641_j32169305047251_1_alg».proof.Proof.RegLinear
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.ValueIdx Idealize.ShloMosaic.TcCoe Idealize.SL.Sem
open Idealize.ShloMosaic.Pipeline (Dat)
open scoped BigOperators

namespace BnHead

/-- A row broadcast down the rows of a taller array reads, at row p and column q, the row's entry at column q. -/
theorem bcastRow_apply {α : Type} {M D : Nat} (v : (⟨2, ![1, D]⟩ : Shape).Idx → α)
    (h : (⟨2, ![1, D]⟩ : Shape).Broadcasts ⟨2, ![M, D]⟩) (p : Fin M) (q : Fin D) :
    broadcastTo ⟨2, ![M, D]⟩ v h (ix2 p q) = v (ix2 0 q) := by
  refine broadcastTo_apply v h (ix2 p q) (ix2 0 q) (fun a => ?_)
  match a with
  | ⟨0, _⟩ => rfl
  | ⟨1, _⟩ =>
    show q.val = if D = 1 then 0 else q.val
    split
    · have := q.isLt; omega
    · rfl

/-- The inverse square root and the logistic act entry by entry. -/
theorem rsqrt_at {s : Shape} {φ : FTy} (a : FVec Ideal s φ) (i : s.Idx) : rsqrt a i = Ideal.rsqrt (a i) := rfl
theorem logistic_at {s : Shape} {φ : FTy} (a : FVec Ideal s φ) (i : s.Idx) : logistic a i = Ideal.logistic (a i) := rfl

/-- The zero offsets of a whole-block access, spelt as a constant function. -/
theorem hz : (![0, 0] : Fin 2 → Nat) = fun _ => 0 := funext fun a => by fin_cases a <;> rfl

/-- Batch normalisation with the activation depends, at an entry, only on that entry of the data and on the
    four row entries of its column: two instances agree at two entries when those five inputs agree. -/
theorem bnsilu_congr {M D M' : Nat} (x : Cert.Spec.Mat M D) (mean var g β : Cert.Spec.Mat 1 D)
    (x' : Cert.Spec.Mat M' D) (mean' var' g' β' : Cert.Spec.Mat 1 D)
    (i : (⟨2, ![M, D]⟩ : Shape).Idx) (i' : (⟨2, ![M', D]⟩ : Shape).Idx)
    (hx : x i = x' i') (hm : mean (ix2 0 (i 1)) = mean' (ix2 0 (i' 1))) (hv : var (ix2 0 (i 1)) = var' (ix2 0 (i' 1)))
    (hg : g (ix2 0 (i 1)) = g' (ix2 0 (i' 1))) (hb : β (ix2 0 (i 1)) = β' (ix2 0 (i' 1))) :
    Cert.Spec.bnsilu x mean var g β i = Cert.Spec.bnsilu x' mean' var' g' β' i' := by
  simp only [Cert.Spec.bnsilu, Cert.Spec.silu, Cert.Spec.bn]
  rw [hx, hm, hv, hg, hb]

/-! ## Region 10: batch normalisation and activation of the 2048 pooled rows, one block -/

/-- The body's result at row p, column q of its block: the normalised, affinely mapped entry times its logistic. -/
theorem pay10_apply (x0 : Vec Ideal S2048x128 .f32) (x1 x2 x3 x4 : Vec Ideal S1x128 .f32) (p : Fin 2048) (q : Fin 128) :
    k10_pay1 x0 x1 x2 x3 x4 (ix2 p q) = Cert.Spec.bnsilu x0 x1 x2 x3 x4 (ix2 p q) := by
  unfold k10_pay1
  simp only [shapeCast_self, mulf_apply, addf_apply, subf_apply, rsqrt_at, logistic_at, bcastRow_apply, broadcast_apply, Ideal.ofBits_def]
  rfl

/-- The one grid point's block indices are all zero: every window's block is its whole array. -/
theorem idx_facts10 : ∀ t : Fin cfg10.N, win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0 :=
  (by decide +kernel : ∀ t : Fin grid10.N, _)

/-- What the point writes back is its block of the whole-array function of the arrays as the region finds them:
    an entry of a block sits in its array at block index times block size plus its own coordinate, on each axis. -/
theorem flushed10_eq (V : (c : Dev nD) → (b : Ref sig .tc) → Buf (Elt Ideal) ((c : Thread nD τ).loc b)) (c : Dev nD) (t : Fin cfg10.N) :
    (dat10 (F := Ideal) V c).flushed 5 t = ((cfg10.win 5).blk t).view.read (Elt Ideal)
      (Cert.Spec.bnsilu (V c main_v102) (V c main_v107) (V c main_v108) (V c main_v109) (V c main_v110)) := by
  show (cfg10.win 5).cut (grid10.coords t) ((dat10 V c).after 5 t) = _
  rw [after10_5]
  unfold out10_5
  rw [View.canon_unit_zero hz]
  simp only [View.ld_unit_zero (S := S2048x128) hz, View.ld_unit_zero (S := S1x128) hz]
  obtain ⟨e00, e01, e10, e11, e20, e21, e30, e31, e40, e41, e50, e51⟩ := idx_facts10 t
  funext j
  obtain ⟨p, q, rfl⟩ : ∃ (p : Fin 2048) (q : Fin 128), j = ix2 p q := ⟨j 0, j 1, eq_ix2 j⟩
  show k10_pay1 (iblk10 V c 0 t) (iblk10 V c 1 t) (iblk10 V c 2 t) (iblk10 V c 3 t) (iblk10 V c 4 t) (ix2 p q)
    = Cert.Spec.bnsilu (V c main_v102) (V c main_v107) (V c main_v108) (V c main_v109) (V c main_v110) (((cfg10.win 5).blk t).view.emb (ix2 p q))
  refine (pay10_apply (iblk10 V c 0 t) (iblk10 V c 1 t) (iblk10 V c 2 t) (iblk10 V c 3 t) (iblk10 V c 4 t) p q).trans ?_
  refine bnsilu_congr (iblk10 V c 0 t) (iblk10 V c 1 t) (iblk10 V c 2 t) (iblk10 V c 3 t) (iblk10 V c 4 t)
    (V c main_v102) (V c main_v107) (V c main_v108) (V c main_v109) (V c main_v110) (ix2 p q) (((cfg10.win 5).blk t).view.emb (ix2 p q)) ?_ ?_ ?_ ?_ ?_
  · show V c main_v102 (((cfg10.win 0).blk t).view.emb (ix2 p q)) = V c main_v102 (((cfg10.win 5).blk t).view.emb (ix2 p q))
    refine congrArg _ (funext fun a => Fin.ext ?_)
    match a with
    | ⟨0, _⟩ => show win10_0.index t (0 : Fin 2) * 2048 + 1 * p.val = win10_5.index t (0 : Fin 2) * 2048 + 1 * p.val; omega
    | ⟨1, _⟩ => show win10_0.index t (1 : Fin 2) * 128 + 1 * q.val = win10_5.index t (1 : Fin 2) * 128 + 1 * q.val; omega
  · show V c main_v107 (((cfg10.win 1).blk t).view.emb (ix2 0 q)) = V c main_v107 (ix2 0 (((cfg10.win 5).blk t).view.emb (ix2 p q) 1))
    refine congrArg _ (funext fun a => Fin.ext ?_)
    match a with
    | ⟨0, _⟩ => show win10_1.index t (0 : Fin 2) * 1 + 1 * 0 = 0; omega
    | ⟨1, _⟩ => show win10_1.index t (1 : Fin 2) * 128 + 1 * q.val = win10_5.index t (1 : Fin 2) * 128 + 1 * q.val; omega
  · show V c main_v108 (((cfg10.win 2).blk t).view.emb (ix2 0 q)) = V c main_v108 (ix2 0 (((cfg10.win 5).blk t).view.emb (ix2 p q) 1))
    refine congrArg _ (funext fun a => Fin.ext ?_)
    match a with
    | ⟨0, _⟩ => show win10_2.index t (0 : Fin 2) * 1 + 1 * 0 = 0; omega
    | ⟨1, _⟩ => show win10_2.index t (1 : Fin 2) * 128 + 1 * q.val = win10_5.index t (1 : Fin 2) * 128 + 1 * q.val; omega
  · show V c main_v109 (((cfg10.win 3).blk t).view.emb (ix2 0 q)) = V c main_v109 (ix2 0 (((cfg10.win 5).blk t).view.emb (ix2 p q) 1))
    refine congrArg _ (funext fun a => Fin.ext ?_)
    match a with
    | ⟨0, _⟩ => show win10_3.index t (0 : Fin 2) * 1 + 1 * 0 = 0; omega
    | ⟨1, _⟩ => show win10_3.index t (1 : Fin 2) * 128 + 1 * q.val = win10_5.index t (1 : Fin 2) * 128 + 1 * q.val; omega
  · show V c main_v110 (((cfg10.win 4).blk t).view.emb (ix2 0 q)) = V c main_v110 (ix2 0 (((cfg10.win 5).blk t).view.emb (ix2 p q) 1))
    refine congrArg _ (funext fun a => Fin.ext ?_)
    match a with
    | ⟨0, _⟩ => show win10_4.index t (0 : Fin 2) * 1 + 1 * 0 = 0; omega
    | ⟨1, _⟩ => show win10_4.index t (1 : Fin 2) * 128 + 1 * q.val = win10_5.index t (1 : Fin 2) * 128 + 1 * q.val; omega

/-- An index of the array is in the point's block iff each coordinate is in the block's range on its axis. -/
theorem mem_blk10 (t : Fin cfg10.N) (i : S2048x128.Idx) :
    i ∈ ((cfg10.win 5).blk t).view.set ↔ ∀ a : Fin 2, win10_5.index t a * S2048x128.size a ≤ (i a).val ∧ (i a).val < win10_5.index t a * S2048x128.size a + S2048x128.size a := by
  show i ∈ ((View.whole main_v111).slice (win10_5.rect t)).set ↔ _
  rw [View.set_slice_whole, Rect.mem_set_unit]
  exact Iff.rfl

/-- Every index of the array lies in the single block. -/
theorem cover10 (i : S2048x128.Idx) : ∃ t : Fin cfg10.N, (cfg10.win 5).flush t = true ∧ i ∈ ((cfg10.win 5).blk t).view.set := by
  refine ⟨t10_0, flush10_5 t10_0, ?_⟩
  rw [mem_blk10]
  obtain ⟨e00, e01, e10, e11, e20, e21, e30, e31, e40, e41, e50, e51⟩ := idx_facts10 t10_0
  have hi0 : (i 0).val < 2048 := (i 0).isLt
  have hi1 : (i 1).val < 128 := (i 1).isLt
  intro a
  match a with
  | ⟨0, _⟩ => show win10_5.index t10_0 (0 : Fin 2) * 2048 ≤ (i 0).val ∧ (i 0).val < win10_5.index t10_0 (0 : Fin 2) * 2048 + 2048; omega
  | ⟨1, _⟩ => show win10_5.index t10_0 (1 : Fin 2) * 128 ≤ (i 1).val ∧ (i 1).val < win10_5.index t10_0 (1 : Fin 2) * 128 + 128; omega

/-! ## Region 2: batch normalisation and activation of the 50000 node rows, ten blocks of 5000 rows -/

/-- The body's result at row p, column q of its block: the normalised, affinely mapped entry times its logistic. -/
theorem pay2_apply (x0 : Vec Ideal S5000x128 .f32) (x1 x2 x3 x4 : Vec Ideal S1x128 .f32) (p : Fin 5000) (q : Fin 128) :
    k2_pay1 x0 x1 x2 x3 x4 (ix2 p q) = Cert.Spec.bnsilu x0 x1 x2 x3 x4 (ix2 p q) := by
  unfold k2_pay1
  simp only [shapeCast_self, mulf_apply, addf_apply, subf_apply, rsqrt_at, logistic_at, bcastRow_apply, broadcast_apply, Ideal.ofBits_def]
  rfl

/-- The index maps over the ten grid points: the data and the result move together down the rows, point t at
    block t; the four rows stay at block zero; no window moves along the columns. -/
theorem idx_facts2 : ∀ t : Fin cfg2.N, win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the whole-array function of the arrays as the region finds them:
    an entry of a block sits in its array at block index times block size plus its own coordinate, on each axis. -/
theorem flushed2_eq (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal)
      (Cert.Spec.bnsilu (V c main_v36) (V c main_v41) (V c main_v42) (V c main_v43) (V c main_v44)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  obtain ⟨e00, e01, e10, e11, e20, e21, e30, e31, e40, e41, e50, e51⟩ := idx_facts2 t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
    = Cert.Spec.bnsilu (V c main_v36) (V c main_v41) (V c main_v42) (V c main_v43) (V c main_v44) (((cfg2.win 5).blk t).view.emb (ix2 p q))
  refine (pay2_apply (iblk2 V c 0 t) (iblk2 V c 1 t) (iblk2 V c 2 t) (iblk2 V c 3 t) (iblk2 V c 4 t) p q).trans ?_
  refine bnsilu_congr (iblk2 V c 0 t) (iblk2 V c 1 t) (iblk2 V c 2 t) (iblk2 V c 3 t) (iblk2 V c 4 t)
    (V c main_v36) (V c main_v41) (V c main_v42) (V c main_v43) (V c main_v44) (ix2 p q) (((cfg2.win 5).blk t).view.emb (ix2 p q)) ?_ ?_ ?_ ?_ ?_
  · show V c main_v36 (((cfg2.win 0).blk t).view.emb (ix2 p q)) = V c main_v36 (((cfg2.win 5).blk t).view.emb (ix2 p q))
    refine congrArg _ (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * q.val = win2_5.index t (1 : Fin 2) * 128 + 1 * q.val; omega
  · show V c main_v41 (((cfg2.win 1).blk t).view.emb (ix2 0 q)) = V c main_v41 (ix2 0 (((cfg2.win 5).blk t).view.emb (ix2 p q) 1))
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = win2_5.index t (1 : Fin 2) * 128 + 1 * q.val; omega
  · show V c main_v42 (((cfg2.win 2).blk t).view.emb (ix2 0 q)) = V c main_v42 (ix2 0 (((cfg2.win 5).blk t).view.emb (ix2 p q) 1))
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = win2_5.index t (1 : Fin 2) * 128 + 1 * q.val; omega
  · show V c main_v43 (((cfg2.win 3).blk t).view.emb (ix2 0 q)) = V c main_v43 (ix2 0 (((cfg2.win 5).blk t).view.emb (ix2 p q) 1))
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega
  · show V c main_v44 (((cfg2.win 4).blk t).view.emb (ix2 0 q)) = V c main_v44 (ix2 0 (((cfg2.win 5).blk t).view.emb (ix2 p q) 1))
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega

/-- An index of the array is in point t's block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v45).slice (win2_5.rect t)).set ↔ _
  rw [View.set_slice_whole, Rect.mem_set_unit]
  exact Iff.rfl

/-- Row r of the array lies in the block of the point r / 5000. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  have ht : (i 0).val / 5000 < grid2.N := by omega
  refine ⟨⟨(i 0).val / 5000, ht⟩, flush2_5 _, ?_⟩
  rw [mem_blk2]
  obtain ⟨e00, e01, e10, e11, e20, e21, e30, e31, e40, e41, e50, e51⟩ := idx_facts2 ⟨(i 0).val / 5000, ht⟩
  have e50' : win2_5.index ⟨(i 0).val / 5000, ht⟩ (0 : Fin 2) = (i 0).val / 5000 := e50
  intro a
  match a with
  | ⟨0, _⟩ => show win2_5.index ⟨(i 0).val / 5000, ht⟩ (0 : Fin 2) * 5000 ≤ (i 0).val ∧ (i 0).val < win2_5.index ⟨(i 0).val / 5000, ht⟩ (0 : Fin 2) * 5000 + 5000; omega
  | ⟨1, _⟩ => show win2_5.index ⟨(i 0).val / 5000, ht⟩ (1 : Fin 2) * 128 ≤ (i 1).val ∧ (i 1).val < win2_5.index ⟨(i 0).val / 5000, ht⟩ (1 : Fin 2) * 128 + 128; omega

/-- The activation as the body computes it: an array times its entrywise logistic. -/
theorem silu_eq {M D : Nat} (v : Cert.Spec.Mat M D) : mulf v (logistic v) = Cert.Spec.silu v := rfl

/-- A dense layer as the body computes it — the product accumulated into zeros, plus the bias row repeated down
    the rows — is, entry by entry, a row of the input against a column of the weights, summed over the shared
    axis, plus the bias of that column. -/
theorem lin_at {M K D : Nat}
    (w : DotDims.WF (⟨2, ![M, K]⟩ : Shape) ⟨2, ![K, D]⟩ ⟨2, ![M, D]⟩ [1] [0] [0] [1] [] [])
    (x : Cert.Spec.Mat M K) (W : Cert.Spec.Mat K D) (b : Cert.Spec.Mat 1 D)
    (hb : (⟨2, ![1, D]⟩ : Shape).Broadcasts ⟨2, ![M, D]⟩) :
    addf (matmul (⟨[1], [0], [0], [1], [], [], w⟩ : DotDims _ _ _) none x W (constant (F := Ideal) ⟨2, ![M, D]⟩ .f32 0x00000000#32))
      (broadcastTo ⟨2, ![M, D]⟩ b hb) = Cert.Spec.lin x W b := by
  funext i
  obtain ⟨p, q, rfl⟩ : ∃ (p : Fin M) (q : Fin D), i = ix2 p q := ⟨i 0, i 1, eq_ix2 i⟩
  show matmul (⟨[1], [0], [0], [1], [], [], w⟩ : DotDims _ _ _) none x W (constant (F := Ideal) ⟨2, ![M, D]⟩ .f32 0x00000000#32) (ix2 p q)
      + broadcastTo ⟨2, ![M, D]⟩ b hb (ix2 p q) = (∑ k : Fin K, x (ix2 p k) * W (ix2 k q)) + b (ix2 0 q)
  exact congrArg₂ (· + ·) (matmul_zero_at w none x W p q) (bcastRow_apply b hb p q)

/-! ## Region 13: the three-layer head on the 2048 pooled rows, one block -/

/-- The body's result is the head of its loaded blocks: three dense layers, the activation after the first two. -/
theorem pay13_eq (x0 : Vec Ideal S2048x256 .f32) (w0 : Vec Ideal S256x256 .f32) (b0 : Vec Ideal S1x256 .f32)
    (w1 : Vec Ideal S256x128 .f32) (b1 : Vec Ideal S1x128 .f32) (w2 : Vec Ideal S128x1 .f32) (b2 : Vec Ideal S1x1 .f32) :
    k13_pay1 x0 w0 b0 w1 b1 w2 b2 = Cert.Spec.head x0 w0 b0 w1 b1 w2 b2 := by
  unfold k13_pay1
  simp only [shapeCast_self]
  have e1 : addf (matmul dot_S2048x256_S256x256_S2048x256_1_0_0_1_n_n none x0 w0 (constant S2048x256 .f32 0x00000000#32))
      (broadcastTo S2048x256 b0 broadcasts_S1x256_S2048x256) = Cert.Spec.lin x0 w0 b0 :=
    lin_at dot_S2048x256_S256x256_S2048x256_1_0_0_1_n_n_wf x0 w0 b0 broadcasts_S1x256_S2048x256
  rw [e1, silu_eq (Cert.Spec.lin x0 w0 b0)]
  have e2 : addf (matmul dot_S2048x256_S256x128_S2048x128_1_0_0_1_n_n none (Cert.Spec.silu (Cert.Spec.lin x0 w0 b0)) w1 (constant S2048x128 .f32 0x00000000#32))
      (broadcastTo S2048x128 b1 broadcasts_S1x128_S2048x128) = Cert.Spec.lin (Cert.Spec.silu (Cert.Spec.lin x0 w0 b0)) w1 b1 :=
    lin_at dot_S2048x256_S256x128_S2048x128_1_0_0_1_n_n_wf (Cert.Spec.silu (Cert.Spec.lin x0 w0 b0)) w1 b1 broadcasts_S1x128_S2048x128
  rw [e2, silu_eq (Cert.Spec.lin (Cert.Spec.silu (Cert.Spec.lin x0 w0 b0)) w1 b1)]
  exact lin_at dot_S2048x128_S128x1_S2048x1_1_0_0_1_n_n_wf (Cert.Spec.silu (Cert.Spec.lin (Cert.Spec.silu (Cert.Spec.lin x0 w0 b0)) w1 b1)) w2 b2 broadcasts_S1x1_S2048x1

/-- The one grid point's block indices are all zero: every window's block is its whole array. -/
theorem idx_facts13 : ∀ t : Fin cfg13.N, win13_0.index t (0 : Fin 2) = 0
    ∧ win13_0.index t (1 : Fin 2) = 0
    ∧ win13_1.index t (0 : Fin 2) = 0
    ∧ win13_1.index t (1 : Fin 2) = 0
    ∧ win13_2.index t (0 : Fin 2) = 0
    ∧ win13_2.index t (1 : Fin 2) = 0
    ∧ win13_3.index t (0 : Fin 2) = 0
    ∧ win13_3.index t (1 : Fin 2) = 0
    ∧ win13_4.index t (0 : Fin 2) = 0
    ∧ win13_4.index t (1 : Fin 2) = 0
    ∧ win13_5.index t (0 : Fin 2) = 0
    ∧ win13_5.index t (1 : Fin 2) = 0
    ∧ win13_6.index t (0 : Fin 2) = 0
    ∧ win13_6.index t (1 : Fin 2) = 0
    ∧ win13_7.index t (0 : Fin 2) = 0
    ∧ win13_7.index t (1 : Fin 2) = 0 :=
  (by decide +kernel : ∀ t : Fin grid13.N, _)

/-! Each loaded block is the whole array it is read from: block index zero on both axes, so an entry of the block
    sits in the array at its own coordinates. -/

theorem iblk13_0 (V : (c : Dev nD) → (b : Ref sig .tc) → Buf (Elt Ideal) ((c : Thread nD τ).loc b)) (c : Dev nD) (t : Fin cfg13.N) :
    (iblk13 V c 0 t : Cert.Spec.Mat 2048 256) = V c main_v115 := by
  obtain ⟨e00, e01, e10, e11, e20, e21, e30, e31, e40, e41, e50, e51, e60, e61, e70, e71⟩ := idx_facts13 t
  funext y
  show V c main_v115 (((cfg13.win 0).blk t).view.emb y) = V c main_v115 y
  refine congrArg _ (funext fun a => Fin.ext ?_)
  match a with
  | ⟨0, _⟩ => show win13_0.index t (0 : Fin 2) * 2048 + 1 * (y 0).val = (y 0).val; omega
  | ⟨1, _⟩ => show win13_0.index t (1 : Fin 2) * 256 + 1 * (y 1).val = (y 1).val; omega

theorem iblk13_1 (V : (c : Dev nD) → (b : Ref sig .tc) → Buf (Elt Ideal) ((c : Thread nD τ).loc b)) (c : Dev nD) (t : Fin cfg13.N) :
    (iblk13 V c 1 t : Cert.Spec.Mat 256 256) = V c main_arg18 := by
  obtain ⟨e00, e01, e10, e11, e20, e21, e30, e31, e40, e41, e50, e51, e60, e61, e70, e71⟩ := idx_facts13 t
  funext y
  show V c main_arg18 (((cfg13.win 1).blk t).view.emb y) = V c main_arg18 y
  refine congrArg _ (funext fun a => Fin.ext ?_)
  match a with
  | ⟨0, _⟩ => show win13_1.index t (0 : Fin 2) * 256 + 1 * (y 0).val = (y 0).val; omega
  | ⟨1, _⟩ => show win13_1.index t (1 : Fin 2) * 256 + 1 * (y 1).val = (y 1).val; omega

theorem iblk13_2 (V : (c : Dev nD) → (b : Ref sig .tc) → Buf (Elt Ideal) ((c : Thread nD τ).loc b)) (c : Dev nD) (t : Fin cfg13.N) :
    (iblk13 V c 2 t : Cert.Spec.Mat 1 256) = V c main_v116 := by
  obtain ⟨e00, e01, e10, e11, e20, e21, e30, e31, e40, e41, e50, e51, e60, e61, e70, e71⟩ := idx_facts13 t
  funext y
  show V c main_v116 (((cfg13.win 2).blk t).view.emb y) = V c main_v116 y
  refine congrArg _ (funext fun a => Fin.ext ?_)
  match a with
  | ⟨0, _⟩ => show win13_2.index t (0 : Fin 2) * 1 + 1 * (y 0).val = (y 0).val; omega
  | ⟨1, _⟩ => show win13_2.index t (1 : Fin 2) * 256 + 1 * (y 1).val = (y 1).val; omega

theorem iblk13_3 (V : (c : Dev nD) → (b : Ref sig .tc) → Buf (Elt Ideal) ((c : Thread nD τ).loc b)) (c : Dev nD) (t : Fin cfg13.N) :
    (iblk13 V c 3 t : Cert.Spec.Mat 256 128) = V c main_arg20 := by
  obtain ⟨e00, e01, e10, e11, e20, e21, e30, e31, e40, e41, e50, e51, e60, e61, e70, e71⟩ := idx_facts13 t
  funext y
  show V c main_arg20 (((cfg13.win 3).blk t).view.emb y) = V c main_arg20 y
  refine congrArg _ (funext fun a => Fin.ext ?_)
  match a with
  | ⟨0, _⟩ => show win13_3.index t (0 : Fin 2) * 256 + 1 * (y 0).val = (y 0).val; omega
  | ⟨1, _⟩ => show win13_3.index t (1 : Fin 2) * 128 + 1 * (y 1).val = (y 1).val; omega

theorem iblk13_4 (V : (c : Dev nD) → (b : Ref sig .tc) → Buf (Elt Ideal) ((c : Thread nD τ).loc b)) (c : Dev nD) (t : Fin cfg13.N) :
    (iblk13 V c 4 t : Cert.Spec.Mat 1 128) = V c main_v117 := by
  obtain ⟨e00, e01, e10, e11, e20, e21, e30, e31, e40, e41, e50, e51, e60, e61, e70, e71⟩ := idx_facts13 t
  funext y
  show V c main_v117 (((cfg13.win 4).blk t).view.emb y) = V c main_v117 y
  refine congrArg _ (funext fun a => Fin.ext ?_)
  match a with
  | ⟨0, _⟩ => show win13_4.index t (0 : Fin 2) * 1 + 1 * (y 0).val = (y 0).val; omega
  | ⟨1, _⟩ => show win13_4.index t (1 : Fin 2) * 128 + 1 * (y 1).val = (y 1).val; omega

theorem iblk13_5 (V : (c : Dev nD) → (b : Ref sig .tc) → Buf (Elt Ideal) ((c : Thread nD τ).loc b)) (c : Dev nD) (t : Fin cfg13.N) :
    (iblk13 V c 5 t : Cert.Spec.Mat 128 1) = V c main_arg22 := by
  obtain ⟨e00, e01, e10, e11, e20, e21, e30, e31, e40, e41, e50, e51, e60, e61, e70, e71⟩ := idx_facts13 t
  funext y
  show V c main_arg22 (((cfg13.win 5).blk t).view.emb y) = V c main_arg22 y
  refine congrArg _ (funext fun a => Fin.ext ?_)
  match a with
  | ⟨0, _⟩ => show win13_5.index t (0 : Fin 2) * 128 + 1 * (y 0).val = (y 0).val; omega
  | ⟨1, _⟩ => show win13_5.index t (1 : Fin 2) * 1 + 1 * (y 1).val = (y 1).val; omega

theorem iblk13_6 (V : (c : Dev nD) → (b : Ref sig .tc) → Buf (Elt Ideal) ((c : Thread nD τ).loc b)) (c : Dev nD) (t : Fin cfg13.N) :
    (iblk13 V c 6 t : Cert.Spec.Mat 1 1) = V c main_v118 := by
  obtain ⟨e00, e01, e10, e11, e20, e21, e30, e31, e40, e41, e50, e51, e60, e61, e70, e71⟩ := idx_facts13 t
  funext y
  show V c main_v118 (((cfg13.win 6).blk t).view.emb y) = V c main_v118 y
  refine congrArg _ (funext fun a => Fin.ext ?_)
  match a with
  | ⟨0, _⟩ => show win13_6.index t (0 : Fin 2) * 1 + 1 * (y 0).val = (y 0).val; omega
  | ⟨1, _⟩ => show win13_6.index t (1 : Fin 2) * 1 + 1 * (y 1).val = (y 1).val; omega

/-- What the point writes back is its block of the head of the arrays as the region finds them. -/
theorem flushed13_eq (V : (c : Dev nD) → (b : Ref sig .tc) → Buf (Elt Ideal) ((c : Thread nD τ).loc b)) (c : Dev nD) (t : Fin cfg13.N) :
    (dat13 (F := Ideal) V c).flushed 7 t = ((cfg13.win 7).blk t).view.read (Elt Ideal)
      (Cert.Spec.head (V c main_v115) (V c main_arg18) (V c main_v116) (V c main_arg20) (V c main_v117) (V c main_arg22) (V c main_v118)) := by
  show (cfg13.win 7).cut (grid13.coords t) ((dat13 V c).after 7 t) = _
  rw [after13_7]
  unfold out13_7
  rw [View.canon_unit_zero hz]
  simp only [View.ld_unit_zero (S := S2048x256) hz, View.ld_unit_zero (S := S256x256) hz, View.ld_unit_zero (S := S1x256) hz,
    View.ld_unit_zero (S := S256x128) hz, View.ld_unit_zero (S := S1x128) hz, View.ld_unit_zero (S := S128x1) hz,
    View.ld_unit_zero (S := S1x1) hz]
  obtain ⟨e00, e01, e10, e11, e20, e21, e30, e31, e40, e41, e50, e51, e60, e61, e70, e71⟩ := idx_facts13 t
  funext j
  show k13_pay1 (iblk13 V c 0 t) (iblk13 V c 1 t) (iblk13 V c 2 t) (iblk13 V c 3 t) (iblk13 V c 4 t) (iblk13 V c 5 t) (iblk13 V c 6 t) j
    = Cert.Spec.head (V c main_v115) (V c main_arg18) (V c main_v116) (V c main_arg20) (V c main_v117) (V c main_arg22) (V c main_v118) (((cfg13.win 7).blk t).view.emb j)
  refine (congrFun (pay13_eq (iblk13 V c 0 t) (iblk13 V c 1 t) (iblk13 V c 2 t) (iblk13 V c 3 t) (iblk13 V c 4 t) (iblk13 V c 5 t) (iblk13 V c 6 t)) j).trans ?_
  rw [iblk13_0 V c t, iblk13_1 V c t, iblk13_2 V c t, iblk13_3 V c t, iblk13_4 V c t, iblk13_5 V c t, iblk13_6 V c t]
  refine congrArg _ (funext fun a => Fin.ext ?_)
  match a with
  | ⟨0, _⟩ => show (j 0).val = win13_7.index t (0 : Fin 2) * 2048 + 1 * (j 0).val; omega
  | ⟨1, _⟩ => show (j 1).val = win13_7.index t (1 : Fin 2) * 1 + 1 * (j 1).val; omega

/-- An index of the array is in the point's block iff each coordinate is in the block's range on its axis. -/
theorem mem_blk13 (t : Fin cfg13.N) (i : S2048x1.Idx) :
    i ∈ ((cfg13.win 7).blk t).view.set ↔ ∀ a : Fin 2, win13_7.index t a * S2048x1.size a ≤ (i a).val ∧ (i a).val < win13_7.index t a * S2048x1.size a + S2048x1.size a := by
  show i ∈ ((View.whole main_v119).slice (win13_7.rect t)).set ↔ _
  rw [View.set_slice_whole, Rect.mem_set_unit]
  exact Iff.rfl

/-- Every index of the array lies in the single block. -/
theorem cover13 (i : S2048x1.Idx) : ∃ t : Fin cfg13.N, (cfg13.win 7).flush t = true ∧ i ∈ ((cfg13.win 7).blk t).view.set := by
  refine ⟨t13_0, flush13_7 t13_0, ?_⟩
  rw [mem_blk13]
  have e70 := (idx_facts13 t13_0).2.2.2.2.2.2.2.2.2.2.2.2.2.2.1
  have e71 := (idx_facts13 t13_0).2.2.2.2.2.2.2.2.2.2.2.2.2.2.2
  have hi0 : (i 0).val < 2048 := (i 0).isLt
  have hi1 : (i 1).val < 1 := (i 1).isLt
  intro a
  match a with
  | ⟨0, _⟩ => show win13_7.index t13_0 (0 : Fin 2) * 2048 ≤ (i 0).val ∧ (i 0).val < win13_7.index t13_0 (0 : Fin 2) * 2048 + 2048; omega
  | ⟨1, _⟩ => show win13_7.index t13_0 (1 : Fin 2) * 1 ≤ (i 1).val ∧ (i 1).val < win13_7.index t13_0 (1 : Fin 2) * 1 + 1; omega

end BnHead

/-! ## The three regions' arrays after their runs -/

/-- The array region 10 leaves: batch normalisation and activation of the array it found, entry by entry. -/
theorem final10 (V : (c : Dev nD) → (b : Ref sig .tc) → Buf (Elt Ideal) ((c : Thread nD τ).loc b)) (c : Dev nD) :
    (dat10 (F := Ideal) V c).arrAt 5 cfg10.N
      = Cert.Spec.bnsilu (V c main_v102) (V c main_v107) (V c main_v108) (V c main_v109) (V c main_v110) :=
  (dat10 (F := Ideal) V c).arrAt_eq_of_cover 5
    (Cert.Spec.bnsilu (V c main_v102) (V c main_v107) (V c main_v108) (V c main_v109) (V c main_v110))
    (fun t _ => BnHead.flushed10_eq V c t) BnHead.cover10

/-- The array region 2 leaves: batch normalisation and activation of the array it found, entry by entry. -/
theorem final2 (V : (c : Dev nD) → (b : Ref sig .tc) → Buf (Elt Ideal) ((c : Thread nD τ).loc b)) (c : Dev nD) :
    (dat2 (F := Ideal) V c).arrAt 5 cfg2.N
      = Cert.Spec.bnsilu (V c main_v36) (V c main_v41) (V c main_v42) (V c main_v43) (V c main_v44) :=
  (dat2 (F := Ideal) V c).arrAt_eq_of_cover 5
    (Cert.Spec.bnsilu (V c main_v36) (V c main_v41) (V c main_v42) (V c main_v43) (V c main_v44))
    (fun t _ => BnHead.flushed2_eq V c t) BnHead.cover2

/-- The array region 13 leaves: the three-layer head of the arrays it found. -/
theorem final13 (V : (c : Dev nD) → (b : Ref sig .tc) → Buf (Elt Ideal) ((c : Thread nD τ).loc b)) (c : Dev nD) :
    (dat13 (F := Ideal) V c).arrAt 7 cfg13.N
      = Cert.Spec.head (V c main_v115) (V c main_arg18) (V c main_v116) (V c main_arg20) (V c main_v117) (V c main_arg22) (V c main_v118) :=
  (dat13 (F := Ideal) V c).arrAt_eq_of_cover 7
    (Cert.Spec.head (V c main_v115) (V c main_arg18) (V c main_v116) (V c main_arg20) (V c main_v117) (V c main_arg22) (V c main_v118))
    (fun t _ => BnHead.flushed13_eq V c t) BnHead.cover13

end Cert.KernelIdeal.RegVal
end
-- ==== Proof.Step3.lean ====
/-
  The third checkpoint. After the first graph convolution both programs compute, by the same host operations, the
  column means of the [50000,128] activation array and its column variances (squared deviations from the mean,
  summed down the rows and divided by the row count). The kernel's program then lays the mean, the variance and
  the scale and shift arguments out as one-row arrays and runs one region: subtract the mean, scale by the
  inverse square root of variance plus epsilon, apply the affine pair, then x · logistic x. The reference spells
  the same normalisation with the vectors repeated down the rows, and the activation as x · (1 / (1 + e^(-x))).
  Both are the same function of the activation array, its means and variances, and the two arguments; the arrays
  agree by the invariant and the arguments hold their launch contents, which agree. No operation between the two
  checkpoints writes an argument buffer or a graph array, so those parts of the invariant carry over.
-/
import proofs.«169641_j32169305047251_1_alg».proof.Proof.Chain0
import proofs.«169641_j32169305047251_1_alg».proof.Proof.RegBnHead
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.Chain

open Idealize.ShloMosaic Idealize.ShloMosaic.TcCoe Idealize.SL.Sem Idealize.ShloMosaic.StableHlo Idealize.ShloMosaic.ValueIdx
open Cert.KernelIdeal.Gen Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

namespace S3

/-- A vector of n entries laid out as a one-row array: the row's entry (0, q) is the vector's entry q. -/
theorem row_of_vec {α : Type} {n : Nat} (v : (⟨1, ![n]⟩ : Shape).Idx → α)
    (h : (⟨1, ![n]⟩ : Shape).ShapeCasts ⟨2, ![1, n]⟩) (q : Fin n) :
    shapeCast ⟨2, ![1, n]⟩ v h (ix2 0 q) = v (ix1 q) := by
  refine shapeCast_apply v h (ix2 0 q) (ix1 q) ?_
  rw [Shape.rowMajor_val_one, Shape.rowMajor_val_two]
  show q.val = 0 * n + q.val
  omega

set_option maxHeartbeats 4000000 in
/-- The reference's normalisation and activation, read as a whole: for any four rows carrying the entries of the
    mean, variance, scale and shift vectors it is batch normalisation with the activation of the data array. -/
theorem ref3 (R' : RV) (meanr varr gr βr : Cert.Spec.Mat 1 128)
    (hm : ∀ q, meanr (ix2 0 q) = (R' (Proc.devRef .tc Cert.ReferenceIdeal.main_v45) : Cert.ReferenceIdeal.S128.Idx → EReal) (ix1 q))
    (hv : ∀ q, varr (ix2 0 q) = (R' (Proc.devRef .tc Cert.ReferenceIdeal.main_v46) : Cert.ReferenceIdeal.S128.Idx → EReal) (ix1 q))
    (hg : ∀ q, gr (ix2 0 q) = (R' (Proc.devRef .tc Cert.ReferenceIdeal.main_arg10) : Cert.ReferenceIdeal.S128.Idx → EReal) (ix1 q))
    (hβ : ∀ q, βr (ix2 0 q) = (R' (Proc.devRef .tc Cert.ReferenceIdeal.main_arg11) : Cert.ReferenceIdeal.S128.Idx → EReal) (ix1 q)) :
    StableHlo.after (ops5 (F := Ideal)) R' (Proc.devRef .tc Cert.ReferenceIdeal.main_v62)
      = Cert.Spec.bnsilu (R' (Proc.devRef .tc Cert.ReferenceIdeal.main_v42)) meanr varr gr βr := by
  dsimp only [ops5]
  after_results_simp
  unfold Cert.Spec.bnsilu
  refine (Cert.ReferenceIdeal.Stages.silu_50000x128 _).trans (congrArg Cert.Spec.silu ?_)
  exact Cert.ReferenceIdeal.Stages.bn_50000x128 _ _ _ _ _ meanr varr gr βr hm hv hg hβ

set_option maxHeartbeats 8000000 in
/-- The activation array at the third checkpoint: the kernel side computes the column means and variances of the
    array by the same host operations as the reference, lays them and the scale and shift arguments out as rows,
    and its region is batch normalisation with the activation; the reference's chain is the same function. -/
theorem main3 (hag : Agree m m' c) (h : Inv2 m m' c ρ) :
    (W8 m ρ c (Proc.devRef .tc Cert.KernelIdeal.main_v45) : Cert.KernelIdeal.S50000x128.Idx → EReal) = Rc3 (R0 m' c) (Proc.devRef .tc Cert.ReferenceIdeal.main_v62) := by
  unfold Agree at hag
  obtain ⟨a0, a1, a2, a3, a4, a5, a6, a7, a8, a9, a10, a11, a12, a13, a14, a15, a16, a17, a18, a19, a20, a21, a22, a23⟩ := hag
  refine ((W8_arr m ρ c 5).trans (Cert.KernelIdeal.RegVal.final2 (V7 m ρ) c)).trans ?_
  unfold Rc3
  rw [StableHlo.after_append]
  have k10 := h.base.ka Cert.KernelIdeal.main_arg10 (by decide)
  have k11 := h.base.ka Cert.KernelIdeal.main_arg11 (by decide)
  have r10 := h.base.ra Cert.ReferenceIdeal.main_arg10 (by decide)
  have r11 := h.base.ra Cert.ReferenceIdeal.main_arg11 (by decide)
  have hx : (V7 m ρ c Cert.KernelIdeal.main_v36 : Cert.KernelIdeal.S50000x128.Idx → EReal)
      = StableHlo.after (ops4 (F := Ideal)) (Rc2 (R0 m' c)) (Proc.devRef .tc Cert.ReferenceIdeal.main_v42) := by
    dsimp only [V7, W7, W6, W5, hostOps2, hostOps2_1, hostOps2_2, ops4]
    after_results_simp
    exact h.main
  have hm : ∀ q, (V7 m ρ c Cert.KernelIdeal.main_v41 : Cert.Spec.Mat 1 128) (ix2 0 q)
      = (StableHlo.after (ops4 (F := Ideal)) (Rc2 (R0 m' c)) (Proc.devRef .tc Cert.ReferenceIdeal.main_v45) : Cert.ReferenceIdeal.S128.Idx → EReal) (ix1 q) := by
    intro q
    dsimp only [V7, W7, W6, W5, hostOps2, hostOps2_1, hostOps2_2, ops4]
    after_results_simp
    refine (row_of_vec _ _ q).trans ?_
    rw [h.main]
    all_goals rfl
  have hv : ∀ q, (V7 m ρ c Cert.KernelIdeal.main_v42 : Cert.Spec.Mat 1 128) (ix2 0 q)
      = (StableHlo.after (ops4 (F := Ideal)) (Rc2 (R0 m' c)) (Proc.devRef .tc Cert.ReferenceIdeal.main_v46) : Cert.ReferenceIdeal.S128.Idx → EReal) (ix1 q) := by
    intro q
    dsimp only [V7, W7, W6, W5, hostOps2, hostOps2_1, hostOps2_2, ops4]
    after_results_simp
    refine (row_of_vec _ _ q).trans ?_
    rw [h.main]
    all_goals rfl
  have hg : ∀ q, (V7 m ρ c Cert.KernelIdeal.main_v43 : Cert.Spec.Mat 1 128) (ix2 0 q)
      = (StableHlo.after (ops4 (F := Ideal)) (Rc2 (R0 m' c)) (Proc.devRef .tc Cert.ReferenceIdeal.main_arg10) : Cert.ReferenceIdeal.S128.Idx → EReal) (ix1 q) := by
    intro q
    dsimp only [V7, W7, W6, W5, hostOps2, hostOps2_1, hostOps2_2, ops4]
    after_results_simp
    refine (row_of_vec _ _ q).trans ?_
    rw [k10, r10, a10]
  have hβ : ∀ q, (V7 m ρ c Cert.KernelIdeal.main_v44 : Cert.Spec.Mat 1 128) (ix2 0 q)
      = (StableHlo.after (ops4 (F := Ideal)) (Rc2 (R0 m' c)) (Proc.devRef .tc Cert.ReferenceIdeal.main_arg11) : Cert.ReferenceIdeal.S128.Idx → EReal) (ix1 q) := by
    intro q
    dsimp only [V7, W7, W6, W5, hostOps2, hostOps2_1, hostOps2_2, ops4]
    after_results_simp
    refine (row_of_vec _ _ q).trans ?_
    rw [k11, r11, a11]
  rw [hx]
  exact (ref3 (StableHlo.after (ops4 (F := Ideal)) (Rc2 (R0 m' c))) (V7 m ρ c Cert.KernelIdeal.main_v41) (V7 m ρ c Cert.KernelIdeal.main_v42)
    (V7 m ρ c Cert.KernelIdeal.main_v43) (V7 m ρ c Cert.KernelIdeal.main_v44) hm hv hg hβ).symm

set_option maxHeartbeats 8000000 in
/-- The kernel side's argument buffers at the third checkpoint: the host operations between the checkpoints write
    only their own result buffers, and the region writes only its output array, which is no argument. -/
theorem ka3 (h : Inv2 m m' c ρ) : ∀ a ∈ kArgs, W8 m ρ c (Proc.devRef .tc a)
    = m ((c.tc : Thread Cert.KernelIdeal.nD Cert.KernelIdeal.τ).loc a) := by
  intro a ha
  simp only [kArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    refine (W8_of_ne m ρ c _ (by decide)).trans ?_
    dsimp only [W7, W6, W5, hostOps2, hostOps2_1, hostOps2_2]
    after_results_simp
    exact h.base.ka _ (by decide)

set_option maxHeartbeats 8000000 in
/-- The reference's argument buffers at the third checkpoint: its operations write only their own result buffers. -/
theorem ra3 (h : Inv2 m m' c ρ) : ∀ a ∈ rArgs, Rc3 (R0 m' c) (Proc.devRef .tc a)
    = m' ((c.tc : Thread Cert.ReferenceIdeal.nD Cert.ReferenceIdeal.τ).loc a) := by
  intro a ha
  simp only [rArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    unfold Rc3
    rw [StableHlo.after_append]
    dsimp only [ops4, ops5]
    after_results_simp
    exact h.base.ra _ (by decide)

set_option maxHeartbeats 8000000 in
/-- The graph arrays are written by no operation between the two checkpoints, on either side. -/
theorem graph3 (h : Inv2 m m' c ρ) : Graph (W8 m ρ c) (Rc3 (R0 m' c)) := by
  have kcarry : ∀ b : Ref Cert.KernelIdeal.sig .tc, b = Cert.KernelIdeal.main_v1 ∨ b = Cert.KernelIdeal.main_v3 ∨ b = Cert.KernelIdeal.main_v10 ∨ b = Cert.KernelIdeal.main_v11 →
      W8 m ρ c (Proc.devRef .tc b) = W4 m ρ c (Proc.devRef .tc b) := by
    intro b hb
    rcases hb with rfl | rfl | rfl | rfl
    all_goals
      refine (W8_of_ne m ρ c _ (by decide)).trans ?_
      dsimp only [W7, W6, W5, hostOps2, hostOps2_1, hostOps2_2]
      after_results_simp
  have rcarry : ∀ b : Ref Cert.ReferenceIdeal.sig .tc, b = Cert.ReferenceIdeal.main_v1 ∨ b = Cert.ReferenceIdeal.main_v3 ∨ b = Cert.ReferenceIdeal.main_v10 →
      Rc3 (R0 m' c) (Proc.devRef .tc b) = Rc2 (R0 m' c) (Proc.devRef .tc b) := by
    intro b hb
    rcases hb with rfl | rfl | rfl
    all_goals
      unfold Rc3
      rw [StableHlo.after_append]
      dsimp only [ops4, ops5]
      after_results_simp
  refine ⟨?_, ?_, ?_, ?_⟩
  · rw [kcarry _ (Or.inl rfl), rcarry _ (Or.inl rfl)]; exact h.graph.row
  · rw [kcarry _ (Or.inr (Or.inl rfl)), rcarry _ (Or.inr (Or.inl rfl))]; exact h.graph.col
  · rw [kcarry _ (Or.inr (Or.inr (Or.inl rfl))), rcarry _ (Or.inr (Or.inr rfl))]; exact h.graph.dinv
  · intro p
    rw [kcarry _ (Or.inr (Or.inr (Or.inr rfl))), rcarry _ (Or.inr (Or.inr rfl))]; exact h.graph.dcol p

end S3

/-- From the second checkpoint to the third. -/
theorem step3 (hag : Agree m m' c) (h : Inv2 m m' c ρ) : Inv3 m m' c ρ :=
  ⟨⟨S3.ka3 m m' c ρ h, S3.ra3 m m' c ρ h⟩, S3.graph3 m m' c ρ h, S3.main3 m m' c ρ hag h⟩

end Cert.Chain
end
-- ==== Proof.Step4.lean ====
/-
  Checkpoint 3 to checkpoint 4. Between them the kernel's program prepares a row of zeros (the constant zero laid along
  128 entries, then reshaped to one row) and runs the second dense layer on the first activation: a row of the
  activation against a column of the weights, summed over the 128 shared entries, plus the row of zeros. The reference
  multiplies the same two arrays with one dot product. The activations are equal by the previous checkpoint, the
  weights are the same argument on both sides, and adding zero changes nothing. Neither side writes an argument, an
  edge array or a degree array on the way.
-/
import proofs.«169641_j32169305047251_1_alg».proof.Proof.Chain0
import proofs.«169641_j32169305047251_1_alg».proof.Proof.RegLinear
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen
open Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

set_option maxHeartbeats 8000000 in
/-- The zero row's three operations write none of the argument buffers, and the dense layer reads one of them (its
    weights) through an input window and writes none: every argument still holds its launch contents. -/
theorem step4_ka (h : Inv3 m m' c ρ) :
    ∀ a ∈ kArgs, W10 m ρ c (Proc.devRef .tc a) = m ((c.tc : Thread Cert.KernelIdeal.nD Cert.KernelIdeal.τ).loc a) := by
  intro a ha
  simp only [kArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    first
      | refine (W10_of_ne m ρ c _ (by decide)).trans ?_
      | refine ((W10_arr m ρ c 0).trans (((dat3 (V9 m ρ) c).arrAt_in 0 rfl _).trans (A_eq3 (V9 m ρ) c 0))).trans ?_
      | refine ((W10_arr m ρ c 1).trans (((dat3 (V9 m ρ) c).arrAt_in 1 rfl _).trans (A_eq3 (V9 m ρ) c 1))).trans ?_
      | refine ((W10_arr m ρ c 2).trans (((dat3 (V9 m ρ) c).arrAt_in 2 rfl _).trans (A_eq3 (V9 m ρ) c 2))).trans ?_
  all_goals
    dsimp only [V9, W9, hostOps3]
    after_results
    exact h.base.ka _ (by decide)

set_option maxHeartbeats 8000000 in
/-- The reference's one dot product writes none of its argument buffers. -/
theorem step4_ra (h : Inv3 m m' c ρ) :
    ∀ a ∈ rArgs, Rc4 (R0 m' c) (Proc.devRef .tc a) = m' ((c.tc : Thread Cert.ReferenceIdeal.nD Cert.ReferenceIdeal.τ).loc a) := by
  intro a ha
  simp only [rArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    unfold Rc4
    dsimp only [ops6]
    after_results
    exact h.base.ra _ (by decide)

set_option maxHeartbeats 4000000 in
/-- The edge sources are untouched on both sides. -/
theorem step4_row (h : Inv3 m m' c ρ) :
    (W10 m ρ c (Proc.devRef .tc Cert.KernelIdeal.main_v1) : Cert.KernelIdeal.S800000.Idx → BitVec 32) = Rc4 (R0 m' c) (Proc.devRef .tc Cert.ReferenceIdeal.main_v1) := by
  rw [W10_of_ne m ρ c _ (by decide)]
  unfold Rc4
  dsimp only [W9, hostOps3, ops6]
  after_results
  exact h.graph.row

set_option maxHeartbeats 4000000 in
/-- The edge targets are untouched on both sides. -/
theorem step4_col (h : Inv3 m m' c ρ) :
    (W10 m ρ c (Proc.devRef .tc Cert.KernelIdeal.main_v3) : Cert.KernelIdeal.S800000.Idx → BitVec 32) = Rc4 (R0 m' c) (Proc.devRef .tc Cert.ReferenceIdeal.main_v3) := by
  rw [W10_of_ne m ρ c _ (by decide)]
  unfold Rc4
  dsimp only [W9, hostOps3, ops6]
  after_results
  exact h.graph.col

set_option maxHeartbeats 4000000 in
/-- The inverse square-root degrees are untouched on both sides. -/
theorem step4_dinv (h : Inv3 m m' c ρ) :
    (W10 m ρ c (Proc.devRef .tc Cert.KernelIdeal.main_v10) : Cert.KernelIdeal.S50000.Idx → EReal) = Rc4 (R0 m' c) (Proc.devRef .tc Cert.ReferenceIdeal.main_v10) := by
  rw [W10_of_ne m ρ c _ (by decide)]
  unfold Rc4
  dsimp only [W9, hostOps3, ops6]
  after_results
  exact h.graph.dinv

set_option maxHeartbeats 4000000 in
/-- The degree column is not one of the dense layer's arrays: it is untouched, and so is the reference's degree vector. -/
theorem step4_dcol (h : Inv3 m m' c ρ) (p : Fin 50000) :
    (W10 m ρ c (Proc.devRef .tc Cert.KernelIdeal.main_v11) : Cert.KernelIdeal.S50000x1.Idx → EReal) (ix2 p 0)
      = (Rc4 (R0 m' c) (Proc.devRef .tc Cert.ReferenceIdeal.main_v10) : Cert.ReferenceIdeal.S50000.Idx → EReal) (ix1 p) := by
  rw [W10_of_ne m ρ c _ (by decide)]
  unfold Rc4
  dsimp only [W9, hostOps3, ops6]
  after_results
  exact h.graph.dcol p

set_option maxHeartbeats 4000000 in
/-- The second dense layer: the kernel's region leaves X·W + Z with X the first activation, W the weights argument and
    Z a row of zeros; the reference's dot product of the same X and W is that array, since adding zero changes nothing. -/
theorem step4_main (hag : Agree m m' c) (h : Inv3 m m' c ρ) :
    (W10 m ρ c (Proc.devRef .tc Cert.KernelIdeal.main_v48) : Cert.KernelIdeal.S50000x128.Idx → EReal) = Rc4 (R0 m' c) (Proc.devRef .tc Cert.ReferenceIdeal.main_v63) := by
  unfold Agree at hag
  obtain ⟨a0, a1, a2, a3, a4, a5, a6, a7, a8, a9, a10, a11, a12, a13, a14, a15, a16, a17, a18, a19, a20, a21, a22, a23⟩ := hag
  refine ((W10_arr m ρ c 3).trans (Cert.KernelIdeal.RegVal.final3 (V9 m ρ) c)).trans ?_
  have hx : (V9 m ρ c Cert.KernelIdeal.main_v45 : Cert.KernelIdeal.S50000x128.Idx → EReal) = Rc3 (R0 m' c) (Proc.devRef .tc Cert.ReferenceIdeal.main_v62) := by
    dsimp only [V9, W9, hostOps3]
    after_results
    exact h.main
  have hw : (V9 m ρ c Cert.KernelIdeal.main_arg6 : Cert.KernelIdeal.S128x128.Idx → EReal) = Rc3 (R0 m' c) (Proc.devRef .tc Cert.ReferenceIdeal.main_arg6) := by
    dsimp only [V9, W9, hostOps3]
    after_results
    rw [h.base.ka Cert.KernelIdeal.main_arg6 (by decide), h.base.ra Cert.ReferenceIdeal.main_arg6 (by decide)]
    exact a6.symm
  have hz : ∀ q : Fin 128, (V9 m ρ c Cert.KernelIdeal.main_v47 : Cert.KernelIdeal.S1x128.Idx → EReal) (ix2 0 q) = Ideal.ofBits .f32 0x00000000#32 := by
    intro q
    dsimp only [V9, W9, hostOps3]
    after_results
    refine (shapeCast_a_1a_apply _ _ 0 q).trans ?_
    rfl
  have hR : (Rc4 (R0 m' c) (Proc.devRef .tc Cert.ReferenceIdeal.main_v63) : Cert.ReferenceIdeal.S50000x128.Idx → EReal)
      = Host.dotGeneral (F := Ideal) (φ₁ := .f32) (φ₂ := .f32) Cert.ReferenceIdeal.dot_S50000x128_S128x128_S50000x128_1_0_0_1_n_n none
          (Rc3 (R0 m' c) (Proc.devRef .tc Cert.ReferenceIdeal.main_v62)) (Rc3 (R0 m' c) (Proc.devRef .tc Cert.ReferenceIdeal.main_arg6)) := by
    unfold Rc4
    dsimp only [ops6]
    after_results
    try rfl
  rw [hR, hx, hw]
  exact (Cert.ReferenceIdeal.Stages.dot_zero_50000x128 _ _ _ hz).symm

/-- From the checkpoint after the first graph convolution's activation to the checkpoint after the second dense layer. -/
theorem step4 (hag : Agree m m' c) (h : Inv3 m m' c ρ) : Inv4 m m' c ρ :=
  ⟨⟨step4_ka m m' c ρ h, step4_ra m m' c ρ h⟩,
   ⟨step4_row m m' c ρ h, step4_col m m' c ρ h, step4_dinv m m' c ρ h, step4_dcol m m' c ρ h⟩,
   step4_main m m' c ρ hag h⟩

end Cert.Chain

end
-- ==== Proof.Step5.lean ====
/-
  Checkpoint 4 to checkpoint 5: the second graph convolution's aggregation and combination. Both programs
  aggregate on the host with the same operations: the edge sources with negative entries wrapped, the degree entry
  and the product's row gathered at each source, multiplied, and summed onto the edge's target row. The inputs of
  that chain (edge sources, edge targets, degrees, the second layer's product) are equal by the previous checkpoint, so the
  aggregates are equal. The kernel's program then reshapes the bias vector to a row and runs the combine region,
  whose output is d·agg + d²·xw + b entry by entry, with d read from the degree column; the reference computes the
  same combination with broadcasts of the degree vector and of the bias vector. The degree column carries the degree
  vector by the previous checkpoint, and the bias row carries the bias argument, which is the same on both sides.
  Neither side writes an argument, an edge array or a degree array on the way.
-/
import proofs.«169641_j32169305047251_1_alg».proof.Proof.Chain0
import proofs.«169641_j32169305047251_1_alg».proof.Proof.RegCombSilu
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen
open Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

/-! ## The arguments and the graph arrays are carried over -/

set_option maxHeartbeats 8000000 in
/-- The host operations before the region write only their own result arrays, and the region's five
    arrays are the aggregate, the product, the degree column, the bias row and its output: no argument
    buffer is among them, so each still holds its launch contents. -/
theorem step5_ka (h : Inv4 m m' c ρ) :
    ∀ a ∈ kArgs, W12 m ρ c (Proc.devRef .tc a) = m ((c.tc : Thread Cert.KernelIdeal.nD Cert.KernelIdeal.τ).loc a) := by
  intro a ha
  simp only [kArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    refine (W12_of_ne m ρ c _ (by decide)).trans ?_
    dsimp only [W11, hostOps4]
    after_results_simp
    exact h.base.ka _ (by decide)

set_option maxHeartbeats 8000000 in
/-- The reference's aggregation and combination write only their own result arrays: every argument
    buffer still holds its launch contents. -/
theorem step5_ra (h : Inv4 m m' c ρ) :
    ∀ a ∈ rArgs, Rc5 (R0 m' c) (Proc.devRef .tc a) = m' ((c.tc : Thread Cert.ReferenceIdeal.nD Cert.ReferenceIdeal.τ).loc a) := by
  intro a ha
  simp only [rArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    unfold Rc5
    rw [StableHlo.after_append]
    dsimp only [ops7, ops8]
    after_results_simp
    exact h.base.ra _ (by decide)

set_option maxHeartbeats 4000000 in
/-- The edge sources are read, never written, on both sides. -/
theorem step5_row (h : Inv4 m m' c ρ) :
    (W12 m ρ c (Proc.devRef .tc Cert.KernelIdeal.main_v1) : Cert.KernelIdeal.S800000.Idx → BitVec 32) = Rc5 (R0 m' c) (Proc.devRef .tc Cert.ReferenceIdeal.main_v1) := by
  refine (W12_of_ne m ρ c _ (by decide)).trans ?_
  unfold Rc5
  rw [StableHlo.after_append]
  dsimp only [W11, hostOps4, ops7, ops8]
  after_results_simp
  exact h.graph.row

set_option maxHeartbeats 4000000 in
/-- The edge targets are read, never written, on both sides. -/
theorem step5_col (h : Inv4 m m' c ρ) :
    (W12 m ρ c (Proc.devRef .tc Cert.KernelIdeal.main_v3) : Cert.KernelIdeal.S800000.Idx → BitVec 32) = Rc5 (R0 m' c) (Proc.devRef .tc Cert.ReferenceIdeal.main_v3) := by
  refine (W12_of_ne m ρ c _ (by decide)).trans ?_
  unfold Rc5
  rw [StableHlo.after_append]
  dsimp only [W11, hostOps4, ops7, ops8]
  after_results_simp
  exact h.graph.col

set_option maxHeartbeats 4000000 in
/-- The inverse square-root degrees are read, never written, on both sides. -/
theorem step5_dinv (h : Inv4 m m' c ρ) :
    (W12 m ρ c (Proc.devRef .tc Cert.KernelIdeal.main_v10) : Cert.KernelIdeal.S50000.Idx → EReal) = Rc5 (R0 m' c) (Proc.devRef .tc Cert.ReferenceIdeal.main_v10) := by
  refine (W12_of_ne m ρ c _ (by decide)).trans ?_
  unfold Rc5
  rw [StableHlo.after_append]
  dsimp only [W11, hostOps4, ops7, ops8]
  after_results_simp
  exact h.graph.dinv

set_option maxHeartbeats 4000000 in
/-- The degree column is one of the region's input arrays: the region leaves it as it found it, and
    the host operations before the region do not write it; the reference's degree vector is untouched. -/
theorem step5_dcol (h : Inv4 m m' c ρ) (p : Fin 50000) :
    (W12 m ρ c (Proc.devRef .tc Cert.KernelIdeal.main_v11) : Cert.KernelIdeal.S50000x1.Idx → EReal) (ix2 p 0)
      = (Rc5 (R0 m' c) (Proc.devRef .tc Cert.ReferenceIdeal.main_v10) : Cert.ReferenceIdeal.S50000.Idx → EReal) (ix1 p) := by
  have e : W12 m ρ c (Proc.devRef .tc Cert.KernelIdeal.main_v11) = V11 m ρ c Cert.KernelIdeal.main_v11 :=
    (W12_arr m ρ c 2).trans (((dat4 (V11 m ρ) c).arrAt_in 2 rfl _).trans (A_eq4 (V11 m ρ) c 2))
  rw [e]
  unfold Rc5
  rw [StableHlo.after_append]
  dsimp only [V11, W11, hostOps4, ops7, ops8]
  after_results_simp
  exact h.graph.dcol p

/-! ## The reference's stretch, cut after the aggregation -/

/-- The reference's contents after the aggregation of this layer, before its combination. -/
def Rmid5 (R0 : RV) : RV := StableHlo.after (ops7 (F := Ideal)) (Rc4 R0)

/-- The checkpoint's contents are the combination's operations applied to those. -/
theorem step5_Rc_eq (R0 : RV) : Rc5 R0 = StableHlo.after (ops8 (F := Ideal)) (Rmid5 R0) := by
  unfold Rc5 Rmid5
  exact StableHlo.after_append _ _ _

/-- The reference's combination chain is the specification's combination of the aggregate, the
    product, and any column and row that carry the degree vector's and the bias vector's entries. -/
theorem step5_ref_main (R0 : RV) (dcol : Cert.Spec.Mat 50000 1) (brow : Cert.Spec.Mat 1 128)
    (hd : ∀ p, dcol (ix2 p 0) = (Rmid5 R0 (Proc.devRef .tc Cert.ReferenceIdeal.main_v10) : Cert.ReferenceIdeal.S50000.Idx → EReal) (ix1 p))
    (hb : ∀ q, brow (ix2 0 q) = (Rmid5 R0 (Proc.devRef .tc Cert.ReferenceIdeal.main_arg7) : Cert.ReferenceIdeal.S128.Idx → EReal) (ix1 q)) :
    (Rc5 R0 (Proc.devRef .tc Cert.ReferenceIdeal.main_v94) : Cert.ReferenceIdeal.S50000x128.Idx → EReal)
      = Cert.Spec.comb (Rmid5 R0 (Proc.devRef .tc Cert.ReferenceIdeal.main_v83)) (Rmid5 R0 (Proc.devRef .tc Cert.ReferenceIdeal.main_v63)) dcol brow := by
  rw [step5_Rc_eq]
  dsimp only [ops8]
  after_results_simp
  exact Cert.ReferenceIdeal.Stages.comb_eq _ _ _ _ dcol brow hd hb

/-! ## What the combine region finds on entry -/

set_option maxHeartbeats 8000000 in
/-- The aggregate that the kernel's program computes on the host before the region is the reference's
    aggregate: the same gather, product and scatter-add, applied to arrays the invariant identifies. -/
theorem step5_agg (h : Inv4 m m' c ρ) :
    (V11 (F := Ideal) m ρ c Cert.KernelIdeal.main_v68 : Cert.KernelIdeal.S50000x128.Idx → EReal)
      = Rmid5 (R0 m' c) (Proc.devRef .tc Cert.ReferenceIdeal.main_v83) := by
  dsimp only [V11, W11, hostOps4]
  unfold Rmid5
  dsimp only [ops7]
  after_results_simp
  rw [h.graph.row, h.graph.col, h.graph.dinv, h.main]
  rfl

set_option maxHeartbeats 8000000 in
/-- The product array is untouched by the host operations in between, on both sides. -/
theorem step5_xw (h : Inv4 m m' c ρ) :
    (V11 (F := Ideal) m ρ c Cert.KernelIdeal.main_v48 : Cert.KernelIdeal.S50000x128.Idx → EReal)
      = Rmid5 (R0 m' c) (Proc.devRef .tc Cert.ReferenceIdeal.main_v63) := by
  dsimp only [V11, W11, hostOps4]
  unfold Rmid5
  dsimp only [ops7]
  after_results_simp
  exact h.main

set_option maxHeartbeats 8000000 in
/-- The degree column the region reads carries the reference's degree vector, entry by entry. -/
theorem step5_hd (h : Inv4 m m' c ρ) (p : Fin 50000) :
    (V11 (F := Ideal) m ρ c Cert.KernelIdeal.main_v11 : Cert.KernelIdeal.S50000x1.Idx → EReal) (ix2 p 0)
      = (Rmid5 (R0 m' c) (Proc.devRef .tc Cert.ReferenceIdeal.main_v10) : Cert.ReferenceIdeal.S50000.Idx → EReal) (ix1 p) := by
  dsimp only [V11, W11, hostOps4]
  unfold Rmid5
  dsimp only [ops7]
  after_results_simp
  exact h.graph.dcol p

set_option maxHeartbeats 8000000 in
/-- The bias row the region reads is the bias argument cast from [128] to [1,128]; its entry (0, q) is
    the argument's entry q, and the two programs were launched with the same argument. -/
theorem step5_hb (hag : Agree m m' c) (h : Inv4 m m' c ρ) (q : Fin 128) :
    (V11 (F := Ideal) m ρ c Cert.KernelIdeal.main_v69 : Cert.KernelIdeal.S1x128.Idx → EReal) (ix2 0 q)
      = (Rmid5 (R0 m' c) (Proc.devRef .tc Cert.ReferenceIdeal.main_arg7) : Cert.ReferenceIdeal.S128.Idx → EReal) (ix1 q) := by
  dsimp only [V11, W11, hostOps4]
  unfold Rmid5
  dsimp only [ops7]
  after_results_simp
  rw [h.base.ka Cert.KernelIdeal.main_arg7 (by decide), h.base.ra Cert.ReferenceIdeal.main_arg7 (by decide)]
  unfold Agree at hag
  rw [hag.2.2.2.2.2.2.2.1]
  exact shapeCast_a_1a_apply _ _ 0 q

/-- The activation array at the region's exit equals the reference's combination. -/
theorem step5_main (hag : Agree m m' c) (h : Inv4 m m' c ρ) :
    (W12 (F := Ideal) m ρ c (Proc.devRef .tc Cert.KernelIdeal.main_v70) : Cert.KernelIdeal.S50000x128.Idx → EReal)
      = Rc5 (R0 m' c) (Proc.devRef .tc Cert.ReferenceIdeal.main_v94) := by
  refine ((W12_arr m ρ c 4).trans (Cert.KernelIdeal.RegVal.final4 (V11 m ρ) c)).trans ?_
  refine Eq.trans ?_ (step5_ref_main (R0 m' c) (V11 m ρ c Cert.KernelIdeal.main_v11) (V11 m ρ c Cert.KernelIdeal.main_v69)
    (step5_hd m m' c ρ h) (step5_hb m m' c ρ hag h)).symm
  rw [step5_agg m m' c ρ h, step5_xw m m' c ρ h]

/-- From the checkpoint after the second layer's product to the checkpoint after the second graph convolution's combination. -/
theorem step5 (hag : Agree m m' c) (h : Inv4 m m' c ρ) : Inv5 m m' c ρ :=
  ⟨⟨step5_ka m m' c ρ h, step5_ra m m' c ρ h⟩,
   ⟨step5_row m m' c ρ h, step5_col m m' c ρ h, step5_dinv m m' c ρ h, step5_dcol m m' c ρ h⟩,
   step5_main m m' c ρ hag h⟩

end Cert.Chain

end
-- ==== Proof.Step6.lean ====
import proofs.«169641_j32169305047251_1_alg».proof.Proof.Chain0
import proofs.«169641_j32169305047251_1_alg».proof.Proof.RegCombSilu
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

/-! Checkpoint 5 to checkpoint 6: the second layer's activation. The kernel's program runs one region, which reads the
  combined array and writes x · logistic x of it; the reference runs one call of its activation function on the equal
  array. Every other buffer the invariant names is untouched on both sides. -/

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (ρ : Dev Cert.KernelIdeal.nD → PrngReg)

/-- The region's output array is x · logistic x of the array the region finds in its input buffer. -/
theorem step6_region : (W13 m ρ c (Proc.devRef .tc Cert.KernelIdeal.main_v71) : Cert.KernelIdeal.S50000x128.Idx → EReal)
      = Cert.Spec.silu (W12 m ρ c (Proc.devRef .tc Cert.KernelIdeal.main_v70) : Cert.KernelIdeal.S50000x128.Idx → EReal) :=
  (W13_arr m ρ c 1).trans (Cert.KernelIdeal.RegVal.final5 (V12 m ρ) c)

/-- The activation array: the region's x · logistic x and the call's x · (1 / (1 + e^(−x))) of equal inputs. The call's
    chain is compared operation by operation with the chain the activation lemma is stated for. -/
theorem step6_main (h : Inv5 m m' c ρ) :
    (W13 m ρ c (Proc.devRef .tc Cert.KernelIdeal.main_v71) : Cert.KernelIdeal.S50000x128.Idx → EReal)
      = Rc6 (R0 m' c) (Proc.devRef .tc Cert.ReferenceIdeal.main_v95) := by
  rw [step6_region, h.main]
  unfold Rc6
  dsimp only [ops9]
  after_results
  dsimp only [TRef.of]
  generalize Rc5 (R0 m' c) (Proc.devRef .tc Cert.ReferenceIdeal.main_v94) = x
  refine (Cert.ReferenceIdeal.Stages.silu_50000x128 x).symm.trans ?_
  show mulf _ _ = mulf _ _
  refine congrArg₂ mulf rfl ?_
  show Host.divf _ _ = Host.divf _ _
  refine congrArg₂ Host.divf rfl ?_
  show addf _ _ = addf _ _
  refine congrArg₂ addf rfl ?_
  show Host.exp _ = Host.exp _
  refine congrArg Host.exp ?_
  show Host.negf _ = Host.negf _
  rfl

/-- Neither side writes an argument buffer. -/
theorem step6_base (h : Inv5 m m' c ρ) : Base m m' c (W13 m ρ c) (Rc6 (R0 m' c)) := by
  refine ⟨?_, ?_⟩
  · intro a ha
    simp only [kArgs, List.mem_cons, List.not_mem_nil, or_false] at ha
    rcases ha with rfl | rfl | rfl | rfl | rfl | rfl | rfl | rfl | rfl | rfl | rfl | rfl | rfl | rfl | rfl | rfl | rfl | rfl | rfl | rfl | rfl | rfl | rfl | rfl
    all_goals exact (W13_of_ne m ρ c _ (by decide)).trans (h.base.ka _ (by decide))
  · intro a ha
    simp only [rArgs, List.mem_cons, List.not_mem_nil, or_false] at ha
    rcases ha with rfl | rfl | rfl | rfl | rfl | rfl | rfl | rfl | rfl | rfl | rfl | rfl | rfl | rfl | rfl | rfl | rfl | rfl | rfl | rfl | rfl | rfl | rfl | rfl
    all_goals
      unfold Rc6; dsimp only [ops9]; after_results
      exact h.base.ra _ (by decide)

/-- Neither side writes the edge sources, the edge targets, the inverse square-root degrees or the degree column. -/
theorem step6_graph (h : Inv5 m m' c ρ) : Graph (W13 m ρ c) (Rc6 (R0 m' c)) := by
  refine ⟨?_, ?_, ?_, ?_⟩
  · rw [W13_of_ne m ρ c Cert.KernelIdeal.main_v1 (by decide)]
    unfold Rc6; dsimp only [ops9]; after_results
    exact h.graph.row
  · rw [W13_of_ne m ρ c Cert.KernelIdeal.main_v3 (by decide)]
    unfold Rc6; dsimp only [ops9]; after_results
    exact h.graph.col
  · rw [W13_of_ne m ρ c Cert.KernelIdeal.main_v10 (by decide)]
    unfold Rc6; dsimp only [ops9]; after_results
    exact h.graph.dinv
  · intro p
    rw [W13_of_ne m ρ c Cert.KernelIdeal.main_v11 (by decide)]
    unfold Rc6; dsimp only [ops9]; after_results
    exact h.graph.dcol p

/-- The invariant passes from checkpoint 5 to checkpoint 6. -/
theorem step6 (hag : Agree m m' c) (h : Inv5 m m' c ρ) : Inv6 m m' c ρ :=
  { base := step6_base m m' c ρ h, graph := step6_graph m m' c ρ h, main := step6_main m m' c ρ h }

end Cert.Chain

end
-- ==== Proof.Step7.lean ====
/-
  Checkpoint 6 to checkpoint 7. Between them the kernel's program prepares a row of zeros (the constant zero laid along
  128 entries, then reshaped to one row) and runs the third dense layer on the second activation: a row of the
  activation against a column of the weights, summed over the 128 shared entries, plus the row of zeros. The reference
  multiplies the same two arrays with one dot product. The activations are equal by the previous checkpoint, the
  weights are the same argument on both sides, and adding zero changes nothing. Neither side writes an argument, an
  edge array or a degree array on the way.
-/
import proofs.«169641_j32169305047251_1_alg».proof.Proof.Chain0
import proofs.«169641_j32169305047251_1_alg».proof.Proof.RegLinear
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen
open Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

set_option maxHeartbeats 8000000 in
/-- The zero row's three operations write none of the argument buffers, and the dense layer reads one of them (its
    weights) through an input window and writes none: every argument still holds its launch contents. -/
theorem step7_ka (h : Inv6 m m' c ρ) :
    ∀ a ∈ kArgs, W15 m ρ c (Proc.devRef .tc a) = m ((c.tc : Thread Cert.KernelIdeal.nD Cert.KernelIdeal.τ).loc a) := by
  intro a ha
  simp only [kArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    first
      | refine (W15_of_ne m ρ c _ (by decide)).trans ?_
      | refine ((W15_arr m ρ c 0).trans (((dat6 (V14 m ρ) c).arrAt_in 0 rfl _).trans (A_eq6 (V14 m ρ) c 0))).trans ?_
      | refine ((W15_arr m ρ c 1).trans (((dat6 (V14 m ρ) c).arrAt_in 1 rfl _).trans (A_eq6 (V14 m ρ) c 1))).trans ?_
      | refine ((W15_arr m ρ c 2).trans (((dat6 (V14 m ρ) c).arrAt_in 2 rfl _).trans (A_eq6 (V14 m ρ) c 2))).trans ?_
  all_goals
    dsimp only [V14, W14, hostOps6]
    after_results
    exact h.base.ka _ (by decide)

set_option maxHeartbeats 8000000 in
/-- The reference's one dot product writes none of its argument buffers. -/
theorem step7_ra (h : Inv6 m m' c ρ) :
    ∀ a ∈ rArgs, Rc7 (R0 m' c) (Proc.devRef .tc a) = m' ((c.tc : Thread Cert.ReferenceIdeal.nD Cert.ReferenceIdeal.τ).loc a) := by
  intro a ha
  simp only [rArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    unfold Rc7
    dsimp only [ops10]
    after_results
    exact h.base.ra _ (by decide)

set_option maxHeartbeats 4000000 in
/-- The edge sources are untouched on both sides. -/
theorem step7_row (h : Inv6 m m' c ρ) :
    (W15 m ρ c (Proc.devRef .tc Cert.KernelIdeal.main_v1) : Cert.KernelIdeal.S800000.Idx → BitVec 32) = Rc7 (R0 m' c) (Proc.devRef .tc Cert.ReferenceIdeal.main_v1) := by
  rw [W15_of_ne m ρ c _ (by decide)]
  unfold Rc7
  dsimp only [W14, hostOps6, ops10]
  after_results
  exact h.graph.row

set_option maxHeartbeats 4000000 in
/-- The edge targets are untouched on both sides. -/
theorem step7_col (h : Inv6 m m' c ρ) :
    (W15 m ρ c (Proc.devRef .tc Cert.KernelIdeal.main_v3) : Cert.KernelIdeal.S800000.Idx → BitVec 32) = Rc7 (R0 m' c) (Proc.devRef .tc Cert.ReferenceIdeal.main_v3) := by
  rw [W15_of_ne m ρ c _ (by decide)]
  unfold Rc7
  dsimp only [W14, hostOps6, ops10]
  after_results
  exact h.graph.col

set_option maxHeartbeats 4000000 in
/-- The inverse square-root degrees are untouched on both sides. -/
theorem step7_dinv (h : Inv6 m m' c ρ) :
    (W15 m ρ c (Proc.devRef .tc Cert.KernelIdeal.main_v10) : Cert.KernelIdeal.S50000.Idx → EReal) = Rc7 (R0 m' c) (Proc.devRef .tc Cert.ReferenceIdeal.main_v10) := by
  rw [W15_of_ne m ρ c _ (by decide)]
  unfold Rc7
  dsimp only [W14, hostOps6, ops10]
  after_results
  exact h.graph.dinv

set_option maxHeartbeats 4000000 in
/-- The degree column is not one of the dense layer's arrays: it is untouched, and so is the reference's degree vector. -/
theorem step7_dcol (h : Inv6 m m' c ρ) (p : Fin 50000) :
    (W15 m ρ c (Proc.devRef .tc Cert.KernelIdeal.main_v11) : Cert.KernelIdeal.S50000x1.Idx → EReal) (ix2 p 0)
      = (Rc7 (R0 m' c) (Proc.devRef .tc Cert.ReferenceIdeal.main_v10) : Cert.ReferenceIdeal.S50000.Idx → EReal) (ix1 p) := by
  rw [W15_of_ne m ρ c _ (by decide)]
  unfold Rc7
  dsimp only [W14, hostOps6, ops10]
  after_results
  exact h.graph.dcol p

set_option maxHeartbeats 4000000 in
/-- The third dense layer: the kernel's region leaves X·W + Z with X the second activation, W the weights argument and
    Z a row of zeros; the reference's dot product of the same X and W is that array, since adding zero changes nothing. -/
theorem step7_main (hag : Agree m m' c) (h : Inv6 m m' c ρ) :
    (W15 m ρ c (Proc.devRef .tc Cert.KernelIdeal.main_v74) : Cert.KernelIdeal.S50000x128.Idx → EReal) = Rc7 (R0 m' c) (Proc.devRef .tc Cert.ReferenceIdeal.main_v96) := by
  unfold Agree at hag
  obtain ⟨a0, a1, a2, a3, a4, a5, a6, a7, a8, a9, a10, a11, a12, a13, a14, a15, a16, a17, a18, a19, a20, a21, a22, a23⟩ := hag
  refine ((W15_arr m ρ c 3).trans (Cert.KernelIdeal.RegVal.final6 (V14 m ρ) c)).trans ?_
  have hx : (V14 m ρ c Cert.KernelIdeal.main_v71 : Cert.KernelIdeal.S50000x128.Idx → EReal) = Rc6 (R0 m' c) (Proc.devRef .tc Cert.ReferenceIdeal.main_v95) := by
    dsimp only [V14, W14, hostOps6]
    after_results
    exact h.main
  have hw : (V14 m ρ c Cert.KernelIdeal.main_arg8 : Cert.KernelIdeal.S128x128.Idx → EReal) = Rc6 (R0 m' c) (Proc.devRef .tc Cert.ReferenceIdeal.main_arg8) := by
    dsimp only [V14, W14, hostOps6]
    after_results
    rw [h.base.ka Cert.KernelIdeal.main_arg8 (by decide), h.base.ra Cert.ReferenceIdeal.main_arg8 (by decide)]
    exact a8.symm
  have hz : ∀ q : Fin 128, (V14 m ρ c Cert.KernelIdeal.main_v73 : Cert.KernelIdeal.S1x128.Idx → EReal) (ix2 0 q) = Ideal.ofBits .f32 0x00000000#32 := by
    intro q
    dsimp only [V14, W14, hostOps6]
    after_results
    refine (shapeCast_a_1a_apply _ _ 0 q).trans ?_
    rfl
  have hR : (Rc7 (R0 m' c) (Proc.devRef .tc Cert.ReferenceIdeal.main_v96) : Cert.ReferenceIdeal.S50000x128.Idx → EReal)
      = Host.dotGeneral (F := Ideal) (φ₁ := .f32) (φ₂ := .f32) Cert.ReferenceIdeal.dot_S50000x128_S128x128_S50000x128_1_0_0_1_n_n none
          (Rc6 (R0 m' c) (Proc.devRef .tc Cert.ReferenceIdeal.main_v95)) (Rc6 (R0 m' c) (Proc.devRef .tc Cert.ReferenceIdeal.main_arg8)) := by
    unfold Rc7
    dsimp only [ops10]
    after_results
    try rfl
  rw [hR, hx, hw]
  exact (Cert.ReferenceIdeal.Stages.dot_zero_50000x128 _ _ _ hz).symm

/-- From the checkpoint after the second graph convolution's activation to the checkpoint after the third dense layer. -/
theorem step7 (hag : Agree m m' c) (h : Inv6 m m' c ρ) : Inv7 m m' c ρ :=
  ⟨⟨step7_ka m m' c ρ h, step7_ra m m' c ρ h⟩,
   ⟨step7_row m m' c ρ h, step7_col m m' c ρ h, step7_dinv m m' c ρ h, step7_dcol m m' c ρ h⟩,
   step7_main m m' c ρ hag h⟩

end Cert.Chain

end
-- ==== Proof.Step8.lean ====
/-
  Checkpoint 7 to checkpoint 8: the third graph convolution's aggregation and combination. Both programs
  aggregate on the host with the same operations: the edge sources with negative entries wrapped, the degree entry
  and the product's row gathered at each source, multiplied, and summed onto the edge's target row. The inputs of
  that chain (edge sources, edge targets, degrees, the third layer's product) are equal by the previous checkpoint, so the
  aggregates are equal. The kernel's program then reshapes the bias vector to a row and runs the combine region,
  whose output is d·agg + d²·xw + b entry by entry, with d read from the degree column; the reference computes the
  same combination with broadcasts of the degree vector and of the bias vector. The degree column carries the degree
  vector by the previous checkpoint, and the bias row carries the bias argument, which is the same on both sides.
  Neither side writes an argument on the way; no graph convolution follows, so the edge and degree arrays are not
  carried further.
-/
import proofs.«169641_j32169305047251_1_alg».proof.Proof.Chain0
import proofs.«169641_j32169305047251_1_alg».proof.Proof.RegCombSilu
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen
open Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

/-! ## The arguments are carried over -/

set_option maxHeartbeats 8000000 in
/-- The host operations before the region write only their own result arrays, and the region's five
    arrays are the aggregate, the product, the degree column, the bias row and its output: no argument
    buffer is among them, so each still holds its launch contents. -/
theorem step8_ka (h : Inv7 m m' c ρ) :
    ∀ a ∈ kArgs, W17 m ρ c (Proc.devRef .tc a) = m ((c.tc : Thread Cert.KernelIdeal.nD Cert.KernelIdeal.τ).loc a) := by
  intro a ha
  simp only [kArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    refine (W17_of_ne m ρ c _ (by decide)).trans ?_
    dsimp only [W16, hostOps7]
    after_results_simp
    exact h.base.ka _ (by decide)

set_option maxHeartbeats 8000000 in
/-- The reference's aggregation and combination write only their own result arrays: every argument
    buffer still holds its launch contents. -/
theorem step8_ra (h : Inv7 m m' c ρ) :
    ∀ a ∈ rArgs, Rc8 (R0 m' c) (Proc.devRef .tc a) = m' ((c.tc : Thread Cert.ReferenceIdeal.nD Cert.ReferenceIdeal.τ).loc a) := by
  intro a ha
  simp only [rArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    unfold Rc8
    rw [StableHlo.after_append]
    dsimp only [ops11, ops12]
    after_results_simp
    exact h.base.ra _ (by decide)

/-! ## The reference's stretch, cut after the aggregation -/

/-- The reference's contents after the aggregation of this layer, before its combination. -/
def Rmid8 (R0 : RV) : RV := StableHlo.after (ops11 (F := Ideal)) (Rc7 R0)

/-- The checkpoint's contents are the combination's operations applied to those. -/
theorem step8_Rc_eq (R0 : RV) : Rc8 R0 = StableHlo.after (ops12 (F := Ideal)) (Rmid8 R0) := by
  unfold Rc8 Rmid8
  exact StableHlo.after_append _ _ _

/-- The reference's combination chain is the specification's combination of the aggregate, the
    product, and any column and row that carry the degree vector's and the bias vector's entries. -/
theorem step8_ref_main (R0 : RV) (dcol : Cert.Spec.Mat 50000 1) (brow : Cert.Spec.Mat 1 128)
    (hd : ∀ p, dcol (ix2 p 0) = (Rmid8 R0 (Proc.devRef .tc Cert.ReferenceIdeal.main_v10) : Cert.ReferenceIdeal.S50000.Idx → EReal) (ix1 p))
    (hb : ∀ q, brow (ix2 0 q) = (Rmid8 R0 (Proc.devRef .tc Cert.ReferenceIdeal.main_arg9) : Cert.ReferenceIdeal.S128.Idx → EReal) (ix1 q)) :
    (Rc8 R0 (Proc.devRef .tc Cert.ReferenceIdeal.main_v127) : Cert.ReferenceIdeal.S50000x128.Idx → EReal)
      = Cert.Spec.comb (Rmid8 R0 (Proc.devRef .tc Cert.ReferenceIdeal.main_v116)) (Rmid8 R0 (Proc.devRef .tc Cert.ReferenceIdeal.main_v96)) dcol brow := by
  rw [step8_Rc_eq]
  dsimp only [ops12]
  after_results_simp
  exact Cert.ReferenceIdeal.Stages.comb_eq _ _ _ _ dcol brow hd hb

/-! ## What the combine region finds on entry -/

set_option maxHeartbeats 8000000 in
/-- The aggregate that the kernel's program computes on the host before the region is the reference's
    aggregate: the same gather, product and scatter-add, applied to arrays the invariant identifies. -/
theorem step8_agg (h : Inv7 m m' c ρ) :
    (V16 (F := Ideal) m ρ c Cert.KernelIdeal.main_v94 : Cert.KernelIdeal.S50000x128.Idx → EReal)
      = Rmid8 (R0 m' c) (Proc.devRef .tc Cert.ReferenceIdeal.main_v116) := by
  dsimp only [V16, W16, hostOps7]
  unfold Rmid8
  dsimp only [ops11]
  after_results_simp
  rw [h.graph.row, h.graph.col, h.graph.dinv, h.main]
  rfl

set_option maxHeartbeats 8000000 in
/-- The product array is untouched by the host operations in between, on both sides. -/
theorem step8_xw (h : Inv7 m m' c ρ) :
    (V16 (F := Ideal) m ρ c Cert.KernelIdeal.main_v74 : Cert.KernelIdeal.S50000x128.Idx → EReal)
      = Rmid8 (R0 m' c) (Proc.devRef .tc Cert.ReferenceIdeal.main_v96) := by
  dsimp only [V16, W16, hostOps7]
  unfold Rmid8
  dsimp only [ops11]
  after_results_simp
  exact h.main

set_option maxHeartbeats 8000000 in
/-- The degree column the region reads carries the reference's degree vector, entry by entry. -/
theorem step8_hd (h : Inv7 m m' c ρ) (p : Fin 50000) :
    (V16 (F := Ideal) m ρ c Cert.KernelIdeal.main_v11 : Cert.KernelIdeal.S50000x1.Idx → EReal) (ix2 p 0)
      = (Rmid8 (R0 m' c) (Proc.devRef .tc Cert.ReferenceIdeal.main_v10) : Cert.ReferenceIdeal.S50000.Idx → EReal) (ix1 p) := by
  dsimp only [V16, W16, hostOps7]
  unfold Rmid8
  dsimp only [ops11]
  after_results_simp
  exact h.graph.dcol p

set_option maxHeartbeats 8000000 in
/-- The bias row the region reads is the bias argument cast from [128] to [1,128]; its entry (0, q) is
    the argument's entry q, and the two programs were launched with the same argument. -/
theorem step8_hb (hag : Agree m m' c) (h : Inv7 m m' c ρ) (q : Fin 128) :
    (V16 (F := Ideal) m ρ c Cert.KernelIdeal.main_v95 : Cert.KernelIdeal.S1x128.Idx → EReal) (ix2 0 q)
      = (Rmid8 (R0 m' c) (Proc.devRef .tc Cert.ReferenceIdeal.main_arg9) : Cert.ReferenceIdeal.S128.Idx → EReal) (ix1 q) := by
  dsimp only [V16, W16, hostOps7]
  unfold Rmid8
  dsimp only [ops11]
  after_results_simp
  rw [h.base.ka Cert.KernelIdeal.main_arg9 (by decide), h.base.ra Cert.ReferenceIdeal.main_arg9 (by decide)]
  unfold Agree at hag
  rw [hag.2.2.2.2.2.2.2.2.2.1]
  exact shapeCast_a_1a_apply _ _ 0 q

/-- The activation array at the region's exit equals the reference's combination. -/
theorem step8_main (hag : Agree m m' c) (h : Inv7 m m' c ρ) :
    (W17 (F := Ideal) m ρ c (Proc.devRef .tc Cert.KernelIdeal.main_v96) : Cert.KernelIdeal.S50000x128.Idx → EReal)
      = Rc8 (R0 m' c) (Proc.devRef .tc Cert.ReferenceIdeal.main_v127) := by
  refine ((W17_arr m ρ c 4).trans (Cert.KernelIdeal.RegVal.final7 (V16 m ρ) c)).trans ?_
  refine Eq.trans ?_ (step8_ref_main (R0 m' c) (V16 m ρ c Cert.KernelIdeal.main_v11) (V16 m ρ c Cert.KernelIdeal.main_v95)
    (step8_hd m m' c ρ h) (step8_hb m m' c ρ hag h)).symm
  rw [step8_agg m m' c ρ h, step8_xw m m' c ρ h]

/-- From the checkpoint after the third layer's product to the checkpoint after the third graph convolution's combination. -/
theorem step8 (hag : Agree m m' c) (h : Inv7 m m' c ρ) : Inv8 m m' c ρ :=
  ⟨⟨step8_ka m m' c ρ h, step8_ra m m' c ρ h⟩, step8_main m m' c ρ hag h⟩

end Cert.Chain

end
-- ==== Proof.Step9.lean ====
import proofs.«169641_j32169305047251_1_alg».proof.Proof.Chain0
import proofs.«169641_j32169305047251_1_alg».proof.Proof.RegCombSilu
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

/-! Checkpoint 8 to checkpoint 9: the third layer's activation. The kernel's program runs one region, which reads the
  combined array and writes x · logistic x of it; the reference runs one call of its activation function on the equal
  array. The argument buffers are untouched on both sides. -/

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (ρ : Dev Cert.KernelIdeal.nD → PrngReg)

/-- The region's output array is x · logistic x of the array the region finds in its input buffer. -/
theorem step9_region : (W18 m ρ c (Proc.devRef .tc Cert.KernelIdeal.main_v97) : Cert.KernelIdeal.S50000x128.Idx → EReal)
      = Cert.Spec.silu (W17 m ρ c (Proc.devRef .tc Cert.KernelIdeal.main_v96) : Cert.KernelIdeal.S50000x128.Idx → EReal) :=
  (W18_arr m ρ c 1).trans (Cert.KernelIdeal.RegVal.final8 (V17 m ρ) c)

/-- The activation array: the region's x · logistic x and the call's x · (1 / (1 + e^(−x))) of equal inputs. The call's
    chain is compared operation by operation with the chain the activation lemma is stated for. -/
theorem step9_main (h : Inv8 m m' c ρ) :
    (W18 m ρ c (Proc.devRef .tc Cert.KernelIdeal.main_v97) : Cert.KernelIdeal.S50000x128.Idx → EReal)
      = Rc9 (R0 m' c) (Proc.devRef .tc Cert.ReferenceIdeal.main_v128) := by
  rw [step9_region, h.main]
  unfold Rc9
  dsimp only [ops13]
  after_results
  dsimp only [TRef.of]
  generalize Rc8 (R0 m' c) (Proc.devRef .tc Cert.ReferenceIdeal.main_v127) = x
  refine (Cert.ReferenceIdeal.Stages.silu_50000x128 x).symm.trans ?_
  show mulf _ _ = mulf _ _
  refine congrArg₂ mulf rfl ?_
  show Host.divf _ _ = Host.divf _ _
  refine congrArg₂ Host.divf rfl ?_
  show addf _ _ = addf _ _
  refine congrArg₂ addf rfl ?_
  show Host.exp _ = Host.exp _
  refine congrArg Host.exp ?_
  show Host.negf _ = Host.negf _
  rfl

/-- Neither side writes an argument buffer. -/
theorem step9_base (h : Inv8 m m' c ρ) : Base m m' c (W18 m ρ c) (Rc9 (R0 m' c)) := by
  refine ⟨?_, ?_⟩
  · intro a ha
    simp only [kArgs, List.mem_cons, List.not_mem_nil, or_false] at ha
    rcases ha with rfl | rfl | rfl | rfl | rfl | rfl | rfl | rfl | rfl | rfl | rfl | rfl | rfl | rfl | rfl | rfl | rfl | rfl | rfl | rfl | rfl | rfl | rfl | rfl
    all_goals exact (W18_of_ne m ρ c _ (by decide)).trans (h.base.ka _ (by decide))
  · intro a ha
    simp only [rArgs, List.mem_cons, List.not_mem_nil, or_false] at ha
    rcases ha with rfl | rfl | rfl | rfl | rfl | rfl | rfl | rfl | rfl | rfl | rfl | rfl | rfl | rfl | rfl | rfl | rfl | rfl | rfl | rfl | rfl | rfl | rfl | rfl
    all_goals
      unfold Rc9; dsimp only [ops13]; after_results
      exact h.base.ra _ (by decide)

/-- The invariant passes from checkpoint 8 to checkpoint 9. -/
theorem step9 (hag : Agree m m' c) (h : Inv8 m m' c ρ) : Inv9 m m' c ρ :=
  { base := step9_base m m' c ρ h, main := step9_main m m' c ρ h }

end Cert.Chain

end
-- ==== Proof.Step10.lean ====
/-
  Checkpoint 9 to checkpoint 10. Between them the kernel's program pools the node rows (each row added onto the row
  its group index names, over zeros), reshapes a bias vector to a row, and runs the dense layer on the side input;
  the reference pools the same rows the same way and computes the same dense layer with the bias vector laid along
  the rows. The pooled arrays are equal because the pooled inputs are (the previous checkpoint's activation and an
  argument); the dense layers are both X·W + B of the same arguments.
-/
import proofs.«169641_j32169305047251_1_alg».proof.Proof.Chain0
import proofs.«169641_j32169305047251_1_alg».proof.Proof.RegLinear
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen
open Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

set_option maxHeartbeats 8000000 in
/-- The pooling stretch writes none of the argument buffers, and the dense layer on the side input reads two of
    them through input windows and writes none: every argument still holds its launch contents. -/
theorem step10_ka (h : Inv9 m m' c ρ) :
    ∀ a ∈ kArgs, W20 m ρ c (Proc.devRef .tc a) = m ((c.tc : Thread Cert.KernelIdeal.nD Cert.KernelIdeal.τ).loc a) := by
  intro a ha
  simp only [kArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    first
      | refine (W20_of_ne m ρ c _ (by decide)).trans ?_
      | refine ((W20_arr m ρ c 0).trans (((dat9 (V19 m ρ) c).arrAt_in 0 rfl _).trans (A_eq9 (V19 m ρ) c 0))).trans ?_
      | refine ((W20_arr m ρ c 1).trans (((dat9 (V19 m ρ) c).arrAt_in 1 rfl _).trans (A_eq9 (V19 m ρ) c 1))).trans ?_
  all_goals
    dsimp only [V19, W19, hostOps9]
    after_results
    exact h.base.ka _ (by decide)

set_option maxHeartbeats 8000000 in
/-- The reference's pooling and side-input operations write none of its argument buffers. -/
theorem step10_ra (h : Inv9 m m' c ρ) :
    ∀ a ∈ rArgs, Rc10 (R0 m' c) (Proc.devRef .tc a) = m' ((c.tc : Thread Cert.ReferenceIdeal.nD Cert.ReferenceIdeal.τ).loc a) := by
  intro a ha
  simp only [rArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    unfold Rc10
    rw [StableHlo.after_append]
    dsimp only [ops14, ops15]
    after_results
    exact h.base.ra _ (by decide)

/-- The pooled rows: both programs scatter-add the same node rows (equal by the previous checkpoint) onto the rows the
    same group indices name, over zeros; the dense layer that follows does not touch the pooled array. -/
theorem step10_pool (hag : Agree m m' c) (h : Inv9 m m' c ρ) :
    (W20 m ρ c (Proc.devRef .tc Cert.KernelIdeal.main_v100) : Cert.KernelIdeal.S2048x128.Idx → EReal)
      = Rc10 (R0 m' c) (Proc.devRef .tc Cert.ReferenceIdeal.main_v131) := by
  unfold Agree at hag
  obtain ⟨a0, a1, a2, a3, a4, a5, a6, a7, a8, a9, a10, a11, a12, a13, a14, a15, a16, a17, a18, a19, a20, a21, a22, a23⟩ := hag
  refine (W20_of_ne m ρ c _ (by decide)).trans ?_
  unfold Rc10
  rw [StableHlo.after_append]
  dsimp only [W19, hostOps9, ops14, ops15]
  after_results
  rw [h.main, h.base.ka Cert.KernelIdeal.main_arg2 (by decide), h.base.ra Cert.ReferenceIdeal.main_arg2 (by decide), a2]
  rfl

/-- A vector of length n reshaped to one row: entry (0, q) of the row is entry q of the vector. -/
theorem step10_row_of_vec {n : Nat} {α : Type} (X : (⟨1, ![n]⟩ : Shape).Idx → α)
    (hs : (⟨1, ![n]⟩ : Shape).ShapeCasts ⟨2, ![1, n]⟩) (q : Fin n) :
    shapeCast (⟨2, ![1, n]⟩ : Shape) X hs (ix2 0 q) = X (ix1 q) :=
  shapeCast_apply X hs (ix2 0 q) (ix1 q) (by
    rw [Shape.rowMajor_val_one, Shape.rowMajor_val_two]
    show q.val = 0 * n + q.val
    omega)

/-- The dense layer on the side input: the kernel's region leaves X·W + B with X, W the argument arrays and B the
    bias vector reshaped to a row; the reference multiplies the same arguments and adds the same bias vector laid
    along the rows. -/
theorem step10_main (hag : Agree m m' c) (h : Inv9 m m' c ρ) :
    (W20 m ρ c (Proc.devRef .tc Cert.KernelIdeal.main_v102) : Cert.KernelIdeal.S2048x128.Idx → EReal)
      = Rc10 (R0 m' c) (Proc.devRef .tc Cert.ReferenceIdeal.main_v135) := by
  unfold Agree at hag
  obtain ⟨a0, a1, a2, a3, a4, a5, a6, a7, a8, a9, a10, a11, a12, a13, a14, a15, a16, a17, a18, a19, a20, a21, a22, a23⟩ := hag
  refine ((W20_arr m ρ c 3).trans (Cert.KernelIdeal.RegVal.final9 (V19 m ρ) c)).trans ?_
  have hx : (V19 m ρ c Cert.KernelIdeal.main_arg3 : Cert.KernelIdeal.S2048x200.Idx → EReal)
      = Rc9 (R0 m' c) (Proc.devRef .tc Cert.ReferenceIdeal.main_arg3) := by
    dsimp only [V19, W19, hostOps9]
    after_results
    rw [h.base.ka Cert.KernelIdeal.main_arg3 (by decide), h.base.ra Cert.ReferenceIdeal.main_arg3 (by decide)]
    exact a3.symm
  have hw : (V19 m ρ c Cert.KernelIdeal.main_arg12 : Cert.KernelIdeal.S200x128.Idx → EReal)
      = Rc9 (R0 m' c) (Proc.devRef .tc Cert.ReferenceIdeal.main_arg12) := by
    dsimp only [V19, W19, hostOps9]
    after_results
    rw [h.base.ka Cert.KernelIdeal.main_arg12 (by decide), h.base.ra Cert.ReferenceIdeal.main_arg12 (by decide)]
    exact a12.symm
  have hb : ∀ q : Fin 128, (V19 m ρ c Cert.KernelIdeal.main_v101 : Cert.KernelIdeal.S1x128.Idx → EReal) (ix2 0 q)
      = (Rc9 (R0 m' c) (Proc.devRef .tc Cert.ReferenceIdeal.main_arg13) : Cert.ReferenceIdeal.S128.Idx → EReal) (ix1 q) := by
    intro q
    dsimp only [V19, W19, hostOps9]
    after_results
    dsimp only
    rw [h.base.ka Cert.KernelIdeal.main_arg13 (by decide), h.base.ra Cert.ReferenceIdeal.main_arg13 (by decide), a13]
    exact step10_row_of_vec _ _ q
  rw [hx, hw]
  generalize (V19 m ρ c Cert.KernelIdeal.main_v101 : Cert.KernelIdeal.S1x128.Idx → EReal) = brow at hb ⊢
  unfold Rc10
  rw [StableHlo.after_append]
  dsimp only [ops14, ops15]
  after_results
  exact (Cert.ReferenceIdeal.Stages.dot_bias_2048x200 _ _ _ brow hb).symm

/-- From the checkpoint after the third graph convolution's activation to the checkpoint after the side input's
    dense layer. -/
theorem step10 (hag : Agree m m' c) (h : Inv9 m m' c ρ) : Inv10 m m' c ρ :=
  ⟨⟨step10_ka m m' c ρ h, step10_ra m m' c ρ h⟩, step10_pool m m' c ρ hag h, step10_main m m' c ρ hag h⟩

end Cert.Chain

end
-- ==== Proof.Step11.lean ====
/-
  Checkpoint 10 to checkpoint 11. The kernel's program takes the column means of the side array, its column variances
  (through the variance function: centred squares summed over the rows, divided by the count, guarded on the count),
  reshapes the two vectors and the scale and shift arguments to rows, and runs the normalisation-and-activation
  region; the reference computes the same means and variances by the same operations, lays the four vectors along
  the rows, normalises, maps affinely and applies the activation. Both are silu (bn X μ σ² g β) of equal inputs.
-/
import proofs.«169641_j32169305047251_1_alg».proof.Proof.Chain0
import proofs.«169641_j32169305047251_1_alg».proof.Proof.RegBnHead
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen
open Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

set_option maxHeartbeats 16000000 in
/-- The mean, the variance and the four reshapes write none of the argument buffers, and the normalisation region
    has no argument among its windows: every argument still holds its launch contents. -/
theorem step11_ka (h : Inv10 m m' c ρ) :
    ∀ a ∈ kArgs, W24 m ρ c (Proc.devRef .tc a) = m ((c.tc : Thread Cert.KernelIdeal.nD Cert.KernelIdeal.τ).loc a) := by
  intro a ha
  simp only [kArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    refine (W24_of_ne m ρ c _ (by decide)).trans ?_
    dsimp only [W23, W22, W21, hostOps10, hostOps10_1, hostOps10_2]
    after_results
    exact h.base.ka _ (by decide)

set_option maxHeartbeats 16000000 in
/-- The reference's mean, variance, normalisation and activation write none of its argument buffers. -/
theorem step11_ra (h : Inv10 m m' c ρ) :
    ∀ a ∈ rArgs, Rc11 (R0 m' c) (Proc.devRef .tc a) = m' ((c.tc : Thread Cert.ReferenceIdeal.nD Cert.ReferenceIdeal.τ).loc a) := by
  intro a ha
  simp only [rArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    unfold Rc11
    rw [StableHlo.after_append]
    dsimp only [ops16, ops17]
    after_results
    exact h.base.ra _ (by decide)

set_option maxHeartbeats 4000000 in
/-- Neither program touches the pooled rows between the two checkpoints. -/
theorem step11_pool (h : Inv10 m m' c ρ) :
    (W24 m ρ c (Proc.devRef .tc Cert.KernelIdeal.main_v100) : Cert.KernelIdeal.S2048x128.Idx → EReal)
      = Rc11 (R0 m' c) (Proc.devRef .tc Cert.ReferenceIdeal.main_v131) := by
  refine (W24_of_ne m ρ c _ (by decide)).trans ?_
  unfold Rc11
  rw [StableHlo.after_append]
  dsimp only [V23, W23, W22, W21, hostOps10, hostOps10_1, hostOps10_2, ops16, ops17]
  after_results
  exact h.pool

/-- A vector of length n reshaped to one row: entry (0, q) of the row is entry q of the vector. -/
theorem step11_row_of_vec {n : Nat} {α : Type} (X : (⟨1, ![n]⟩ : Shape).Idx → α)
    (hs : (⟨1, ![n]⟩ : Shape).ShapeCasts ⟨2, ![1, n]⟩) (q : Fin n) :
    shapeCast (⟨2, ![1, n]⟩ : Shape) X hs (ix2 0 q) = X (ix1 q) :=
  shapeCast_apply X hs (ix2 0 q) (ix1 q) (by
    rw [Shape.rowMajor_val_one, Shape.rowMajor_val_two]
    show q.val = 0 * n + q.val
    omega)

/-- The reference's contents after its mean and variance operations, before its normalisation. -/
def Rmid11 : RV := StableHlo.after (ops16 (F := Ideal)) (Rc10 (R0 m' c))

/-- The array to normalise is the same on both sides: the previous checkpoint's dense-layer result. -/
theorem step11_x (h : Inv10 m m' c ρ) :
    (V23 m ρ c Cert.KernelIdeal.main_v102 : Cert.KernelIdeal.S2048x128.Idx → EReal)
      = Rmid11 m' c (Proc.devRef .tc Cert.ReferenceIdeal.main_v135) := by
  unfold Rmid11
  dsimp only [V23, W23, W22, W21, hostOps10, hostOps10_1, hostOps10_2, ops16]
  after_results
  exact h.main

set_option maxHeartbeats 4000000 in
/-- The kernel side's row of column means carries the reference's vector of column means: the same sum over the
    rows divided by the same count, of equal arrays. -/
theorem step11_mean (h : Inv10 m m' c ρ) (q : Fin 128) :
    (V23 m ρ c Cert.KernelIdeal.main_v107 : Cert.KernelIdeal.S1x128.Idx → EReal) (ix2 0 q)
      = (Rmid11 m' c (Proc.devRef .tc Cert.ReferenceIdeal.main_v138) : Cert.ReferenceIdeal.S128.Idx → EReal) (ix1 q) := by
  unfold Rmid11
  dsimp only [V23, W23, W22, W21, hostOps10, hostOps10_1, hostOps10_2, ops16]
  after_results
  dsimp only
  refine (step11_row_of_vec _ _ q).trans ?_
  rw [h.main]

set_option maxHeartbeats 4000000 in
/-- The kernel side's row of column variances carries the reference's vector of column variances: the same chain of
    operations (mean, centred squares, their sum over the rows, the division by the count, the guard on the count)
    applied to equal arrays. -/
theorem step11_var (h : Inv10 m m' c ρ) (q : Fin 128) :
    (V23 m ρ c Cert.KernelIdeal.main_v108 : Cert.KernelIdeal.S1x128.Idx → EReal) (ix2 0 q)
      = (Rmid11 m' c (Proc.devRef .tc Cert.ReferenceIdeal.main_v139) : Cert.ReferenceIdeal.S128.Idx → EReal) (ix1 q) := by
  unfold Rmid11
  dsimp only [V23, W23, W22, W21, hostOps10, hostOps10_1, hostOps10_2, ops16]
  after_results
  dsimp only
  refine (step11_row_of_vec _ _ q).trans ?_
  rw [h.main]

set_option maxHeartbeats 4000000 in
/-- The kernel side's scale row carries the reference's scale vector: the same argument, reshaped. -/
theorem step11_g (hag : Agree m m' c) (h : Inv10 m m' c ρ) (q : Fin 128) :
    (V23 m ρ c Cert.KernelIdeal.main_v109 : Cert.KernelIdeal.S1x128.Idx → EReal) (ix2 0 q)
      = (Rmid11 m' c (Proc.devRef .tc Cert.ReferenceIdeal.main_arg16) : Cert.ReferenceIdeal.S128.Idx → EReal) (ix1 q) := by
  unfold Agree at hag
  obtain ⟨a0, a1, a2, a3, a4, a5, a6, a7, a8, a9, a10, a11, a12, a13, a14, a15, a16, a17, a18, a19, a20, a21, a22, a23⟩ := hag
  unfold Rmid11
  dsimp only [V23, W23, W22, W21, hostOps10, hostOps10_1, hostOps10_2, ops16]
  after_results
  dsimp only
  rw [h.base.ka Cert.KernelIdeal.main_arg16 (by decide), h.base.ra Cert.ReferenceIdeal.main_arg16 (by decide), a16]
  exact step11_row_of_vec _ _ q

set_option maxHeartbeats 4000000 in
/-- The kernel side's shift row carries the reference's shift vector: the same argument, reshaped. -/
theorem step11_b (hag : Agree m m' c) (h : Inv10 m m' c ρ) (q : Fin 128) :
    (V23 m ρ c Cert.KernelIdeal.main_v110 : Cert.KernelIdeal.S1x128.Idx → EReal) (ix2 0 q)
      = (Rmid11 m' c (Proc.devRef .tc Cert.ReferenceIdeal.main_arg17) : Cert.ReferenceIdeal.S128.Idx → EReal) (ix1 q) := by
  unfold Agree at hag
  obtain ⟨a0, a1, a2, a3, a4, a5, a6, a7, a8, a9, a10, a11, a12, a13, a14, a15, a16, a17, a18, a19, a20, a21, a22, a23⟩ := hag
  unfold Rmid11
  dsimp only [V23, W23, W22, W21, hostOps10, hostOps10_1, hostOps10_2, ops16]
  after_results
  dsimp only
  rw [h.base.ka Cert.KernelIdeal.main_arg17 (by decide), h.base.ra Cert.ReferenceIdeal.main_arg17 (by decide), a17]
  exact step11_row_of_vec _ _ q

set_option maxHeartbeats 4000000 in
/-- The normalisation and activation of the side array: the kernel's region leaves silu (bn X μ σ² g β) with the four
    rows reshaped from vectors; the reference computes the same chain with the vectors laid along the rows. -/
theorem step11_main (hag : Agree m m' c) (h : Inv10 m m' c ρ) :
    (W24 m ρ c (Proc.devRef .tc Cert.KernelIdeal.main_v111) : Cert.KernelIdeal.S2048x128.Idx → EReal)
      = Rc11 (R0 m' c) (Proc.devRef .tc Cert.ReferenceIdeal.main_v155) := by
  refine ((W24_arr m ρ c 5).trans (Cert.KernelIdeal.RegVal.final10 (V23 m ρ) c)).trans ?_
  have hx := step11_x m m' c ρ h
  have hm := step11_mean m m' c ρ h
  have hv := step11_var m m' c ρ h
  have hg := step11_g m m' c ρ hag h
  have hb := step11_b m m' c ρ hag h
  rw [hx]
  generalize (V23 m ρ c Cert.KernelIdeal.main_v107 : Cert.KernelIdeal.S1x128.Idx → EReal) = meanr at hm ⊢
  generalize (V23 m ρ c Cert.KernelIdeal.main_v108 : Cert.KernelIdeal.S1x128.Idx → EReal) = varr at hv ⊢
  generalize (V23 m ρ c Cert.KernelIdeal.main_v109 : Cert.KernelIdeal.S1x128.Idx → EReal) = gr at hg ⊢
  generalize (V23 m ρ c Cert.KernelIdeal.main_v110 : Cert.KernelIdeal.S1x128.Idx → EReal) = βr at hb ⊢
  have e : Rc11 (R0 m' c) = StableHlo.after (ops17 (F := Ideal)) (Rmid11 m' c) := by
    unfold Rc11 Rmid11
    rw [StableHlo.after_append]
  rw [e]
  generalize Rmid11 m' c = Rmid at hm hv hg hb ⊢
  dsimp only [ops17]
  after_results
  have hbn := Cert.ReferenceIdeal.Stages.bn_2048x128 (Rmid (Proc.devRef .tc Cert.ReferenceIdeal.main_v135))
    (Rmid (Proc.devRef .tc Cert.ReferenceIdeal.main_v138)) (Rmid (Proc.devRef .tc Cert.ReferenceIdeal.main_v139))
    (Rmid (Proc.devRef .tc Cert.ReferenceIdeal.main_arg16)) (Rmid (Proc.devRef .tc Cert.ReferenceIdeal.main_arg17))
    meanr varr gr βr hm hv hg hb
  exact (congrArg Cert.Spec.silu hbn.symm).trans (Cert.ReferenceIdeal.Stages.silu_2048x128 _).symm

/-- From the checkpoint after the side input's dense layer to the checkpoint after its normalisation and activation. -/
theorem step11 (hag : Agree m m' c) (h : Inv10 m m' c ρ) : Inv11 m m' c ρ :=
  ⟨⟨step11_ka m m' c ρ h, step11_ra m m' c ρ h⟩, step11_pool m m' c ρ h, step11_main m m' c ρ hag h⟩

end Cert.Chain

end
-- ==== Proof.Step12.lean ====
/-
  Checkpoint 11 to checkpoint 12. The kernel's program reshapes a bias vector to a row and runs the side branch's
  second dense layer; the reference multiplies the same activation array by the same weight argument and adds the
  same bias vector laid along the rows. Both are X·W + B. The pooled rows are touched by neither.
-/
import proofs.«169641_j32169305047251_1_alg».proof.Proof.Chain0
import proofs.«169641_j32169305047251_1_alg».proof.Proof.RegLinear
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen
open Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

set_option maxHeartbeats 8000000 in
/-- The reshape writes no argument buffer, and the dense layer reads one of them through an input window and writes
    none: every argument still holds its launch contents. -/
theorem step12_ka (h : Inv11 m m' c ρ) :
    ∀ a ∈ kArgs, W26 m ρ c (Proc.devRef .tc a) = m ((c.tc : Thread Cert.KernelIdeal.nD Cert.KernelIdeal.τ).loc a) := by
  intro a ha
  simp only [kArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    first
      | refine (W26_of_ne m ρ c _ (by decide)).trans ?_
      | refine ((W26_arr m ρ c 1).trans (((dat11 (V25 m ρ) c).arrAt_in 1 rfl _).trans (A_eq11 (V25 m ρ) c 1))).trans ?_
  all_goals
    dsimp only [V25, W25, hostOps11]
    after_results
    exact h.base.ka _ (by decide)

set_option maxHeartbeats 8000000 in
/-- The reference's dense layer writes none of its argument buffers. -/
theorem step12_ra (h : Inv11 m m' c ρ) :
    ∀ a ∈ rArgs, Rc12 (R0 m' c) (Proc.devRef .tc a) = m' ((c.tc : Thread Cert.ReferenceIdeal.nD Cert.ReferenceIdeal.τ).loc a) := by
  intro a ha
  simp only [rArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals
    unfold Rc12
    dsimp only [ops18]
    after_results
    exact h.base.ra _ (by decide)

/-- Neither program touches the pooled rows between the two checkpoints. -/
theorem step12_pool (h : Inv11 m m' c ρ) :
    (W26 m ρ c (Proc.devRef .tc Cert.KernelIdeal.main_v100) : Cert.KernelIdeal.S2048x128.Idx → EReal)
      = Rc12 (R0 m' c) (Proc.devRef .tc Cert.ReferenceIdeal.main_v131) := by
  refine (W26_of_ne m ρ c _ (by decide)).trans ?_
  unfold Rc12
  dsimp only [W25, hostOps11, ops18]
  after_results
  exact h.pool

/-- A vector of length n reshaped to one row: entry (0, q) of the row is entry q of the vector. -/
theorem step12_row_of_vec {n : Nat} {α : Type} (X : (⟨1, ![n]⟩ : Shape).Idx → α)
    (hs : (⟨1, ![n]⟩ : Shape).ShapeCasts ⟨2, ![1, n]⟩) (q : Fin n) :
    shapeCast (⟨2, ![1, n]⟩ : Shape) X hs (ix2 0 q) = X (ix1 q) :=
  shapeCast_apply X hs (ix2 0 q) (ix1 q) (by
    rw [Shape.rowMajor_val_one, Shape.rowMajor_val_two]
    show q.val = 0 * n + q.val
    omega)

/-- The second dense layer of the side branch: the kernel's region leaves X·W + B with X the previous checkpoint's
    activation, W the weight argument and B the bias vector reshaped to a row; the reference multiplies the same
    arrays and adds the same bias vector laid along the rows. -/
theorem step12_main (hag : Agree m m' c) (h : Inv11 m m' c ρ) :
    (W26 m ρ c (Proc.devRef .tc Cert.KernelIdeal.main_v113) : Cert.KernelIdeal.S2048x128.Idx → EReal)
      = Rc12 (R0 m' c) (Proc.devRef .tc Cert.ReferenceIdeal.main_v159) := by
  unfold Agree at hag
  obtain ⟨a0, a1, a2, a3, a4, a5, a6, a7, a8, a9, a10, a11, a12, a13, a14, a15, a16, a17, a18, a19, a20, a21, a22, a23⟩ := hag
  refine ((W26_arr m ρ c 3).trans (Cert.KernelIdeal.RegVal.final11 (V25 m ρ) c)).trans ?_
  have hx : (V25 m ρ c Cert.KernelIdeal.main_v111 : Cert.KernelIdeal.S2048x128.Idx → EReal)
      = Rc11 (R0 m' c) (Proc.devRef .tc Cert.ReferenceIdeal.main_v155) := by
    dsimp only [V25, W25, hostOps11]
    after_results
    exact h.main
  have hw : (V25 m ρ c Cert.KernelIdeal.main_arg14 : Cert.KernelIdeal.S128x128.Idx → EReal)
      = Rc11 (R0 m' c) (Proc.devRef .tc Cert.ReferenceIdeal.main_arg14) := by
    dsimp only [V25, W25, hostOps11]
    after_results
    rw [h.base.ka Cert.KernelIdeal.main_arg14 (by decide), h.base.ra Cert.ReferenceIdeal.main_arg14 (by decide)]
    exact a14.symm
  have hb : ∀ q : Fin 128, (V25 m ρ c Cert.KernelIdeal.main_v112 : Cert.KernelIdeal.S1x128.Idx → EReal) (ix2 0 q)
      = (Rc11 (R0 m' c) (Proc.devRef .tc Cert.ReferenceIdeal.main_arg15) : Cert.ReferenceIdeal.S128.Idx → EReal) (ix1 q) := by
    intro q
    dsimp only [V25, W25, hostOps11]
    after_results
    dsimp only
    rw [h.base.ka Cert.KernelIdeal.main_arg15 (by decide), h.base.ra Cert.ReferenceIdeal.main_arg15 (by decide), a15]
    exact step12_row_of_vec _ _ q
  rw [hx, hw]
  generalize (V25 m ρ c Cert.KernelIdeal.main_v112 : Cert.KernelIdeal.S1x128.Idx → EReal) = brow at hb ⊢
  unfold Rc12
  dsimp only [ops18]
  after_results
  exact (Cert.ReferenceIdeal.Stages.dot_bias_2048x128 _ _ _ brow hb).symm

/-- From the checkpoint after the side branch's normalisation and activation to the checkpoint after its second
    dense layer. -/
theorem step12 (hag : Agree m m' c) (h : Inv11 m m' c ρ) : Inv12 m m' c ρ :=
  ⟨⟨step12_ka m m' c ρ h, step12_ra m m' c ρ h⟩, step12_pool m m' c ρ h, step12_main m m' c ρ hag h⟩

end Cert.Chain

end
-- ==== Proof.Step13.lean ====
import proofs.«169641_j32169305047251_1_alg».proof.Proof.Chain0
import proofs.«169641_j32169305047251_1_alg».proof.Proof.RegCombSilu
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

/-! Checkpoint 12 to checkpoint 13: the side branch's activation. The kernel's program runs one region on one block of
  2048 rows, which reads the branch's array and writes x · logistic x of it; the reference runs one call of its
  activation function on the equal array. The argument buffers and the pooled rows are untouched on both sides. -/

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal.Gen Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (ρ : Dev Cert.KernelIdeal.nD → PrngReg)

/-- The region's output array is x · logistic x of the array the region finds in its input buffer. -/
theorem step13_region : (W27 m ρ c (Proc.devRef .tc Cert.KernelIdeal.main_v114) : Cert.KernelIdeal.S2048x128.Idx → EReal)
      = Cert.Spec.silu (W26 m ρ c (Proc.devRef .tc Cert.KernelIdeal.main_v113) : Cert.KernelIdeal.S2048x128.Idx → EReal) :=
  (W27_arr m ρ c 1).trans (Cert.KernelIdeal.RegVal.final12 (V26 m ρ) c)

/-- The activation array: the region's x · logistic x and the call's x · (1 / (1 + e^(−x))) of equal inputs. The call's
    chain is compared operation by operation with the chain the activation lemma is stated for. -/
theorem step13_main (h : Inv12 m m' c ρ) :
    (W27 m ρ c (Proc.devRef .tc Cert.KernelIdeal.main_v114) : Cert.KernelIdeal.S2048x128.Idx → EReal)
      = Rc13 (R0 m' c) (Proc.devRef .tc Cert.ReferenceIdeal.main_v160) := by
  rw [step13_region, h.main]
  unfold Rc13
  dsimp only [ops19]
  after_results
  dsimp only [TRef.of]
  generalize Rc12 (R0 m' c) (Proc.devRef .tc Cert.ReferenceIdeal.main_v159) = x
  refine (Cert.ReferenceIdeal.Stages.silu_2048x128 x).symm.trans ?_
  show mulf _ _ = mulf _ _
  refine congrArg₂ mulf rfl ?_
  show Host.divf _ _ = Host.divf _ _
  refine congrArg₂ Host.divf rfl ?_
  show addf _ _ = addf _ _
  refine congrArg₂ addf rfl ?_
  show Host.exp _ = Host.exp _
  refine congrArg Host.exp ?_
  show Host.negf _ = Host.negf _
  rfl

/-- Neither side writes an argument buffer. -/
theorem step13_base (h : Inv12 m m' c ρ) : Base m m' c (W27 m ρ c) (Rc13 (R0 m' c)) := by
  refine ⟨?_, ?_⟩
  · intro a ha
    simp only [kArgs, List.mem_cons, List.not_mem_nil, or_false] at ha
    rcases ha with rfl | rfl | rfl | rfl | rfl | rfl | rfl | rfl | rfl | rfl | rfl | rfl | rfl | rfl | rfl | rfl | rfl | rfl | rfl | rfl | rfl | rfl | rfl | rfl
    all_goals exact (W27_of_ne m ρ c _ (by decide)).trans (h.base.ka _ (by decide))
  · intro a ha
    simp only [rArgs, List.mem_cons, List.not_mem_nil, or_false] at ha
    rcases ha with rfl | rfl | rfl | rfl | rfl | rfl | rfl | rfl | rfl | rfl | rfl | rfl | rfl | rfl | rfl | rfl | rfl | rfl | rfl | rfl | rfl | rfl | rfl | rfl
    all_goals
      unfold Rc13; dsimp only [ops19]; after_results
      exact h.base.ra _ (by decide)

/-- Neither side writes the pooled rows. -/
theorem step13_pool (h : Inv12 m m' c ρ) :
    (W27 m ρ c (Proc.devRef .tc Cert.KernelIdeal.main_v100) : Cert.KernelIdeal.S2048x128.Idx → EReal)
      = Rc13 (R0 m' c) (Proc.devRef .tc Cert.ReferenceIdeal.main_v131) := by
  rw [W27_of_ne m ρ c Cert.KernelIdeal.main_v100 (by decide)]
  unfold Rc13; dsimp only [ops19]; after_results
  exact h.pool

/-- The invariant passes from checkpoint 12 to checkpoint 13. -/
theorem step13 (hag : Agree m m' c) (h : Inv12 m m' c ρ) : Inv13 m m' c ρ :=
  { base := step13_base m m' c ρ h, pool := step13_pool m m' c ρ h, main := step13_main m m' c ρ h }

end Cert.Chain

end
-- ==== Proof.Step14.lean ====
/-
  The last checkpoint. Between the thirteenth and the fourteenth region the kernel's program places the pooled
  rows [2048,128] and the side branch's rows [2048,128] side by side into one [2048,256] array and lays the three
  bias vectors out as one-row arrays; the fourteenth region is the head: three dense layers, the activation
  x · logistic x after the first two. The reference concatenates the same two arrays and spells each dense layer
  as a product plus the bias vector repeated down the rows, each activation as x · (1 / (1 + e^(-x))). Both
  sides are the same function of the concatenated array, the three weight matrices and the three bias vectors:
  the two concatenated arrays agree by the invariant, the weights and biases are argument arrays, which hold
  their launch contents on both sides, and the launch contents agree.
-/
import proofs.«169641_j32169305047251_1_alg».proof.Proof.Chain0
import proofs.«169641_j32169305047251_1_alg».proof.Proof.RegBnHead
import proofs.«169641_j32169305047251_1_alg».proof.Proof.RefStages
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.Chain

open Idealize.ShloMosaic Idealize.ShloMosaic.TcCoe Idealize.SL.Sem Idealize.ShloMosaic.StableHlo Idealize.ShloMosaic.ValueIdx
open Cert.KernelIdeal.Gen Cert.ReferenceIdeal.HandRun

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (ρ : Dev Cert.KernelIdeal.nD → PrngReg)

namespace S14

/-- A vector of n entries laid out as a one-row array: the row's entry (0, q) is the vector's entry q. -/
theorem row_of_vec {α : Type} {n : Nat} (v : (⟨1, ![n]⟩ : Shape).Idx → α)
    (h : (⟨1, ![n]⟩ : Shape).ShapeCasts ⟨2, ![1, n]⟩) (q : Fin n) :
    shapeCast ⟨2, ![1, n]⟩ v h (ix2 0 q) = v (ix1 q) := by
  refine shapeCast_apply v h (ix2 0 q) (ix1 q) ?_
  rw [Shape.rowMajor_val_one, Shape.rowMajor_val_two]
  show q.val = 0 * n + q.val
  omega

set_option maxHeartbeats 4000000 in
/-- The reference's last stretch, read as a whole: the two 128-column arrays side by side, then the three dense
    layers with the activation after the first two, is the head of those arrays, of the three weight arguments,
    and of any three rows carrying the entries of the three bias vectors. -/
theorem ref14 (R : RV) (b0r : Cert.Spec.Mat 1 256) (b1r : Cert.Spec.Mat 1 128) (b2r : Cert.Spec.Mat 1 1)
    (hb0 : ∀ q, b0r (ix2 0 q) = (R (Proc.devRef .tc Cert.ReferenceIdeal.main_arg19) : Cert.ReferenceIdeal.S256.Idx → EReal) (ix1 q))
    (hb1 : ∀ q, b1r (ix2 0 q) = (R (Proc.devRef .tc Cert.ReferenceIdeal.main_arg21) : Cert.ReferenceIdeal.S128.Idx → EReal) (ix1 q))
    (hb2 : ∀ q, b2r (ix2 0 q) = (R (Proc.devRef .tc Cert.ReferenceIdeal.main_arg23) : Cert.ReferenceIdeal.S1.Idx → EReal) (ix1 q)) :
    StableHlo.after (ops20 (F := Ideal) ++ ops21 (F := Ideal)) R (Proc.devRef .tc Cert.ReferenceIdeal.main_v175)
      = Cert.Spec.head
          (concatenate Cert.ReferenceIdeal.S2048x256 1
            [⟨Cert.ReferenceIdeal.S2048x128, R (Proc.devRef .tc Cert.ReferenceIdeal.main_v131)⟩,
             ⟨Cert.ReferenceIdeal.S2048x128, R (Proc.devRef .tc Cert.ReferenceIdeal.main_v160)⟩]
            Cert.ReferenceIdeal.Facts₀.concatenates_S2048x128_S2048x128_S2048x256_d1)
          (R (Proc.devRef .tc Cert.ReferenceIdeal.main_arg18)) b0r
          (R (Proc.devRef .tc Cert.ReferenceIdeal.main_arg20)) b1r
          (R (Proc.devRef .tc Cert.ReferenceIdeal.main_arg22)) b2r := by
  rw [StableHlo.after_append]
  dsimp only [ops20, ops21]
  after_results_simp
  unfold Cert.Spec.head
  refine (Cert.ReferenceIdeal.Stages.dot_bias_2048x1 _ _ _ b2r hb2).trans ?_
  refine congrArg (fun x => Cert.Spec.lin x _ b2r) ?_
  refine (Cert.ReferenceIdeal.Stages.silu_2048x128 _).trans (congrArg Cert.Spec.silu ?_)
  refine (Cert.ReferenceIdeal.Stages.dot_bias_2048x256_128 _ _ _ b1r hb1).trans (congrArg (fun x => Cert.Spec.lin x _ b1r) ?_)
  refine (Cert.ReferenceIdeal.Stages.silu_2048x256 _).trans (congrArg Cert.Spec.silu ?_)
  exact Cert.ReferenceIdeal.Stages.dot_bias_2048x256_256 _ _ _ b0r hb0

end S14

open S14 in
set_option maxHeartbeats 4000000 in
/-- The last step: the kernel side places the pooled rows and the side branch side by side, lays the three bias
    vectors out as rows, and runs the head in one region; the reference does the same by its own operations. The
    concatenated inputs agree by the invariant, the weights and biases are arguments, equal at the launch. -/
theorem step14 (hag : Agree m m' c) (h : Inv13 m m' c ρ) : Inv14 m m' c ρ := by
  unfold Agree at hag
  obtain ⟨a0, a1, a2, a3, a4, a5, a6, a7, a8, a9, a10, a11, a12, a13, a14, a15, a16, a17, a18, a19, a20, a21, a22, a23⟩ := hag
  refine ⟨?_⟩
  refine ((W29_arr m ρ c 7).trans (Cert.KernelIdeal.RegVal.final13 (V28 m ρ) c)).trans ?_
  unfold Rc14
  have k18 := h.base.ka Cert.KernelIdeal.main_arg18 (by decide)
  have k19 := h.base.ka Cert.KernelIdeal.main_arg19 (by decide)
  have k20 := h.base.ka Cert.KernelIdeal.main_arg20 (by decide)
  have k21 := h.base.ka Cert.KernelIdeal.main_arg21 (by decide)
  have k22 := h.base.ka Cert.KernelIdeal.main_arg22 (by decide)
  have k23 := h.base.ka Cert.KernelIdeal.main_arg23 (by decide)
  have r18 := h.base.ra Cert.ReferenceIdeal.main_arg18 (by decide)
  have r19 := h.base.ra Cert.ReferenceIdeal.main_arg19 (by decide)
  have r20 := h.base.ra Cert.ReferenceIdeal.main_arg20 (by decide)
  have r21 := h.base.ra Cert.ReferenceIdeal.main_arg21 (by decide)
  have r22 := h.base.ra Cert.ReferenceIdeal.main_arg22 (by decide)
  have r23 := h.base.ra Cert.ReferenceIdeal.main_arg23 (by decide)
  have hx : (V28 m ρ c Cert.KernelIdeal.main_v115 : Cert.KernelIdeal.S2048x256.Idx → EReal)
      = concatenate Cert.ReferenceIdeal.S2048x256 1
          [⟨Cert.ReferenceIdeal.S2048x128, Rc13 (R0 m' c) (Proc.devRef .tc Cert.ReferenceIdeal.main_v131)⟩,
           ⟨Cert.ReferenceIdeal.S2048x128, Rc13 (R0 m' c) (Proc.devRef .tc Cert.ReferenceIdeal.main_v160)⟩]
          Cert.ReferenceIdeal.Facts₀.concatenates_S2048x128_S2048x128_S2048x256_d1 := by
    dsimp only [V28, W28, hostOps13]
    after_results
    rw [h.pool, h.main]
  have hw0 : (V28 m ρ c Cert.KernelIdeal.main_arg18 : Cert.KernelIdeal.S256x256.Idx → EReal) = Rc13 (R0 m' c) (Proc.devRef .tc Cert.ReferenceIdeal.main_arg18) := by
    dsimp only [V28, W28, hostOps13]
    after_results
    rw [k18, r18]; exact a18.symm
  have hw1 : (V28 m ρ c Cert.KernelIdeal.main_arg20 : Cert.KernelIdeal.S256x128.Idx → EReal) = Rc13 (R0 m' c) (Proc.devRef .tc Cert.ReferenceIdeal.main_arg20) := by
    dsimp only [V28, W28, hostOps13]
    after_results
    rw [k20, r20]; exact a20.symm
  have hw2 : (V28 m ρ c Cert.KernelIdeal.main_arg22 : Cert.KernelIdeal.S128x1.Idx → EReal) = Rc13 (R0 m' c) (Proc.devRef .tc Cert.ReferenceIdeal.main_arg22) := by
    dsimp only [V28, W28, hostOps13]
    after_results
    rw [k22, r22]; exact a22.symm
  have hb0 : ∀ q, (V28 m ρ c Cert.KernelIdeal.main_v116 : Cert.Spec.Mat 1 256) (ix2 0 q)
      = (Rc13 (R0 m' c) (Proc.devRef .tc Cert.ReferenceIdeal.main_arg19) : Cert.ReferenceIdeal.S256.Idx → EReal) (ix1 q) := by
    intro q
    dsimp only [V28, W28, hostOps13]
    after_results
    dsimp only
    refine (row_of_vec _ _ q).trans ?_
    rw [k19, r19, a19]
  have hb1 : ∀ q, (V28 m ρ c Cert.KernelIdeal.main_v117 : Cert.Spec.Mat 1 128) (ix2 0 q)
      = (Rc13 (R0 m' c) (Proc.devRef .tc Cert.ReferenceIdeal.main_arg21) : Cert.ReferenceIdeal.S128.Idx → EReal) (ix1 q) := by
    intro q
    dsimp only [V28, W28, hostOps13]
    after_results
    dsimp only
    refine (row_of_vec _ _ q).trans ?_
    rw [k21, r21, a21]
  have hb2 : ∀ q, (V28 m ρ c Cert.KernelIdeal.main_v118 : Cert.Spec.Mat 1 1) (ix2 0 q)
      = (Rc13 (R0 m' c) (Proc.devRef .tc Cert.ReferenceIdeal.main_arg23) : Cert.ReferenceIdeal.S1.Idx → EReal) (ix1 q) := by
    intro q
    dsimp only [V28, W28, hostOps13]
    after_results
    dsimp only
    refine (row_of_vec _ _ q).trans ?_
    rw [k23, r23, a23]
  rw [hx, hw0, hw1, hw2]
  exact (ref14 (Rc13 (R0 m' c)) (V28 m ρ c Cert.KernelIdeal.main_v116) (V28 m ρ c Cert.KernelIdeal.main_v117) (V28 m ρ c Cert.KernelIdeal.main_v118) hb0 hb1 hb2).symm

end Cert.Chain
end
-- ==== Proof.Final.lean ====
/-
  The fourteen checkpoint steps, composed: from launch memories that agree on the arguments, the result array the
  idealized kernel's program leaves is the result array the reference's list of host operations computes.
-/
import proofs.«169641_j32169305047251_1_alg».proof.Proof.Step1
import proofs.«169641_j32169305047251_1_alg».proof.Proof.Step2
import proofs.«169641_j32169305047251_1_alg».proof.Proof.Step3
import proofs.«169641_j32169305047251_1_alg».proof.Proof.Step4
import proofs.«169641_j32169305047251_1_alg».proof.Proof.Step5
import proofs.«169641_j32169305047251_1_alg».proof.Proof.Step6
import proofs.«169641_j32169305047251_1_alg».proof.Proof.Step7
import proofs.«169641_j32169305047251_1_alg».proof.Proof.Step8
import proofs.«169641_j32169305047251_1_alg».proof.Proof.Step9
import proofs.«169641_j32169305047251_1_alg».proof.Proof.Step10
import proofs.«169641_j32169305047251_1_alg».proof.Proof.Step11
import proofs.«169641_j32169305047251_1_alg».proof.Proof.Step12
import proofs.«169641_j32169305047251_1_alg».proof.Proof.Step13
import proofs.«169641_j32169305047251_1_alg».proof.Proof.Step14

noncomputable section

namespace Cert.Chain

open Idealize.ShloMosaic Idealize.ShloMosaic.TcCoe Idealize.SL.Sem Idealize.ShloMosaic.StableHlo
open Cert.ReferenceIdeal.HandRun

/-- The kernel program's result equals the reference's, as arrays of extended reals. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (ρ : Dev Cert.KernelIdeal.nD → PrngReg) (hag : Agree m m' c) :
    (Cert.KernelIdeal.Gen.W29 m ρ c (Proc.devRef .tc Cert.KernelIdeal.main_v119) : Cert.KernelIdeal.S2048x1.Idx → EReal)
      = StableHlo.after (ops (F := Ideal)) (StableHlo.launchContents m' c) (Proc.devRef .tc Cert.ReferenceIdeal.main_v175) := by
  rw [after_ops_eq]
  exact (step14 m m' c ρ hag (step13 m m' c ρ hag (step12 m m' c ρ hag (step11 m m' c ρ hag (step10 m m' c ρ hag (step9 m m' c ρ hag (step8 m m' c ρ hag (step7 m m' c ρ hag (step6 m m' c ρ hag (step5 m m' c ρ hag (step4 m m' c ρ hag (step3 m m' c ρ hag (step2 m m' c ρ hag (step1 m m' c ρ hag)))))))))))))).main

end Cert.Chain

end
-- ==== Proof.lean ====
/-
  The certificate's five claims. The two kernel programs' frames are the generated frames of their fourteen regions.
  The reference is host operations only: its run is the fold of its operation list over the launch memory, and no
  operation writes an argument. The idealization rewrote nothing, so there is nothing to preserve. For the algebraic
  claim the witness is what the idealized kernel's last region leaves in the result buffer; the reference's fold ends at
  the same array by the chain of fourteen checkpoints: at each one a dense layer (a block of rows against the whole
  weight matrix, summed over the shared axis) is the reference's dot product, the combine, normalisation and activation
  kernels are the reference's broadcast arithmetic entry by entry, and the gather / scatter-add, mean, variance, pooling
  and concatenation between them are the same host operations on both sides.
-/
import proofs.«169641_j32169305047251_1_alg».proof.Defs
import proofs.«169641_j32169305047251_1_alg».proof.Proof.Gen.Kernel
import proofs.«169641_j32169305047251_1_alg».proof.Proof.Gen.Kernel.Frame
import proofs.«169641_j32169305047251_1_alg».proof.Proof.Gen.KernelIdeal
import proofs.«169641_j32169305047251_1_alg».proof.Proof.Gen.KernelIdeal.Frame
import proofs.«169641_j32169305047251_1_alg».proof.Proof.Gen.ReferenceIdeal
import proofs.«169641_j32169305047251_1_alg».proof.Proof.Gen.Pre_finite_inputs
import proofs.«169641_j32169305047251_1_alg».proof.Proof.KRun
import proofs.«169641_j32169305047251_1_alg».proof.Proof.RefRun
import proofs.«169641_j32169305047251_1_alg».proof.Proof.Final
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run with everything but the arguments forgotten. -/
theorem frame_ri : Cert.frame_ReferenceIdeal := fun m ρ _ =>
  (θ_run Cert.ReferenceIdeal.defs _ _).mono (fun r h c =>
    ⟨(h c Cert.ReferenceIdeal.main_arg0).trans (Cert.ReferenceIdeal.HandRun.kept_main_arg0 _),
      (h c Cert.ReferenceIdeal.main_arg1).trans (Cert.ReferenceIdeal.HandRun.kept_main_arg1 _),
      (h c Cert.ReferenceIdeal.main_arg2).trans (Cert.ReferenceIdeal.HandRun.kept_main_arg2 _),
      (h c Cert.ReferenceIdeal.main_arg3).trans (Cert.ReferenceIdeal.HandRun.kept_main_arg3 _),
      (h c Cert.ReferenceIdeal.main_arg4).trans (Cert.ReferenceIdeal.HandRun.kept_main_arg4 _),
      (h c Cert.ReferenceIdeal.main_arg5).trans (Cert.ReferenceIdeal.HandRun.kept_main_arg5 _),
      (h c Cert.ReferenceIdeal.main_arg6).trans (Cert.ReferenceIdeal.HandRun.kept_main_arg6 _),
      (h c Cert.ReferenceIdeal.main_arg7).trans (Cert.ReferenceIdeal.HandRun.kept_main_arg7 _),
      (h c Cert.ReferenceIdeal.main_arg8).trans (Cert.ReferenceIdeal.HandRun.kept_main_arg8 _),
      (h c Cert.ReferenceIdeal.main_arg9).trans (Cert.ReferenceIdeal.HandRun.kept_main_arg9 _),
      (h c Cert.ReferenceIdeal.main_arg10).trans (Cert.ReferenceIdeal.HandRun.kept_main_arg10 _),
      (h c Cert.ReferenceIdeal.main_arg11).trans (Cert.ReferenceIdeal.HandRun.kept_main_arg11 _),
      (h c Cert.ReferenceIdeal.main_arg12).trans (Cert.ReferenceIdeal.HandRun.kept_main_arg12 _),
      (h c Cert.ReferenceIdeal.main_arg13).trans (Cert.ReferenceIdeal.HandRun.kept_main_arg13 _),
      (h c Cert.ReferenceIdeal.main_arg14).trans (Cert.ReferenceIdeal.HandRun.kept_main_arg14 _),
      (h c Cert.ReferenceIdeal.main_arg15).trans (Cert.ReferenceIdeal.HandRun.kept_main_arg15 _),
      (h c Cert.ReferenceIdeal.main_arg16).trans (Cert.ReferenceIdeal.HandRun.kept_main_arg16 _),
      (h c Cert.ReferenceIdeal.main_arg17).trans (Cert.ReferenceIdeal.HandRun.kept_main_arg17 _),
      (h c Cert.ReferenceIdeal.main_arg18).trans (Cert.ReferenceIdeal.HandRun.kept_main_arg18 _),
      (h c Cert.ReferenceIdeal.main_arg19).trans (Cert.ReferenceIdeal.HandRun.kept_main_arg19 _),
      (h c Cert.ReferenceIdeal.main_arg20).trans (Cert.ReferenceIdeal.HandRun.kept_main_arg20 _),
      (h c Cert.ReferenceIdeal.main_arg21).trans (Cert.ReferenceIdeal.HandRun.kept_main_arg21 _),
      (h c Cert.ReferenceIdeal.main_arg22).trans (Cert.ReferenceIdeal.HandRun.kept_main_arg22 _),
      (h c Cert.ReferenceIdeal.main_arg23).trans (Cert.ReferenceIdeal.HandRun.kept_main_arg23 _)⟩)
    (Cert.ReferenceIdeal.HandRun.run_raw (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Gen.W29 m ρ c (Proc.devRef .tc Cert.KernelIdeal.main_v119), Cert.KernelIdeal.ValRun.run_result m ρ, ?_⟩
  refine (θ_run Cert.ReferenceIdeal.defs _ _).mono (fun r h c => ⟨?_,
      (h c Cert.ReferenceIdeal.main_arg0).trans (Cert.ReferenceIdeal.HandRun.kept_main_arg0 _),
      (h c Cert.ReferenceIdeal.main_arg1).trans (Cert.ReferenceIdeal.HandRun.kept_main_arg1 _),
      (h c Cert.ReferenceIdeal.main_arg2).trans (Cert.ReferenceIdeal.HandRun.kept_main_arg2 _),
      (h c Cert.ReferenceIdeal.main_arg3).trans (Cert.ReferenceIdeal.HandRun.kept_main_arg3 _),
      (h c Cert.ReferenceIdeal.main_arg4).trans (Cert.ReferenceIdeal.HandRun.kept_main_arg4 _),
      (h c Cert.ReferenceIdeal.main_arg5).trans (Cert.ReferenceIdeal.HandRun.kept_main_arg5 _),
      (h c Cert.ReferenceIdeal.main_arg6).trans (Cert.ReferenceIdeal.HandRun.kept_main_arg6 _),
      (h c Cert.ReferenceIdeal.main_arg7).trans (Cert.ReferenceIdeal.HandRun.kept_main_arg7 _),
      (h c Cert.ReferenceIdeal.main_arg8).trans (Cert.ReferenceIdeal.HandRun.kept_main_arg8 _),
      (h c Cert.ReferenceIdeal.main_arg9).trans (Cert.ReferenceIdeal.HandRun.kept_main_arg9 _),
      (h c Cert.ReferenceIdeal.main_arg10).trans (Cert.ReferenceIdeal.HandRun.kept_main_arg10 _),
      (h c Cert.ReferenceIdeal.main_arg11).trans (Cert.ReferenceIdeal.HandRun.kept_main_arg11 _),
      (h c Cert.ReferenceIdeal.main_arg12).trans (Cert.ReferenceIdeal.HandRun.kept_main_arg12 _),
      (h c Cert.ReferenceIdeal.main_arg13).trans (Cert.ReferenceIdeal.HandRun.kept_main_arg13 _),
      (h c Cert.ReferenceIdeal.main_arg14).trans (Cert.ReferenceIdeal.HandRun.kept_main_arg14 _),
      (h c Cert.ReferenceIdeal.main_arg15).trans (Cert.ReferenceIdeal.HandRun.kept_main_arg15 _),
      (h c Cert.ReferenceIdeal.main_arg16).trans (Cert.ReferenceIdeal.HandRun.kept_main_arg16 _),
      (h c Cert.ReferenceIdeal.main_arg17).trans (Cert.ReferenceIdeal.HandRun.kept_main_arg17 _),
      (h c Cert.ReferenceIdeal.main_arg18).trans (Cert.ReferenceIdeal.HandRun.kept_main_arg18 _),
      (h c Cert.ReferenceIdeal.main_arg19).trans (Cert.ReferenceIdeal.HandRun.kept_main_arg19 _),
      (h c Cert.ReferenceIdeal.main_arg20).trans (Cert.ReferenceIdeal.HandRun.kept_main_arg20 _),
      (h c Cert.ReferenceIdeal.main_arg21).trans (Cert.ReferenceIdeal.HandRun.kept_main_arg21 _),
      (h c Cert.ReferenceIdeal.main_arg22).trans (Cert.ReferenceIdeal.HandRun.kept_main_arg22 _),
      (h c Cert.ReferenceIdeal.main_arg23).trans (Cert.ReferenceIdeal.HandRun.kept_main_arg23 _)⟩)
    (Cert.ReferenceIdeal.HandRun.run_raw (F := Ideal) m' ρ')
  exact (h c Cert.ReferenceIdeal.main_v175).trans (Cert.Chain.result_eq m m' c ρ (hagree c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
